-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4000000 : Shape := ⟨1, ![4000000]⟩
abbrev S64x64 : Shape := ⟨2, ![64, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  reducesTo_S_S_d : S_.ReducesTo [] S_
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_arg1 : IVec S4000000 32) (main_v14 : IVec S_ 1) (main_v15 : IVec S4000000 32) : IVec S_ 1 :=
  let main_v16 : IVec S4000000 1 := cmpi .sge main_arg1 main_v15
  let main_c_6 : IVec S_ 32 := constantI S_ 32 63#32
  let main_v17 : IVec S4000000 32 := broadcastInDim S4000000 ![] bcast_S_S4000000 main_c_6
  let main_v18 : IVec S4000000 1 := cmpi .sle main_arg1 main_v17
  let main_v19 : IVec S4000000 1 := andi main_v16 main_v18
  let main_c_7 : IVec S_ 1 := constantI S_ 1 1#1
  let main_v20 : IVec S_ 1 := (fun x v => Host.reduce IntOp.andi x v reducesTo_S4000000_S_d0 h_S_) main_v19 main_c_7
  let main_v21 : IVec S_ 1 := andi main_v14 main_v20
  main_v21

def fn {F : FTy → Type} [FloatOps F] (main_arg0 : IVec S4000000 32) (main_arg1 : IVec S4000000 32) (main_arg2 : FVec F S64x64 .f32) (main_arg3 : FVec F S_ .f32) : IVec S_ 1 :=
  let main_v0 : FVec F S64x64 .f32 := Host.absf main_arg2
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_c_2 : IVec S_ 32 := constantI S_ 32 0#32
  let main_v8 : IVec S4000000 32 := broadcastInDim S4000000 ![] bcast_S_S4000000 main_c_2
  let main_v9 : IVec S4000000 1 := cmpi .sge main_arg0 main_v8
  let main_c_3 : IVec S_ 32 := constantI S_ 32 63#32
  let main_v10 : IVec S4000000 32 := broadcastInDim S4000000 ![] bcast_S_S4000000 main_c_3
  let main_v11 : IVec S4000000 1 := cmpi .sle main_arg0 main_v10
  let main_v12 : IVec S4000000 1 := andi main_v9 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v7 main_v13
  let main_c_5 : IVec S_ 32 := constantI S_ 32 0#32
  let main_v15 : IVec S4000000 32 := broadcastInDim S4000000 ![] bcast_S_S4000000 main_c_5
  fn_part1 (F := F) main_arg1 main_v14 main_v15
-- ==== Kernel.lean ====
abbrev S4000000 : Shape := ⟨1, ![4000000]⟩
abbrev S64x64 : Shape := ⟨2, ![64, 64]⟩
abbrev S_ : Shape := ⟨0, ![]⟩
abbrev S32x4096 : Shape := ⟨2, ![32, 4096]⟩
abbrev S65536 : Shape := ⟨1, ![65536]⟩
abbrev S10416 : Shape := ⟨1, ![10416]⟩
abbrev S256 : Shape := ⟨1, ![256]⟩
abbrev S4096 : Shape := ⟨1, ![4096]⟩
abbrev S16 : Shape := ⟨1, ![16]⟩
abbrev S1x4096 : Shape := ⟨2, ![1, 4096]⟩
abbrev S32x32x128 : Shape := ⟨3, ![32, 32, 128]⟩
abbrev S32x128 : Shape := ⟨2, ![32, 128]⟩
abbrev S1 : Shape := ⟨1, ![1]⟩

abbrev nBuf : Table → Nat
  | .hbm => 12
  | .local .tc .vmem => 3
  | .local .tc .smem => 2
  | .local .scVector .vmem => 8
  | _ => 0

abbrev bufTy : (tb : Table) → Fin (nBuf tb) → BufTy
  | .hbm, ⟨0, _⟩ => ⟨S4000000, .i32⟩
  | .hbm, ⟨1, _⟩ => ⟨S4000000, .i32⟩
  | .hbm, ⟨2, _⟩ => ⟨S64x64, .f32⟩
  | .hbm, ⟨3, _⟩ => ⟨S_, .f32⟩
  | .hbm, ⟨4, _⟩ => ⟨S32x4096, .f32⟩
  | .hbm, ⟨5, _⟩ => ⟨S32x32x128, .f32⟩
  | .hbm, ⟨6, _⟩ => ⟨S32x128, .f32⟩
  | .hbm, ⟨7, _⟩ => ⟨S1, .f32⟩
  | .hbm, ⟨8, _⟩ => ⟨S32x128, .f32⟩
  | .hbm, ⟨9, _⟩ => ⟨S1, .f32⟩
  | .hbm, ⟨10, _⟩ => ⟨S64x64, .f32⟩
  | .hbm, ⟨11, _⟩ => ⟨S_, .f32⟩
  | .local .tc .vmem, ⟨0, _⟩ => ⟨S32x32x128, .f32⟩
  | .local .tc .vmem, ⟨1, _⟩ => ⟨S32x128, .f32⟩
  | .local .tc .vmem, ⟨2, _⟩ => ⟨S32x128, .f32⟩
  | .local .tc .smem, ⟨0, _⟩ => ⟨S1, .f32⟩
  | .local .tc .smem, ⟨1, _⟩ => ⟨S1, .f32⟩
  | .local .scVector .vmem, ⟨0, _⟩ => ⟨S65536, .f32⟩
  | .local .scVector .vmem, ⟨1, _⟩ => ⟨S10416, .i32⟩
  | .local .scVector .vmem, ⟨2, _⟩ => ⟨S10416, .i32⟩
  | .local .scVector .vmem, ⟨3, _⟩ => ⟨S10416, .i32⟩
  | .local .scVector .vmem, ⟨4, _⟩ => ⟨S10416, .i32⟩
  | .local .scVector .vmem, ⟨5, _⟩ => ⟨S256, .i32⟩
  | .local .scVector .vmem, ⟨6, _⟩ => ⟨S256, .i32⟩
  | .local .scVector .vmem, ⟨7, _⟩ => ⟨S4096, .f32⟩
  | _, _ => ⟨S4000000, .i32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg3_0 : Ref sig .tc := ⟨.vmem, 2, rfl⟩
abbrev cc1_stg2_0 : Ref sig .tc := ⟨.smem, 0, rfl⟩
abbrev cc1_stg4_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c124992_i32 : BitVec 32 := 124992#32
  let v2 : BitVec 32 := Scalar.muli v1 c124992_i32
  let v8 : BitVec 32 := Scalar.addi v2 c0_i32
  ![v8.toNat]
@[reducible] def k0_t1_loop : Scf.Loop 32 :=
  let c0_i32_1 : BitVec 32 := 0#32
  let c4096_i32_2 : BitVec 32 := 4096#32
  let v18 : BitVec 32 := Scalar.addi c0_i32_1 c4096_i32_2
  let c1_i32 : BitVec 32 := 1#32
  ⟨c0_i32_1, v18, c1_i32⟩
def k0_off2 (k0_t1 : Fin k0_t1_loop.trips) : Fin 1 → Nat :=
  let c0_i32_12 : BitVec 32 := 0#32
  let c0_i32_1 : BitVec 32 := 0#32
  let c1_i32 : BitVec 32 := 1#32
  let arg17 : BitVec 32 := Scf.iv c0_i32_1 c1_i32 k0_t1
  let c1_i32_11 : BitVec 32 := 1#32
  let v24 : BitVec 32 := Scalar.muli arg17 c1_i32_11
  let v25 : BitVec 32 := Scalar.addi c0_i32_12 v24
  let c16_i32 : BitVec 32 := 16#32
  let v26 : BitVec 32 := Scalar.muli v25 c16_i32
  let v27 : Index := Scalar.indexCast v26
  ![v27.toNat]
@[reducible] def k0_t2_loop : Scf.Loop 32 :=
  let c0_i32_4 : BitVec 32 := 0#32
  let c6_i32 : BitVec 32 := 6#32
  let v19 : BitVec 32 := Scalar.addi c0_i32_4 c6_i32
  let c1_i32_5 : BitVec 32 := 1#32
  ⟨c0_i32_4, v19, c1_i32_5⟩
@[reducible] def k0_t3_loop : Scf.Loop 32 :=
  let c0_i32_17 : BitVec 32 := 0#32
  let c31_i32_18 : BitVec 32 := 31#32
  let v30 : BitVec 32 := Scalar.addi c0_i32_17 c31_i32_18
  let c1_i32_19 : BitVec 32 := 1#32
  ⟨c0_i32_17, v30, c1_i32_19⟩
def k0_off3 (k0_t3 : Fin k0_t3_loop.trips) (c0_i32_35 : BitVec 32) : Fin 1 → Nat :=
  let c0_i32_34 : BitVec 32 := 0#32
  let c0_i32_17 : BitVec 32 := 0#32
  let c1_i32_19 : BitVec 32 := 1#32
  let arg18 : BitVec 32 := Scf.iv c0_i32_17 c1_i32_19 k0_t3
  let c1_i32_33 : BitVec 32 := 1#32
  let v44 : BitVec 32 := Scalar.muli arg18 c1_i32_33
  let v45 : BitVec 32 := Scalar.addi c0_i32_34 v44
  let c336_i32 : BitVec 32 := 336#32
  let v46 : BitVec 32 := Scalar.muli v45 c336_i32
  let v47 : BitVec 32 := Scalar.addi v46 c0_i32_35
  let v48 : Index := Scalar.indexCast v47
  ![v48.toNat]

def k0_chk1 (v176 : IVec S16 32) : Prop :=
  (∀ a x, ((![v176] : Fin 1 → IVec S16 32) a x).toNat < S65536.size a)
instance k0_chk1.dec : ∀ (v176 : IVec S16 32), Decidable (k0_chk1 v176) := fun v176 => decidable_of_iff' _ (Iff.of_eq (k0_chk1.eq_1 v176))
theorem k0_idx1_inb : ∀ (v176 : IVec S16 32) (k0_hw1 : k0_chk1 v176), ∀ a x, ((![v176] : Fin 1 → IVec S16 32) a x).toNat < S65536.size a := fun v176 k0_hw1 => k0_hw1

def k0_chk2 (v180 : IVec S16 32) : Prop :=
  (∀ a x, ((![v180] : Fin 1 → IVec S16 32) a x).toNat < S65536.size a)
instance k0_chk2.dec : ∀ (v180 : IVec S16 32), Decidable (k0_chk2 v180) := fun v180 => decidable_of_iff' _ (Iff.of_eq (k0_chk2.eq_1 v180))
theorem k0_idx2_inb : ∀ (v180 : IVec S16 32) (k0_hw2 : k0_chk2 v180), ∀ a x, ((![v180] : Fin 1 → IVec S16 32) a x).toNat < S65536.size a := fun v180 k0_hw2 => k0_hw2

def k0_chk3 (v184 : IVec S16 32) : Prop :=
  (∀ a x, ((![v184] : Fin 1 → IVec S16 32) a x).toNat < S65536.size a)
instance k0_chk3.dec : ∀ (v184 : IVec S16 32), Decidable (k0_chk3 v184) := fun v184 => decidable_of_iff' _ (Iff.of_eq (k0_chk3.eq_1 v184))
theorem k0_idx3_inb : ∀ (v184 : IVec S16 32) (k0_hw3 : k0_chk3 v184), ∀ a x, ((![v184] : Fin 1 → IVec S16 32) a x).toNat < S65536.size a := fun v184 k0_hw3 => k0_hw3

def k0_chk4 (v188 : IVec S16 32) : Prop :=
  (∀ a x, ((![v188] : Fin 1 → IVec S16 32) a x).toNat < S65536.size a)
instance k0_chk4.dec : ∀ (v188 : IVec S16 32), Decidable (k0_chk4 v188) := fun v188 => decidable_of_iff' _ (Iff.of_eq (k0_chk4.eq_1 v188))
theorem k0_idx4_inb : ∀ (v188 : IVec S16 32) (k0_hw4 : k0_chk4 v188), ∀ a x, ((![v188] : Fin 1 → IVec S16 32) a x).toNat < S65536.size a := fun v188 k0_hw4 => k0_hw4

def k0_chk5 (v192 : IVec S16 32) : Prop :=
  (∀ a x, ((![v192] : Fin 1 → IVec S16 32) a x).toNat < S65536.size a)
instance k0_chk5.dec : ∀ (v192 : IVec S16 32), Decidable (k0_chk5 v192) := fun v192 => decidable_of_iff' _ (Iff.of_eq (k0_chk5.eq_1 v192))
theorem k0_idx5_inb : ∀ (v192 : IVec S16 32) (k0_hw5 : k0_chk5 v192), ∀ a x, ((![v192] : Fin 1 → IVec S16 32) a x).toNat < S65536.size a := fun v192 k0_hw5 => k0_hw5

def k0_chk6 (v196 : IVec S16 32) : Prop :=
  (∀ a x, ((![v196] : Fin 1 → IVec S16 32) a x).toNat < S65536.size a)
instance k0_chk6.dec : ∀ (v196 : IVec S16 32), Decidable (k0_chk6 v196) := fun v196 => decidable_of_iff' _ (Iff.of_eq (k0_chk6.eq_1 v196))
theorem k0_idx6_inb : ∀ (v196 : IVec S16 32) (k0_hw6 : k0_chk6 v196), ∀ a x, ((![v196] : Fin 1 → IVec S16 32) a x).toNat < S65536.size a := fun v196 k0_hw6 => k0_hw6

def k0_chk7 (v200 : IVec S16 32) : Prop :=
  (∀ a x, ((![v200] : Fin 1 → IVec S16 32) a x).toNat < S65536.size a)
instance k0_chk7.dec : ∀ (v200 : IVec S16 32), Decidable (k0_chk7 v200) := fun v200 => decidable_of_iff' _ (Iff.of_eq (k0_chk7.eq_1 v200))
theorem k0_idx7_inb : ∀ (v200 : IVec S16 32) (k0_hw7 : k0_chk7 v200), ∀ a x, ((![v200] : Fin 1 → IVec S16 32) a x).toNat < S65536.size a := fun v200 k0_hw7 => k0_hw7

def k0_chk8 (v204 : IVec S16 32) : Prop :=
  (∀ a x, ((![v204] : Fin 1 → IVec S16 32) a x).toNat < S65536.size a)
instance k0_chk8.dec : ∀ (v204 : IVec S16 32), Decidable (k0_chk8 v204) := fun v204 => decidable_of_iff' _ (Iff.of_eq (k0_chk8.eq_1 v204))
theorem k0_idx8_inb : ∀ (v204 : IVec S16 32) (k0_hw8 : k0_chk8 v204), ∀ a x, ((![v204] : Fin 1 → IVec S16 32) a x).toNat < S65536.size a := fun v204 k0_hw8 => k0_hw8

def k0_chk9 (v208 : IVec S16 32) : Prop :=
  (∀ a x, ((![v208] : Fin 1 → IVec S16 32) a x).toNat < S65536.size a)
instance k0_chk9.dec : ∀ (v208 : IVec S16 32), Decidable (k0_chk9 v208) := fun v208 => decidable_of_iff' _ (Iff.of_eq (k0_chk9.eq_1 v208))
theorem k0_idx9_inb : ∀ (v208 : IVec S16 32) (k0_hw9 : k0_chk9 v208), ∀ a x, ((![v208] : Fin 1 → IVec S16 32) a x).toNat < S65536.size a := fun v208 k0_hw9 => k0_hw9

def k0_chk10 (v212 : IVec S16 32) : Prop :=
  (∀ a x, ((![v212] : Fin 1 → IVec S16 32) a x).toNat < S65536.size a)
instance k0_chk10.dec : ∀ (v212 : IVec S16 32), Decidable (k0_chk10 v212) := fun v212 => decidable_of_iff' _ (Iff.of_eq (k0_chk10.eq_1 v212))
theorem k0_idx10_inb : ∀ (v212 : IVec S16 32) (k0_hw10 : k0_chk10 v212), ∀ a x, ((![v212] : Fin 1 → IVec S16 32) a x).toNat < S65536.size a := fun v212 k0_hw10 => k0_hw10

def k0_chk11 (v216 : IVec S16 32) : Prop :=
  (∀ a x, ((![v216] : Fin 1 → IVec S16 32) a x).toNat < S65536.size a)
instance k0_chk11.dec : ∀ (v216 : IVec S16 32), Decidable (k0_chk11 v216) := fun v216 => decidable_of_iff' _ (Iff.of_eq (k0_chk11.eq_1 v216))
theorem k0_idx11_inb : ∀ (v216 : IVec S16 32) (k0_hw11 : k0_chk11 v216), ∀ a x, ((![v216] : Fin 1 → IVec S16 32) a x).toNat < S65536.size a := fun v216 k0_hw11 => k0_hw11

def k0_chk12 (v220 : IVec S16 32) : Prop :=
  (∀ a x, ((![v220] : Fin 1 → IVec S16 32) a x).toNat < S65536.size a)
instance k0_chk12.dec : ∀ (v220 : IVec S16 32), Decidable (k0_chk12 v220) := fun v220 => decidable_of_iff' _ (Iff.of_eq (k0_chk12.eq_1 v220))
theorem k0_idx12_inb : ∀ (v220 : IVec S16 32) (k0_hw12 : k0_chk12 v220), ∀ a x, ((![v220] : Fin 1 → IVec S16 32) a x).toNat < S65536.size a := fun v220 k0_hw12 => k0_hw12

def k0_chk13 (v224 : IVec S16 32) : Prop :=
  (∀ a x, ((![v224] : Fin 1 → IVec S16 32) a x).toNat < S65536.size a)
instance k0_chk13.dec : ∀ (v224 : IVec S16 32), Decidable (k0_chk13 v224) := fun v224 => decidable_of_iff' _ (Iff.of_eq (k0_chk13.eq_1 v224))
theorem k0_idx13_inb : ∀ (v224 : IVec S16 32) (k0_hw13 : k0_chk13 v224), ∀ a x, ((![v224] : Fin 1 → IVec S16 32) a x).toNat < S65536.size a := fun v224 k0_hw13 => k0_hw13

def k0_chk14 (v228 : IVec S16 32) : Prop :=
  (∀ a x, ((![v228] : Fin 1 → IVec S16 32) a x).toNat < S65536.size a)
instance k0_chk14.dec : ∀ (v228 : IVec S16 32), Decidable (k0_chk14 v228) := fun v228 => decidable_of_iff' _ (Iff.of_eq (k0_chk14.eq_1 v228))
theorem k0_idx14_inb : ∀ (v228 : IVec S16 32) (k0_hw14 : k0_chk14 v228), ∀ a x, ((![v228] : Fin 1 → IVec S16 32) a x).toNat < S65536.size a := fun v228 k0_hw14 => k0_hw14

def k0_chk15 (v232 : IVec S16 32) : Prop :=
  (∀ a x, ((![v232] : Fin 1 → IVec S16 32) a x).toNat < S65536.size a)
instance k0_chk15.dec : ∀ (v232 : IVec S16 32), Decidable (k0_chk15 v232) := fun v232 => decidable_of_iff' _ (Iff.of_eq (k0_chk15.eq_1 v232))
theorem k0_idx15_inb : ∀ (v232 : IVec S16 32) (k0_hw15 : k0_chk15 v232), ∀ a x, ((![v232] : Fin 1 → IVec S16 32) a x).toNat < S65536.size a := fun v232 k0_hw15 => k0_hw15

def k0_chk16 (v236 : IVec S16 32) : Prop :=
  (∀ a x, ((![v236] : Fin 1 → IVec S16 32) a x).toNat < S65536.size a)
instance k0_chk16.dec : ∀ (v236 : IVec S16 32), Decidable (k0_chk16 v236) := fun v236 => decidable_of_iff' _ (Iff.of_eq (k0_chk16.eq_1 v236))
theorem k0_idx16_inb : ∀ (v236 : IVec S16 32) (k0_hw16 : k0_chk16 v236), ∀ a x, ((![v236] : Fin 1 → IVec S16 32) a x).toNat < S65536.size a := fun v236 k0_hw16 => k0_hw16

def k0_chk17 (v240 : IVec S16 32) : Prop :=
  (∀ a x, ((![v240] : Fin 1 → IVec S16 32) a x).toNat < S65536.size a)
instance k0_chk17.dec : ∀ (v240 : IVec S16 32), Decidable (k0_chk17 v240) := fun v240 => decidable_of_iff' _ (Iff.of_eq (k0_chk17.eq_1 v240))
theorem k0_idx17_inb : ∀ (v240 : IVec S16 32) (k0_hw17 : k0_chk17 v240), ∀ a x, ((![v240] : Fin 1 → IVec S16 32) a x).toNat < S65536.size a := fun v240 k0_hw17 => k0_hw17

def k0_chk18 (v244 : IVec S16 32) : Prop :=
  (∀ a x, ((![v244] : Fin 1 → IVec S16 32) a x).toNat < S65536.size a)
instance k0_chk18.dec : ∀ (v244 : IVec S16 32), Decidable (k0_chk18 v244) := fun v244 => decidable_of_iff' _ (Iff.of_eq (k0_chk18.eq_1 v244))
theorem k0_idx18_inb : ∀ (v244 : IVec S16 32) (k0_hw18 : k0_chk18 v244), ∀ a x, ((![v244] : Fin 1 → IVec S16 32) a x).toNat < S65536.size a := fun v244 k0_hw18 => k0_hw18

def k0_chk19 (v248 : IVec S16 32) : Prop :=
  (∀ a x, ((![v248] : Fin 1 → IVec S16 32) a x).toNat < S65536.size a)
instance k0_chk19.dec : ∀ (v248 : IVec S16 32), Decidable (k0_chk19 v248) := fun v248 => decidable_of_iff' _ (Iff.of_eq (k0_chk19.eq_1 v248))
theorem k0_idx19_inb : ∀ (v248 : IVec S16 32) (k0_hw19 : k0_chk19 v248), ∀ a x, ((![v248] : Fin 1 → IVec S16 32) a x).toNat < S65536.size a := fun v248 k0_hw19 => k0_hw19

def k0_chk20 (v252 : IVec S16 32) : Prop :=
  (∀ a x, ((![v252] : Fin 1 → IVec S16 32) a x).toNat < S65536.size a)
instance k0_chk20.dec : ∀ (v252 : IVec S16 32), Decidable (k0_chk20 v252) := fun v252 => decidable_of_iff' _ (Iff.of_eq (k0_chk20.eq_1 v252))
theorem k0_idx20_inb : ∀ (v252 : IVec S16 32) (k0_hw20 : k0_chk20 v252), ∀ a x, ((![v252] : Fin 1 → IVec S16 32) a x).toNat < S65536.size a := fun v252 k0_hw20 => k0_hw20

def k0_chk21 (v256 : IVec S16 32) : Prop :=
  (∀ a x, ((![v256] : Fin 1 → IVec S16 32) a x).toNat < S65536.size a)
instance k0_chk21.dec : ∀ (v256 : IVec S16 32), Decidable (k0_chk21 v256) := fun v256 => decidable_of_iff' _ (Iff.of_eq (k0_chk21.eq_1 v256))
theorem k0_idx21_inb : ∀ (v256 : IVec S16 32) (k0_hw21 : k0_chk21 v256), ∀ a x, ((![v256] : Fin 1 → IVec S16 32) a x).toNat < S65536.size a := fun v256 k0_hw21 => k0_hw21
def k0_cond1 (k0_t2 : Fin k0_t2_loop.trips) : BitVec 1 :=
  let c0_i32_12 : BitVec 32 := 0#32
  let c0_i32_4 : BitVec 32 := 0#32
  let c1_i32_5 : BitVec 32 := 1#32
  let arg17 : BitVec 32 := Scf.iv c0_i32_4 c1_i32_5 k0_t2
  let c2_i32_11 : BitVec 32 := 2#32
  let v24 : BitVec 32 := Scalar.muli arg17 c2_i32_11
  let v25 : BitVec 32 := Scalar.addi c0_i32_12 v24
  let c2_i32_21 : BitVec 32 := 2#32
  let v31 : BitVec 32 := Scalar.addi v25 c2_i32_21
  let c12_i32 : BitVec 32 := 12#32
  let v32 : BitVec 1 := Scalar.cmpi .slt v31 c12_i32
  let v33 : BitVec 32 := Scalar.extui v32
  let c0_i32_22 : BitVec 32 := 0#32
  let v34 : BitVec 1 := Scalar.cmpi .ne v33 c0_i32_22
  v34

def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c124992_i32 : BitVec 32 := 124992#32
  let v2 : BitVec 32 := Scalar.muli v1 c124992_i32
  let c0_i32_12 : BitVec 32 := 0#32
  let c0_i32_4 : BitVec 32 := 0#32
  let c1_i32_5 : BitVec 32 := 1#32
  let arg17 : BitVec 32 := Scf.iv c0_i32_4 c1_i32_5 k0_t2
  let c2_i32_11 : BitVec 32 := 2#32
  let v24 : BitVec 32 := Scalar.muli arg17 c2_i32_11
  let v25 : BitVec 32 := Scalar.addi c0_i32_12 v24
  let c2_i32_33 : BitVec 32 := 2#32
  let v44 : BitVec 32 := Scalar.addi v25 c2_i32_33
  let c10416_i32_34 : BitVec 32 := 10416#32
  let v45 : BitVec 32 := Scalar.muli v44 c10416_i32_34
  let v46 : BitVec 32 := Scalar.addi v2 v45
  ![v46.toNat]
@[reducible] def k0_t4_loop : Scf.Loop 32 :=
  let c0_i32_27 : BitVec 32 := 0#32
  let c31_i32_28 : BitVec 32 := 31#32
  let v39 : BitVec 32 := Scalar.addi c0_i32_27 c31_i32_28
  let c1_i32_29 : BitVec 32 := 1#32
  ⟨c0_i32_27, v39, c1_i32_29⟩
def k0_off5 (k0_t4 : Fin k0_t4_loop.trips) (c0_i32_35 : BitVec 32) : Fin 1 → Nat :=
  let c0_i32_34 : BitVec 32 := 0#32
  let c0_i32_27 : BitVec 32 := 0#32
  let c1_i32_29 : BitVec 32 := 1#32
  let arg18 : BitVec 32 := Scf.iv c0_i32_27 c1_i32_29 k0_t4
  let c1_i32_33 : BitVec 32 := 1#32
  let v44 : BitVec 32 := Scalar.muli arg18 c1_i32_33
  let v45 : BitVec 32 := Scalar.addi c0_i32_34 v44
  let c336_i32 : BitVec 32 := 336#32
  let v46 : BitVec 32 := Scalar.muli v45 c336_i32
  let v47 : BitVec 32 := Scalar.addi v46 c0_i32_35
  let v48 : Index := Scalar.indexCast v47
  ![v48.toNat]

def k0_chk22 (v176 : IVec S16 32) : Prop :=
  (∀ a x, ((![v176] : Fin 1 → IVec S16 32) a x).toNat < S65536.size a)
instance k0_chk22.dec : ∀ (v176 : IVec S16 32), Decidable (k0_chk22 v176) := fun v176 => decidable_of_iff' _ (Iff.of_eq (k0_chk22.eq_1 v176))
theorem k0_idx22_inb : ∀ (v176 : IVec S16 32) (k0_hw22 : k0_chk22 v176), ∀ a x, ((![v176] : Fin 1 → IVec S16 32) a x).toNat < S65536.size a := fun v176 k0_hw22 => k0_hw22

def k0_chk23 (v180 : IVec S16 32) : Prop :=
  (∀ a x, ((![v180] : Fin 1 → IVec S16 32) a x).toNat < S65536.size a)
instance k0_chk23.dec : ∀ (v180 : IVec S16 32), Decidable (k0_chk23 v180) := fun v180 => decidable_of_iff' _ (Iff.of_eq (k0_chk23.eq_1 v180))
theorem k0_idx23_inb : ∀ (v180 : IVec S16 32) (k0_hw23 : k0_chk23 v180), ∀ a x, ((![v180] : Fin 1 → IVec S16 32) a x).toNat < S65536.size a := fun v180 k0_hw23 => k0_hw23

def k0_chk24 (v184 : IVec S16 32) : Prop :=
  (∀ a x, ((![v184] : Fin 1 → IVec S16 32) a x).toNat < S65536.size a)
instance k0_chk24.dec : ∀ (v184 : IVec S16 32), Decidable (k0_chk24 v184) := fun v184 => decidable_of_iff' _ (Iff.of_eq (k0_chk24.eq_1 v184))
theorem k0_idx24_inb : ∀ (v184 : IVec S16 32) (k0_hw24 : k0_chk24 v184), ∀ a x, ((![v184] : Fin 1 → IVec S16 32) a x).toNat < S65536.size a := fun v184 k0_hw24 => k0_hw24

def k0_chk25 (v188 : IVec S16 32) : Prop :=
  (∀ a x, ((![v188] : Fin 1 → IVec S16 32) a x).toNat < S65536.size a)
instance k0_chk25.dec : ∀ (v188 : IVec S16 32), Decidable (k0_chk25 v188) := fun v188 => decidable_of_iff' _ (Iff.of_eq (k0_chk25.eq_1 v188))
theorem k0_idx25_inb : ∀ (v188 : IVec S16 32) (k0_hw25 : k0_chk25 v188), ∀ a x, ((![v188] : Fin 1 → IVec S16 32) a x).toNat < S65536.size a := fun v188 k0_hw25 => k0_hw25

def k0_chk26 (v192 : IVec S16 32) : Prop :=
  (∀ a x, ((![v192] : Fin 1 → IVec S16 32) a x).toNat < S65536.size a)
instance k0_chk26.dec : ∀ (v192 : IVec S16 32), Decidable (k0_chk26 v192) := fun v192 => decidable_of_iff' _ (Iff.of_eq (k0_chk26.eq_1 v192))
theorem k0_idx26_inb : ∀ (v192 : IVec S16 32) (k0_hw26 : k0_chk26 v192), ∀ a x, ((![v192] : Fin 1 → IVec S16 32) a x).toNat < S65536.size a := fun v192 k0_hw26 => k0_hw26

def k0_chk27 (v196 : IVec S16 32) : Prop :=
  (∀ a x, ((![v196] : Fin 1 → IVec S16 32) a x).toNat < S65536.size a)
instance k0_chk27.dec : ∀ (v196 : IVec S16 32), Decidable (k0_chk27 v196) := fun v196 => decidable_of_iff' _ (Iff.of_eq (k0_chk27.eq_1 v196))
theorem k0_idx27_inb : ∀ (v196 : IVec S16 32) (k0_hw27 : k0_chk27 v196), ∀ a x, ((![v196] : Fin 1 → IVec S16 32) a x).toNat < S65536.size a := fun v196 k0_hw27 => k0_hw27

def k0_chk28 (v200 : IVec S16 32) : Prop :=
  (∀ a x, ((![v200] : Fin 1 → IVec S16 32) a x).toNat < S65536.size a)
instance k0_chk28.dec : ∀ (v200 : IVec S16 32), Decidable (k0_chk28 v200) := fun v200 => decidable_of_iff' _ (Iff.of_eq (k0_chk28.eq_1 v200))
theorem k0_idx28_inb : ∀ (v200 : IVec S16 32) (k0_hw28 : k0_chk28 v200), ∀ a x, ((![v200] : Fin 1 → IVec S16 32) a x).toNat < S65536.size a := fun v200 k0_hw28 => k0_hw28

def k0_chk29 (v204 : IVec S16 32) : Prop :=
  (∀ a x, ((![v204] : Fin 1 → IVec S16 32) a x).toNat < S65536.size a)
instance k0_chk29.dec : ∀ (v204 : IVec S16 32), Decidable (k0_chk29 v204) := fun v204 => decidable_of_iff' _ (Iff.of_eq (k0_chk29.eq_1 v204))
theorem k0_idx29_inb : ∀ (v204 : IVec S16 32) (k0_hw29 : k0_chk29 v204), ∀ a x, ((![v204] : Fin 1 → IVec S16 32) a x).toNat < S65536.size a := fun v204 k0_hw29 => k0_hw29

def k0_chk30 (v208 : IVec S16 32) : Prop :=
  (∀ a x, ((![v208] : Fin 1 → IVec S16 32) a x).toNat < S65536.size a)
instance k0_chk30.dec : ∀ (v208 : IVec S16 32), Decidable (k0_chk30 v208) := fun v208 => decidable_of_iff' _ (Iff.of_eq (k0_chk30.eq_1 v208))
theorem k0_idx30_inb : ∀ (v208 : IVec S16 32) (k0_hw30 : k0_chk30 v208), ∀ a x, ((![v208] : Fin 1 → IVec S16 32) a x).toNat < S65536.size a := fun v208 k0_hw30 => k0_hw30

def k0_chk31 (v212 : IVec S16 32) : Prop :=
  (∀ a x, ((![v212] : Fin 1 → IVec S16 32) a x).toNat < S65536.size a)
instance k0_chk31.dec : ∀ (v212 : IVec S16 32), Decidable (k0_chk31 v212) := fun v212 => decidable_of_iff' _ (Iff.of_eq (k0_chk31.eq_1 v212))
theorem k0_idx31_inb : ∀ (v212 : IVec S16 32) (k0_hw31 : k0_chk31 v212), ∀ a x, ((![v212] : Fin 1 → IVec S16 32) a x).toNat < S65536.size a := fun v212 k0_hw31 => k0_hw31

def k0_chk32 (v216 : IVec S16 32) : Prop :=
  (∀ a x, ((![v216] : Fin 1 → IVec S16 32) a x).toNat < S65536.size a)
instance k0_chk32.dec : ∀ (v216 : IVec S16 32), Decidable (k0_chk32 v216) := fun v216 => decidable_of_iff' _ (Iff.of_eq (k0_chk32.eq_1 v216))
theorem k0_idx32_inb : ∀ (v216 : IVec S16 32) (k0_hw32 : k0_chk32 v216), ∀ a x, ((![v216] : Fin 1 → IVec S16 32) a x).toNat < S65536.size a := fun v216 k0_hw32 => k0_hw32

def k0_chk33 (v220 : IVec S16 32) : Prop :=
  (∀ a x, ((![v220] : Fin 1 → IVec S16 32) a x).toNat < S65536.size a)
instance k0_chk33.dec : ∀ (v220 : IVec S16 32), Decidable (k0_chk33 v220) := fun v220 => decidable_of_iff' _ (Iff.of_eq (k0_chk33.eq_1 v220))
theorem k0_idx33_inb : ∀ (v220 : IVec S16 32) (k0_hw33 : k0_chk33 v220), ∀ a x, ((![v220] : Fin 1 → IVec S16 32) a x).toNat < S65536.size a := fun v220 k0_hw33 => k0_hw33

def k0_chk34 (v224 : IVec S16 32) : Prop :=
  (∀ a x, ((![v224] : Fin 1 → IVec S16 32) a x).toNat < S65536.size a)
instance k0_chk34.dec : ∀ (v224 : IVec S16 32), Decidable (k0_chk34 v224) := fun v224 => decidable_of_iff' _ (Iff.of_eq (k0_chk34.eq_1 v224))
theorem k0_idx34_inb : ∀ (v224 : IVec S16 32) (k0_hw34 : k0_chk34 v224), ∀ a x, ((![v224] : Fin 1 → IVec S16 32) a x).toNat < S65536.size a := fun v224 k0_hw34 => k0_hw34

def k0_chk35 (v228 : IVec S16 32) : Prop :=
  (∀ a x, ((![v228] : Fin 1 → IVec S16 32) a x).toNat < S65536.size a)
instance k0_chk35.dec : ∀ (v228 : IVec S16 32), Decidable (k0_chk35 v228) := fun v228 => decidable_of_iff' _ (Iff.of_eq (k0_chk35.eq_1 v228))
theorem k0_idx35_inb : ∀ (v228 : IVec S16 32) (k0_hw35 : k0_chk35 v228), ∀ a x, ((![v228] : Fin 1 → IVec S16 32) a x).toNat < S65536.size a := fun v228 k0_hw35 => k0_hw35

def k0_chk36 (v232 : IVec S16 32) : Prop :=
  (∀ a x, ((![v232] : Fin 1 → IVec S16 32) a x).toNat < S65536.size a)
instance k0_chk36.dec : ∀ (v232 : IVec S16 32), Decidable (k0_chk36 v232) := fun v232 => decidable_of_iff' _ (Iff.of_eq (k0_chk36.eq_1 v232))
theorem k0_idx36_inb : ∀ (v232 : IVec S16 32) (k0_hw36 : k0_chk36 v232), ∀ a x, ((![v232] : Fin 1 → IVec S16 32) a x).toNat < S65536.size a := fun v232 k0_hw36 => k0_hw36

def k0_chk37 (v236 : IVec S16 32) : Prop :=
  (∀ a x, ((![v236] : Fin 1 → IVec S16 32) a x).toNat < S65536.size a)
instance k0_chk37.dec : ∀ (v236 : IVec S16 32), Decidable (k0_chk37 v236) := fun v236 => decidable_of_iff' _ (Iff.of_eq (k0_chk37.eq_1 v236))
theorem k0_idx37_inb : ∀ (v236 : IVec S16 32) (k0_hw37 : k0_chk37 v236), ∀ a x, ((![v236] : Fin 1 → IVec S16 32) a x).toNat < S65536.size a := fun v236 k0_hw37 => k0_hw37

def k0_chk38 (v240 : IVec S16 32) : Prop :=
  (∀ a x, ((![v240] : Fin 1 → IVec S16 32) a x).toNat < S65536.size a)
instance k0_chk38.dec : ∀ (v240 : IVec S16 32), Decidable (k0_chk38 v240) := fun v240 => decidable_of_iff' _ (Iff.of_eq (k0_chk38.eq_1 v240))
theorem k0_idx38_inb : ∀ (v240 : IVec S16 32) (k0_hw38 : k0_chk38 v240), ∀ a x, ((![v240] : Fin 1 → IVec S16 32) a x).toNat < S65536.size a := fun v240 k0_hw38 => k0_hw38

def k0_chk39 (v244 : IVec S16 32) : Prop :=
  (∀ a x, ((![v244] : Fin 1 → IVec S16 32) a x).toNat < S65536.size a)
instance k0_chk39.dec : ∀ (v244 : IVec S16 32), Decidable (k0_chk39 v244) := fun v244 => decidable_of_iff' _ (Iff.of_eq (k0_chk39.eq_1 v244))
theorem k0_idx39_inb : ∀ (v244 : IVec S16 32) (k0_hw39 : k0_chk39 v244), ∀ a x, ((![v244] : Fin 1 → IVec S16 32) a x).toNat < S65536.size a := fun v244 k0_hw39 => k0_hw39

def k0_chk40 (v248 : IVec S16 32) : Prop :=
  (∀ a x, ((![v248] : Fin 1 → IVec S16 32) a x).toNat < S65536.size a)
instance k0_chk40.dec : ∀ (v248 : IVec S16 32), Decidable (k0_chk40 v248) := fun v248 => decidable_of_iff' _ (Iff.of_eq (k0_chk40.eq_1 v248))
theorem k0_idx40_inb : ∀ (v248 : IVec S16 32) (k0_hw40 : k0_chk40 v248), ∀ a x, ((![v248] : Fin 1 → IVec S16 32) a x).toNat < S65536.size a := fun v248 k0_hw40 => k0_hw40

def k0_chk41 (v252 : IVec S16 32) : Prop :=
  (∀ a x, ((![v252] : Fin 1 → IVec S16 32) a x).toNat < S65536.size a)
instance k0_chk41.dec : ∀ (v252 : IVec S16 32), Decidable (k0_chk41 v252) := fun v252 => decidable_of_iff' _ (Iff.of_eq (k0_chk41.eq_1 v252))
theorem k0_idx41_inb : ∀ (v252 : IVec S16 32) (k0_hw41 : k0_chk41 v252), ∀ a x, ((![v252] : Fin 1 → IVec S16 32) a x).toNat < S65536.size a := fun v252 k0_hw41 => k0_hw41

def k0_chk42 (v256 : IVec S16 32) : Prop :=
  (∀ a x, ((![v256] : Fin 1 → IVec S16 32) a x).toNat < S65536.size a)
instance k0_chk42.dec : ∀ (v256 : IVec S16 32), Decidable (k0_chk42 v256) := fun v256 => decidable_of_iff' _ (Iff.of_eq (k0_chk42.eq_1 v256))
theorem k0_idx42_inb : ∀ (v256 : IVec S16 32) (k0_hw42 : k0_chk42 v256), ∀ a x, ((![v256] : Fin 1 → IVec S16 32) a x).toNat < S65536.size a := fun v256 k0_hw42 => k0_hw42
def k0_cond2 (k0_t2 : Fin k0_t2_loop.trips) : BitVec 1 :=
  let c0_i32_12 : BitVec 32 := 0#32
  let c0_i32_4 : BitVec 32 := 0#32
  let c1_i32_5 : BitVec 32 := 1#32
  let arg17 : BitVec 32 := Scf.iv c0_i32_4 c1_i32_5 k0_t2
  let c2_i32_11 : BitVec 32 := 2#32
  let v24 : BitVec 32 := Scalar.muli arg17 c2_i32_11
  let v25 : BitVec 32 := Scalar.addi c0_i32_12 v24
  let c3_i32 : BitVec 32 := 3#32
  let v40 : BitVec 32 := Scalar.addi v25 c3_i32
  let c12_i32_31 : BitVec 32 := 12#32
  let v41 : BitVec 1 := Scalar.cmpi .slt v40 c12_i32_31
  let v42 : BitVec 32 := Scalar.extui v41
  let c0_i32_32 : BitVec 32 := 0#32
  let v43 : BitVec 1 := Scalar.cmpi .ne v42 c0_i32_32
  v43

def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c124992_i32 : BitVec 32 := 124992#32
  let v2 : BitVec 32 := Scalar.muli v1 c124992_i32
  let c0_i32_12 : BitVec 32 := 0#32
  let c0_i32_4 : BitVec 32 := 0#32
  let c1_i32_5 : BitVec 32 := 1#32
  let arg17 : BitVec 32 := Scf.iv c0_i32_4 c1_i32_5 k0_t2
  let c2_i32_11 : BitVec 32 := 2#32
  let v24 : BitVec 32 := Scalar.muli arg17 c2_i32_11
  let v25 : BitVec 32 := Scalar.addi c0_i32_12 v24
  let c3_i32_33 : BitVec 32 := 3#32
  let v44 : BitVec 32 := Scalar.addi v25 c3_i32_33
  let c10416_i32_34 : BitVec 32 := 10416#32
  let v45 : BitVec 32 := Scalar.muli v44 c10416_i32_34
  let v46 : BitVec 32 := Scalar.addi v2 v45
  ![v46.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v20 : BitVec 1 := Scalar.cmpi .eq v1 c31_i32
  let v21 : BitVec 32 := Scalar.extui v20
  let c0_i32_7 : BitVec 32 := 0#32
  let v22 : BitVec 1 := Scalar.cmpi .ne v21 c0_i32_7
  v22

def k0_chk43 (i : grid0.Coords) (v59 : IVec S16 32) : Prop :=
  (∀ (k0_h3 : k0_cond3 i = 1#1), ∀ a x, ((![v59] : Fin 1 → IVec S16 32) a x).toNat < S65536.size a)
instance k0_chk43.dec : ∀ (i : grid0.Coords) (v59 : IVec S16 32), Decidable (k0_chk43 i v59) := fun i v59 => decidable_of_iff' _ (Iff.of_eq (k0_chk43.eq_1 i v59))
theorem k0_idx43_inb : ∀ (i : grid0.Coords) (v59 : IVec S16 32) (k0_hw43 : k0_chk43 i v59), ∀ (k0_h3 : k0_cond3 i = 1#1), ∀ a x, ((![v59] : Fin 1 → IVec S16 32) a x).toNat < S65536.size a := fun i v59 k0_hw43 k0_h3 => k0_hw43 k0_h3

def k0_chk44 (i : grid0.Coords) (v63 : IVec S16 32) : Prop :=
  (∀ (k0_h3 : k0_cond3 i = 1#1), ∀ a x, ((![v63] : Fin 1 → IVec S16 32) a x).toNat < S65536.size a)
instance k0_chk44.dec : ∀ (i : grid0.Coords) (v63 : IVec S16 32), Decidable (k0_chk44 i v63) := fun i v63 => decidable_of_iff' _ (Iff.of_eq (k0_chk44.eq_1 i v63))
theorem k0_idx44_inb : ∀ (i : grid0.Coords) (v63 : IVec S16 32) (k0_hw44 : k0_chk44 i v63), ∀ (k0_h3 : k0_cond3 i = 1#1), ∀ a x, ((![v63] : Fin 1 → IVec S16 32) a x).toNat < S65536.size a := fun i v63 k0_hw44 k0_h3 => k0_hw44 k0_h3

def k0_chk45 (i : grid0.Coords) (v67 : IVec S16 32) : Prop :=
  (∀ (k0_h3 : k0_cond3 i = 1#1), ∀ a x, ((![v67] : Fin 1 → IVec S16 32) a x).toNat < S65536.size a)
instance k0_chk45.dec : ∀ (i : grid0.Coords) (v67 : IVec S16 32), Decidable (k0_chk45 i v67) := fun i v67 => decidable_of_iff' _ (Iff.of_eq (k0_chk45.eq_1 i v67))
theorem k0_idx45_inb : ∀ (i : grid0.Coords) (v67 : IVec S16 32) (k0_hw45 : k0_chk45 i v67), ∀ (k0_h3 : k0_cond3 i = 1#1), ∀ a x, ((![v67] : Fin 1 → IVec S16 32) a x).toNat < S65536.size a := fun i v67 k0_hw45 k0_h3 => k0_hw45 k0_h3

def k0_chk46 (i : grid0.Coords) (v71 : IVec S16 32) : Prop :=
  (∀ (k0_h3 : k0_cond3 i = 1#1), ∀ a x, ((![v71] : Fin 1 → IVec S16 32) a x).toNat < S65536.size a)
instance k0_chk46.dec : ∀ (i : grid0.Coords) (v71 : IVec S16 32), Decidable (k0_chk46 i v71) := fun i v71 => decidable_of_iff' _ (Iff.of_eq (k0_chk46.eq_1 i v71))
theorem k0_idx46_inb : ∀ (i : grid0.Coords) (v71 : IVec S16 32) (k0_hw46 : k0_chk46 i v71), ∀ (k0_h3 : k0_cond3 i = 1#1), ∀ a x, ((![v71] : Fin 1 → IVec S16 32) a x).toNat < S65536.size a := fun i v71 k0_hw46 k0_h3 => k0_hw46 k0_h3

def k0_chk47 (i : grid0.Coords) (v75 : IVec S16 32) : Prop :=
  (∀ (k0_h3 : k0_cond3 i = 1#1), ∀ a x, ((![v75] : Fin 1 → IVec S16 32) a x).toNat < S65536.size a)
instance k0_chk47.dec : ∀ (i : grid0.Coords) (v75 : IVec S16 32), Decidable (k0_chk47 i v75) := fun i v75 => decidable_of_iff' _ (Iff.of_eq (k0_chk47.eq_1 i v75))
theorem k0_idx47_inb : ∀ (i : grid0.Coords) (v75 : IVec S16 32) (k0_hw47 : k0_chk47 i v75), ∀ (k0_h3 : k0_cond3 i = 1#1), ∀ a x, ((![v75] : Fin 1 → IVec S16 32) a x).toNat < S65536.size a := fun i v75 k0_hw47 k0_h3 => k0_hw47 k0_h3

def k0_chk48 (i : grid0.Coords) (v79 : IVec S16 32) : Prop :=
  (∀ (k0_h3 : k0_cond3 i = 1#1), ∀ a x, ((![v79] : Fin 1 → IVec S16 32) a x).toNat < S65536.size a)
instance k0_chk48.dec : ∀ (i : grid0.Coords) (v79 : IVec S16 32), Decidable (k0_chk48 i v79) := fun i v79 => decidable_of_iff' _ (Iff.of_eq (k0_chk48.eq_1 i v79))
theorem k0_idx48_inb : ∀ (i : grid0.Coords) (v79 : IVec S16 32) (k0_hw48 : k0_chk48 i v79), ∀ (k0_h3 : k0_cond3 i = 1#1), ∀ a x, ((![v79] : Fin 1 → IVec S16 32) a x).toNat < S65536.size a := fun i v79 k0_hw48 k0_h3 => k0_hw48 k0_h3

def k0_chk49 (i : grid0.Coords) (v83 : IVec S16 32) : Prop :=
  (∀ (k0_h3 : k0_cond3 i = 1#1), ∀ a x, ((![v83] : Fin 1 → IVec S16 32) a x).toNat < S65536.size a)
instance k0_chk49.dec : ∀ (i : grid0.Coords) (v83 : IVec S16 32), Decidable (k0_chk49 i v83) := fun i v83 => decidable_of_iff' _ (Iff.of_eq (k0_chk49.eq_1 i v83))
theorem k0_idx49_inb : ∀ (i : grid0.Coords) (v83 : IVec S16 32) (k0_hw49 : k0_chk49 i v83), ∀ (k0_h3 : k0_cond3 i = 1#1), ∀ a x, ((![v83] : Fin 1 → IVec S16 32) a x).toNat < S65536.size a := fun i v83 k0_hw49 k0_h3 => k0_hw49 k0_h3

def k0_chk50 (i : grid0.Coords) (v87 : IVec S16 32) : Prop :=
  (∀ (k0_h3 : k0_cond3 i = 1#1), ∀ a x, ((![v87] : Fin 1 → IVec S16 32) a x).toNat < S65536.size a)
instance k0_chk50.dec : ∀ (i : grid0.Coords) (v87 : IVec S16 32), Decidable (k0_chk50 i v87) := fun i v87 => decidable_of_iff' _ (Iff.of_eq (k0_chk50.eq_1 i v87))
theorem k0_idx50_inb : ∀ (i : grid0.Coords) (v87 : IVec S16 32) (k0_hw50 : k0_chk50 i v87), ∀ (k0_h3 : k0_cond3 i = 1#1), ∀ a x, ((![v87] : Fin 1 → IVec S16 32) a x).toNat < S65536.size a := fun i v87 k0_hw50 k0_h3 => k0_hw50 k0_h3

def k0_chk51 (i : grid0.Coords) (v91 : IVec S16 32) : Prop :=
  (∀ (k0_h3 : k0_cond3 i = 1#1), ∀ a x, ((![v91] : Fin 1 → IVec S16 32) a x).toNat < S65536.size a)
instance k0_chk51.dec : ∀ (i : grid0.Coords) (v91 : IVec S16 32), Decidable (k0_chk51 i v91) := fun i v91 => decidable_of_iff' _ (Iff.of_eq (k0_chk51.eq_1 i v91))
theorem k0_idx51_inb : ∀ (i : grid0.Coords) (v91 : IVec S16 32) (k0_hw51 : k0_chk51 i v91), ∀ (k0_h3 : k0_cond3 i = 1#1), ∀ a x, ((![v91] : Fin 1 → IVec S16 32) a x).toNat < S65536.size a := fun i v91 k0_hw51 k0_h3 => k0_hw51 k0_h3

def k0_chk52 (i : grid0.Coords) (v95 : IVec S16 32) : Prop :=
  (∀ (k0_h3 : k0_cond3 i = 1#1), ∀ a x, ((![v95] : Fin 1 → IVec S16 32) a x).toNat < S65536.size a)
instance k0_chk52.dec : ∀ (i : grid0.Coords) (v95 : IVec S16 32), Decidable (k0_chk52 i v95) := fun i v95 => decidable_of_iff' _ (Iff.of_eq (k0_chk52.eq_1 i v95))
theorem k0_idx52_inb : ∀ (i : grid0.Coords) (v95 : IVec S16 32) (k0_hw52 : k0_chk52 i v95), ∀ (k0_h3 : k0_cond3 i = 1#1), ∀ a x, ((![v95] : Fin 1 → IVec S16 32) a x).toNat < S65536.size a := fun i v95 k0_hw52 k0_h3 => k0_hw52 k0_h3

def k0_chk53 (i : grid0.Coords) (v99 : IVec S16 32) : Prop :=
  (∀ (k0_h3 : k0_cond3 i = 1#1), ∀ a x, ((![v99] : Fin 1 → IVec S16 32) a x).toNat < S65536.size a)
instance k0_chk53.dec : ∀ (i : grid0.Coords) (v99 : IVec S16 32), Decidable (k0_chk53 i v99) := fun i v99 => decidable_of_iff' _ (Iff.of_eq (k0_chk53.eq_1 i v99))
theorem k0_idx53_inb : ∀ (i : grid0.Coords) (v99 : IVec S16 32) (k0_hw53 : k0_chk53 i v99), ∀ (k0_h3 : k0_cond3 i = 1#1), ∀ a x, ((![v99] : Fin 1 → IVec S16 32) a x).toNat < S65536.size a := fun i v99 k0_hw53 k0_h3 => k0_hw53 k0_h3

def k0_chk54 (i : grid0.Coords) (v103 : IVec S16 32) : Prop :=
  (∀ (k0_h3 : k0_cond3 i = 1#1), ∀ a x, ((![v103] : Fin 1 → IVec S16 32) a x).toNat < S65536.size a)
instance k0_chk54.dec : ∀ (i : grid0.Coords) (v103 : IVec S16 32), Decidable (k0_chk54 i v103) := fun i v103 => decidable_of_iff' _ (Iff.of_eq (k0_chk54.eq_1 i v103))
theorem k0_idx54_inb : ∀ (i : grid0.Coords) (v103 : IVec S16 32) (k0_hw54 : k0_chk54 i v103), ∀ (k0_h3 : k0_cond3 i = 1#1), ∀ a x, ((![v103] : Fin 1 → IVec S16 32) a x).toNat < S65536.size a := fun i v103 k0_hw54 k0_h3 => k0_hw54 k0_h3

def k0_chk55 (i : grid0.Coords) (v107 : IVec S16 32) : Prop :=
  (∀ (k0_h3 : k0_cond3 i = 1#1), ∀ a x, ((![v107] : Fin 1 → IVec S16 32) a x).toNat < S65536.size a)
instance k0_chk55.dec : ∀ (i : grid0.Coords) (v107 : IVec S16 32), Decidable (k0_chk55 i v107) := fun i v107 => decidable_of_iff' _ (Iff.of_eq (k0_chk55.eq_1 i v107))
theorem k0_idx55_inb : ∀ (i : grid0.Coords) (v107 : IVec S16 32) (k0_hw55 : k0_chk55 i v107), ∀ (k0_h3 : k0_cond3 i = 1#1), ∀ a x, ((![v107] : Fin 1 → IVec S16 32) a x).toNat < S65536.size a := fun i v107 k0_hw55 k0_h3 => k0_hw55 k0_h3

def k0_chk56 (i : grid0.Coords) (v111 : IVec S16 32) : Prop :=
  (∀ (k0_h3 : k0_cond3 i = 1#1), ∀ a x, ((![v111] : Fin 1 → IVec S16 32) a x).toNat < S65536.size a)
instance k0_chk56.dec : ∀ (i : grid0.Coords) (v111 : IVec S16 32), Decidable (k0_chk56 i v111) := fun i v111 => decidable_of_iff' _ (Iff.of_eq (k0_chk56.eq_1 i v111))
theorem k0_idx56_inb : ∀ (i : grid0.Coords) (v111 : IVec S16 32) (k0_hw56 : k0_chk56 i v111), ∀ (k0_h3 : k0_cond3 i = 1#1), ∀ a x, ((![v111] : Fin 1 → IVec S16 32) a x).toNat < S65536.size a := fun i v111 k0_hw56 k0_h3 => k0_hw56 k0_h3

def k0_chk57 (i : grid0.Coords) (v115 : IVec S16 32) : Prop :=
  (∀ (k0_h3 : k0_cond3 i = 1#1), ∀ a x, ((![v115] : Fin 1 → IVec S16 32) a x).toNat < S65536.size a)
instance k0_chk57.dec : ∀ (i : grid0.Coords) (v115 : IVec S16 32), Decidable (k0_chk57 i v115) := fun i v115 => decidable_of_iff' _ (Iff.of_eq (k0_chk57.eq_1 i v115))
theorem k0_idx57_inb : ∀ (i : grid0.Coords) (v115 : IVec S16 32) (k0_hw57 : k0_chk57 i v115), ∀ (k0_h3 : k0_cond3 i = 1#1), ∀ a x, ((![v115] : Fin 1 → IVec S16 32) a x).toNat < S65536.size a := fun i v115 k0_hw57 k0_h3 => k0_hw57 k0_h3

def k0_chk58 (i : grid0.Coords) (v119 : IVec S16 32) : Prop :=
  (∀ (k0_h3 : k0_cond3 i = 1#1), ∀ a x, ((![v119] : Fin 1 → IVec S16 32) a x).toNat < S65536.size a)
instance k0_chk58.dec : ∀ (i : grid0.Coords) (v119 : IVec S16 32), Decidable (k0_chk58 i v119) := fun i v119 => decidable_of_iff' _ (Iff.of_eq (k0_chk58.eq_1 i v119))
theorem k0_idx58_inb : ∀ (i : grid0.Coords) (v119 : IVec S16 32) (k0_hw58 : k0_chk58 i v119), ∀ (k0_h3 : k0_cond3 i = 1#1), ∀ a x, ((![v119] : Fin 1 → IVec S16 32) a x).toNat < S65536.size a := fun i v119 k0_hw58 k0_h3 => k0_hw58 k0_h3
@[reducible] def k0_t5_loop : Scf.Loop 32 :=
  let c0_i32_8 : BitVec 32 := 0#32
  let c256_i32 : BitVec 32 := 256#32
  let v23 : BitVec 32 := Scalar.addi c0_i32_8 c256_i32
  let c1_i32_9 : BitVec 32 := 1#32
  ⟨c0_i32_8, v23, c1_i32_9⟩
def k0_off7 (k0_t5 : Fin k0_t5_loop.trips) (c0_i32_13 : BitVec 32) : Fin 1 → Nat :=
  let c0_i32_12 : BitVec 32 := 0#32
  let c0_i32_8 : BitVec 32 := 0#32
  let c1_i32_9 : BitVec 32 := 1#32
  let arg17 : BitVec 32 := Scf.iv c0_i32_8 c1_i32_9 k0_t5
  let c1_i32_11 : BitVec 32 := 1#32
  let v24 : BitVec 32 := Scalar.muli arg17 c1_i32_11
  let v25 : BitVec 32 := Scalar.addi c0_i32_12 v24
  let c16_i32 : BitVec 32 := 16#32
  let v26 : BitVec 32 := Scalar.muli v25 c16_i32
  let v27 : BitVec 32 := Scalar.addi c0_i32_13 v26
  let v28 : Index := Scalar.indexCast v27
  ![v28.toNat]
def k0_off8 (k0_t5 : Fin k0_t5_loop.trips) : Fin 1 → Nat :=
  let c0_i32_12 : BitVec 32 := 0#32
  let c0_i32_8 : BitVec 32 := 0#32
  let c1_i32_9 : BitVec 32 := 1#32
  let arg17 : BitVec 32 := Scf.iv c0_i32_8 c1_i32_9 k0_t5
  let c1_i32_11 : BitVec 32 := 1#32
  let v24 : BitVec 32 := Scalar.muli arg17 c1_i32_11
  let v25 : BitVec 32 := Scalar.addi c0_i32_12 v24
  let c16_i32 : BitVec 32 := 16#32
  let v26 : BitVec 32 := Scalar.muli v25 c16_i32
  let v90 : Index := Scalar.indexCast v26
  ![v90.toNat]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r2 : BitVec 32 := 0#32
  ![v1.toNat, 0]
abbrev grid1 : Pipeline.Grid := .none

abbrev stage1_0 : Fin 1 → Memref sig .tc .vmem S32x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S16 : 0 < S16.numel
  inb_S4000000_S10416_0 : ∀ a, (![0] : Fin 1 → Nat) a + S10416.size a ≤ S4000000.size a
  h_S65536 : 0 < S65536.numel
  inb_S4000000_S256_3999744 : ∀ a, (![3999744] : Fin 1 → Nat) a + S256.size a ≤ S4000000.size a
  inb_S256_S16_0 : ∀ a, (![0] : Fin 1 → Nat) a + S16.size a ≤ S256.size a
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  squeezes_S1x4096_S4096 : S1x4096.Squeezes S4096
  shapeCasts_S32x4096_S32x32x128 : S32x4096.ShapeCasts S32x32x128
  shapeCasts_S64x64_S32x128 : S64x64.ShapeCasts S32x128
  shapeCasts_S_S1 : S_.ShapeCasts S1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  reduces_S32x32x128_S32x128 : S32x32x128.Reduces [0] S32x128
  inb_S1_S1_0 : ∀ a, (![0] : Fin 1 → Nat) a + S1.size a ≤ S1.size a
  numel1_S1 : S1.numel = 1
  shapeCasts_S32x128_S64x64 : S32x128.ShapeCasts S64x64
  shapeCasts_S1_S_ : S1.ShapeCasts S_
  hcc0_scratch8 : 0 + S_.numel ≤ 12
  hcc0_scratch9 : 1 + S_.numel ≤ 12
  hcc0_scratch10 : 2 + S_.numel ≤ 12
  hcc0_scratch11 : 3 + S_.numel ≤ 12
  hcc0_scoped0 : 4 + S_.numel ≤ 12
  hcc0_scoped1 : 5 + S_.numel ≤ 12
  hcc0_scoped2 : 6 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (10416 * r.val))) a + S10416.size a ≤ S4000000.size a
  k0_t1_ok : k0_t1_loop.OK
  k0_off2_inb : ∀ k0_t1 : Fin k0_t1_loop.trips, ∀ a, (k0_off2 k0_t1) a + S16.size a ≤ S65536.size a
  k0_t2_ok : k0_t2_loop.OK
  k0_t3_ok : k0_t3_loop.OK
  k0_off3_inb : ∀ k0_t3 : Fin k0_t3_loop.trips, ∀ (r : Fin 21), ∀ a, (k0_off3 k0_t3 (BitVec.ofNat 32 (16 * r.val))) a + S16.size a ≤ S10416.size a
  k0_off4_inb : ∀ (i : grid0.Coords) (k0_t2 : Fin k0_t2_loop.trips), ∀ (k0_h1 : k0_cond1 k0_t2 = 1#1), ∀ a, (k0_off4 i k0_t2) a + S10416.size a ≤ S4000000.size a
  k0_t4_ok : k0_t4_loop.OK
  k0_off5_inb : ∀ k0_t4 : Fin k0_t4_loop.trips, ∀ (r : Fin 21), ∀ a, (k0_off5 k0_t4 (BitVec.ofNat 32 (16 * r.val))) a + S16.size a ≤ S10416.size a
  k0_off6_inb : ∀ (i : grid0.Coords) (k0_t2 : Fin k0_t2_loop.trips), ∀ (k0_h2 : k0_cond2 k0_t2 = 1#1), ∀ a, (k0_off6 i k0_t2) a + S10416.size a ≤ S4000000.size a
  k0_t5_ok : k0_t5_loop.OK
  k0_off7_inb : ∀ k0_t5 : Fin k0_t5_loop.trips, ∀ (r : Fin 16), ∀ a, (k0_off7 k0_t5 (BitVec.ofNat 32 (4096 * r.val))) a + S16.size a ≤ S65536.size a
  k0_off8_inb : ∀ k0_t5 : Fin k0_t5_loop.trips, ∀ a, (k0_off8 k0_t5) a + S16.size a ≤ S4096.size a
  k0_off9_inb : ∀ i : grid0.Coords, ∀ a, (k0_off9 i) a + S1x4096.size a ≤ S32x4096.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_v2) false false (stage1_1 0) (sem1_1 0) (Memref.isWhole_whole _) (hstage1_1 0)

abbrev win1_2 : Pipeline.Window sig grid1 :=
  Pipeline.Window.whole (Memref.whole main_v3) false false (stage1_2 0) (sem1_2 0) (Memref.isWhole_whole _) (hstage1_2 0)

abbrev win1_3 : Pipeline.Window sig grid1 :=
  Pipeline.Window.whole (Memref.whole main_v4_0) true false (stage1_3 0) (sem1_3 0) (Memref.isWhole_whole _) (hstage1_3 0)

abbrev win1_4 : Pipeline.Window sig grid1 :=
  Pipeline.Window.whole (Memref.whole main_v4_1) true false (stage1_4 0) (sem1_4 0) (Memref.isWhole_whole _) (hstage1_4 0)

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4000000 : Shape := ⟨1, ![4000000]⟩
abbrev S64x64 : Shape := ⟨2, ![64, 64]⟩
abbrev S_ : Shape := ⟨0, ![]⟩
abbrev S4000000x1 : Shape := ⟨2, ![4000000, 1]⟩
abbrev S4000000x2 : Shape := ⟨2, ![4000000, 2]⟩

abbrev nBuf : Space → Nat
  | .hbm => 26
  | .vmem => 0
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S64x64, .f32⟩
  | .hbm, ⟨3, _⟩ => ⟨S_, .f32⟩
  | .hbm, ⟨4, _⟩ => ⟨S_, .i32⟩
  | .hbm, ⟨5, _⟩ => ⟨S4000000, .i32⟩
  | .hbm, ⟨6, _⟩ => ⟨S4000000, .i1⟩
  | .hbm, ⟨7, _⟩ => ⟨S_, .i32⟩
  | .hbm, ⟨8, _⟩ => ⟨S4000000, .i32⟩
  | .hbm, ⟨9, _⟩ => ⟨S4000000, .i32⟩
  | .hbm, ⟨10, _⟩ => ⟨S4000000, .i32⟩
  | .hbm, ⟨11, _⟩ => ⟨S_, .i32⟩
  | .hbm, ⟨12, _⟩ => ⟨S4000000, .i32⟩
  | .hbm, ⟨13, _⟩ => ⟨S4000000, .i1⟩
  | .hbm, ⟨14, _⟩ => ⟨S_, .i32⟩
  | .hbm, ⟨15, _⟩ => ⟨S4000000, .i32⟩
  | .hbm, ⟨16, _⟩ => ⟨S4000000, .i32⟩
  | .hbm, ⟨17, _⟩ => ⟨S4000000, .i32⟩
  | .hbm, ⟨18, _⟩ => ⟨S4000000x1, .i32⟩
  | .hbm, ⟨19, _⟩ => ⟨S4000000x1, .i32⟩
  | .hbm, ⟨20, _⟩ => ⟨S4000000x2, .i32⟩
  | .hbm, ⟨21, _⟩ => ⟨S_, .f32⟩
  | .hbm, ⟨22, _⟩ => ⟨S4000000, .f32⟩
  | .hbm, ⟨23, _⟩ => ⟨S64x64, .f32⟩
  | .hbm, ⟨24, _⟩ => ⟨S_, .f32⟩
  | .hbm, ⟨25, _⟩ => ⟨S_, .f32⟩
  | _, _ => ⟨S4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  scatter_S64x64_S4000000x2_S4000000_n_01_01_1_wf : ScatterDims.WF S64x64 S4000000x2 S4000000 [] [0, 1] [0, 1] 1

variable [Facts₀]

def scatter_S64x64_S4000000x2_S4000000_n_01_01_1 : ScatterDims S64x64 S4000000x2 S4000000 where
  updateWindowDims := []
  insertedWindowDims := [0, 1]
  scatterDimsToOperandDims := [0, 1]
  indexVectorDim := 1
  wf := scatter_S64x64_S4000000x2_S4000000_n_01_01_1_wf

class Facts : Prop extends Facts₀ where

variable [Facts]
-- ==== Proof.Spec.lean ====
/-
  The specification both programs meet at the ideal instance.

  Inputs: two arrays `P`, `C` of 4 000 000 tile numbers (each in `[0, 64)` under the precondition), a 64 × 64 table `T` of
  transition counts and a running total `t`.  Entry `k` is the transition from tile `P k` to tile `C k`.

  * `hits P C i` is the set of entries whose transition is the pair `i = (i 0, i 1)`;
  * `hist P C T` adds to every cell of `T` one unit per entry that hits it: `T i + ∑ k ∈ hits P C i, one`;
  * `total t` adds the number of entries, the float `4 000 000` (exactly representable), to `t`.

  The unit and the count are kept as the float words the programs carry (`0x3F800000` is `1.0`, `0x4A742400` is
  `4.0e6`): both sides carry the same words, so neither is ever evaluated.  Only commutativity and associativity of
  `+` on the extended reals relate the two sides (one long sum against the same sum grouped by worker, by block and by
  lane), so no finiteness of `T` or `t` is needed.
-/
import Idealize.ShloMosaic.PureOps.Ideal
import Idealize.ShloMosaic.Lib.ValueIdx

noncomputable section

namespace Cert.Spec

open Idealize.ShloMosaic

/-- The index arrays' shape: 4 000 000 entries. -/
abbrev SN : Shape := ⟨1, ![4000000]⟩
/-- The table's shape: 64 × 64 cells, cell `(p, c)` counting transitions from tile `p` to tile `c`. -/
abbrev SB : Shape := ⟨2, ![64, 64]⟩
/-- A scalar. -/
abbrev S0 : Shape := ⟨0, ![]⟩

/-- One transition, as the float both programs add: the word of `1.0`. -/
def one : EReal := Ideal.ofBits .f32 0x3F800000#32

/-- The number of entries, as the float both programs add: the word of `4.0e6`. -/
def count : EReal := Ideal.ofBits .f32 0x4A742400#32

open Classical in
/-- The entries whose transition is the pair `i`: from tile `i 0` to tile `i 1`. -/
def hits (P C : IVec SN 32) (i : SB.Idx) : Finset SN.Idx :=
  Finset.univ.filter fun k => (P k).toNat = (i 0).val ∧ (C k).toNat = (i 1).val

/-- The updated table: every cell plus one unit per entry that hits it. -/
def hist (P C : IVec SN 32) (T : FVec Ideal SB .f32) : FVec Ideal SB .f32 :=
  fun i => T i + ∑ _k ∈ hits P C i, one

/-- The updated total: the old one plus the number of entries. -/
def total (t : FVec Ideal S0 .f32) : FVec Ideal S0 .f32 :=
  fun i => t i + count

end Cert.Spec

end
-- ==== Proof.PreFacts.lean ====
/-
  The index ranges, read out of the input precondition.

  The precondition is a conjunction of four `all` reductions; the last two say that every entry of each index array
  is, read as a signed word, at least 0 and at most 63.  A signed word in that range has its top bit clear, so read
  unsigned it is below 64.  Nothing here looks at the float arguments, so the statement holds at every float instance.
-/
import proofs.«201955_g20547123544587_cont_8to1_184_16_alg».proof.Pre_input_domain
import Idealize.ShloMosaic.Lib.ReduceAll
import Idealize.ShloMosaic.Lib.ValueIdx

namespace Cert.PreFacts

open Idealize.ShloMosaic

/-- A scalar has exactly one index. -/
instance subsingletonScalarIdx : Subsingleton Cert.Pre_input_domain.S_.Idx := ⟨fun a b => funext fun d => d.elim0⟩

/-- A 32-bit word that reads, signed, between 0 and 63 reads unsigned below 64. -/
theorem toNat_lt_of_signed {p : BitVec 32} (h0 : (0#32 : BitVec 32).toInt ≤ p.toInt)
    (h1 : p.toInt ≤ (63#32 : BitVec 32).toInt) : p.toNat < 64 := by
  have e0 : (0#32 : BitVec 32).toInt = 0 := by decide
  have e1 : (63#32 : BitVec 32).toInt = 63 := by decide
  rw [e0] at h0; rw [e1] at h1
  have hc := BitVec.toInt_eq_toNat_cond p
  have hlt := p.isLt
  split at hc <;> omega

theorem range {F : FTy → Type} [FloatOps F] [Cert.Pre_input_domain.Facts]
    (P C : IVec Cert.Pre_input_domain.S4000000 32) (T : FVec F Cert.Pre_input_domain.S64x64 .f32) (t : FVec F Cert.Pre_input_domain.S_ .f32)
    (h : Cert.Pre_input_domain.fn (F := F) P C T t = fun _ => 1#1) :
    ∀ k, (P k).toNat < 64 ∧ (C k).toNat < 64 := by
  have h0 := congrFun h ValueIdx.ix0
  dsimp only [Cert.Pre_input_domain.fn, Cert.Pre_input_domain.fn_part1] at h0
  obtain ⟨h123, h4⟩ := IntOp.andi_eq_one.1 (show IntOp.andi _ _ = 1#1 from h0)
  obtain ⟨-, h3⟩ := IntOp.andi_eq_one.1 (show IntOp.andi _ _ = 1#1 from h123)
  intro k
  have hP := Host.reduce_andi_all _ _ _ _ _ h3 k
  have hC := Host.reduce_andi_all _ _ _ _ _ h4 k
  obtain ⟨hP0, hP1⟩ := IntOp.andi_eq_one.1 (show IntOp.andi _ _ = 1#1 from hP)
  obtain ⟨hC0, hC1⟩ := IntOp.andi_eq_one.1 (show IntOp.andi _ _ = 1#1 from hC)
  have hP0' : (0#32 : BitVec 32).toInt ≤ (P k).toInt := IntOp.cmpi_sge.1 hP0
  have hP1' : (P k).toInt ≤ (63#32 : BitVec 32).toInt := IntOp.cmpi_sle.1 hP1
  have hC0' : (0#32 : BitVec 32).toInt ≤ (C k).toInt := IntOp.cmpi_sge.1 hC0
  have hC1' : (C k).toInt ≤ (63#32 : BitVec 32).toInt := IntOp.cmpi_sle.1 hC1
  exact ⟨toNat_lt_of_signed hP0' hP1', toNat_lt_of_signed hC0' hC1'⟩

end Cert.PreFacts
-- ==== Proof.LibScatterAddPairs.lean ====
/-
  A scatter-add into a table through PAIRS of indices, read at a cell.

  The operand is a table of `A × B` cells, the scatter indices are `N` rows of two words each (the index vector lies
  along the second axis), the updates are `N` scalars, one per row: both operand axes are inserted window axes, the
  first word of a row addresses the first operand axis and the second word the second, and no update axis is a window
  axis.  This is the accumulation of `v n` into cell `(p n, c n)` of the table, over all `n`, for index arrays `p`, `c` and updates `v` of one length.

  At the ideal instance the result at a cell `i` is the operand's value there plus the sum of the updates whose row,
  read as a pair of SIGNED words, is exactly `(i 0, i 1)`: `scatterAdd_apply`.  A row that points outside the table
  equals no cell's coordinates, so it contributes to no cell, as the operation specifies.

  The route: an update lands on `i` exactly when, on every operand axis, its start plus its window coordinate is
  `i`'s coordinate (`resultIdx?_eq_some_iff`, for any dimension numbers); with these dimension numbers the window
  coordinate is `0` on both axes (`window_eq`) and the start on axis `a` is word `a` of the update's row (`start_eq`).
-/
import Idealize.ShloMosaic.PureOps.Ideal
import Idealize.ShloMosaic.PureOps.Contract
import Idealize.ShloMosaic.Lib.ValueIdx

noncomputable section

namespace Cert.Lib.ScatterAddPairs

open Idealize.ShloMosaic

/-- An update lands on the operand index `i` exactly when, on every operand axis, the start read off the scatter
    indices plus the update's window coordinate is `i`'s coordinate there.  Any dimension numbers. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have hv := congrArg Fin.val (congrFun (Option.some.inj e) a)
      simp only at hv
      have := h a
      omega
    · intro e
      refine congrArg some (funext fun a => Fin.ext ?_)
      have := e a
      have := h a
      simp only
      omega
  · rename_i h
    constructor
    · intro e; exact absurd e (by simp)
    · intro e
      refine absurd (fun a => ?_) h
      have := e a
      have := (i a).isLt
      constructor <;> omega

variable {A B N : Nat}

/-- The operand: a table of `A × B` cells. -/
abbrev STable (A B : Nat) : Shape := ⟨2, ![A, B]⟩
/-- The scatter indices: `N` rows, each a pair of words. -/
abbrev SPairs (N : Nat) : Shape := ⟨2, ![N, 2]⟩
/-- The updates: one scalar per row. -/
abbrev SUpd (N : Nat) : Shape := ⟨1, ![N]⟩

/-- The dimension numbers of a scatter through pairs: no update window axis, both operand axes inserted, word `a` of a
    row addressing operand axis `a`, the index vector along axis 1 of the scatter indices. -/
abbrev pairDims (wf : ScatterDims.WF (STable A B) (SPairs N) (SUpd N) [] [0, 1] [0, 1] 1) :
    ScatterDims (STable A B) (SPairs N) (SUpd N) := ⟨[], [0, 1], [0, 1], 1, wf⟩

variable (wf : ScatterDims.WF (STable A B) (SPairs N) (SUpd N) [] [0, 1] [0, 1] 1)

/-- Both operand axes are inserted: an update has no window coordinate. -/
theorem window_eq (j : (SUpd N).Idx) (a : Fin 2) : (pairDims wf).window j a = 0 := by
  unfold ScatterDims.window
  have hk : a ∉ (pairDims wf).sKept := by
    intro h
    have h2 := of_decide_eq_true (List.mem_filter.1 h).2
    exact h2 (by fin_cases a <;> simp)
  rw [dif_neg hk]

/-- Word `a` of a row addresses operand axis `a`: `a` stands at position `a` in the list `[0, 1]`. -/
theorem idxOf_pair : ∀ a : Fin 2, List.idxOf a ([0, 1] : List (Fin 2)) = a.val := by decide

/-- The start on operand axis `a` is word `a` of the update's row, read signed. -/
theorem start_eq {w : Nat} (j : (SUpd N).Idx) (idx : IVec (SPairs N) w) (a : Fin 2) :
    (pairDims wf).start j idx a = (idx (ValueIdx.ix2 (j 0) a)).toInt := by
  unfold ScatterDims.start
  have ha : a ∈ (pairDims wf).scatterDimsToOperandDims := by fin_cases a <;> simp
  rw [dif_pos ha]
  refine congrArg (fun z => (idx z).toInt) (funext fun b => Fin.ext ?_)
  unfold ScatterDims.siIdx
  match b with
  | ⟨0, _⟩ =>
    rw [dif_neg Nat.zero_ne_one]
    unfold ScatterDims.siCoord
    show (j _).val = (j 0).val
    exact congrArg (fun z => (j z).val) (Subsingleton.elim (α := Fin 1) _ _)
  | ⟨1, _⟩ =>
    rw [dif_pos rfl]
    exact idxOf_pair a

/-- An update lands on cell `i` exactly when its row of the scatter indices, read as a pair of signed words, is
    `(i 0, i 1)`. -/
theorem resultIdx?_pair_iff {w : Nat} (j : (SUpd N).Idx) (idx : IVec (SPairs N) w) (i : (STable A B).Idx) :
    (pairDims wf).resultIdx? j idx = some i ↔
      (idx (ValueIdx.ix2 (j 0) 0)).toInt = ((i 0).val : Int) ∧ (idx (ValueIdx.ix2 (j 0) 1)).toInt = ((i 1).val : Int) := by
  rw [resultIdx?_eq_some_iff]
  constructor
  · intro h
    have h0 := h 0
    have h1 := h 1
    rw [window_eq wf j 0, start_eq wf j idx 0] at h0
    rw [window_eq wf j 1, start_eq wf j idx 1] at h1
    exact ⟨by simpa using h0, by simpa using h1⟩
  · rintro ⟨h0, h1⟩ a
    rw [window_eq wf j a, start_eq wf j idx a]
    match a with
    | ⟨0, _⟩ => simpa using h0
    | ⟨1, _⟩ => simpa using h1

/-- **The scatter-add through pairs, read at a cell**: the operand's value plus the sum of the updates whose row of the
    scatter indices, read as a pair of signed words, is the cell's pair of coordinates. -/
theorem scatterAdd_apply {φ : FTy} {w : Nat} (x : FVec Ideal (STable A B) φ) (idx : IVec (SPairs N) w)
    (upd : FVec Ideal (SUpd N) φ) (i : (STable A B).Idx) :
    Host.scatterAdd (F := Ideal) (pairDims wf) x idx upd i =
      x i + ∑ n ∈ Finset.univ.filter (fun n : (SUpd N).Idx =>
        (idx (ValueIdx.ix2 (n 0) 0)).toInt = ((i 0).val : Int) ∧ (idx (ValueIdx.ix2 (n 0) 1)).toInt = ((i 1).val : Int)),
        upd n := by
  show Ideal.hostScatterAdd (pairDims wf) x idx upd i = _
  unfold Ideal.hostScatterAdd
  refine congrArg (x i + ·) (Finset.sum_congr (Finset.filter_congr fun n _ => resultIdx?_pair_iff wf n idx i) fun _ _ => rfl)

end Cert.Lib.ScatterAddPairs

end
-- ==== Proof.RefValue.lean ====
/-
  The reference at the ideal instance, read as the specification.

  The reference wraps each index word (`p + 64` when `p < 0`, else `p`), pairs the two wrapped arrays row by row into
  a `4 000 000 × 2` array, and accumulates the float `1.0` into cell `(row n)` of the table for every `n`; the running
  total gets the float `4.0e6` added.

  Under the index ranges (every word, read unsigned, below 64):

  * a word below 64 is nonnegative read signed, so the wrap leaves it alone (`wrap_eq`), and its signed reading is
    its unsigned one (`toInt_eq_toNat`);
  * row `n` of the paired array is `(P n, C n)` (`pairs_left`, `pairs_right`: a concatenation along the second axis
    read at column 0 and at column 1);
  * so the accumulation's cell `i` receives exactly the entries `n` with `(P n).toNat = i 0` and `(C n).toNat = i 1`,
    each contributing the word of `1.0`: the table of the specification (`hist_eq`);
  * the total is the old one plus the word of `4.0e6` (`total_eq`), by unfolding.

  The run of the reference then ends with these two values and its arguments unchanged (`run_spec`), and in
  particular it runs and leaves its arguments unchanged (`frame`).
-/
import proofs.«201955_g20547123544587_cont_8to1_184_16_alg».proof.Defs
import proofs.«201955_g20547123544587_cont_8to1_184_16_alg».proof.Proof.Gen.ReferenceIdeal.Run
import proofs.«201955_g20547123544587_cont_8to1_184_16_alg».proof.Proof.Gen.ReferenceIdeal.Read
import proofs.«201955_g20547123544587_cont_8to1_184_16_alg».proof.Proof.Spec
import proofs.«201955_g20547123544587_cont_8to1_184_16_alg».proof.Proof.PreFacts
import proofs.«201955_g20547123544587_cont_8to1_184_16_alg».proof.Proof.LibScatterAddPairs

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## Words below 64 -/

/-- A word below 64 reads the same signed and unsigned. -/
theorem toInt_eq_toNat {p : BitVec 32} (h : p.toNat < 64) : p.toInt = (p.toNat : Int) :=
  BitVec.toInt_eq_toNat_of_lt (by omega)

/-- A word below 64 is not negative, so the wrap `p < 0 ? p + 64 : p` leaves it alone. -/
theorem wrap_eq {p : BitVec 32} (h : p.toNat < 64) :
    Scalar.select (IntOp.cmpi .slt p 0#32) (IntOp.addi p 64#32) p = p := by
  have hc : ¬ IntOp.cmpi .slt p 0#32 = 1#1 := by
    rw [IntOp.cmpi_slt, toInt_eq_toNat h, show (0#32 : BitVec 32).toInt = 0 from by decide]
    omega
  exact if_neg hc

variable {F : FTy → Type} [FloatOps F]

/-- The wrapped first index array is the array itself, on words below 64. -/
theorem wrapped0_apply (P : IVec S4000000 32) (k : S4000000.Idx) (h : (P k).toNat < 64) :
    Read.val_main_v4 (F := F) P k = P k := by
  rw [Read.val_main_v4_apply, Read.val_main_v1_apply, Read.val_main_v3_apply, Read.val_main_v0_apply,
    Read.val_main_v2_apply, Read.val_main_c_apply, Read.val_main_c_0_apply]
  exact wrap_eq h

/-- The wrapped second index array is the array itself, on words below 64. -/
theorem wrapped1_apply (C : IVec S4000000 32) (k : S4000000.Idx) (h : (C k).toNat < 64) :
    Read.val_main_v9 (F := F) C k = C k := by
  rw [Read.val_main_v9_apply, Read.val_main_v6_apply, Read.val_main_v8_apply, Read.val_main_v5_apply,
    Read.val_main_v7_apply, Read.val_main_c_1_apply, Read.val_main_c_2_apply]
  exact wrap_eq h

/-! ## The paired index array, row by row -/

/-- Column 0 of row `n` of the paired array is the wrapped first index array at `n`. -/
theorem pairs_left (P C : IVec S4000000 32) (n : Fin 4000000) :
    Read.val_main_v12 (F := F) P C (ValueIdx.ix2 n 0) = Read.val_main_v4 (F := F) P (ValueIdx.ix1 n) := by
  unfold Read.val_main_v12
  rw [concatenate_pair_apply_left (1 : Fin S4000000x2.rank) _ _ concatenates_S4000000x1_S4000000x1_S4000000x2_d1
    (ValueIdx.ix2 n 0) rfl (ValueIdx.ix2 n 0) (fun b => match b with | ⟨0, _⟩ => rfl | ⟨1, _⟩ => rfl)]
  rw [Read.val_main_v10_apply]
  exact congrArg _ (funext fun a => match a with | ⟨0, _⟩ => rfl)

/-- Column 1 of row `n` of the paired array is the wrapped second index array at `n`. -/
theorem pairs_right (P C : IVec S4000000 32) (n : Fin 4000000) :
    Read.val_main_v12 (F := F) P C (ValueIdx.ix2 n 1) = Read.val_main_v9 (F := F) C (ValueIdx.ix1 n) := by
  unfold Read.val_main_v12
  rw [concatenate_pair_apply_right (1 : Fin S4000000x2.rank) _ _ concatenates_S4000000x1_S4000000x1_S4000000x2_d1
    (ValueIdx.ix2 n 1) rfl rfl (ValueIdx.ix2 n 0)
    (fun b => match b with | ⟨0, _⟩ => fun _ => rfl | ⟨1, _⟩ => fun hne => absurd rfl hne) rfl]
  rw [Read.val_main_v11_apply]
  exact congrArg _ (funext fun a => match a with | ⟨0, _⟩ => rfl)

/-! ## The two results -/

/-- Every update is the word of `1.0`. -/
theorem unit_apply (n : S4000000.Idx) : Read.val_main_v13 (F := Ideal) n = Cert.Spec.one := by
  rw [Read.val_main_v13_apply, Read.val_main_cst_apply]
  rfl

/-- Under the index ranges, row `n` of the paired array is the cell `i` exactly when entry `n` hits `i`. -/
theorem row_iff (P C : IVec S4000000 32) (hr : ∀ k, (P k).toNat < 64 ∧ (C k).toNat < 64) (i : S64x64.Idx)
    (n : S4000000.Idx) :
    ((Read.val_main_v12 (F := Ideal) P C (ValueIdx.ix2 (n 0) 0)).toInt = ((i 0).val : Int)
        ∧ (Read.val_main_v12 (F := Ideal) P C (ValueIdx.ix2 (n 0) 1)).toInt = ((i 1).val : Int))
      ↔ ((P n).toNat = (i 0).val ∧ (C n).toNat = (i 1).val) := by
  have hn : ValueIdx.ix1 (n 0) = n := (ValueIdx.eq_ix1 n).symm
  have e0 : (Read.val_main_v12 (F := Ideal) P C (ValueIdx.ix2 (n 0) 0)).toInt = ((P n).toNat : Int) :=
    (congrArg BitVec.toInt ((pairs_left P C (n 0)).trans
      ((congrArg (Read.val_main_v4 (F := Ideal) P) hn).trans (wrapped0_apply P n (hr n).1)))).trans
      (toInt_eq_toNat (hr n).1)
  have e1 : (Read.val_main_v12 (F := Ideal) P C (ValueIdx.ix2 (n 0) 1)).toInt = ((C n).toNat : Int) :=
    (congrArg BitVec.toInt ((pairs_right P C (n 0)).trans
      ((congrArg (Read.val_main_v9 (F := Ideal) C) hn).trans (wrapped1_apply C n (hr n).2)))).trans
      (toInt_eq_toNat (hr n).2)
  constructor
  · rintro ⟨h0, h1⟩
    have g0 := e0.symm.trans h0
    have g1 := e1.symm.trans h1
    exact ⟨by omega, by omega⟩
  · rintro ⟨h0, h1⟩
    exact ⟨e0.trans (congrArg _ h0), e1.trans (congrArg _ h1)⟩

/-- The reference's table is the specification's, under the index ranges. -/
theorem hist_eq [Facts] (P C : IVec S4000000 32) (T : FVec Ideal S64x64 .f32)
    (hr : ∀ k, (P k).toNat < 64 ∧ (C k).toNat < 64) :
    Read.val_main_v14 (F := Ideal) P C T = Cert.Spec.hist P C T := by
  funext i
  unfold Read.val_main_v14
  refine (Cert.Lib.ScatterAddPairs.scatterAdd_apply (A := 64) (B := 64) (N := 4000000)
    Facts₀.scatter_S64x64_S4000000x2_S4000000_n_01_01_1_wf T (Read.val_main_v12 (F := Ideal) P C)
    (Read.val_main_v13 (F := Ideal)) i).trans ?_
  unfold Cert.Spec.hist Cert.Spec.hits
  refine congrArg (T i + ·) (Finset.sum_congr (Finset.filter_congr fun n _ => row_iff P C hr i n) fun n _ => unit_apply n)

/-- The reference's total is the specification's. -/
theorem total_eq (t : FVec Ideal S_ .f32) : Read.val_main_v15 (F := Ideal) t = Cert.Spec.total t := by
  funext i
  rw [Read.val_main_v15_apply, Read.val_main_cst_3_apply]
  rfl

/-! ## The run -/

/-- Under the index ranges, the reference runs and ends with the specification's table and total, its arguments
    unchanged. -/
theorem run_spec [Cert.ReferenceIdeal.Facts]
    (m : (ℓ : Loc Cert.ReferenceIdeal.nD Cert.ReferenceIdeal.τ Cert.ReferenceIdeal.sig) → Buf (Elt Ideal) ℓ) (ρ : Dev Cert.ReferenceIdeal.nD → PrngReg)
    (hr : ∀ (c : Dev Cert.ReferenceIdeal.nD) k,
        ((m ((c.tc : Thread Cert.ReferenceIdeal.nD Cert.ReferenceIdeal.τ).loc Cert.ReferenceIdeal.main_arg0)) k).toNat < 64
      ∧ ((m ((c.tc : Thread Cert.ReferenceIdeal.nD Cert.ReferenceIdeal.τ).loc Cert.ReferenceIdeal.main_arg1)) k).toNat < 64) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v14) = Cert.Spec.hist (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
          ∧ r.2.mem ((c.tc : Thread Cert.ReferenceIdeal.nD Cert.ReferenceIdeal.τ).loc Cert.ReferenceIdeal.main_v15) = Cert.Spec.total (m ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c =>
      ⟨(h c).1.trans ((Read.val_main_v14_eq _ _ _).trans (hist_eq _ _ _ (hr c))),
        (h c).2.1.trans ((Read.val_main_v15_eq _).trans (total_eq _)),
        (h c).2.2⟩)
    (Cert.ReferenceIdeal.Value.run (F := Ideal) m ρ)

/-- The reference runs and leaves its arguments unchanged: the run above with the two results dropped (the index
    ranges are not needed for that). -/
theorem frame [hR : Cert.ReferenceIdeal.Facts] [hP : Cert.Pre_input_domain.Facts] : Cert.frame_ReferenceIdeal :=
  fun m ρ _ => (θ_run Cert.ReferenceIdeal.defs _ _).mono (fun _ h c => (h c).2.2)
    (Cert.ReferenceIdeal.Value.run (F := Ideal) m ρ)

end Cert.ReferenceIdeal.RefValue

end
-- ==== Proof.HistSetup.lean ====
/-
  The idealized kernel's program as the SparseCore launch theorem sees it, and the names the tile's proof is written over.

  The program has one SparseCore call: on each of the two SparseCores every one of the sixteen vector subcores runs the
  histogram body once.  Worker `w = 2 · s + c` (subcore `s` of SparseCore `c`) counts the transitions of entries
  `[124992 · w, 124992 · (w + 1))`, the last worker also those of the 256 entries that remain, into a table of sixteen
  lane copies of the 64 × 64 cells, adds the copies up and writes the 4096 sums to row `w` of a 32 × 4096 array.  The
  TensorCore then adds the 32 rows to the table it was given.

  A tile only ever waits for copies it issued itself, each on a semaphore of its own, one copy in flight per semaphore:
  no thread signals another, so the kernel needs no schedule of its own beyond the launch's handshakes; the ghost state is
  the handshakes' rounds beside the counters of the local transfers.
-/
import proofs.«201955_g20547123544587_cont_8to1_184_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«201955_g20547123544587_cont_8to1_184_16_alg».proof.Proof.Gen.KernelIdeal
import proofs.«201955_g20547123544587_cont_8to1_184_16_alg».proof.Proof.Gen.KernelIdeal.Skeleton

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore call's staging rounds, the local transfers' counters -/

abbrev UH : Type := URounds (GSem nD τ sig) ℕ
/-- The rounds of the TensorCore call's staging cells. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays and a tile's scratch -/

variable (m : (ℓ : Loc nD τ sig) → Buf (Elt F) ℓ) (ρ : Dev nD → PrngReg)

/-- The two index arrays (the arguments) and the 32 × 4096 array of the workers' sums, as locations of device `d`. -/
abbrev pLoc (d : Dev nD) : Loc nD τ sig := (SparseCore.T d).loc main_arg0
abbrev cLoc (d : Dev nD) : Loc nD τ sig := (SparseCore.T d).loc main_arg1
abbrev oLoc (d : Dev nD) : Loc nD τ sig := (SparseCore.T d).loc main_v0

abbrev pV : Memref sig .scVector .hbm S4000000 .i32 := Memref.whole main_arg0_scv
abbrev cV' : Memref sig .scVector .hbm S4000000 .i32 := Memref.whole main_arg1_scv
abbrev oV : Memref sig .scVector .hbm S32x4096 .f32 := Memref.whole main_v0_scv
/-- A tile's scratch: the sixteen lane copies of the table, the two pairs of chunk buffers, the pair for the last 256
    entries, and the 4096 sums. -/
abbrev sH : Memref sig .scVector .vmem S65536 .f32 := Memref.whole cc0_scratch0
abbrev sP0 : Memref sig .scVector .vmem S10416 .i32 := Memref.whole cc0_scratch1
abbrev sC0 : Memref sig .scVector .vmem S10416 .i32 := Memref.whole cc0_scratch2
abbrev sP1 : Memref sig .scVector .vmem S10416 .i32 := Memref.whole cc0_scratch3
abbrev sC1 : Memref sig .scVector .vmem S10416 .i32 := Memref.whole cc0_scratch4
abbrev sPT : Memref sig .scVector .vmem S256 .i32 := Memref.whole cc0_scratch5
abbrev sCT : Memref sig .scVector .vmem S256 .i32 := Memref.whole cc0_scratch6
abbrev sO : Memref sig .scVector .vmem S4096 .f32 := Memref.whole cc0_scratch7

section Tile

variable (d : Dev nD) (L : grid0.Coords)

/-- The tile at grid coordinates `L`: SparseCore `L 0`, vector subcore `L 1`. -/
abbrev cT (L : grid0.Coords) : Fin τ.nSC := (L 0).castLE hcore0
abbrev jT (L : grid0.Coords) : Fin τ.nSub := (L 1).castLE hsub0

/-- The tile's worker number `2 · s + c`: the row of the sums' array it writes, and (times 124992) where its entries start. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

end Tile

end Cert.Proof.HistIdeal

end
-- ==== Proof.HistTile.lean ====
/-
  One tile's task: what it owns, what it is handed, and what it hands back.

  A tile owns eight scratch buffers (the sixteen lane copies of the table, two pairs of chunk buffers, the pair of
  buffers for the last 256 entries, the 4096 sums) and seven transfer semaphores (one per chunk buffer, two for the last
  entries' copies, one for the copy of the sums to the output row), each of which it finds at zero.
-/
import proofs.«201955_g20547123544587_cont_8to1_184_16_alg».proof.Proof.HistSetup

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's seven semaphores and eight buffers, by number -/

/-- The tile's transfer semaphores, in the order the body names them: the four chunk buffers', the two of the last
    entries' copies, the output copy's. -/
def dsem : Fin 7 → DmaSem sig
  | 0 => cc0_scratch8.sem | 1 => cc0_scratch9.sem | 2 => cc0_scratch10.sem | 3 => cc0_scratch11.sem
  | 4 => cc0_scoped0.sem | 5 => cc0_scoped1.sem | 6 => cc0_scoped2.sem

theorem dsem_injective : Function.Injective dsem := by decide
theorem dsem_scoped : ∀ k : Fin 7, (SemLoc.dma (dsem k) : SemLoc sig).isScoped .scVector = true := by decide

/-- The tile's scratch buffers, in the order the body names them. -/
def dbuf : Fin 8 → Ref sig .scVector
  | 0 => cc0_scratch0 | 1 => cc0_scratch1 | 2 => cc0_scratch2 | 3 => cc0_scratch3
  | 4 => cc0_scratch4 | 5 => cc0_scratch5 | 6 => cc0_scratch6 | 7 => cc0_scratch7

theorem dbuf_injective : Function.Injective dbuf := by decide

section Tile

variable (d : Dev nD) (L : grid0.Coords)

/-- Semaphore `k` of the tile at `L`, as a cell of the machine. -/
abbrev cell (k : Fin 7) : GSem nD τ sig := (V d (cT L) (jT L), .dma (dsem k))

theorem cell_injective : Function.Injective (cell d L) := fun a b e =>
  dsem_injective (SemLoc.dma.inj (Prod.mk.inj e).2)

/-- The seven cells are among the tile's own. -/
theorem cells_sub : (Finset.univ.image (cell d L)) ⊆ ownCells (V d (cT L) (jT L)) := by
  intro g hg
  obtain ⟨k, -, rfl⟩ := Finset.mem_image.mp hg
  exact mem_ownCells.mpr ⟨rfl, dsem_scoped k⟩

theorem bigSep_fin7 (Ψ : Fin 7 → sProp 𝕄) :
    bigSep (Finset.univ : Finset (Fin 7)) Ψ = iprop(Ψ 0 ∗ Ψ 1 ∗ Ψ 2 ∗ Ψ 3 ∗ Ψ 4 ∗ Ψ 5 ∗ Ψ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bigSep_fin8 (Ψ : Fin 8 → sProp 𝕄) :
    bigSep (Finset.univ : Finset (Fin 8)) Ψ = iprop(Ψ 0 ∗ Ψ 1 ∗ Ψ 2 ∗ Ψ 3 ∗ Ψ 4 ∗ Ψ 5 ∗ Ψ 6 ∗ Ψ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The tile's semaphores at zero: its seven transfer semaphores, each at zero, and the rest. -/
theorem ownSems0_V :
    (ownSems0 (V d (cT L) (jT L)) : sProp 𝕄)
      = iprop((semVal (cell d L 0) 0 ∗ semVal (cell d L 1) 0 ∗ semVal (cell d L 2) 0 ∗ semVal (cell d L 3) 0
            ∗ semVal (cell d L 4) 0 ∗ semVal (cell d L 5) 0 ∗ semVal (cell d L 6) 0)
          ∗ bigSep (ownCells (V d (cT L) (jT L)) \ Finset.univ.image (cell d L)) fun g => semVal g 0) := by
  unfold SparseCore.Cfg.ownSems0
  rw [SparseCore.bigSep_sdiff_split' (cells_sub d L),
    SparseCore.bigSep_image_of_injOn (fun a _ b _ e => cell_injective d L e), bigSep_fin7]

/-- The same, each semaphore under the name the body gives it. -/
theorem ownSems0_V' :
    (ownSems0 (V d (cT L) (jT L)) : sProp 𝕄)
      = iprop((semVal ((V d (cT L) (jT L)), SemLoc.dma cc0_scratch8.sem) 0 ∗ semVal ((V d (cT L) (jT L)), SemLoc.dma cc0_scratch9.sem) 0
            ∗ semVal ((V d (cT L) (jT L)), SemLoc.dma cc0_scratch10.sem) 0 ∗ semVal ((V d (cT L) (jT L)), SemLoc.dma cc0_scratch11.sem) 0
            ∗ semVal ((V d (cT L) (jT L)), SemLoc.dma cc0_scoped0.sem) 0 ∗ semVal ((V d (cT L) (jT L)), SemLoc.dma cc0_scoped1.sem) 0
            ∗ semVal ((V d (cT L) (jT L)), SemLoc.dma cc0_scoped2.sem) 0)
          ∗ bigSep (ownCells (V d (cT L) (jT L)) \ Finset.univ.image (cell d L)) fun g => semVal g 0) :=
  ownSems0_V d L

/-- Buffer `k` of the tile at `L`, as a buffer of the device. -/
abbrev bref (k : Fin 8) : DevRef τ sig := (Proc.scVector (cT L) (jT L)).devRef (dbuf k)

theorem bref_injective : Function.Injective (bref L) := fun a b e =>
  dbuf_injective (Proc.devRef_injective _ e)

theorem brefs_sub : (Finset.univ.image (bref L)) ⊆ ownRefs (τ := τ) (sig := sig) (.scVector (cT L) (jT L)) := by
  intro b hb
  obtain ⟨k, -, rfl⟩ := Finset.mem_image.mp hb
  refine SparseCore.Cfg.mem_ownRefs_of_owner ?_
  fin_cases k <;> rfl

/-- The tile's buffers: its eight scratch buffers, each whole at some contents, and the rest. -/
theorem ownBufs_V :
    (ownBufs (V d (cT L) (jT L)) : sProp 𝕄)
      = iprop(((∃ f, (V d (cT L) (jT L)).loc cc0_scratch0 ↦{fullShare} f) ∗ (∃ f, (V d (cT L) (jT L)).loc cc0_scratch1 ↦{fullShare} f)
            ∗ (∃ f, (V d (cT L) (jT L)).loc cc0_scratch2 ↦{fullShare} f) ∗ (∃ f, (V d (cT L) (jT L)).loc cc0_scratch3 ↦{fullShare} f)
            ∗ (∃ f, (V d (cT L) (jT L)).loc cc0_scratch4 ↦{fullShare} f) ∗ (∃ f, (V d (cT L) (jT L)).loc cc0_scratch5 ↦{fullShare} f)
            ∗ (∃ f, (V d (cT L) (jT L)).loc cc0_scratch6 ↦{fullShare} f) ∗ (∃ f, (V d (cT L) (jT L)).loc cc0_scratch7 ↦{fullShare} f))
          ∗ bigSep (ownRefs (τ := τ) (.scVector (cT L) (jT L)) \ Finset.univ.image (bref L))
              fun b => iprop(∃ f, ((d, b) : Loc nD τ sig) ↦{fullShare} f)) := by
  unfold SparseCore.Cfg.ownBufs
  rw [SparseCore.bigSep_sdiff_split' (brefs_sub L),
    SparseCore.bigSep_image_of_injOn (fun a _ b _ e => bref_injective L e), bigSep_fin8]
  rfl

/-- The same, each buffer through the memref the body addresses it by. -/
theorem ownBufs_V' :
    (ownBufs (V d (cT L) (jT L)) : sProp 𝕄)
      = iprop(((∃ f, (sH : Memref sig .scVector .vmem S65536 .f32).view.loc (V d (cT L) (jT L)) ↦{fullShare} f)
            ∗ (∃ f, (sP0 : Memref sig .scVector .vmem S10416 .i32).view.loc (V d (cT L) (jT L)) ↦{fullShare} f)
            ∗ (∃ f, (sC0 : Memref sig .scVector .vmem S10416 .i32).view.loc (V d (cT L) (jT L)) ↦{fullShare} f)
            ∗ (∃ f, (sP1 : Memref sig .scVector .vmem S10416 .i32).view.loc (V d (cT L) (jT L)) ↦{fullShare} f)
            ∗ (∃ f, (sC1 : Memref sig .scVector .vmem S10416 .i32).view.loc (V d (cT L) (jT L)) ↦{fullShare} f)
            ∗ (∃ f, (sPT : Memref sig .scVector .vmem S256 .i32).view.loc (V d (cT L) (jT L)) ↦{fullShare} f)
            ∗ (∃ f, (sCT : Memref sig .scVector .vmem S256 .i32).view.loc (V d (cT L) (jT L)) ↦{fullShare} f)
            ∗ (∃ f, (sO : Memref sig .scVector .vmem S4096 .f32).view.loc (V d (cT L) (jT L)) ↦{fullShare} f))
          ∗ bigSep (ownRefs (τ := τ) (.scVector (cT L) (jT L)) \ Finset.univ.image (bref L))
              fun b => iprop(∃ f, ((d, b) : Loc nD τ sig) ↦{fullShare} f)) :=
  ownBufs_V d L

end Tile

end Cert.Proof.HistIdeal

end
-- ==== Proof.HistTab.lean ====
/-
  The table of lane copies, step by step.

  The body forms, for sixteen transitions `(p, c)` at a time (one per lane), the sixteen cells `64 · p + c + 4096 · lane`
  (`addr p c`: lane `r`'s cell lies in lane copy `r` of the 4096 cells, so the sixteen are pairwise distinct) and adds one
  unit to each (`stepTab`).  A buffer of `N` tile numbers is consumed sixteen at a time, in order (`vecAt g n` is entries
  `[16 · n, 16 · n + 16)`), a pair of buffers `(g₀, g₁)` side by side: `tabN g₀ g₁ f n` is the table `f` after the first `n`
  vectors of the pair.  A chunk is 651 vectors (10416 entries), the last entries' pair 16 vectors (256 entries).
  All of it at any float instance: nothing here adds floats, it only says in which order the body does.
-/
import proofs.«201955_g20547123544587_cont_8to1_184_16_alg».proof.Proof.HistSetup
import Idealize.ShloMosaic.Lib.ValueIdx

noncomputable section

namespace Cert.Proof.HistIdeal

open Cert.KernelIdeal Cert.KernelIdeal.Gen
open Idealize.ShloMosaic

variable {F : FTy → Type} [FloatOps F]

/-- The cells sixteen transitions hit, lane by lane: `64 · p + c + 4096 · lane`. -/
def addr (p c : IVec S16 32) : IVec S16 32 := addi (addi (muli p (broadcast S16 64#32)) c) k0_pay53

/-- Every one of the sixteen cells lies inside the 65536 cells of the lane copies. -/
def InB (a : IVec S16 32) : Prop :=
  ∀ (x : Fin 1) (y : S16.Idx), ((![a] : Fin 1 → IVec S16 32) x y).toNat < S65536.size x

open Classical in
/-- One step: one unit added at each of the sixteen cells of `(p, c)` (nothing, were a cell outside the table: it never is). -/
def stepTab (f : Vec F S65536 .f32) (p c : IVec S16 32) : Vec F S65536 .f32 :=
  if h : InB (addr p c) then storeIdx f ![addr p c] (k0_pay54 (F := F)) (fun _ => 1#1) true h else f

/-- Entries `[16 · n, 16 · n + 16)` of a buffer of `N` tile numbers, as a vector of sixteen. -/
def vecAt {N : ℕ} (hN : 0 < N) (g : IVec ⟨1, ![N]⟩ 32) (n : ℕ) : IVec S16 32 :=
  fun y => g (ValueIdx.ix1 ⟨(16 * n + (y 0).val) % N, Nat.mod_lt _ hN⟩)

/-- The table after the first `n` vectors of the pair of buffers `(g₀, g₁)`. -/
def tabN {N : ℕ} (hN : 0 < N) (g₀ g₁ : IVec ⟨1, ![N]⟩ 32) (f : Vec F S65536 .f32) : ℕ → Vec F S65536 .f32
  | 0 => f
  | n + 1 => stepTab (tabN hN g₀ g₁ f n) (vecAt hN g₀ n) (vecAt hN g₁ n)

/-- The table after a whole chunk (651 vectors of sixteen entries). -/
abbrev chunkTab (g₀ g₁ : IVec S10416 32) (f : Vec F S65536 .f32) : Vec F S65536 .f32 :=
  tabN (N := 10416) (by decide) g₀ g₁ f 651

/-- The table after the last 256 entries (16 vectors). -/
abbrev tailTab (g₀ g₁ : IVec S256 32) (f : Vec F S65536 .f32) : Vec F S65536 .f32 :=
  tabN (N := 256) (by decide) g₀ g₁ f 16

/-! ## A worker's whole run -/

/-- The cleared table: every cell the float zero. -/
def zeroTab : Vec F S65536 .f32 := fun _ => Scalar.ofBits .f32 0x00000000#32

/-- Chunk `i` (of twelve) of worker `w`'s part of an index array: entries `[124992 · w + 10416 · i, … + 10416)`. -/
def chunkOf (A : IVec S4000000 32) (w i : ℕ) : IVec S10416 32 :=
  fun j => A (ValueIdx.ix1 ⟨(124992 * w + 10416 * i + (j 0).val) % 4000000, Nat.mod_lt _ (by decide)⟩)

/-- The last 256 entries of an index array. -/
def tailOf (A : IVec S4000000 32) : IVec S256 32 :=
  fun j => A (ValueIdx.ix1 ⟨(3999744 + (j 0).val) % 4000000, Nat.mod_lt _ (by decide)⟩)

/-- Worker `w`'s table after its first `n` chunks, from the cleared table. -/
def chunksTab (A B : IVec S4000000 32) (w : ℕ) : ℕ → Vec F S65536 .f32
  | 0 => zeroTab
  | n + 1 => chunkTab (chunkOf A w n) (chunkOf B w n) (chunksTab A B w n)

/-- Worker `w`'s table when it is done counting: twelve chunks, and for the last worker the last 256 entries. -/
def finalTab (A B : IVec S4000000 32) (w : ℕ) : Vec F S65536 .f32 :=
  if w = 31 then tailTab (tailOf A) (tailOf B) (chunksTab (F := F) A B w 12) else chunksTab A B w 12

/-- Cells `[16 · t, 16 · t + 16)` of lane copy `r` of a table. -/
def laneVec (f : Vec F S65536 .f32) (r t : ℕ) : Vec F S16 .f32 :=
  fun y => f (ValueIdx.ix1 ⟨(4096 * r + 16 * t + (y 0).val) % 65536, Nat.mod_lt _ (by decide)⟩)

/-- The sixteen lane copies of cells `[16 · t, 16 · t + 16)` added up, pairwise as the body adds them. -/
def sumVec (f : Vec F S65536 .f32) (t : ℕ) : FVec F S16 .f32 :=
  k0_pay64 (laneVec f 0 t) (laneVec f 1 t) (laneVec f 2 t) (laneVec f 3 t) (laneVec f 4 t) (laneVec f 5 t) (laneVec f 6 t) (laneVec f 7 t) (laneVec f 8 t) (laneVec f 9 t) (laneVec f 10 t) (laneVec f 11 t) (laneVec f 12 t) (laneVec f 13 t) (laneVec f 14 t) (laneVec f 15 t)

/-- The 4096 sums of a table's sixteen lane copies. -/
def rowOfTab (f : Vec F S65536 .f32) : Vec F S4096 .f32 :=
  fun b => sumVec f ((b 0).val / 16) (ValueIdx.ix1 ⟨(b 0).val % 16, Nat.mod_lt _ (by decide)⟩)

/-- Every word of a buffer is a tile number. -/
def Tiles {s : Shape} (g : IVec s 32) : Prop := ∀ j, (g j).toNat < 64

end Cert.Proof.HistIdeal

end
-- ==== Proof.HistPay.lean ====
/-
  What the SparseCore call hands each SparseCore and each tile, and what comes back.

  Each of the 32 tiles is handed two read shares of each index array (one per chunk-buffer pair: two of its copies read an
  array at a time; the 64 shares of an array are the 64 read tokens the array's full ownership splits into) and row `w` of
  the sums' array; it hands the same back, the row at contents `f` of which `RowOK` holds (what the worker's sums are:
  nothing for a frame, the worker's counts for the value).  A SparseCore is handed its sixteen tiles' shares together,
  so dealing them to the tiles and collecting them is the identity.
-/
import proofs.«201955_g20547123544587_cont_8to1_184_16_alg».proof.Proof.HistTile
import proofs.«201955_g20547123544587_cont_8to1_184_16_alg».proof.Proof.HistTab

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
-- what a tile's row of sums holds when the tile is done
variable (RowOK : (d : Dev nD) → grid0.Coords → Buf (Elt F) (oLoc d) → Prop)

section Tile

variable (d : Dev nD) (L : grid0.Coords)

/-- Read share number `2 · w + slot` of the 64 an index array is cut into: worker `w`'s, for its chunk-buffer pair `slot`. -/
def tokIx (slot : Fin 2) : Fin 64 := ⟨2 * wid L + slot.val, by have := wid_lt L; have := slot.isLt; omega⟩

/-- The tile's read share of the first index array for buffer pair `slot`, and of the second. -/
abbrev pTok (slot : Fin 2) : sProp 𝕄 :=
  (pV : Memref sig .scVector .hbm S4000000 .i32).view.loc (V d (cT L) (jT L)) ↦{Transfers.shareTok fullShare 64 (tokIx L slot)} m (pLoc d)
abbrev cTok (slot : Fin 2) : sProp 𝕄 :=
  (cV' : Memref sig .scVector .hbm S4000000 .i32).view.loc (V d (cT L) (jT L)) ↦{Transfers.shareTok fullShare 64 (tokIx L slot)} m (cLoc d)

/-- Row `w` of the sums' array, as the body addresses it when it copies its 4096 sums out. -/
abbrev oRowK : Memref sig .scVector .hbm S4096 .f32 :=
  ((oV : Memref sig .scVector .hbm S32x4096 .f32).slice (Rect.unit (s := S32x4096) (k0_off9 L) S1x4096.size (k0_off9_inb L)) (fun _ => rfl)).squeeze S4096 squeezes_S1x4096_S4096

abbrev oRowPts (f : Buf (Elt F) (oLoc d)) : sProp 𝕄 :=
  (oRowK L).view.loc (V d (cT L) (jT L)) ↦[(oRowK L).view.set]{fullShare} f

variable [FloatOps F] in
/-- Row `w` of the sums' array reads as the sums of worker `w`'s final table. -/
def RowHolds (f : Buf (Elt F) (oLoc d)) : Prop :=
  (oRowK L).view.read (Elt F) f = rowOfTab (finalTab (F := F) (m (pLoc d)) (m (cLoc d)) (wid L))

/-- What the tile at `L` is handed, and what it hands back. -/
def goRes : sProp 𝕄 :=
  iprop(pTok m d L 0 ∗ pTok m d L 1 ∗ cTok m d L 0 ∗ cTok m d L 1 ∗ oRowPts d L (m (oLoc d)))
def tdRes : sProp 𝕄 :=
  iprop(pTok m d L 0 ∗ pTok m d L 1 ∗ cTok m d L 0 ∗ cTok m d L 1 ∗ ∃ f, oRowPts d L f ∗ ⌜RowOK d L f⌝)

end Tile

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The one call's payloads: a SparseCore's is its sixteen tiles' together. -/
def P : (K (F := F)).Pay (nD := nD) (Val := Elt F) (Name := ℕ) (U := UU) where
  st := fun q d c => match q with
    | 0 => bigSep Finset.univ fun i : Fin ((K (F := F)).nSub 0) => goRes m d (coordsV c i)
  dn := fun q d c => match q with
    | 0 => bigSep Finset.univ fun i : Fin ((K (F := F)).nSub 0) => tdRes m RowOK d (coordsV c i)
  go := fun q d c i => match q with | 0 => goRes m d (coordsV c i)
  td := fun q d c i => match q with | 0 => tdRes m RowOK d (coordsV c i)
  x := fun _ _ => iprop(emp)

instance P_storable : (P (F := F) m RowOK).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

/-- Dealing a SparseCore's payload to its tiles, and collecting theirs: the identity. -/
theorem vecSplit : (K (F := F)).VecSplit' (P m RowOK) 0 := by
  intro d c
  show (bigSep Finset.univ fun i : Fin ((K (F := F)).nSub 0) => goRes m d (coordsV c i)) ⊢ |={Set.univ}=> iprop(
      (bigSep Finset.univ fun i : Fin ((K (F := F)).nSub 0) => goRes m d (coordsV c i))
      ∗ ((bigSep Finset.univ fun i : Fin ((K (F := F)).nSub 0) => tdRes m RowOK d (coordsV c i))
          -∗ (bigSep Finset.univ fun i : Fin ((K (F := F)).nSub 0) => tdRes m RowOK d (coordsV c i))))
  iintro H; imodintro
  isplitl [H]; · iexact H
  iintro H; iexact H

end Cert.Proof.HistIdeal

end
-- ==== Proof.HistLocal.lean ====
/-
  What a tile's row of sums reads depends only on the array's elements in that row: two contents of the sums' array that
  agree on the row read the same through the row's view, so if one reads as the sums of the tile's final table, so does
  the other.  At any float instance.
-/
import proofs.«201955_g20547123544587_cont_8to1_184_16_alg».proof.Proof.HistPay

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a row reads depends only on the array's elements in that row. -/
theorem rowHolds_local (m : (ℓ : Loc nD τ sig) → Buf (Elt F) ℓ) (d : Dev nD) (L : grid0.Coords)
    (f g : Buf (Elt F) (oLoc d)) (hfg : ∀ i ∈ (oRowK L).view.set, g i = f i) :
    RowHolds m d L f → RowHolds m d L g := by
  intro h
  unfold RowHolds at h ⊢
  rw [View.read_congr hfg]
  exact h

end Cert.Proof.HistIdeal

end
-- ==== Proof.HistSpec.lean ====
/-
  The kernel's side of the specification: the table's update as the sum of the workers' counts.

  The kernel shares the 4 000 000 entries among 32 workers: worker `w` takes entries `[124992 · w, 124992 · (w + 1))`, and
  the last worker also the 256 entries past `32 · 124992 = 3 999 744`; so entry `n`'s worker is `min (n / 124992) 31`.
  A worker counts sixteen entries at a time, one per lane, and every block boundary is a multiple of sixteen, so entry
  `n` is counted in lane `n % 16`.  A worker keeps one copy of the 4096 cells per lane, then adds the sixteen copies up:
  its sum at cell `b` is `rowSum P C w b`.  Every entry has exactly one worker and one lane, so the workers' sums at cell
  `64 · p + c` add up to the number of entries that hit `(p, c)`: `hist_eq_rows`, one sum regrouped fibre by fibre.
-/
import proofs.«201955_g20547123544587_cont_8to1_184_16_alg».proof.Proof.Spec

noncomputable section

namespace Cert.Spec

open Idealize.ShloMosaic

/-- The worker that counts entry `n`. -/
def worker (n : ℕ) : ℕ := min (n / 124992) 31

/-- The cell entry `k` hits, as a number: `64 · p + c`, below 4096 when both tile numbers are below 64. -/
def key (P C : IVec SN 32) (k : SN.Idx) : ℕ := (P k).toNat * 64 + (C k).toNat

open Classical in
/-- The entries worker `w` counts in lane `r` at cell `b`. -/
def laneHits (P C : IVec SN 32) (w r b : ℕ) : Finset SN.Idx :=
  Finset.univ.filter fun k => worker (k 0).val = w ∧ (k 0).val % 16 = r ∧ key P C k = b

/-- What worker `w`'s lane `r` holds at cell `b` when the worker is done: one unit per entry it counted there. -/
def laneSum (P C : IVec SN 32) (w r b : ℕ) : EReal := ∑ _k ∈ laneHits P C w r b, one

/-- Worker `w`'s sum at cell `b`: its sixteen lanes added up. -/
def rowSum (P C : IVec SN 32) (w b : ℕ) : EReal := ∑ r : Fin 16, laneSum P C w r.val b

end Cert.Spec

end
-- ==== Proof.HistEval.lean ====
/-
  The table of lane copies, evaluated at the ideal instance.

  A worker's table starts cleared and gets one unit added at cell `64 · p + c + 4096 · lane` for every entry `(p, c)` it
  counts, sixteen entries at a time, the entry in position `e` of its run in lane `e % 16`.  At the ideal instance an
  addition at a cell is `+` on the extended reals, so whatever the order, a cell ends with the number of units that were
  sent to it: a sum, over the entries counted, of `one` where the entry's cell is that cell and `0` elsewhere.  Only
  `x + 0 = x` and the associativity and commutativity of `+` are used; nothing needs to be finite and no two cells
  need to be distinct.

  Bottom up:
  * the sixteen cells of one step, as numbers, with no wrap-around in the 32-bit words (`addr_toNat`), all inside the
    table (`addr_inB`);
  * one step adds, at every cell, one unit per lane whose cell it is (`stepTab_apply`): a fold over the lanes, each lane
    adding its unit at its cell and `0` elsewhere (`foldl_add_apply`);
  * `n` steps over a pair of buffers add, at every cell, one unit per entry `e < 16 · n` of the pair whose cell it is
    (`tabN_apply`); twelve chunks, and for the last worker the last 256 entries, do so for the entries of the worker's
    part of the arrays (`chunksTab_apply`, `finalTab_apply`), every block starting at a multiple of sixteen so that an
    entry's lane is its index modulo sixteen;
  * the cell `4096 · r + b` of lane copy `r` therefore ends with the number of the worker's entries in lane `r` whose key
    is `b` (`finalTab_cell`), and the sixteen copies of cell `b` add up to the worker's sum there (`row_eval`).
-/
import proofs.«201955_g20547123544587_cont_8to1_184_16_alg».proof.Proof.HistTab
import proofs.«201955_g20547123544587_cont_8to1_184_16_alg».proof.Proof.HistSpec
import Idealize.ShloMosaic.PureOps.Ideal.Laws
import Idealize.ShloMosaic.Lib.ValueIdx

noncomputable section

namespace Cert.Proof.HistEval

open Idealize.ShloMosaic
open Cert.KernelIdeal Cert.KernelIdeal.Gen
open Cert.Proof.HistIdeal

/-! ## The sixteen cells of one step -/

/-- Lane `y`'s offset: `4096 · y`. -/
theorem pay53_toNat (y : S16.Idx) : ((k0_pay53 : IVec S16 32) y).toNat = 4096 * (y 0).val := by
  have hy : (y 0).val < 16 := (y 0).isLt
  show (BitVec.ofNat 32 (0 * 16 + (y 0).val) * 4096#32).toNat = _
  rw [BitVec.toNat_mul, BitVec.toNat_ofNat, show (4096#32 : BitVec 32).toNat = 4096 from rfl]
  omega

/-- The cell of lane `y`, as a number: no word wraps around when the tile numbers are below 64. -/
theorem addr_toNat (p c : IVec S16 32) (hp : ∀ y, (p y).toNat < 64) (hc : ∀ y, (c y).toNat < 64) (y : S16.Idx) :
    (addr p c y).toNat = (p y).toNat * 64 + (c y).toNat + 4096 * (y 0).val := by
  have hy : (y 0).val < 16 := (y 0).isLt
  have h1 := hp y
  have h2 := hc y
  have h3 := pay53_toNat y
  show ((p y * 64#32 + c y) + (k0_pay53 : IVec S16 32) y).toNat = _
  rw [BitVec.toNat_add, BitVec.toNat_add, BitVec.toNat_mul, h3, show (64#32 : BitVec 32).toNat = 64 from rfl]
  omega

/-- The sixteen cells lie inside the table. -/
theorem addr_inB (p c : IVec S16 32) (hp : ∀ y, (p y).toNat < 64) (hc : ∀ y, (c y).toNat < 64) : InB (addr p c) := by
  intro x y
  have hy : (y 0).val < 16 := (y 0).isLt
  have h1 := hp y
  have h2 := hc y
  have e := addr_toNat p c hp hc y
  match x with
  | ⟨0, _⟩ =>
    show (addr p c y).toNat < 65536
    omega

/-! ## One step -/

/-- A fold in which each item adds its value at its own cell: every cell ends with its old value plus the values of
    the items whose cell it is (and `0` for every other item).  No two items' cells need to differ. -/
theorem foldl_add_apply {ι κ : Type} (cell : κ → ι) (val : κ → EReal) (hit : κ → ι → Prop)
    [∀ k j, Decidable (hit k j)] (hhit : ∀ k j, hit k j → j = cell k) :
    ∀ (l : List κ) (f : ι → EReal) (j : ι),
      l.foldl (fun g k => fun j => if hit k j then g (cell k) + val k else g j) f j
        = f j + (l.map fun k => if hit k j then val k else 0).sum
  | [], f, j => by simp
  | k :: l, f, j => by
    rw [List.foldl_cons, foldl_add_apply cell val hit hhit l _ j, List.map_cons, List.sum_cons, ← add_assoc]
    congr 1
    by_cases h : hit k j
    · rw [if_pos h, if_pos h, hhit k j h]
    · rw [if_neg h, if_neg h, add_zero]

/-- One step, at a cell: the old value plus one unit per lane whose cell it is. -/
theorem stepTab_apply (f : Vec Ideal S65536 .f32) (p c : IVec S16 32) (hp : ∀ y, (p y).toNat < 64)
    (hc : ∀ y, (c y).toNat < 64) (j : S65536.Idx) :
    stepTab (F := Ideal) f p c j
      = f j + ∑ k : Fin 16, if (addr p c (Shape.ofLane k)).toNat = (j 0).val then Cert.Spec.one else 0 := by
  unfold stepTab
  rw [dif_pos (addr_inB p c hp hc)]
  unfold storeIdx
  have hin : ∀ (a : Fin S65536.rank) (x : S16.Idx),
      ((![addr p c] : Fin S65536.rank → IVec S16 32) a x).toNat < S65536.size a := addr_inB p c hp hc
  have key := foldl_add_apply (ι := S65536.Idx) (κ := Fin (![16] 0))
    (cell := fun k => idxAt (s := S65536) (t := S16) ![addr p c] hin (Shape.ofLane k))
    (val := fun _ => Cert.Spec.one)
    (hit := fun k j => ∀ a : Fin S65536.rank, (j a).val = ((idxAt (s := S65536) (t := S16) ![addr p c] hin (Shape.ofLane k)) a).val)
    (fun k j h => funext fun a => Fin.ext (h a)) (List.finRange (![16] 0)) f j
  refine (Eq.trans ?_ key).trans ?_
  · refine congrArg (fun step => List.foldl step f (List.finRange (![16] 0)) j) ?_
    funext g k j'
    dsimp only
    have h1 : (1#1 : BitVec 1) = 1 := rfl
    have h2 : (true = true) := rfl
    rw [if_pos h1]
    by_cases h : ∀ a : Fin S65536.rank,
        (j' a).val = ((idxAt (s := S65536) (t := S16) ![addr p c] hin (Shape.ofLane k)) a).val
    · rw [if_pos h, if_pos h, if_pos h2]; rfl
    · rw [if_neg h, if_neg h]
  · refine congrArg (f j + ·) ?_
    rw [Fin.sum_univ_def]
    refine congrArg List.sum (List.map_congr_left fun k _ => ?_)
    refine if_congr ⟨fun h => (h ⟨0, Nat.one_pos⟩).symm, fun h a => ?_⟩ rfl rfl
    match a with
    | ⟨0, _⟩ => exact h.symm

/-! ## A run of steps over a pair of buffers -/

/-- Tile number `e` of a buffer of `N` words (read modulo `N`), as a natural number. -/
def get {N : ℕ} (hN : 0 < N) (g : IVec ⟨1, ![N]⟩ 32) (e : ℕ) : ℕ :=
  (g (ValueIdx.ix1 ⟨e % N, Nat.mod_lt _ hN⟩)).toNat

/-- One unit if the cell of entry `e` of the pair of buffers, counted in lane `e % 16`, is the cell `j`; else nothing. -/
def unitAt {N : ℕ} (hN : 0 < N) (g₀ g₁ : IVec ⟨1, ![N]⟩ 32) (j e : ℕ) : EReal :=
  if get hN g₀ e * 64 + get hN g₁ e + 4096 * (e % 16) = j then Cert.Spec.one else 0

/-- After `n` steps, a cell holds its old value plus one unit per entry `e < 16 · n` of the pair whose cell it is. -/
theorem tabN_apply {N : ℕ} (hN : 0 < N) (g₀ g₁ : IVec ⟨1, ![N]⟩ 32) (h₀ : Tiles g₀) (h₁ : Tiles g₁)
    (f : Vec Ideal S65536 .f32) (j : S65536.Idx) :
    ∀ n, tabN (F := Ideal) hN g₀ g₁ f n j = f j + ∑ e ∈ Finset.range (16 * n), unitAt hN g₀ g₁ (j 0).val e
  | 0 => by
    show f j = f j + ∑ e ∈ Finset.range (16 * 0), unitAt hN g₀ g₁ (j 0).val e
    rw [Nat.mul_zero, Finset.sum_range_zero, add_zero]
  | n + 1 => by
    show stepTab (F := Ideal) (tabN (F := Ideal) hN g₀ g₁ f n) (vecAt hN g₀ n) (vecAt hN g₁ n) j = _
    rw [stepTab_apply _ (vecAt hN g₀ n) (vecAt hN g₁ n) (fun y => h₀ _) (fun y => h₁ _) j, tabN_apply hN g₀ g₁ h₀ h₁ f j n, add_assoc,
      show 16 * (n + 1) = 16 * n + 16 from by omega, Finset.sum_range_add,
      ← Fin.sum_univ_eq_sum_range (fun x => unitAt hN g₀ g₁ (j 0).val (16 * n + x)) 16]
    refine congrArg (f j + ·) (congrArg (_ + ·) (Finset.sum_congr rfl fun k _ => ?_))
    unfold unitAt
    rw [addr_toNat (vecAt hN g₀ n) (vecAt hN g₁ n) (fun y => h₀ _) (fun y => h₁ _) (Shape.ofLane k),
      show (16 * n + k.val) % 16 = k.val from by omega]
    rfl

/-! ## A worker's whole run -/

theorem hM : 0 < 4000000 := by decide

/-- Reading a buffer at two positions that agree modulo its length. -/
theorem get_congr {N : ℕ} (hN : 0 < N) (g : IVec ⟨1, ![N]⟩ 32) {x y : ℕ} (h : x % N = y % N) :
    get hN g x = get hN g y :=
  congrArg (fun z : Fin N => (g (ValueIdx.ix1 z)).toNat) (Fin.ext h)

theorem tiles_chunkOf (A : IVec S4000000 32) (hA : ∀ k, (A k).toNat < 64) (w i : ℕ) : Tiles (chunkOf A w i) :=
  fun _ => hA _

theorem tiles_tailOf (A : IVec S4000000 32) (hA : ∀ k, (A k).toNat < 64) : Tiles (tailOf A) :=
  fun _ => hA _

/-- Entry `e` of chunk `i` of worker `w` is entry `124992 · w + 10416 · i + e` of the arrays, in the same lane: the chunk
    starts at a multiple of sixteen. -/
theorem unitAt_chunk (A B : IVec S4000000 32) (w i j e : ℕ) (he : e < 10416) :
    unitAt (N := 10416) (by decide) (chunkOf A w i) (chunkOf B w i) j e
      = unitAt hM A B j (124992 * w + 10416 * i + e) := by
  have e1 : (124992 * w + 10416 * i + e) % 16 = e % 16 := by omega
  have eA : get (N := 10416) (by decide) (chunkOf A w i) e = get hM A (124992 * w + 10416 * i + e) :=
    (show _ = get hM A (124992 * w + 10416 * i + e % 10416) from rfl).trans
      (get_congr hM A (by rw [Nat.mod_eq_of_lt he]))
  have eB : get (N := 10416) (by decide) (chunkOf B w i) e = get hM B (124992 * w + 10416 * i + e) :=
    (show _ = get hM B (124992 * w + 10416 * i + e % 10416) from rfl).trans
      (get_congr hM B (by rw [Nat.mod_eq_of_lt he]))
  unfold unitAt
  rw [eA, eB, e1]

/-- Entry `e` of the last 256 is entry `3999744 + e` of the arrays, in the same lane. -/
theorem unitAt_tail (A B : IVec S4000000 32) (j e : ℕ) (he : e < 256) :
    unitAt (N := 256) (by decide) (tailOf A) (tailOf B) j e = unitAt hM A B j (3999744 + e) := by
  have e1 : (3999744 + e) % 16 = e % 16 := by omega
  have eA : get (N := 256) (by decide) (tailOf A) e = get hM A (3999744 + e) :=
    (show _ = get hM A (3999744 + e % 256) from rfl).trans (get_congr hM A (by rw [Nat.mod_eq_of_lt he]))
  have eB : get (N := 256) (by decide) (tailOf B) e = get hM B (3999744 + e) :=
    (show _ = get hM B (3999744 + e % 256) from rfl).trans (get_congr hM B (by rw [Nat.mod_eq_of_lt he]))
  unfold unitAt
  rw [eA, eB, e1]

/-- After `n` chunks, from the cleared table, a cell holds one unit per entry among the worker's first `10416 · n` whose
    cell it is. -/
theorem chunksTab_apply (A B : IVec S4000000 32) (hA : ∀ k, (A k).toNat < 64) (hB : ∀ k, (B k).toNat < 64) (w : ℕ)
    (j : S65536.Idx) :
    ∀ n, chunksTab (F := Ideal) A B w n j
        = ∑ x ∈ Finset.range (10416 * n), unitAt hM A B (j 0).val (124992 * w + x)
  | 0 => by
    show (Ideal.ofBits .f32 0x00000000#32 : EReal) = _
    rw [Ideal.ofBits_zero_f32, Nat.mul_zero, Finset.sum_range_zero]
  | n + 1 => by
    show tabN (F := Ideal) (N := 10416) (by decide) (chunkOf A w n) (chunkOf B w n) (chunksTab (F := Ideal) A B w n) 651 j = _
    rw [tabN_apply _ (chunkOf A w n) (chunkOf B w n) (tiles_chunkOf A hA w n) (tiles_chunkOf B hB w n) _ j 651,
      chunksTab_apply A B hA hB w j n, show 10416 * (n + 1) = 10416 * n + 10416 from by omega, Finset.sum_range_add]
    refine congrArg (_ + ·) (Finset.sum_congr rfl fun e he => ?_)
    have he' : e < 10416 := by have := Finset.mem_range.1 he; omega
    rw [unitAt_chunk A B w n _ e he', Nat.add_assoc]

/-- The number of entries a worker counts: 124992, and for the last worker the 256 that remain as well. -/
def span (w : ℕ) : ℕ := if w = 31 then 125248 else 124992

/-- When a worker is done, a cell holds one unit per entry of the worker's whose cell it is. -/
theorem finalTab_apply (A B : IVec S4000000 32) (hA : ∀ k, (A k).toNat < 64) (hB : ∀ k, (B k).toNat < 64) (w : ℕ)
    (j : S65536.Idx) :
    finalTab (F := Ideal) A B w j = ∑ x ∈ Finset.range (span w), unitAt hM A B (j 0).val (124992 * w + x) := by
  unfold finalTab span
  by_cases hw : w = 31
  · rw [if_pos hw, if_pos hw]
    subst hw
    show tabN (F := Ideal) (N := 256) (by decide) (tailOf A) (tailOf B) (chunksTab (F := Ideal) A B 31 12) 16 j = _
    rw [tabN_apply _ (tailOf A) (tailOf B) (tiles_tailOf A hA) (tiles_tailOf B hB) _ j 16,
      chunksTab_apply A B hA hB 31 j 12, show (125248 : ℕ) = 10416 * 12 + 256 from rfl, Finset.sum_range_add]
    refine congrArg (_ + ·) (Finset.sum_congr rfl fun e he => ?_)
    have he' : e < 256 := by have := Finset.mem_range.1 he; omega
    rw [unitAt_tail A B _ e he']
    exact congrArg _ (by omega)
  · rw [if_neg hw, if_neg hw]
    exact chunksTab_apply A B hA hB w j 12

/-! ## A cell of a lane copy is the worker's lane sum -/

/-- An array of `n` words, indexed by its positions. -/
def idxEquiv1 (n : ℕ) : (⟨1, ![n]⟩ : Shape).Idx ≃ Fin n where
  toFun k := k 0
  invFun a := ValueIdx.ix1 a
  left_inv k := (ValueIdx.eq_ix1 k).symm
  right_inv _ := rfl

/-- Reading an array at the position of one of its indices. -/
theorem get_val (A : IVec S4000000 32) (k : S4000000.Idx) : get hM A (k 0).val = (A k).toNat := by
  have hk : (k 0).val < 4000000 := (k 0).isLt
  refine congrArg (fun z : S4000000.Idx => (A z).toNat) ?_
  funext a
  match a with
  | ⟨0, _⟩ => exact Fin.ext (Nat.mod_eq_of_lt hk)

/-- One unit if entry `x` is worker `w`'s, in lane `r`, with key `b`; else nothing. -/
def laneUnit (A B : IVec S4000000 32) (w r b x : ℕ) : EReal :=
  if Cert.Spec.worker x = w ∧ x % 16 = r ∧ get hM A x * 64 + get hM B x = b then Cert.Spec.one else 0

/-- The worker's lane sum, as a sum over all positions of the arrays. -/
theorem laneSum_eq_range (A B : IVec S4000000 32) (w r b : ℕ) :
    Cert.Spec.laneSum A B w r b = ∑ x ∈ Finset.range 4000000, laneUnit A B w r b x := by
  unfold Cert.Spec.laneSum Cert.Spec.laneHits
  rw [Finset.sum_filter, ← Fin.sum_univ_eq_sum_range (fun x => laneUnit A B w r b x) 4000000]
  refine Fintype.sum_equiv (idxEquiv1 4000000) _ _ fun k => ?_
  unfold laneUnit Cert.Spec.key
  refine if_congr ?_ rfl rfl
  show _ ↔ (Cert.Spec.worker (k 0).val = w ∧ (k 0).val % 16 = r ∧ get hM A (k 0).val * 64 + get hM B (k 0).val = b)
  rw [get_val, get_val]

/-- A sum over a range, split into three consecutive stretches. -/
theorem sum_range_split (H : ℕ → EReal) (lo len rest : ℕ) :
    ∑ x ∈ Finset.range (lo + len + rest), H x
      = ∑ x ∈ Finset.range lo, H x + ∑ x ∈ Finset.range len, H (lo + x) + ∑ x ∈ Finset.range rest, H (lo + len + x) := by
  rw [Finset.sum_range_add, Finset.sum_range_add]

/-- On the worker's own stretch of positions, the unit of a cell of lane copy `r` is the unit of the lane sum: the
    key is below 4096, so `4096 · lane + key` determines both. -/
theorem unitAt_eq_laneUnit (A B : IVec S4000000 32) (hA : ∀ k, (A k).toNat < 64) (hB : ∀ k, (B k).toNat < 64)
    (w r b x : ℕ) (hr : r < 16) (hb : b < 4096) (hx : Cert.Spec.worker x = w) :
    unitAt hM A B (4096 * r + b) x = laneUnit A B w r b x := by
  have h1 : get hM A x < 64 := hA _
  have h2 : get hM B x < 64 := hB _
  have h3 : x % 16 < 16 := Nat.mod_lt _ (by decide)
  unfold unitAt laneUnit
  refine if_congr ⟨fun h => ⟨hx, by omega, by omega⟩, fun h => by omega⟩ rfl rfl

/-- **A cell of a lane copy**: when worker `w` is done, cell `4096 · r + b` holds the number of its entries in lane `r`
    with key `b`. -/
theorem finalTab_cell (A B : IVec S4000000 32) (hA : ∀ k, (A k).toNat < 64) (hB : ∀ k, (B k).toNat < 64)
    (w r b : ℕ) (hw : w < 32) (hr : r < 16) (hb : b < 4096) :
    finalTab (F := Ideal) A B w (ValueIdx.ix1 ⟨(4096 * r + b) % 65536, Nat.mod_lt _ (by decide)⟩)
      = Cert.Spec.laneSum A B w r b := by
  rw [finalTab_apply A B hA hB, laneSum_eq_range]
  have hj : (4096 * r + b) % 65536 = 4096 * r + b := Nat.mod_eq_of_lt (by omega)
  show ∑ x ∈ Finset.range (span w), unitAt hM A B ((4096 * r + b) % 65536) (124992 * w + x) = _
  rw [hj]
  have hs : (w < 31 ∧ span w = 124992) ∨ (w = 31 ∧ span w = 125248) := by
    unfold span
    by_cases h : w = 31
    · exact Or.inr ⟨h, if_pos h⟩
    · exact Or.inl ⟨by omega, if_neg h⟩
  have hn : 4000000 = 124992 * w + span w + (4000000 - 124992 * w - span w) := by omega
  rw [show Finset.range 4000000 = Finset.range (124992 * w + span w + (4000000 - 124992 * w - span w)) from
    congrArg Finset.range hn, sum_range_split]
  have z1 : ∑ x ∈ Finset.range (124992 * w), laneUnit A B w r b x = 0 :=
    Finset.sum_eq_zero fun x hx => if_neg fun h => by
      have := Finset.mem_range.1 hx
      have h' := h.1
      unfold Cert.Spec.worker at h'
      omega
  have z3 : ∑ x ∈ Finset.range (4000000 - 124992 * w - span w), laneUnit A B w r b (124992 * w + span w + x) = 0 :=
    Finset.sum_eq_zero fun x hx => if_neg fun h => by
      have := Finset.mem_range.1 hx
      have h' := h.1
      unfold Cert.Spec.worker at h'
      omega
  rw [z1, z3, zero_add, add_zero]
  refine Finset.sum_congr rfl fun x hx => unitAt_eq_laneUnit A B hA hB w r b _ hr hb ?_
  have := Finset.mem_range.1 hx
  unfold Cert.Spec.worker
  omega

/-! ## The sixteen lane copies, added up -/

/-- The cell of lane copy `r` at position `b`, read out of the vector of sixteen it is loaded in. -/
theorem laneVec_apply (f : Vec Ideal S65536 .f32) (r b : ℕ) :
    laneVec (F := Ideal) f r (b / 16) (ValueIdx.ix1 ⟨b % 16, Nat.mod_lt _ (by decide)⟩)
      = f (ValueIdx.ix1 ⟨(4096 * r + b) % 65536, Nat.mod_lt _ (by decide)⟩) := by
  unfold laneVec
  refine congrArg f (funext fun a => ?_)
  match a with
  | ⟨0, _⟩ =>
    exact Fin.ext (by show (4096 * r + 16 * (b / 16) + b % 16) % 65536 = (4096 * r + b) % 65536; omega)

/-- Position `b` of the row a table is added up into: the sum of the sixteen lane copies' cells at `b` (the body adds
    them pairwise; `+` is associative and commutative). -/
theorem rowOfTab_apply (f : Vec Ideal S65536 .f32) (b : Fin 4096) :
    rowOfTab (F := Ideal) f (ValueIdx.ix1 b)
      = ∑ r ∈ Finset.range 16, f (ValueIdx.ix1 ⟨(4096 * r + b.val) % 65536, Nat.mod_lt _ (by decide)⟩) := by
  show ((((laneVec (F := Ideal) f 0 (b.val / 16) (ValueIdx.ix1 ⟨b.val % 16, Nat.mod_lt _ (by decide)⟩) + laneVec (F := Ideal) f 1 (b.val / 16) (ValueIdx.ix1 ⟨b.val % 16, Nat.mod_lt _ (by decide)⟩)) + (laneVec (F := Ideal) f 2 (b.val / 16) (ValueIdx.ix1 ⟨b.val % 16, Nat.mod_lt _ (by decide)⟩) + laneVec (F := Ideal) f 3 (b.val / 16) (ValueIdx.ix1 ⟨b.val % 16, Nat.mod_lt _ (by decide)⟩))) + ((laneVec (F := Ideal) f 4 (b.val / 16) (ValueIdx.ix1 ⟨b.val % 16, Nat.mod_lt _ (by decide)⟩) + laneVec (F := Ideal) f 5 (b.val / 16) (ValueIdx.ix1 ⟨b.val % 16, Nat.mod_lt _ (by decide)⟩)) + (laneVec (F := Ideal) f 6 (b.val / 16) (ValueIdx.ix1 ⟨b.val % 16, Nat.mod_lt _ (by decide)⟩) + laneVec (F := Ideal) f 7 (b.val / 16) (ValueIdx.ix1 ⟨b.val % 16, Nat.mod_lt _ (by decide)⟩)))) + (((laneVec (F := Ideal) f 8 (b.val / 16) (ValueIdx.ix1 ⟨b.val % 16, Nat.mod_lt _ (by decide)⟩) + laneVec (F := Ideal) f 9 (b.val / 16) (ValueIdx.ix1 ⟨b.val % 16, Nat.mod_lt _ (by decide)⟩)) + (laneVec (F := Ideal) f 10 (b.val / 16) (ValueIdx.ix1 ⟨b.val % 16, Nat.mod_lt _ (by decide)⟩) + laneVec (F := Ideal) f 11 (b.val / 16) (ValueIdx.ix1 ⟨b.val % 16, Nat.mod_lt _ (by decide)⟩))) + ((laneVec (F := Ideal) f 12 (b.val / 16) (ValueIdx.ix1 ⟨b.val % 16, Nat.mod_lt _ (by decide)⟩) + laneVec (F := Ideal) f 13 (b.val / 16) (ValueIdx.ix1 ⟨b.val % 16, Nat.mod_lt _ (by decide)⟩)) + (laneVec (F := Ideal) f 14 (b.val / 16) (ValueIdx.ix1 ⟨b.val % 16, Nat.mod_lt _ (by decide)⟩) + laneVec (F := Ideal) f 15 (b.val / 16) (ValueIdx.ix1 ⟨b.val % 16, Nat.mod_lt _ (by decide)⟩))))) = _
  simp only [laneVec_apply, Finset.sum_range_succ, Finset.sum_range_zero, zero_add]
  ac_rfl

/-- **The row**: when worker `w` is done, position `b` of the row its table is added up into is the worker's sum at
    cell `b`. -/
theorem row_eval (A B : IVec Cert.KernelIdeal.S4000000 32) (hr : ∀ k, (A k).toNat < 64 ∧ (B k).toNat < 64) (w : Fin 32)
    (b : Fin 4096) :
    Cert.Proof.HistIdeal.rowOfTab (F := Ideal) (Cert.Proof.HistIdeal.finalTab (F := Ideal) A B w.val) (ValueIdx.ix1 b)
      = Cert.Spec.rowSum A B w.val b.val := by
  rw [rowOfTab_apply]
  unfold Cert.Spec.rowSum
  rw [← Fin.sum_univ_eq_sum_range (fun r => finalTab (F := Ideal) A B w.val
    (ValueIdx.ix1 ⟨(4096 * r + b.val) % 65536, Nat.mod_lt _ (by decide)⟩)) 16]
  exact Finset.sum_congr rfl fun r _ =>
    finalTab_cell A B (fun k => (hr k).1) (fun k => (hr k).2) w.val r.val b.val w.isLt r.isLt b.isLt

end Cert.Proof.HistEval

end
-- ==== Proof.HistBridge.lean ====
/-
  The bridge between the kernel's arithmetic and the specification, at the ideal instance.

  The specification adds to cell `(p, c)` of the table one unit per entry that hits it.  The kernel shares the
  entries among 32 workers and each worker's entries among 16 lanes, so what it adds to the cell is a sum over workers
  of sums over lanes of the units of the entries that worker counted in that lane at the cell.  The two agree because
  every entry has exactly one worker and exactly one lane: a sum over a finite set is the sum, over the values of any
  function on it, of the sums over that function's fibres (`hits_sum_eq`, `hist_eq_rows`).  Nothing but commutativity
  and associativity of `+` on the extended reals is used, so nothing needs to be finite.

  A cell `(p, c)` with `p, c < 64` is the number `64 · p + c`, and an entry whose two tile numbers are below 64 hits
  `(p, c)` exactly when its key `64 · P k + C k` is that number (`key_eq_iff`): `64 · p + c` determines `p` and `c`.
-/
import proofs.«201955_g20547123544587_cont_8to1_184_16_alg».proof.Proof.HistSpec
import proofs.«201955_g20547123544587_cont_8to1_184_16_alg».proof.Proof.Gen.KernelIdeal.Skeleton
import Idealize.ShloMosaic.Lib.ValueIdx
import Idealize.ShloMosaic.Lib.Pipeline.Value
import Idealize.ShloMosaic.PureOps.Ideal.Laws

noncomputable section

namespace Cert.Proof.HistBridge

open Idealize.ShloMosaic

/-! ## One sum, regrouped by worker and lane -/

/-- Every entry has a worker among the 32. -/
theorem worker_lt (n : ℕ) : Cert.Spec.worker n < 32 :=
  Nat.lt_succ_of_le (Nat.min_le_right _ _)

/-- With both tile numbers below 64, an entry hits the cell `(p, c)` exactly when its key is `64 · p + c`. -/
theorem key_eq_iff {x y p c : ℕ} (hx : x < 64) (hy : y < 64) (hp : p < 64) (hc : c < 64) :
    (x = p ∧ y = c) ↔ x * 64 + y = p * 64 + c := by
  constructor
  · rintro ⟨rfl, rfl⟩; rfl
  · intro h; constructor <;> omega

/-- Membership in the set of entries that hit a cell. -/
theorem mem_hits (P C : IVec Cert.Spec.SN 32) (i : Cert.Spec.SB.Idx) (k : Cert.Spec.SN.Idx) :
    k ∈ Cert.Spec.hits P C i ↔ ((P k).toNat = (i 0).val ∧ (C k).toNat = (i 1).val) := by
  unfold Cert.Spec.hits
  exact Finset.mem_filter.trans (and_iff_right (Finset.mem_univ _))

/-- Membership in the set of entries a worker counts in a lane at a cell. -/
theorem mem_laneHits (P C : IVec Cert.Spec.SN 32) (w r b : ℕ) (k : Cert.Spec.SN.Idx) :
    k ∈ Cert.Spec.laneHits P C w r b ↔
      (Cert.Spec.worker (k 0).val = w ∧ (k 0).val % 16 = r ∧ Cert.Spec.key P C k = b) := by
  unfold Cert.Spec.laneHits
  exact Finset.mem_filter.trans (and_iff_right (Finset.mem_univ _))

/-- The units of the entries that hit a cell, summed at once and summed worker by worker, lane by lane. -/
theorem hits_sum_eq (P C : IVec Cert.Spec.SN 32) (i : Cert.Spec.SB.Idx)
    (hr : ∀ k, (P k).toNat < 64 ∧ (C k).toNat < 64) :
    ∑ _k ∈ Cert.Spec.hits P C i, Cert.Spec.one =
      ∑ w : Fin 32, ∑ r : Fin 16,
        ∑ _k ∈ Cert.Spec.laneHits P C w.val r.val ((i 0).val * 64 + (i 1).val), Cert.Spec.one := by
  classical
  let g : Cert.Spec.SN.Idx → Fin 32 × Fin 16 := fun k =>
    (⟨Cert.Spec.worker (k 0).val, worker_lt _⟩, ⟨(k 0).val % 16, Nat.mod_lt _ (by decide)⟩)
  rw [← Finset.sum_fiberwise (Cert.Spec.hits P C i) g (fun _ => Cert.Spec.one), Fintype.sum_prod_type]
  refine Finset.sum_congr rfl fun w _ => Finset.sum_congr rfl fun r _ => ?_
  refine Finset.sum_congr ?_ fun _ _ => rfl
  ext k
  have hk := key_eq_iff (hr k).1 (hr k).2 (i 0).isLt (i 1).isLt
  rw [Finset.mem_filter, mem_hits, mem_laneHits, hk]
  unfold Cert.Spec.key
  constructor
  · rintro ⟨h1, h2⟩
    have hw : Cert.Spec.worker (k 0).val = w.val := congrArg (fun z : Fin 32 × Fin 16 => z.1.val) h2
    have hl : (k 0).val % 16 = r.val := congrArg (fun z : Fin 32 × Fin 16 => z.2.val) h2
    exact ⟨hw, hl, h1⟩
  · rintro ⟨hw, hl, h1⟩
    exact ⟨h1, Prod.ext (Fin.ext hw) (Fin.ext hl)⟩

/-- **The table, regrouped**: a cell of the specification's table is the old cell plus the 32 workers' sums at the
    cell's number `64 · p + c`. -/
theorem hist_eq_rows (P C : IVec Cert.Spec.SN 32) (T : FVec Ideal Cert.Spec.SB .f32) (i : Cert.Spec.SB.Idx)
    (hr : ∀ k, (P k).toNat < 64 ∧ (C k).toNat < 64) :
    Cert.Spec.hist P C T i = T i + ∑ w : Fin 32, Cert.Spec.rowSum P C w.val ((i 0).val * 64 + (i 1).val) := by
  unfold Cert.Spec.hist Cert.Spec.rowSum Cert.Spec.laneSum
  rw [hits_sum_eq P C i hr]

/-! ## The kernel's last step, read as the specification

After the workers are done, row `w` of a `32 × 4096` array holds worker `w`'s 4096 sums.  The array is read as
`32 × 32 × 128` and the table as `32 × 128` (both in row-major order, so cell `(p, c)` of the table, the number
`64 · p + c`, is position `(a, l)` with `128 · a + l = 64 · p + c`); the last step adds to every position of the table
the sum over the 32 workers of their sums there, and the result is read back as `64 × 64`.  The running total, read as
a one-element array, gets the float `4.0e6` added and is read back as a scalar.

A reading of an array at another shape takes the element with the same row-major position; the proofs of the shape
facts are arguments left implicit, so the statements apply whichever proof a term carries. -/

open Cert.KernelIdeal

/-- **The total**: the kernel's last step on the running total is the specification's. -/
theorem tail_total (t : FVec Ideal S_ .f32) {h1 : S_.ShapeCasts S1} {h2 : S1.ShapeCasts S_} :
    shapeCast S_ (fun _ : S1.Idx => Cert.KernelIdeal.Gen.k1_pay2 (F := Ideal) (shapeCast S1 t h1 (ValueIdx.ix1 0))) h2
      = Cert.Spec.total t := by
  funext i
  unfold shapeCast Cert.KernelIdeal.Gen.k1_pay2 Cert.Spec.total Cert.Spec.count
  have e : (Shape.reshapeEquiv h1) (ValueIdx.ix1 0) = i := funext fun a => a.elim0
  show t ((Shape.reshapeEquiv h1) (ValueIdx.ix1 0)) + Ideal.ofBits .f32 0x4A742400#32 = t i + Ideal.ofBits .f32 0x4A742400#32
  rw [e]

/-- **The table**: the kernel's last step on the table and the workers' sums is the specification's table. -/
theorem tail_hist (P C : IVec Cert.Spec.SN 32) (T : FVec Ideal S64x64 .f32) (v0 : FVec Ideal S32x4096 .f32)
    {h1 : S32x4096.ShapeCasts S32x32x128} {h2 : S64x64.ShapeCasts S32x128} {h3 : S32x128.ShapeCasts S64x64}
    (hr : ∀ k, (P k).toNat < 64 ∧ (C k).toNat < 64)
    (hv0 : ∀ (w : Fin 32) (b : Fin 4096), v0 (ValueIdx.ix2 w b) = Cert.Spec.rowSum P C w.val b.val) :
    shapeCast S64x64 (Cert.KernelIdeal.Gen.k1_pay1 (F := Ideal) (shapeCast S32x128 T h2) (shapeCast S32x32x128 v0 h1)) h3
      = Cert.Spec.hist P C T := by
  funext i
  -- the cell's number, and its position in the `32 × 128` reading
  have hi0 : (i 0).val < 64 := ValueIdx.idx2_lt0 i
  have hi1 : (i 1).val < 64 := ValueIdx.idx2_lt1 i
  have hb : (i 0).val * 64 + (i 1).val < 4096 := by omega
  let a : Fin 32 := ⟨((i 0).val * 64 + (i 1).val) / 128, by omega⟩
  let c : Fin 128 := ⟨((i 0).val * 64 + (i 1).val) % 128, Nat.mod_lt _ (by decide)⟩
  have pos2 : (S32x128.rowMajor (ValueIdx.ix2 a c)).val = a.val * 128 + c.val := Shape.rowMajor_val_two _
  have posi : (S64x64.rowMajor i).val = (i 0).val * 64 + (i 1).val := Shape.rowMajor_val_two _
  have hk : (S32x128.rowMajor (ValueIdx.ix2 a c)).val = (S64x64.rowMajor i).val := by
    rw [pos2, posi]; show ((i 0).val * 64 + (i 1).val) / 128 * 128 + ((i 0).val * 64 + (i 1).val) % 128 = _; omega
  refine (shapeCast_apply _ h3 i (ValueIdx.ix2 a c) hk).trans ?_
  unfold Cert.KernelIdeal.Gen.k1_pay1
  refine (ValueIdx.addf_apply _ _ _).trans ?_
  -- the table's term: the cell itself
  have eT : shapeCast S32x128 (shapeCast S32x128 T h2) Cert.KernelIdeal.Gen.shapeCasts_S32x128_S32x128 (ValueIdx.ix2 a c) = T i :=
    (shapeCast_apply _ _ (ValueIdx.ix2 a c) (ValueIdx.ix2 a c) rfl).trans (shapeCast_apply T h2 (ValueIdx.ix2 a c) i hk.symm)
  refine (congrArg₂ (· + ·) eT ?_).trans (hist_eq_rows P C T i hr).symm
  -- the workers' term: the sum over the 32 workers of their sums at the cell's number
  refine (Ideal.multiReduction_add_single _ _ Cert.KernelIdeal.Gen.reduces_S32x32x128_S32x128 _ _ (ValueIdx.ix2 a c)).trans ?_
  refine Finset.sum_congr rfl fun w _ => ?_
  have hl : Cert.KernelIdeal.Gen.reduces_S32x32x128_S32x128.lift (ValueIdx.ix2 a c) w = ValueIdx.ix3 (w : Fin 32) a c :=
    funext fun d => Fin.ext (match d with | ⟨0, _⟩ => rfl | ⟨1, _⟩ => rfl | ⟨2, _⟩ => rfl)
  have pos3 : (S32x32x128.rowMajor (ValueIdx.ix3 (w : Fin 32) a c)).val = (w.val * 32 + a.val) * 128 + c.val :=
    Shape.rowMajor_val_three _
  have pos4 : (S32x4096.rowMajor (ValueIdx.ix2 (w : Fin 32) (⟨(i 0).val * 64 + (i 1).val, hb⟩ : Fin 4096))).val
      = w.val * 4096 + ((i 0).val * 64 + (i 1).val) := Shape.rowMajor_val_two _
  have hk3 : (S32x4096.rowMajor (ValueIdx.ix2 (w : Fin 32) (⟨(i 0).val * 64 + (i 1).val, hb⟩ : Fin 4096))).val
      = (S32x32x128.rowMajor (ValueIdx.ix3 (w : Fin 32) a c)).val := by
    rw [pos3, pos4]
    show w.val * 4096 + ((i 0).val * 64 + (i 1).val)
      = (w.val * 32 + ((i 0).val * 64 + (i 1).val) / 128) * 128 + ((i 0).val * 64 + (i 1).val) % 128
    omega
  exact (congrArg _ hl).trans
    ((shapeCast_apply _ _ (ValueIdx.ix3 (w : Fin 32) a c) (ValueIdx.ix3 (w : Fin 32) a c) rfl).trans
      ((shapeCast_apply v0 h1 (ValueIdx.ix3 (w : Fin 32) a c) (ValueIdx.ix2 (w : Fin 32) ⟨(i 0).val * 64 + (i 1).val, hb⟩) hk3).trans
        (hv0 w ⟨(i 0).val * 64 + (i 1).val, hb⟩)))

end Cert.Proof.HistBridge

end
-- ==== Proof.HistGlue.lean ====
/-
  The rows of the workers' sums, read out of what each tile leaves.

  Worker `w = 2 · s + c` (vector subcore `s` of SparseCore `c`) writes its 4096 sums to row `w` of a `32 × 4096` array,
  addressing the row as the array's slice of one row at offset `(w, 0)`, squeezed to rank one.  Position `b` of that row
  is the array's element `(w, b)` (`oRowK_emb`, `read_oRowK`).  Every `w < 32` is the worker number of the coordinates
  `(w % 2, w / 2)`, so if every tile's row reads as the sums of its final table, then at the ideal instance every row
  `w` of the array is the worker's sums of the specification (`rows_of_holds`, through the table's evaluation).  What a
  row reads depends only on the array's elements in that row (`rowHolds_local`).
-/
import proofs.«201955_g20547123544587_cont_8to1_184_16_alg».proof.Proof.HistPay
import proofs.«201955_g20547123544587_cont_8to1_184_16_alg».proof.Proof.HistLocal
import proofs.«201955_g20547123544587_cont_8to1_184_16_alg».proof.Proof.HistEval
import proofs.«201955_g20547123544587_cont_8to1_184_16_alg».proof.Proof.HistBridge

noncomputable section

namespace Cert.Proof.HistGlue

open Idealize.ShloMosaic
open Cert.KernelIdeal Cert.KernelIdeal.Gen
open Cert.Proof.HistIdeal

/-- Position `b` of worker `w`'s row, as the body addresses it, is element `(w, b)` of the array. -/
theorem oRowK_emb (L : grid0.Coords) (b : Fin 4096) :
    (oRowK L).view.emb (ValueIdx.ix1 b) = ValueIdx.ix2 (⟨wid L, wid_lt L⟩ : Fin 32) b := by
  have hq : Shape.reshapeEquiv squeezes_S1x4096_S4096.numel_eq (ValueIdx.ix1 b)
      = (ValueIdx.ix2 (0 : Fin 1) b : S1x4096.Idx) :=
    Shape.reshapeEquiv_eq_of_rowMajor _ (by
      rw [Shape.rowMajor_val_two, Shape.rowMajor_val_one]
      show 0 * 4096 + b.val = b.val
      omega)
  funext a
  apply Fin.ext
  show ((Rect.unit (s := S32x4096) (k0_off9 L) S1x4096.size (k0_off9_inb L)).emb
    (Shape.reshapeEquiv squeezes_S1x4096_S4096.numel_eq (ValueIdx.ix1 b)) a : ℕ) = _
  rw [hq, Rect.emb_apply]
  show k0_off9 L a + 1 * ((ValueIdx.ix2 (0 : Fin 1) b : S1x4096.Idx) a).val = _
  rw [k0_off9_eq]
  match a with
  | ⟨0, _⟩ => show (2 * (L 1).val + (L 0).val) + 1 * 0 = wid L; unfold wid; omega
  | ⟨1, _⟩ => show 0 + 1 * b.val = b.val; omega

/-- Worker `w`'s row read at position `b` is the array at `(w, b)`. -/
theorem read_oRowK {F : FTy → Type} (d : Dev nD) (L : grid0.Coords) (f : Buf (Elt F) (oLoc d)) (b : Fin 4096) :
    (oRowK L).view.read (Elt F) f (ValueIdx.ix1 b) = f (ValueIdx.ix2 (⟨wid L, wid_lt L⟩ : Fin 32) b) := by
  rw [View.read_apply, oRowK_emb]
  rfl

/-- What a row reads depends only on the array's elements in that row (the statement proved beside the row's definition,
    under this module's name as well). -/
theorem rowHolds_local {F : FTy → Type} [FloatOps F] (m : (ℓ : Loc nD τ sig) → Buf (Elt F) ℓ) (d : Dev nD)
    (L : grid0.Coords) (f g : Buf (Elt F) (oLoc d)) (hfg : ∀ i ∈ (oRowK L).view.set, g i = f i) :
    RowHolds m d L f → RowHolds m d L g :=
  Cert.Proof.HistIdeal.rowHolds_local m d L f g hfg

/-- **The rows**: if every tile's row reads as the sums of its final table, every row of the array is the worker's sums
    of the specification. -/
theorem rows_of_holds (m : (ℓ : Loc nD τ sig) → Buf (Elt Ideal) ℓ) (d : Dev nD) (v0 : Buf (Elt Ideal) (oLoc d))
    (hr : ∀ k, (m (pLoc d) k).toNat < 64 ∧ (m (cLoc d) k).toNat < 64)
    (h : ∀ L : grid0.Coords, RowHolds (F := Ideal) m d L v0) :
    ∀ (w : Fin 32) (b : Fin 4096),
      v0 (ValueIdx.ix2 w b) = Cert.Spec.rowSum (m (pLoc d)) (m (cLoc d)) w.val b.val := by
  intro w b
  have hw2 : w.val % 2 < 2 := Nat.mod_lt _ (by decide)
  have hw16 : w.val / 2 < 16 := by have := w.isLt; omega
  let L : grid0.Coords := coordsV ⟨w.val % 2, hw2⟩ ⟨w.val / 2, hw16⟩
  have hw : wid L = w.val := by
    show 2 * (w.val / 2) + w.val % 2 = w.val
    omega
  have hF : (⟨wid L, wid_lt L⟩ : Fin 32) = w := Fin.ext hw
  have h1 : (oRowK L).view.read (Elt Ideal) v0 (ValueIdx.ix1 b)
      = rowOfTab (F := Ideal) (finalTab (F := Ideal) (m (pLoc d)) (m (cLoc d)) (wid L)) (ValueIdx.ix1 b) :=
    congrFun (h L) (ValueIdx.ix1 b)
  rw [read_oRowK, hF, hw] at h1
  exact h1.trans (Cert.Proof.HistEval.row_eval (m (pLoc d)) (m (cLoc d)) hr w b)

end Cert.Proof.HistGlue

end
-- ==== Proof.HistClaims.lean ====
/-
  The two claims about the idealized kernel, from its run.

  The run of the kernel (the hypothesis `HRun`, in the shape the launch proves it): under the index ranges, every
  execution ends with an array `v0` of the workers' sums, every tile's row of it reading as the sums of the tile's final
  table, the two results at the last step's values of `v0` and the arguments, and the arguments unchanged.

  * The rows of `v0` are then the workers' sums of the specification, so the last step's table is the specification's
    table and its total the specification's total; the reference ends with the same two values; the index ranges come
    out of the precondition, and travel to the reference's memory along the agreement of the arguments (`algebraic`).
  * Dropping the values leaves the frame (`frame`).
-/
import proofs.«201955_g20547123544587_cont_8to1_184_16_alg».proof.Defs
import proofs.«201955_g20547123544587_cont_8to1_184_16_alg».proof.Proof.HistGlue
import proofs.«201955_g20547123544587_cont_8to1_184_16_alg».proof.Proof.RefValue
import proofs.«201955_g20547123544587_cont_8to1_184_16_alg».proof.Proof.PreFacts

noncomputable section

namespace Cert.Proof.HistClaims

open Idealize.ShloMosaic Idealize.SL.Sem
open Cert.KernelIdeal Cert.KernelIdeal.Gen
open Cert.Proof.HistIdeal

/-- The kernel's run, in the shape the launch proves it: under the index ranges, every execution ends, on every device,
    with an array of the workers' sums whose rows read as the sums of the tiles' final tables, the two results at the
    last step's values, and the four arguments unchanged. -/
abbrev HRun : Prop :=
  ∀ (m : (ℓ : Loc nD τ sig) → Buf (Elt Ideal) ℓ) (ρ : Dev nD → PrngReg),
    (∀ (c : Dev nD) k, ((m ((c.tc : Thread nD τ).loc main_arg0)) k).toNat < 64
        ∧ ((m ((c.tc : Thread nD τ).loc main_arg1)) k).toNat < 64) →
    θ_run (Cert.KernelIdeal.defs (F := Ideal)) (Cert.KernelIdeal.threads (F := Ideal)) ⟨m, fun _ => 0, ρ⟩
      (fun r => ∀ c : Dev nD,
        ∃ v0 : Buf (Elt Ideal) (oLoc c), (∀ L : grid0.Coords, RowHolds (F := Ideal) m c L v0)
          ∧ r.2.mem ((SparseCore.T c).loc main_v5)
              = shapeCast S64x64 (k1_pay1 (F := Ideal)
                  (shapeCast S32x128 (m ((SparseCore.T c).loc main_arg2)) shapeCasts_S64x64_S32x128)
                  (shapeCast S32x32x128 v0 shapeCasts_S32x4096_S32x32x128)) shapeCasts_S32x128_S64x64
          ∧ r.2.mem ((SparseCore.T c).loc main_v6)
              = shapeCast S_ (fun _ : S1.Idx => k1_pay2 (F := Ideal)
                  (shapeCast S1 (m ((SparseCore.T c).loc main_arg3)) shapeCasts_S_S1 (ValueIdx.ix1 0))) shapeCasts_S1_S_
          ∧ r.2.mem (pLoc c) = m (pLoc c) ∧ r.2.mem (cLoc c) = m (cLoc c)
          ∧ r.2.mem ((SparseCore.T c).loc main_arg2) = m ((SparseCore.T c).loc main_arg2)
          ∧ r.2.mem ((SparseCore.T c).loc main_arg3) = m ((SparseCore.T c).loc main_arg3))

/-- The index ranges, out of the kernel's precondition. -/
theorem ranges [hP : Cert.Pre_input_domain.Facts]
    (m : (ℓ : Loc nD τ sig) → Buf (Elt Ideal) ℓ) (hpre : Cert.Pre_KernelIdeal m) :
    ∀ (c : Dev nD) k, ((m ((c.tc : Thread nD τ).loc main_arg0)) k).toNat < 64
      ∧ ((m ((c.tc : Thread nD τ).loc main_arg1)) k).toNat < 64 :=
  fun c => Cert.PreFacts.range (F := Ideal) _ _ _ _ (hpre c)

/-- **The frame**: the idealized kernel runs and leaves its arguments unchanged. -/
theorem frame [hK : Cert.KernelIdeal.Facts] [hP : Cert.Pre_input_domain.Facts] (hrun : HRun) :
    Cert.frame_KernelIdeal := fun m g hpre =>
  (θ_run (Cert.KernelIdeal.defs (F := Ideal)) _ _).mono (fun _ h c => by
      obtain ⟨_, _, _, _, h0, h1, h2, h3⟩ := h c
      exact ⟨h0, h1, h2, h3⟩)
    (hrun m g (ranges m hpre))

/-- **The value**: at the ideal instance the kernel and the reference, from memories that agree on the arguments, end
    with the same table and the same total (the specification's), their arguments unchanged. -/
theorem algebraic [hK : Cert.KernelIdeal.Facts] [hR : Cert.ReferenceIdeal.Facts] [hP : Cert.Pre_input_domain.Facts]
    (hrun : HRun) : Cert.algebraic_KernelIdeal_ReferenceIdeal := by
  intro m g m' g' hpre hagree
  have hrk := ranges m hpre
  have hrr : ∀ (c : Dev Cert.ReferenceIdeal.nD) k,
      ((m' ((c.tc : Thread Cert.ReferenceIdeal.nD Cert.ReferenceIdeal.τ).loc Cert.ReferenceIdeal.main_arg0)) k).toNat < 64
      ∧ ((m' ((c.tc : Thread Cert.ReferenceIdeal.nD Cert.ReferenceIdeal.τ).loc Cert.ReferenceIdeal.main_arg1)) k).toNat < 64 := by
    intro c k
    rw [(hagree c).1, (hagree c).2.1]
    exact hrk c k
  refine ⟨fun c => Cert.Spec.hist (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.total (m ((c.tc : Thread Cert.KernelIdeal.nD Cert.KernelIdeal.τ).loc Cert.KernelIdeal.main_arg3)), ?_, ?_⟩
  · refine (θ_run (Cert.KernelIdeal.defs (F := Ideal)) _ _).mono (fun _ h c => ?_) (hrun m g hrk)
    obtain ⟨v0, hrows, h5, h6, h0, h1, h2, h3⟩ := h c
    exact ⟨h5.trans (Cert.Proof.HistBridge.tail_hist _ _ _ v0 (hrk c)
        (Cert.Proof.HistGlue.rows_of_holds m c v0 (hrk c) hrows)),
      h6.trans (Cert.Proof.HistBridge.tail_total _), h0, h1, h2, h3⟩
  · refine (θ_run (Cert.ReferenceIdeal.defs (F := Ideal)) _ _).mono (fun _ h c => ?_)
      (Cert.ReferenceIdeal.RefValue.run_spec m' g' hrr)
    obtain ⟨h14, h15, rest⟩ := h c
    refine ⟨h14.trans ?_, h15.trans ?_, rest⟩
    · rw [(hagree c).1, (hagree c).2.1, (hagree c).2.2.1]
    · rw [(hagree c).2.2.2]

end Cert.Proof.HistClaims

end
-- ==== Proof.HistBClaims.lean ====
/-
  The frame of the kernel as printed (floats as their words): it runs and leaves its arguments unchanged.

  The kernel's run (the hypothesis `HRunB`): under the index ranges, every execution ends with the four arguments as
  they were.  The index ranges come out of the precondition, which does not look at the float arguments' values beyond
  comparing them, so they hold at this instance as at any other.
-/
import proofs.«201955_g20547123544587_cont_8to1_184_16_alg».proof.Defs
import proofs.«201955_g20547123544587_cont_8to1_184_16_alg».proof.Proof.PreFacts
import proofs.«201955_g20547123544587_cont_8to1_184_16_alg».proof.Proof.Gen.Kernel

noncomputable section

namespace Cert.Proof.HistBClaims

open Idealize.ShloMosaic Idealize.SL.Sem

/-- The kernel's run with its values dropped: under the index ranges, every execution ends, on every device, with the
    four arguments unchanged. -/
abbrev HRunB : Prop :=
  ∀ (m : (ℓ : Loc Cert.Kernel.nD Cert.Kernel.τ Cert.Kernel.sig) → Buf (Elt Bits) ℓ) (ρ : Dev Cert.Kernel.nD → PrngReg),
    (∀ (c : Dev Cert.Kernel.nD) k, ((m ((c.tc : Thread Cert.Kernel.nD Cert.Kernel.τ).loc Cert.Kernel.main_arg0)) k).toNat < 64
        ∧ ((m ((c.tc : Thread Cert.Kernel.nD Cert.Kernel.τ).loc Cert.Kernel.main_arg1)) k).toNat < 64) →
    θ_run (Cert.Kernel.defs (F := Bits)) (Cert.Kernel.threads (F := Bits)) ⟨m, fun _ => 0, ρ⟩
      (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))

/-- The index ranges, out of the kernel's precondition. -/
theorem ranges [hP : Cert.Pre_input_domain.Facts]
    (m : (ℓ : Loc Cert.Kernel.nD Cert.Kernel.τ Cert.Kernel.sig) → Buf (Elt Bits) ℓ) (hpre : Cert.Pre_Kernel m) :
    ∀ (c : Dev Cert.Kernel.nD) k, ((m ((c.tc : Thread Cert.Kernel.nD Cert.Kernel.τ).loc Cert.Kernel.main_arg0)) k).toNat < 64
      ∧ ((m ((c.tc : Thread Cert.Kernel.nD Cert.Kernel.τ).loc Cert.Kernel.main_arg1)) k).toNat < 64 :=
  fun c => Cert.PreFacts.range (F := Bits) _ _ _ _ (hpre c)

/-- **The frame**: the kernel runs and leaves its arguments unchanged. -/
theorem frame [hK : Cert.Kernel.Facts] [hP : Cert.Pre_input_domain.Facts] (hrun : HRunB) : Cert.frame_Kernel :=
  fun m g hpre => hrun m g (ranges m hpre)

end Cert.Proof.HistBClaims

end
-- ==== Proof.HistProc.lean ====
/-
  A chunk's two buffers, consumed: the inner loop that walks a pair of chunk buffers sixteen entries at a time.

  A trip loads 21 vectors of sixteen entries from each buffer of the pair, at offsets 336 · b + 16 · r (r < 21), and for
  each r adds one unit at the sixteen cells 64 · p + c + 4096 · lane of the pair (p, c) of vectors.  Every entry is a tile
  number below 64, so the cells lie inside the table with no wrap-around of 32-bit words, and the side condition the
  body assumes before each indexed add holds.  After trip b the table is the one after the first 21 · (b + 1) vectors;
  31 trips consume the 651 vectors of the chunk.
-/
import proofs.«201955_g20547123544587_cont_8to1_184_16_alg».proof.Proof.HistTab
import proofs.«201955_g20547123544587_cont_8to1_184_16_alg».proof.Proof.HistTile

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The cells lie inside the table -/

omit [FloatOps F] in
/-- Lane `r`'s offset into the lane copies: `4096 · r`. -/
theorem pay53_toNat (y : S16.Idx) : ((k0_pay53 : IVec S16 32) y).toNat = 4096 * (y 0).val := by
  have hy : (y 0).val < 16 := (y 0).isLt
  show (BitVec.ofNat 32 (0 * 16 + (y 0).val) * 4096#32).toNat = _
  rw [BitVec.toNat_mul, BitVec.toNat_ofNat]
  simp only [zero_mul, zero_add]
  rw [Nat.mod_eq_of_lt (by omega : (y 0).val < 2 ^ 32)]
  show ((y 0).val * 4096) % 2 ^ 32 = _
  rw [Nat.mod_eq_of_lt (by omega)]; omega

omit [FloatOps F] in
/-- The cell of lane `y`: `64 · p + c + 4096 · lane`, with no wrap-around when `p, c < 64`. -/
theorem addr_toNat {p c : IVec S16 32} (hp : ∀ y, (p y).toNat < 64) (hc : ∀ y, (c y).toNat < 64) (y : S16.Idx) :
    (addr p c y).toNat = 64 * (p y).toNat + (c y).toNat + 4096 * (y 0).val := by
  have hy : (y 0).val < 16 := (y 0).isLt
  have h1 := hp y; have h2 := hc y
  show ((p y * 64#32 + c y) + (k0_pay53 : IVec S16 32) y).toNat = _
  rw [BitVec.toNat_add, BitVec.toNat_add, BitVec.toNat_mul, pay53_toNat]
  show (((p y).toNat * 64 % 2 ^ 32 + (c y).toNat) % 2 ^ 32 + 4096 * (y 0).val) % 2 ^ 32 = _
  rw [Nat.mod_eq_of_lt (by omega : (p y).toNat * 64 < 2 ^ 32), Nat.mod_eq_of_lt (by omega : (p y).toNat * 64 + (c y).toNat < 2 ^ 32),
    Nat.mod_eq_of_lt (by omega)]
  omega

omit [FloatOps F] in
/-- Sixteen pairs of tile numbers name sixteen cells of the table. -/
theorem inB_addr {p c : IVec S16 32} (hp : ∀ y, (p y).toNat < 64) (hc : ∀ y, (c y).toNat < 64) : InB (addr p c) := by
  intro x y
  obtain rfl : x = 0 := Subsingleton.elim _ _
  have hy : (y 0).val < 16 := (y 0).isLt
  have h1 := hp y; have h2 := hc y
  show (addr p c y).toNat < 65536
  rw [addr_toNat hp hc]; omega

/-! ## One indexed add -/

omit [FloatOps F] in
/-- The table held through its whole-rectangle access is the table held whole. -/
theorem pts_sH_whole (d : Dev nD) (L : grid0.Coords) (ft : Buf (Elt F) ((V d (cT L) (jT L)).loc cc0_scratch0)) :
    (((sH : Memref sig .scVector .vmem S65536 .f32).access (.whole S65536)).loc (V d (cT L) (jT L))
        ↦[((sH : Memref sig .scVector .vmem S65536 .f32).access (.whole S65536)).set]{fullShare} ft : sProp 𝕄)
      = ((sH : Memref sig .scVector .vmem S65536 .f32).view.loc (V d (cT L) (jT L)) ↦{fullShare} ft) := by
  rw [show ((sH : Memref sig .scVector .vmem S65536 .f32).access (.whole S65536)).set = Finset.univ from
    Memref.set_access_whole (cc0_scratch0 : Ref sig .scVector)] <;> rfl

omit [FloatOps F] in
/-- Through the whole-rectangle access the table reads as it is, and an unmasked write replaces it. -/
theorem sH_write_read (ft w : Vec F S65536 .f32) :
    ((sH : Memref sig .scVector .vmem S65536 .f32).access (.whole S65536)).write (Elt F) ft w Finset.univ = w :=
  Memref.write_access_whole_univ (Elt F) (cc0_scratch0 : Ref sig .scVector) ft w
omit [FloatOps F] in
theorem sH_read (ft : Vec F S65536 .f32) :
    ((sH : Memref sig .scVector .vmem S65536 .f32).access (.whole S65536)).read (Elt F) ft = ft :=
  Memref.read_access_whole (Elt F) (cc0_scratch0 : Ref sig .scVector) ft

/-- One indexed add at the head of a program: the table goes from `ft` to its scatter. -/
theorem scatter_step (d : Dev nD) (L : grid0.Coords) {α : Type} (ft : Vec F S65536 .f32) (a : IVec S16 32)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} ft : sProp 𝕄)
      ⊢ iprop((((sH : Memref sig .scVector .vmem S65536 .f32).view.loc (V d (cT L) (jT L)) ↦{fullShare}
              storeIdx ft ![a] (k0_pay54 (F := F)) (fun _ => 1#1) true h)
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  iintro H Hk
  ihave H' := (Entails.of_eq (pts_sH_whole (F := F) d L _).symm) $$ H
  iapply (SparseCore.wp_vectorStoreIdx 𝒱₀ (V d (cT L) (jT L)) none Set.univ (base := (sH : Memref sig .scVector .vmem S65536 .f32))) $$ H'
  iintro H
  rw [sH_write_read, sH_read]
  ihave H2 := (Entails.of_eq (pts_sH_whole (F := F) d L _)) $$ H
  iapply Hk
  iexact H2

/-- One step of the table is one indexed add at its sixteen cells. -/
theorem stepTab_eq (ft : Vec F S65536 .f32) (p c : IVec S16 32) (h : InB (addr p c)) :
    stepTab ft p c = storeIdx ft ![addr p c] (k0_pay54 (F := F)) (fun _ => 1#1) true h := by
  unfold stepTab
  exact dif_pos h

/-- One indexed add at the cells of a pair `(p, c)`, at the head of a program: the table goes from `ft` to `stepTab ft p c`. -/
theorem scatter_stepTab (d : Dev nD) (L : grid0.Coords) {α : Type} (ft : Vec F S65536 .f32) (p c a : IVec S16 32) (ha : a = addr p c)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} ft : sProp 𝕄)
      ⊢ iprop((((sH : Memref sig .scVector .vmem S65536 .f32).view.loc (V d (cT L) (jT L)) ↦{fullShare} stepTab ft p c)
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  subst ha
  rw [stepTab_eq ft p c h]
  exact scatter_step d L _ _ h hs k Q

/-- The same over the table's steps: vector `n` of a pair of buffers takes the table from `tabN … n` to `tabN … (n + 1)`. -/
theorem scatter_tab (d : Dev nD) (L : grid0.Coords) {α : Type} {N : ℕ} {hN : 0 < N} (g₀ g₁ : IVec ⟨1, ![N]⟩ 32) (f : Vec F S65536 .f32)
    (n n' : ℕ) (hn : n' = n + 1)
    (p c a : IVec S16 32) (hp : p = vecAt hN g₀ n) (hc : c = vecAt hN g₁ n) (ha : a = addr p c)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} tabN hN g₀ g₁ f n : sProp 𝕄)
      ⊢ iprop((((sH : Memref sig .scVector .vmem S65536 .f32).view.loc (V d (cT L) (jT L)) ↦{fullShare} tabN hN g₀ g₁ f n')
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  subst hp; subst hc; subst hn
  exact scatter_stepTab d L (tabN hN g₀ g₁ f n) _ _ a ha h hs k Q

/-! ## What a load reads -/

omit [FloatOps F] in
/-- The sixteen entries a trip's load `r` reads are vector `21 · b + r` of the buffer. -/
theorem unit_idx_vecAt (g : IVec S10416 32) (b r : ℕ) (hb : b < 31) (hr : r < 21) (off : Fin S10416.rank → ℕ)
    (hoff : off = ![336 * b + 16 * r]) (inb : ∀ a, off a + S16.size a ≤ S10416.size a) :
    (fun y : S16.Idx => g ((Rect.unit (s := S10416) off S16.size inb).toLoadRect.idx y))
      = vecAt (N := 10416) (by decide) g (21 * b + r) := by
  subst hoff
  funext y
  unfold vecAt
  congr 1
  funext a
  obtain rfl : a = 0 := Subsingleton.elim _ _
  apply Fin.ext
  have hy : (y 0).val < 16 := (y 0).isLt
  show 336 * b + 16 * r + 1 * (y 0).val = (16 * (21 * b + r) + (y 0).val) % 10416
  rw [Nat.mod_eq_of_lt (by omega)]; omega

omit [FloatOps F] in
theorem load_P0 (g : IVec S10416 32) (k : Fin k0_t3_loop.trips) (r : Fin 21) (c : BitVec 32) (hc : c = BitVec.ofNat 32 (16 * r.val))
    (inb : ∀ a, k0_off3 k c a + S16.size a ≤ S10416.size a) (n : ℕ) (hn : n = 21 * k.val + r.val) :
    (sP0 : Memref sig .scVector .vmem S10416 .i32).view.readAt (Elt F) (Rect.unit (s := S10416) (k0_off3 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off3_eq k r) inb) y

omit [FloatOps F] in
theorem load_C0 (g : IVec S10416 32) (k : Fin k0_t3_loop.trips) (r : Fin 21) (c : BitVec 32) (hc : c = BitVec.ofNat 32 (16 * r.val))
    (inb : ∀ a, k0_off3 k c a + S16.size a ≤ S10416.size a) (n : ℕ) (hn : n = 21 * k.val + r.val) :
    (sC0 : Memref sig .scVector .vmem S10416 .i32).view.readAt (Elt F) (Rect.unit (s := S10416) (k0_off3 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off3_eq k r) inb) y

omit [FloatOps F] in
theorem load_P1 (g : IVec S10416 32) (k : Fin k0_t4_loop.trips) (r : Fin 21) (c : BitVec 32) (hc : c = BitVec.ofNat 32 (16 * r.val))
    (inb : ∀ a, k0_off5 k c a + S16.size a ≤ S10416.size a) (n : ℕ) (hn : n = 21 * k.val + r.val) :
    (sP1 : Memref sig .scVector .vmem S10416 .i32).view.readAt (Elt F) (Rect.unit (s := S10416) (k0_off5 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off5_eq k r) inb) y

omit [FloatOps F] in
theorem load_C1 (g : IVec S10416 32) (k : Fin k0_t4_loop.trips) (r : Fin 21) (c : BitVec 32) (hc : c = BitVec.ofNat 32 (16 * r.val))
    (inb : ∀ a, k0_off5 k c a + S16.size a ≤ S10416.size a) (n : ℕ) (hn : n = 21 * k.val + r.val) :
    (sC1 : Memref sig .scVector .vmem S10416 .i32).view.readAt (Elt F) (Rect.unit (s := S10416) (k0_off5 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off5_eq k r) inb) y

/-! ## The loop over the first pair of chunk buffers -/

/-- Between trips: the two buffers as they were, the table after the first `21 · b` vectors. -/
def inv_process0 (d : Dev nD) (L : grid0.Coords) (g₀ g₁ : IVec S10416 32) (f : Vec F S65536 .f32) (b : Nat) (_ : PUnit) : sProp 𝕄 :=
  iprop(((sP0 : Memref sig .scVector .vmem S10416 .i32).view.loc (V d (cT L) (jT L)) ↦{fullShare} g₀)
    ∗ ((sC0 : Memref sig .scVector .vmem S10416 .i32).view.loc (V d (cT L) (jT L)) ↦{fullShare} g₁)
    ∗ ((sH : Memref sig .scVector .vmem S65536 .f32).view.loc (V d (cT L) (jT L)) ↦{fullShare} tabN (N := 10416) (by decide) g₀ g₁ f (21 * b)))

/-- The loop over a pair of chunk buffers leaves the buffers as they were and the table after the chunk's 651 vectors. -/
theorem process0 (d : Dev nD) (L : grid0.Coords) (g₀ g₁ : IVec S10416 32) (f : Vec F S65536 .f32) (h₀ : Tiles g₀) (h₁ : Tiles g₁) :
    iprop(((sP0 : Memref sig .scVector .vmem S10416 .i32).view.loc (V d (cT L) (jT L)) ↦{fullShare} g₀)
        ∗ ((sC0 : Memref sig .scVector .vmem S10416 .i32).view.loc (V d (cT L) (jT L)) ↦{fullShare} g₁)
        ∗ ((sH : Memref sig .scVector .vmem S65536 .f32).view.loc (V d (cT L) (jT L)) ↦{fullShare} f))
      ⊢ wp (M := 𝕄) frame (wpE (defs₀ (F := F)) 𝒱₀ (V d (cT L) (jT L)) none) Set.univ
          (Scf.Loop.for k0_t3_loop k0_t3_ok ⟨⟩ (k0_t3_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => iprop((sP0.view.loc (V d (cT L) (jT L)) ↦{fullShare} g₀) ∗ (sC0.view.loc (V d (cT L) (jT L)) ↦{fullShare} g₁)
            ∗ (sH.view.loc (V d (cT L) (jT L)) ↦{fullShare} chunkTab g₀ g₁ f)) := by
  iintro ⟨HP, HC, HH⟩
  sl_for (inv_process0 (F := F) d L g₀ g₁ f) $$ [HP HC HH]
  case region =>
    intro k _
    unfold inv_process0
    iintro ⟨HP, HC, HH⟩
    -- the 42 loads, and the first cell check
    sl_exec (disch := exact inB_addr (fun y => h₀ _) (fun y => h₁ _))
    -- vector 0 of the trip
    have hp0 : process0.sl.r (F := F) g₀ k = vecAt (N := 10416) (by decide) g₀ (21 * k.val) :=
      load_P0 (F := F) g₀ k ⟨0, by decide⟩ _ rfl _ _ rfl
    have hc0 : process0.sl.r_21 (F := F) g₁ k = vecAt (N := 10416) (by decide) g₁ (21 * k.val) :=
      load_C0 (F := F) g₁ k ⟨0, by decide⟩ _ rfl _ _ rfl
    iapply (scatter_tab d L g₀ g₁ f (21 * k.val) (21 * k.val + 1) (by omega) _ _ _ hp0 hc0 rfl _ _ _ _) $$ HH
    iintro HH
    sl_exec (disch := exact inB_addr (fun y => h₀ _) (fun y => h₁ _))
    -- vector 1 of the trip
    have hp1 : process0.sl.r_1 (F := F) g₀ k = vecAt (N := 10416) (by decide) g₀ (21 * k.val + 1) :=
      load_P0 (F := F) g₀ k ⟨1, by decide⟩ _ rfl _ _ rfl
    have hc1 : process0.sl.r_22 (F := F) g₁ k = vecAt (N := 10416) (by decide) g₁ (21 * k.val + 1) :=
      load_C0 (F := F) g₁ k ⟨1, by decide⟩ _ rfl _ _ rfl
    iapply (scatter_tab d L g₀ g₁ f (21 * k.val + 1) (21 * k.val + 2) (by omega) _ _ _ hp1 hc1 rfl _ _ _ _) $$ HH
    iintro HH
    sl_exec (disch := exact inB_addr (fun y => h₀ _) (fun y => h₁ _))
    -- vector 2 of the trip
    have hp2 : process0.sl.r_2 (F := F) g₀ k = vecAt (N := 10416) (by decide) g₀ (21 * k.val + 2) :=
      load_P0 (F := F) g₀ k ⟨2, by decide⟩ _ rfl _ _ rfl
    have hc2 : process0.sl.r_23 (F := F) g₁ k = vecAt (N := 10416) (by decide) g₁ (21 * k.val + 2) :=
      load_C0 (F := F) g₁ k ⟨2, by decide⟩ _ rfl _ _ rfl
    iapply (scatter_tab d L g₀ g₁ f (21 * k.val + 2) (21 * k.val + 3) (by omega) _ _ _ hp2 hc2 rfl _ _ _ _) $$ HH
    iintro HH
    sl_exec (disch := exact inB_addr (fun y => h₀ _) (fun y => h₁ _))
    -- vector 3 of the trip
    have hp3 : process0.sl.r_3 (F := F) g₀ k = vecAt (N := 10416) (by decide) g₀ (21 * k.val + 3) :=
      load_P0 (F := F) g₀ k ⟨3, by decide⟩ _ rfl _ _ rfl
    have hc3 : process0.sl.r_24 (F := F) g₁ k = vecAt (N := 10416) (by decide) g₁ (21 * k.val + 3) :=
      load_C0 (F := F) g₁ k ⟨3, by decide⟩ _ rfl _ _ rfl
    iapply (scatter_tab d L g₀ g₁ f (21 * k.val + 3) (21 * k.val + 4) (by omega) _ _ _ hp3 hc3 rfl _ _ _ _) $$ HH
    iintro HH
    sl_exec (disch := exact inB_addr (fun y => h₀ _) (fun y => h₁ _))
    -- vector 4 of the trip
    have hp4 : process0.sl.r_4 (F := F) g₀ k = vecAt (N := 10416) (by decide) g₀ (21 * k.val + 4) :=
      load_P0 (F := F) g₀ k ⟨4, by decide⟩ _ rfl _ _ rfl
    have hc4 : process0.sl.r_25 (F := F) g₁ k = vecAt (N := 10416) (by decide) g₁ (21 * k.val + 4) :=
      load_C0 (F := F) g₁ k ⟨4, by decide⟩ _ rfl _ _ rfl
    iapply (scatter_tab d L g₀ g₁ f (21 * k.val + 4) (21 * k.val + 5) (by omega) _ _ _ hp4 hc4 rfl _ _ _ _) $$ HH
    iintro HH
    sl_exec (disch := exact inB_addr (fun y => h₀ _) (fun y => h₁ _))
    -- vector 5 of the trip
    have hp5 : process0.sl.r_5 (F := F) g₀ k = vecAt (N := 10416) (by decide) g₀ (21 * k.val + 5) :=
      load_P0 (F := F) g₀ k ⟨5, by decide⟩ _ rfl _ _ rfl
    have hc5 : process0.sl.r_26 (F := F) g₁ k = vecAt (N := 10416) (by decide) g₁ (21 * k.val + 5) :=
      load_C0 (F := F) g₁ k ⟨5, by decide⟩ _ rfl _ _ rfl
    iapply (scatter_tab d L g₀ g₁ f (21 * k.val + 5) (21 * k.val + 6) (by omega) _ _ _ hp5 hc5 rfl _ _ _ _) $$ HH
    iintro HH
    sl_exec (disch := exact inB_addr (fun y => h₀ _) (fun y => h₁ _))
    -- vector 6 of the trip
    have hp6 : process0.sl.r_6 (F := F) g₀ k = vecAt (N := 10416) (by decide) g₀ (21 * k.val + 6) :=
      load_P0 (F := F) g₀ k ⟨6, by decide⟩ _ rfl _ _ rfl
    have hc6 : process0.sl.r_27 (F := F) g₁ k = vecAt (N := 10416) (by decide) g₁ (21 * k.val + 6) :=
      load_C0 (F := F) g₁ k ⟨6, by decide⟩ _ rfl _ _ rfl
    iapply (scatter_tab d L g₀ g₁ f (21 * k.val + 6) (21 * k.val + 7) (by omega) _ _ _ hp6 hc6 rfl _ _ _ _) $$ HH
    iintro HH
    sl_exec (disch := exact inB_addr (fun y => h₀ _) (fun y => h₁ _))
    -- vector 7 of the trip
    have hp7 : process0.sl.r_7 (F := F) g₀ k = vecAt (N := 10416) (by decide) g₀ (21 * k.val + 7) :=
      load_P0 (F := F) g₀ k ⟨7, by decide⟩ _ rfl _ _ rfl
    have hc7 : process0.sl.r_28 (F := F) g₁ k = vecAt (N := 10416) (by decide) g₁ (21 * k.val + 7) :=
      load_C0 (F := F) g₁ k ⟨7, by decide⟩ _ rfl _ _ rfl
    iapply (scatter_tab d L g₀ g₁ f (21 * k.val + 7) (21 * k.val + 8) (by omega) _ _ _ hp7 hc7 rfl _ _ _ _) $$ HH
    iintro HH
    sl_exec (disch := exact inB_addr (fun y => h₀ _) (fun y => h₁ _))
    -- vector 8 of the trip
    have hp8 : process0.sl.r_8 (F := F) g₀ k = vecAt (N := 10416) (by decide) g₀ (21 * k.val + 8) :=
      load_P0 (F := F) g₀ k ⟨8, by decide⟩ _ rfl _ _ rfl
    have hc8 : process0.sl.r_29 (F := F) g₁ k = vecAt (N := 10416) (by decide) g₁ (21 * k.val + 8) :=
      load_C0 (F := F) g₁ k ⟨8, by decide⟩ _ rfl _ _ rfl
    iapply (scatter_tab d L g₀ g₁ f (21 * k.val + 8) (21 * k.val + 9) (by omega) _ _ _ hp8 hc8 rfl _ _ _ _) $$ HH
    iintro HH
    sl_exec (disch := exact inB_addr (fun y => h₀ _) (fun y => h₁ _))
    -- vector 9 of the trip
    have hp9 : process0.sl.r_9 (F := F) g₀ k = vecAt (N := 10416) (by decide) g₀ (21 * k.val + 9) :=
      load_P0 (F := F) g₀ k ⟨9, by decide⟩ _ rfl _ _ rfl
    have hc9 : process0.sl.r_30 (F := F) g₁ k = vecAt (N := 10416) (by decide) g₁ (21 * k.val + 9) :=
      load_C0 (F := F) g₁ k ⟨9, by decide⟩ _ rfl _ _ rfl
    iapply (scatter_tab d L g₀ g₁ f (21 * k.val + 9) (21 * k.val + 10) (by omega) _ _ _ hp9 hc9 rfl _ _ _ _) $$ HH
    iintro HH
    sl_exec (disch := exact inB_addr (fun y => h₀ _) (fun y => h₁ _))
    -- vector 10 of the trip
    have hp10 : process0.sl.r_10 (F := F) g₀ k = vecAt (N := 10416) (by decide) g₀ (21 * k.val + 10) :=
      load_P0 (F := F) g₀ k ⟨10, by decide⟩ _ rfl _ _ rfl
    have hc10 : process0.sl.r_31 (F := F) g₁ k = vecAt (N := 10416) (by decide) g₁ (21 * k.val + 10) :=
      load_C0 (F := F) g₁ k ⟨10, by decide⟩ _ rfl _ _ rfl
    iapply (scatter_tab d L g₀ g₁ f (21 * k.val + 10) (21 * k.val + 11) (by omega) _ _ _ hp10 hc10 rfl _ _ _ _) $$ HH
    iintro HH
    sl_exec (disch := exact inB_addr (fun y => h₀ _) (fun y => h₁ _))
    -- vector 11 of the trip
    have hp11 : process0.sl.r_11 (F := F) g₀ k = vecAt (N := 10416) (by decide) g₀ (21 * k.val + 11) :=
      load_P0 (F := F) g₀ k ⟨11, by decide⟩ _ rfl _ _ rfl
    have hc11 : process0.sl.r_32 (F := F) g₁ k = vecAt (N := 10416) (by decide) g₁ (21 * k.val + 11) :=
      load_C0 (F := F) g₁ k ⟨11, by decide⟩ _ rfl _ _ rfl
    iapply (scatter_tab d L g₀ g₁ f (21 * k.val + 11) (21 * k.val + 12) (by omega) _ _ _ hp11 hc11 rfl _ _ _ _) $$ HH
    iintro HH
    sl_exec (disch := exact inB_addr (fun y => h₀ _) (fun y => h₁ _))
    -- vector 12 of the trip
    have hp12 : process0.sl.r_12 (F := F) g₀ k = vecAt (N := 10416) (by decide) g₀ (21 * k.val + 12) :=
      load_P0 (F := F) g₀ k ⟨12, by decide⟩ _ rfl _ _ rfl
    have hc12 : process0.sl.r_33 (F := F) g₁ k = vecAt (N := 10416) (by decide) g₁ (21 * k.val + 12) :=
      load_C0 (F := F) g₁ k ⟨12, by decide⟩ _ rfl _ _ rfl
    iapply (scatter_tab d L g₀ g₁ f (21 * k.val + 12) (21 * k.val + 13) (by omega) _ _ _ hp12 hc12 rfl _ _ _ _) $$ HH
    iintro HH
    sl_exec (disch := exact inB_addr (fun y => h₀ _) (fun y => h₁ _))
    -- vector 13 of the trip
    have hp13 : process0.sl.r_13 (F := F) g₀ k = vecAt (N := 10416) (by decide) g₀ (21 * k.val + 13) :=
      load_P0 (F := F) g₀ k ⟨13, by decide⟩ _ rfl _ _ rfl
    have hc13 : process0.sl.r_34 (F := F) g₁ k = vecAt (N := 10416) (by decide) g₁ (21 * k.val + 13) :=
      load_C0 (F := F) g₁ k ⟨13, by decide⟩ _ rfl _ _ rfl
    iapply (scatter_tab d L g₀ g₁ f (21 * k.val + 13) (21 * k.val + 14) (by omega) _ _ _ hp13 hc13 rfl _ _ _ _) $$ HH
    iintro HH
    sl_exec (disch := exact inB_addr (fun y => h₀ _) (fun y => h₁ _))
    -- vector 14 of the trip
    have hp14 : process0.sl.r_14 (F := F) g₀ k = vecAt (N := 10416) (by decide) g₀ (21 * k.val + 14) :=
      load_P0 (F := F) g₀ k ⟨14, by decide⟩ _ rfl _ _ rfl
    have hc14 : process0.sl.r_35 (F := F) g₁ k = vecAt (N := 10416) (by decide) g₁ (21 * k.val + 14) :=
      load_C0 (F := F) g₁ k ⟨14, by decide⟩ _ rfl _ _ rfl
    iapply (scatter_tab d L g₀ g₁ f (21 * k.val + 14) (21 * k.val + 15) (by omega) _ _ _ hp14 hc14 rfl _ _ _ _) $$ HH
    iintro HH
    sl_exec (disch := exact inB_addr (fun y => h₀ _) (fun y => h₁ _))
    -- vector 15 of the trip
    have hp15 : process0.sl.r_15 (F := F) g₀ k = vecAt (N := 10416) (by decide) g₀ (21 * k.val + 15) :=
      load_P0 (F := F) g₀ k ⟨15, by decide⟩ _ rfl _ _ rfl
    have hc15 : process0.sl.r_36 (F := F) g₁ k = vecAt (N := 10416) (by decide) g₁ (21 * k.val + 15) :=
      load_C0 (F := F) g₁ k ⟨15, by decide⟩ _ rfl _ _ rfl
    iapply (scatter_tab d L g₀ g₁ f (21 * k.val + 15) (21 * k.val + 16) (by omega) _ _ _ hp15 hc15 rfl _ _ _ _) $$ HH
    iintro HH
    sl_exec (disch := exact inB_addr (fun y => h₀ _) (fun y => h₁ _))
    -- vector 16 of the trip
    have hp16 : process0.sl.r_16 (F := F) g₀ k = vecAt (N := 10416) (by decide) g₀ (21 * k.val + 16) :=
      load_P0 (F := F) g₀ k ⟨16, by decide⟩ _ rfl _ _ rfl
    have hc16 : process0.sl.r_37 (F := F) g₁ k = vecAt (N := 10416) (by decide) g₁ (21 * k.val + 16) :=
      load_C0 (F := F) g₁ k ⟨16, by decide⟩ _ rfl _ _ rfl
    iapply (scatter_tab d L g₀ g₁ f (21 * k.val + 16) (21 * k.val + 17) (by omega) _ _ _ hp16 hc16 rfl _ _ _ _) $$ HH
    iintro HH
    sl_exec (disch := exact inB_addr (fun y => h₀ _) (fun y => h₁ _))
    -- vector 17 of the trip
    have hp17 : process0.sl.r_17 (F := F) g₀ k = vecAt (N := 10416) (by decide) g₀ (21 * k.val + 17) :=
      load_P0 (F := F) g₀ k ⟨17, by decide⟩ _ rfl _ _ rfl
    have hc17 : process0.sl.r_38 (F := F) g₁ k = vecAt (N := 10416) (by decide) g₁ (21 * k.val + 17) :=
      load_C0 (F := F) g₁ k ⟨17, by decide⟩ _ rfl _ _ rfl
    iapply (scatter_tab d L g₀ g₁ f (21 * k.val + 17) (21 * k.val + 18) (by omega) _ _ _ hp17 hc17 rfl _ _ _ _) $$ HH
    iintro HH
    sl_exec (disch := exact inB_addr (fun y => h₀ _) (fun y => h₁ _))
    -- vector 18 of the trip
    have hp18 : process0.sl.r_18 (F := F) g₀ k = vecAt (N := 10416) (by decide) g₀ (21 * k.val + 18) :=
      load_P0 (F := F) g₀ k ⟨18, by decide⟩ _ rfl _ _ rfl
    have hc18 : process0.sl.r_39 (F := F) g₁ k = vecAt (N := 10416) (by decide) g₁ (21 * k.val + 18) :=
      load_C0 (F := F) g₁ k ⟨18, by decide⟩ _ rfl _ _ rfl
    iapply (scatter_tab d L g₀ g₁ f (21 * k.val + 18) (21 * k.val + 19) (by omega) _ _ _ hp18 hc18 rfl _ _ _ _) $$ HH
    iintro HH
    sl_exec (disch := exact inB_addr (fun y => h₀ _) (fun y => h₁ _))
    -- vector 19 of the trip
    have hp19 : process0.sl.r_19 (F := F) g₀ k = vecAt (N := 10416) (by decide) g₀ (21 * k.val + 19) :=
      load_P0 (F := F) g₀ k ⟨19, by decide⟩ _ rfl _ _ rfl
    have hc19 : process0.sl.r_40 (F := F) g₁ k = vecAt (N := 10416) (by decide) g₁ (21 * k.val + 19) :=
      load_C0 (F := F) g₁ k ⟨19, by decide⟩ _ rfl _ _ rfl
    iapply (scatter_tab d L g₀ g₁ f (21 * k.val + 19) (21 * k.val + 20) (by omega) _ _ _ hp19 hc19 rfl _ _ _ _) $$ HH
    iintro HH
    sl_exec (disch := exact inB_addr (fun y => h₀ _) (fun y => h₁ _))
    -- vector 20 of the trip
    have hp20 : process0.sl.r_20 (F := F) g₀ k = vecAt (N := 10416) (by decide) g₀ (21 * k.val + 20) :=
      load_P0 (F := F) g₀ k ⟨20, by decide⟩ _ rfl _ _ rfl
    have hc20 : process0.sl.r_41 (F := F) g₁ k = vecAt (N := 10416) (by decide) g₁ (21 * k.val + 20) :=
      load_C0 (F := F) g₁ k ⟨20, by decide⟩ _ rfl _ _ rfl
    iapply (scatter_tab d L g₀ g₁ f (21 * k.val + 20) (21 * (k.val + 1)) (by omega) _ _ _ hp20 hc20 rfl _ _ _ _) $$ HH
    iintro HH
    sl_exec (disch := exact inB_addr (fun y => h₀ _) (fun y => h₁ _))
    sl_step
    isplitl [HP]; · iexact HP
    isplitl [HC]; · iexact HC
    iexact HH
  · isplitl [HP HC HH]
    · unfold inv_process0
      isplitl [HP]; · iexact HP
      isplitl [HC]; · iexact HC
      iexact HH
    · iintro %_ HI
      unfold inv_process0
      iexact HI

/-! ## The loop over the second pair of chunk buffers -/

/-- Between trips: the two buffers as they were, the table after the first `21 · b` vectors. -/
def inv_process1 (d : Dev nD) (L : grid0.Coords) (g₀ g₁ : IVec S10416 32) (f : Vec F S65536 .f32) (b : Nat) (_ : PUnit) : sProp 𝕄 :=
  iprop(((sP1 : Memref sig .scVector .vmem S10416 .i32).view.loc (V d (cT L) (jT L)) ↦{fullShare} g₀)
    ∗ ((sC1 : Memref sig .scVector .vmem S10416 .i32).view.loc (V d (cT L) (jT L)) ↦{fullShare} g₁)
    ∗ ((sH : Memref sig .scVector .vmem S65536 .f32).view.loc (V d (cT L) (jT L)) ↦{fullShare} tabN (N := 10416) (by decide) g₀ g₁ f (21 * b)))

/-- The loop over a pair of chunk buffers leaves the buffers as they were and the table after the chunk's 651 vectors. -/
theorem process1 (d : Dev nD) (L : grid0.Coords) (g₀ g₁ : IVec S10416 32) (f : Vec F S65536 .f32) (h₀ : Tiles g₀) (h₁ : Tiles g₁) :
    iprop(((sP1 : Memref sig .scVector .vmem S10416 .i32).view.loc (V d (cT L) (jT L)) ↦{fullShare} g₀)
        ∗ ((sC1 : Memref sig .scVector .vmem S10416 .i32).view.loc (V d (cT L) (jT L)) ↦{fullShare} g₁)
        ∗ ((sH : Memref sig .scVector .vmem S65536 .f32).view.loc (V d (cT L) (jT L)) ↦{fullShare} f))
      ⊢ wp (M := 𝕄) frame (wpE (defs₀ (F := F)) 𝒱₀ (V d (cT L) (jT L)) none) Set.univ
          (Scf.Loop.for k0_t4_loop k0_t4_ok ⟨⟩ (k0_t4_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => iprop((sP1.view.loc (V d (cT L) (jT L)) ↦{fullShare} g₀) ∗ (sC1.view.loc (V d (cT L) (jT L)) ↦{fullShare} g₁)
            ∗ (sH.view.loc (V d (cT L) (jT L)) ↦{fullShare} chunkTab g₀ g₁ f)) := by
  iintro ⟨HP, HC, HH⟩
  sl_for (inv_process1 (F := F) d L g₀ g₁ f) $$ [HP HC HH]
  case region =>
    intro k _
    unfold inv_process1
    iintro ⟨HP, HC, HH⟩
    -- the 42 loads, and the first cell check
    sl_exec (disch := exact inB_addr (fun y => h₀ _) (fun y => h₁ _))
    -- vector 0 of the trip
    have hp0 : process1.sl.r (F := F) g₀ k = vecAt (N := 10416) (by decide) g₀ (21 * k.val) :=
      load_P1 (F := F) g₀ k ⟨0, by decide⟩ _ rfl _ _ rfl
    have hc0 : process1.sl.r_21 (F := F) g₁ k = vecAt (N := 10416) (by decide) g₁ (21 * k.val) :=
      load_C1 (F := F) g₁ k ⟨0, by decide⟩ _ rfl _ _ rfl
    iapply (scatter_tab d L g₀ g₁ f (21 * k.val) (21 * k.val + 1) (by omega) _ _ _ hp0 hc0 rfl _ _ _ _) $$ HH
    iintro HH
    sl_exec (disch := exact inB_addr (fun y => h₀ _) (fun y => h₁ _))
    -- vector 1 of the trip
    have hp1 : process1.sl.r_1 (F := F) g₀ k = vecAt (N := 10416) (by decide) g₀ (21 * k.val + 1) :=
      load_P1 (F := F) g₀ k ⟨1, by decide⟩ _ rfl _ _ rfl
    have hc1 : process1.sl.r_22 (F := F) g₁ k = vecAt (N := 10416) (by decide) g₁ (21 * k.val + 1) :=
      load_C1 (F := F) g₁ k ⟨1, by decide⟩ _ rfl _ _ rfl
    iapply (scatter_tab d L g₀ g₁ f (21 * k.val + 1) (21 * k.val + 2) (by omega) _ _ _ hp1 hc1 rfl _ _ _ _) $$ HH
    iintro HH
    sl_exec (disch := exact inB_addr (fun y => h₀ _) (fun y => h₁ _))
    -- vector 2 of the trip
    have hp2 : process1.sl.r_2 (F := F) g₀ k = vecAt (N := 10416) (by decide) g₀ (21 * k.val + 2) :=
      load_P1 (F := F) g₀ k ⟨2, by decide⟩ _ rfl _ _ rfl
    have hc2 : process1.sl.r_23 (F := F) g₁ k = vecAt (N := 10416) (by decide) g₁ (21 * k.val + 2) :=
      load_C1 (F := F) g₁ k ⟨2, by decide⟩ _ rfl _ _ rfl
    iapply (scatter_tab d L g₀ g₁ f (21 * k.val + 2) (21 * k.val + 3) (by omega) _ _ _ hp2 hc2 rfl _ _ _ _) $$ HH
    iintro HH
    sl_exec (disch := exact inB_addr (fun y => h₀ _) (fun y => h₁ _))
    -- vector 3 of the trip
    have hp3 : process1.sl.r_3 (F := F) g₀ k = vecAt (N := 10416) (by decide) g₀ (21 * k.val + 3) :=
      load_P1 (F := F) g₀ k ⟨3, by decide⟩ _ rfl _ _ rfl
    have hc3 : process1.sl.r_24 (F := F) g₁ k = vecAt (N := 10416) (by decide) g₁ (21 * k.val + 3) :=
      load_C1 (F := F) g₁ k ⟨3, by decide⟩ _ rfl _ _ rfl
    iapply (scatter_tab d L g₀ g₁ f (21 * k.val + 3) (21 * k.val + 4) (by omega) _ _ _ hp3 hc3 rfl _ _ _ _) $$ HH
    iintro HH
    sl_exec (disch := exact inB_addr (fun y => h₀ _) (fun y => h₁ _))
    -- vector 4 of the trip
    have hp4 : process1.sl.r_4 (F := F) g₀ k = vecAt (N := 10416) (by decide) g₀ (21 * k.val + 4) :=
      load_P1 (F := F) g₀ k ⟨4, by decide⟩ _ rfl _ _ rfl
    have hc4 : process1.sl.r_25 (F := F) g₁ k = vecAt (N := 10416) (by decide) g₁ (21 * k.val + 4) :=
      load_C1 (F := F) g₁ k ⟨4, by decide⟩ _ rfl _ _ rfl
    iapply (scatter_tab d L g₀ g₁ f (21 * k.val + 4) (21 * k.val + 5) (by omega) _ _ _ hp4 hc4 rfl _ _ _ _) $$ HH
    iintro HH
    sl_exec (disch := exact inB_addr (fun y => h₀ _) (fun y => h₁ _))
    -- vector 5 of the trip
    have hp5 : process1.sl.r_5 (F := F) g₀ k = vecAt (N := 10416) (by decide) g₀ (21 * k.val + 5) :=
      load_P1 (F := F) g₀ k ⟨5, by decide⟩ _ rfl _ _ rfl
    have hc5 : process1.sl.r_26 (F := F) g₁ k = vecAt (N := 10416) (by decide) g₁ (21 * k.val + 5) :=
      load_C1 (F := F) g₁ k ⟨5, by decide⟩ _ rfl _ _ rfl
    iapply (scatter_tab d L g₀ g₁ f (21 * k.val + 5) (21 * k.val + 6) (by omega) _ _ _ hp5 hc5 rfl _ _ _ _) $$ HH
    iintro HH
    sl_exec (disch := exact inB_addr (fun y => h₀ _) (fun y => h₁ _))
    -- vector 6 of the trip
    have hp6 : process1.sl.r_6 (F := F) g₀ k = vecAt (N := 10416) (by decide) g₀ (21 * k.val + 6) :=
      load_P1 (F := F) g₀ k ⟨6, by decide⟩ _ rfl _ _ rfl
    have hc6 : process1.sl.r_27 (F := F) g₁ k = vecAt (N := 10416) (by decide) g₁ (21 * k.val + 6) :=
      load_C1 (F := F) g₁ k ⟨6, by decide⟩ _ rfl _ _ rfl
    iapply (scatter_tab d L g₀ g₁ f (21 * k.val + 6) (21 * k.val + 7) (by omega) _ _ _ hp6 hc6 rfl _ _ _ _) $$ HH
    iintro HH
    sl_exec (disch := exact inB_addr (fun y => h₀ _) (fun y => h₁ _))
    -- vector 7 of the trip
    have hp7 : process1.sl.r_7 (F := F) g₀ k = vecAt (N := 10416) (by decide) g₀ (21 * k.val + 7) :=
      load_P1 (F := F) g₀ k ⟨7, by decide⟩ _ rfl _ _ rfl
    have hc7 : process1.sl.r_28 (F := F) g₁ k = vecAt (N := 10416) (by decide) g₁ (21 * k.val + 7) :=
      load_C1 (F := F) g₁ k ⟨7, by decide⟩ _ rfl _ _ rfl
    iapply (scatter_tab d L g₀ g₁ f (21 * k.val + 7) (21 * k.val + 8) (by omega) _ _ _ hp7 hc7 rfl _ _ _ _) $$ HH
    iintro HH
    sl_exec (disch := exact inB_addr (fun y => h₀ _) (fun y => h₁ _))
    -- vector 8 of the trip
    have hp8 : process1.sl.r_8 (F := F) g₀ k = vecAt (N := 10416) (by decide) g₀ (21 * k.val + 8) :=
      load_P1 (F := F) g₀ k ⟨8, by decide⟩ _ rfl _ _ rfl
    have hc8 : process1.sl.r_29 (F := F) g₁ k = vecAt (N := 10416) (by decide) g₁ (21 * k.val + 8) :=
      load_C1 (F := F) g₁ k ⟨8, by decide⟩ _ rfl _ _ rfl
    iapply (scatter_tab d L g₀ g₁ f (21 * k.val + 8) (21 * k.val + 9) (by omega) _ _ _ hp8 hc8 rfl _ _ _ _) $$ HH
    iintro HH
    sl_exec (disch := exact inB_addr (fun y => h₀ _) (fun y => h₁ _))
    -- vector 9 of the trip
    have hp9 : process1.sl.r_9 (F := F) g₀ k = vecAt (N := 10416) (by decide) g₀ (21 * k.val + 9) :=
      load_P1 (F := F) g₀ k ⟨9, by decide⟩ _ rfl _ _ rfl
    have hc9 : process1.sl.r_30 (F := F) g₁ k = vecAt (N := 10416) (by decide) g₁ (21 * k.val + 9) :=
      load_C1 (F := F) g₁ k ⟨9, by decide⟩ _ rfl _ _ rfl
    iapply (scatter_tab d L g₀ g₁ f (21 * k.val + 9) (21 * k.val + 10) (by omega) _ _ _ hp9 hc9 rfl _ _ _ _) $$ HH
    iintro HH
    sl_exec (disch := exact inB_addr (fun y => h₀ _) (fun y => h₁ _))
    -- vector 10 of the trip
    have hp10 : process1.sl.r_10 (F := F) g₀ k = vecAt (N := 10416) (by decide) g₀ (21 * k.val + 10) :=
      load_P1 (F := F) g₀ k ⟨10, by decide⟩ _ rfl _ _ rfl
    have hc10 : process1.sl.r_31 (F := F) g₁ k = vecAt (N := 10416) (by decide) g₁ (21 * k.val + 10) :=
      load_C1 (F := F) g₁ k ⟨10, by decide⟩ _ rfl _ _ rfl
    iapply (scatter_tab d L g₀ g₁ f (21 * k.val + 10) (21 * k.val + 11) (by omega) _ _ _ hp10 hc10 rfl _ _ _ _) $$ HH
    iintro HH
    sl_exec (disch := exact inB_addr (fun y => h₀ _) (fun y => h₁ _))
    -- vector 11 of the trip
    have hp11 : process1.sl.r_11 (F := F) g₀ k = vecAt (N := 10416) (by decide) g₀ (21 * k.val + 11) :=
      load_P1 (F := F) g₀ k ⟨11, by decide⟩ _ rfl _ _ rfl
    have hc11 : process1.sl.r_32 (F := F) g₁ k = vecAt (N := 10416) (by decide) g₁ (21 * k.val + 11) :=
      load_C1 (F := F) g₁ k ⟨11, by decide⟩ _ rfl _ _ rfl
    iapply (scatter_tab d L g₀ g₁ f (21 * k.val + 11) (21 * k.val + 12) (by omega) _ _ _ hp11 hc11 rfl _ _ _ _) $$ HH
    iintro HH
    sl_exec (disch := exact inB_addr (fun y => h₀ _) (fun y => h₁ _))
    -- vector 12 of the trip
    have hp12 : process1.sl.r_12 (F := F) g₀ k = vecAt (N := 10416) (by decide) g₀ (21 * k.val + 12) :=
      load_P1 (F := F) g₀ k ⟨12, by decide⟩ _ rfl _ _ rfl
    have hc12 : process1.sl.r_33 (F := F) g₁ k = vecAt (N := 10416) (by decide) g₁ (21 * k.val + 12) :=
      load_C1 (F := F) g₁ k ⟨12, by decide⟩ _ rfl _ _ rfl
    iapply (scatter_tab d L g₀ g₁ f (21 * k.val + 12) (21 * k.val + 13) (by omega) _ _ _ hp12 hc12 rfl _ _ _ _) $$ HH
    iintro HH
    sl_exec (disch := exact inB_addr (fun y => h₀ _) (fun y => h₁ _))
    -- vector 13 of the trip
    have hp13 : process1.sl.r_13 (F := F) g₀ k = vecAt (N := 10416) (by decide) g₀ (21 * k.val + 13) :=
      load_P1 (F := F) g₀ k ⟨13, by decide⟩ _ rfl _ _ rfl
    have hc13 : process1.sl.r_34 (F := F) g₁ k = vecAt (N := 10416) (by decide) g₁ (21 * k.val + 13) :=
      load_C1 (F := F) g₁ k ⟨13, by decide⟩ _ rfl _ _ rfl
    iapply (scatter_tab d L g₀ g₁ f (21 * k.val + 13) (21 * k.val + 14) (by omega) _ _ _ hp13 hc13 rfl _ _ _ _) $$ HH
    iintro HH
    sl_exec (disch := exact inB_addr (fun y => h₀ _) (fun y => h₁ _))
    -- vector 14 of the trip
    have hp14 : process1.sl.r_14 (F := F) g₀ k = vecAt (N := 10416) (by decide) g₀ (21 * k.val + 14) :=
      load_P1 (F := F) g₀ k ⟨14, by decide⟩ _ rfl _ _ rfl
    have hc14 : process1.sl.r_35 (F := F) g₁ k = vecAt (N := 10416) (by decide) g₁ (21 * k.val + 14) :=
      load_C1 (F := F) g₁ k ⟨14, by decide⟩ _ rfl _ _ rfl
    iapply (scatter_tab d L g₀ g₁ f (21 * k.val + 14) (21 * k.val + 15) (by omega) _ _ _ hp14 hc14 rfl _ _ _ _) $$ HH
    iintro HH
    sl_exec (disch := exact inB_addr (fun y => h₀ _) (fun y => h₁ _))
    -- vector 15 of the trip
    have hp15 : process1.sl.r_15 (F := F) g₀ k = vecAt (N := 10416) (by decide) g₀ (21 * k.val + 15) :=
      load_P1 (F := F) g₀ k ⟨15, by decide⟩ _ rfl _ _ rfl
    have hc15 : process1.sl.r_36 (F := F) g₁ k = vecAt (N := 10416) (by decide) g₁ (21 * k.val + 15) :=
      load_C1 (F := F) g₁ k ⟨15, by decide⟩ _ rfl _ _ rfl
    iapply (scatter_tab d L g₀ g₁ f (21 * k.val + 15) (21 * k.val + 16) (by omega) _ _ _ hp15 hc15 rfl _ _ _ _) $$ HH
    iintro HH
    sl_exec (disch := exact inB_addr (fun y => h₀ _) (fun y => h₁ _))
    -- vector 16 of the trip
    have hp16 : process1.sl.r_16 (F := F) g₀ k = vecAt (N := 10416) (by decide) g₀ (21 * k.val + 16) :=
      load_P1 (F := F) g₀ k ⟨16, by decide⟩ _ rfl _ _ rfl
    have hc16 : process1.sl.r_37 (F := F) g₁ k = vecAt (N := 10416) (by decide) g₁ (21 * k.val + 16) :=
      load_C1 (F := F) g₁ k ⟨16, by decide⟩ _ rfl _ _ rfl
    iapply (scatter_tab d L g₀ g₁ f (21 * k.val + 16) (21 * k.val + 17) (by omega) _ _ _ hp16 hc16 rfl _ _ _ _) $$ HH
    iintro HH
    sl_exec (disch := exact inB_addr (fun y => h₀ _) (fun y => h₁ _))
    -- vector 17 of the trip
    have hp17 : process1.sl.r_17 (F := F) g₀ k = vecAt (N := 10416) (by decide) g₀ (21 * k.val + 17) :=
      load_P1 (F := F) g₀ k ⟨17, by decide⟩ _ rfl _ _ rfl
    have hc17 : process1.sl.r_38 (F := F) g₁ k = vecAt (N := 10416) (by decide) g₁ (21 * k.val + 17) :=
      load_C1 (F := F) g₁ k ⟨17, by decide⟩ _ rfl _ _ rfl
    iapply (scatter_tab d L g₀ g₁ f (21 * k.val + 17) (21 * k.val + 18) (by omega) _ _ _ hp17 hc17 rfl _ _ _ _) $$ HH
    iintro HH
    sl_exec (disch := exact inB_addr (fun y => h₀ _) (fun y => h₁ _))
    -- vector 18 of the trip
    have hp18 : process1.sl.r_18 (F := F) g₀ k = vecAt (N := 10416) (by decide) g₀ (21 * k.val + 18) :=
      load_P1 (F := F) g₀ k ⟨18, by decide⟩ _ rfl _ _ rfl
    have hc18 : process1.sl.r_39 (F := F) g₁ k = vecAt (N := 10416) (by decide) g₁ (21 * k.val + 18) :=
      load_C1 (F := F) g₁ k ⟨18, by decide⟩ _ rfl _ _ rfl
    iapply (scatter_tab d L g₀ g₁ f (21 * k.val + 18) (21 * k.val + 19) (by omega) _ _ _ hp18 hc18 rfl _ _ _ _) $$ HH
    iintro HH
    sl_exec (disch := exact inB_addr (fun y => h₀ _) (fun y => h₁ _))
    -- vector 19 of the trip
    have hp19 : process1.sl.r_19 (F := F) g₀ k = vecAt (N := 10416) (by decide) g₀ (21 * k.val + 19) :=
      load_P1 (F := F) g₀ k ⟨19, by decide⟩ _ rfl _ _ rfl
    have hc19 : process1.sl.r_40 (F := F) g₁ k = vecAt (N := 10416) (by decide) g₁ (21 * k.val + 19) :=
      load_C1 (F := F) g₁ k ⟨19, by decide⟩ _ rfl _ _ rfl
    iapply (scatter_tab d L g₀ g₁ f (21 * k.val + 19) (21 * k.val + 20) (by omega) _ _ _ hp19 hc19 rfl _ _ _ _) $$ HH
    iintro HH
    sl_exec (disch := exact inB_addr (fun y => h₀ _) (fun y => h₁ _))
    -- vector 20 of the trip
    have hp20 : process1.sl.r_20 (F := F) g₀ k = vecAt (N := 10416) (by decide) g₀ (21 * k.val + 20) :=
      load_P1 (F := F) g₀ k ⟨20, by decide⟩ _ rfl _ _ rfl
    have hc20 : process1.sl.r_41 (F := F) g₁ k = vecAt (N := 10416) (by decide) g₁ (21 * k.val + 20) :=
      load_C1 (F := F) g₁ k ⟨20, by decide⟩ _ rfl _ _ rfl
    iapply (scatter_tab d L g₀ g₁ f (21 * k.val + 20) (21 * (k.val + 1)) (by omega) _ _ _ hp20 hc20 rfl _ _ _ _) $$ HH
    iintro HH
    sl_exec (disch := exact inB_addr (fun y => h₀ _) (fun y => h₁ _))
    sl_step
    isplitl [HP]; · iexact HP
    isplitl [HC]; · iexact HC
    iexact HH
  · isplitl [HP HC HH]
    · unfold inv_process1
      isplitl [HP]; · iexact HP
      isplitl [HC]; · iexact HC
      iexact HH
    · iintro %_ HI
      unfold inv_process1
      iexact HI

end Cert.Proof.HistIdeal

end
-- ==== Proof.HistLand.lean ====
/-
  What the copies deliver, and the last 256 entries.

  A tile's copies read its part of an index array chunk by chunk: worker `w`'s chunk `i` is the 10416 entries from
  `124992 · w + 10416 · i` on, and the offsets the body computes for its copies — the first two chunks before the loop, chunks
  `2 · t + 2` and `2 · t + 3` in trip `t` — are these, with `w = 2 · s + c` for subcore `s` of SparseCore `c`.  The last worker
  also reads the 256 entries from 3999744 on.  No offset runs past the 4000000 entries, so reading modulo the length is
  reading.  The last 256 entries are consumed like a chunk, sixteen vectors at the literal offsets `0, 16, …, 240`.
-/
import proofs.«201955_g20547123544587_cont_8to1_184_16_alg».proof.Proof.HistProc

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a copy's source reads -/

omit [FloatOps F] in
/-- A slice of the array reads the array under the slice's coordinates. -/
theorem read_slice_pV (r : Rect S4000000) (hr : ∀ a, r.stride a = 1) (A : IVec S4000000 32) (x : r.shape.Idx) :
    View.read (Elt F) ((pV : Memref sig .scVector .hbm S4000000 .i32).slice r hr).view A x = A (r.toLoadRect.idx x) := by
  rfl

omit [FloatOps F] in
/-- A slice of the array reads the array under the slice's coordinates. -/
theorem read_slice_cV (r : Rect S4000000) (hr : ∀ a, r.stride a = 1) (A : IVec S4000000 32) (x : r.shape.Idx) :
    View.read (Elt F) ((cV' : Memref sig .scVector .hbm S4000000 .i32).slice r hr).view A x = A (r.toLoadRect.idx x) := by
  rfl

omit [FloatOps F] in
/-- The 10416 entries from `249984 · s + 124992 · c + 10416 · i` on are chunk `i` of worker `2 · s + c`. -/
theorem unit_idx_chunkOf (A : IVec S4000000 32) (L : grid0.Coords) (i : ℕ) (off : Fin S4000000.rank → ℕ) (st : ℕ)
    (hoff : off = ![st]) (hst : st = 249984 * (L 1).val + 124992 * (L 0).val + 10416 * i)
    (inb : ∀ a, off a + S10416.size a ≤ S4000000.size a) :
    (fun x : S10416.Idx => A ((Rect.unit (s := S4000000) off S10416.size inb).toLoadRect.idx x)) = chunkOf A (wid L) i := by
  subst hoff
  have hin : st + 10416 ≤ 4000000 := inb 0
  subst hst
  funext x
  unfold chunkOf
  congr 1
  funext a
  obtain rfl : a = 0 := Subsingleton.elim _ _
  apply Fin.ext
  have hx : (x 0).val < 10416 := (x 0).isLt
  have h0 : (L 0).val < 2 := (L 0).isLt
  have h1 : (L 1).val < 16 := (L 1).isLt
  show 249984 * (L 1).val + 124992 * (L 0).val + 10416 * i + 1 * (x 0).val = (124992 * wid L + 10416 * i + (x 0).val) % 4000000
  unfold wid
  rw [Nat.mod_eq_of_lt (by omega)]; omega

omit [FloatOps F] in
/-- The first two chunks, copied before the loop. -/
theorem chunk_read_first (L : grid0.Coords) (r : Fin 2) (c : BitVec 32) (hc : c = BitVec.ofNat 32 (10416 * r.val))
    (inb : ∀ a, k0_off1 L c a + S10416.size a ≤ S4000000.size a) (A : IVec S4000000 32) :
    View.read (Elt F) ((pV : Memref sig .scVector .hbm S4000000 .i32).slice (Rect.unit (s := S4000000) (k0_off1 L c) S10416.size inb) (fun _ => rfl)).view A
      = chunkOf A (wid L) r.val := by
  subst hc
  funext x
  rw [read_slice_pV]
  exact congrFun (unit_idx_chunkOf A L r.val _ _ (k0_off1_eq L r) (by omega) inb) x

omit [FloatOps F] in
theorem chunk_read_first0 (L : grid0.Coords) (A : IVec S4000000 32) :
    View.read (Elt F) ((pV : Memref sig .scVector .hbm S4000000 .i32).slice (Rect.unit (s := S4000000) (k0_off1 L 0#32) S10416.size (k0_off1_inb L 0)) (fun _ => rfl)).view A
      = chunkOf A (wid L) 0 := chunk_read_first (F := F) L 0 _ rfl _ A

omit [FloatOps F] in
theorem chunk_read_first1 (L : grid0.Coords) (A : IVec S4000000 32) :
    View.read (Elt F) ((pV : Memref sig .scVector .hbm S4000000 .i32).slice (Rect.unit (s := S4000000) (k0_off1 L 10416#32) S10416.size (k0_off1_inb L 1)) (fun _ => rfl)).view A
      = chunkOf A (wid L) 1 := chunk_read_first (F := F) L 1 _ rfl _ A

omit [FloatOps F] in
/-- Trip `t`'s copy into the first pair of buffers: chunk `2 · t + 2`. -/
theorem chunk_read_even (L : grid0.Coords) (t : Fin k0_t2_loop.trips)
    (inb : ∀ a, k0_off4 L t a + S10416.size a ≤ S4000000.size a) (A : IVec S4000000 32) :
    View.read (Elt F) ((pV : Memref sig .scVector .hbm S4000000 .i32).slice (Rect.unit (s := S4000000) (k0_off4 L t) S10416.size inb) (fun _ => rfl)).view A
      = chunkOf A (wid L) (2 * t.val + 2) := by
  funext x
  rw [read_slice_pV]
  exact congrFun (unit_idx_chunkOf A L (2 * t.val + 2) _ _ (k0_off4_eq L t) (by omega) inb) x

omit [FloatOps F] in
/-- Trip `t`'s copy into the second pair of buffers: chunk `2 · t + 3`. -/
theorem chunk_read_odd (L : grid0.Coords) (t : Fin k0_t2_loop.trips)
    (inb : ∀ a, k0_off6 L t a + S10416.size a ≤ S4000000.size a) (A : IVec S4000000 32) :
    View.read (Elt F) ((pV : Memref sig .scVector .hbm S4000000 .i32).slice (Rect.unit (s := S4000000) (k0_off6 L t) S10416.size inb) (fun _ => rfl)).view A
      = chunkOf A (wid L) (2 * t.val + 3) := by
  funext x
  rw [read_slice_pV]
  exact congrFun (unit_idx_chunkOf A L (2 * t.val + 3) _ _ (k0_off6_eq L t) (by omega) inb) x

omit [FloatOps F] in
/-- The last 256 entries. -/
theorem tail_read (inb : ∀ a, (![3999744] : Fin 1 → ℕ) a + S256.size a ≤ S4000000.size a) (A : IVec S4000000 32) :
    View.read (Elt F) ((pV : Memref sig .scVector .hbm S4000000 .i32).slice (Rect.unit (s := S4000000) ![3999744] S256.size inb) (fun _ => rfl)).view A
      = tailOf A := by
  funext x
  rw [read_slice_pV]
  unfold tailOf
  congr 1
  funext a
  obtain rfl : a = 0 := Subsingleton.elim _ _
  apply Fin.ext
  have hx : (x 0).val < 256 := (x 0).isLt
  show 3999744 + 1 * (x 0).val = (3999744 + (x 0).val) % 4000000
  rw [Nat.mod_eq_of_lt (by omega)]; omega

omit [FloatOps F] in
/-- The first two chunks, copied before the loop. -/
theorem chunk_read_first_c (L : grid0.Coords) (r : Fin 2) (c : BitVec 32) (hc : c = BitVec.ofNat 32 (10416 * r.val))
    (inb : ∀ a, k0_off1 L c a + S10416.size a ≤ S4000000.size a) (A : IVec S4000000 32) :
    View.read (Elt F) ((cV' : Memref sig .scVector .hbm S4000000 .i32).slice (Rect.unit (s := S4000000) (k0_off1 L c) S10416.size inb) (fun _ => rfl)).view A
      = chunkOf A (wid L) r.val := by
  subst hc
  funext x
  rw [read_slice_cV]
  exact congrFun (unit_idx_chunkOf A L r.val _ _ (k0_off1_eq L r) (by omega) inb) x

omit [FloatOps F] in
theorem chunk_read_first0_c (L : grid0.Coords) (A : IVec S4000000 32) :
    View.read (Elt F) ((cV' : Memref sig .scVector .hbm S4000000 .i32).slice (Rect.unit (s := S4000000) (k0_off1 L 0#32) S10416.size (k0_off1_inb L 0)) (fun _ => rfl)).view A
      = chunkOf A (wid L) 0 := chunk_read_first_c (F := F) L 0 _ rfl _ A

omit [FloatOps F] in
theorem chunk_read_first1_c (L : grid0.Coords) (A : IVec S4000000 32) :
    View.read (Elt F) ((cV' : Memref sig .scVector .hbm S4000000 .i32).slice (Rect.unit (s := S4000000) (k0_off1 L 10416#32) S10416.size (k0_off1_inb L 1)) (fun _ => rfl)).view A
      = chunkOf A (wid L) 1 := chunk_read_first_c (F := F) L 1 _ rfl _ A

omit [FloatOps F] in
/-- Trip `t`'s copy into the first pair of buffers: chunk `2 · t + 2`. -/
theorem chunk_read_even_c (L : grid0.Coords) (t : Fin k0_t2_loop.trips)
    (inb : ∀ a, k0_off4 L t a + S10416.size a ≤ S4000000.size a) (A : IVec S4000000 32) :
    View.read (Elt F) ((cV' : Memref sig .scVector .hbm S4000000 .i32).slice (Rect.unit (s := S4000000) (k0_off4 L t) S10416.size inb) (fun _ => rfl)).view A
      = chunkOf A (wid L) (2 * t.val + 2) := by
  funext x
  rw [read_slice_cV]
  exact congrFun (unit_idx_chunkOf A L (2 * t.val + 2) _ _ (k0_off4_eq L t) (by omega) inb) x

omit [FloatOps F] in
/-- Trip `t`'s copy into the second pair of buffers: chunk `2 · t + 3`. -/
theorem chunk_read_odd_c (L : grid0.Coords) (t : Fin k0_t2_loop.trips)
    (inb : ∀ a, k0_off6 L t a + S10416.size a ≤ S4000000.size a) (A : IVec S4000000 32) :
    View.read (Elt F) ((cV' : Memref sig .scVector .hbm S4000000 .i32).slice (Rect.unit (s := S4000000) (k0_off6 L t) S10416.size inb) (fun _ => rfl)).view A
      = chunkOf A (wid L) (2 * t.val + 3) := by
  funext x
  rw [read_slice_cV]
  exact congrFun (unit_idx_chunkOf A L (2 * t.val + 3) _ _ (k0_off6_eq L t) (by omega) inb) x

omit [FloatOps F] in
/-- The last 256 entries. -/
theorem tail_read_c (inb : ∀ a, (![3999744] : Fin 1 → ℕ) a + S256.size a ≤ S4000000.size a) (A : IVec S4000000 32) :
    View.read (Elt F) ((cV' : Memref sig .scVector .hbm S4000000 .i32).slice (Rect.unit (s := S4000000) ![3999744] S256.size inb) (fun _ => rfl)).view A
      = tailOf A := by
  funext x
  rw [read_slice_cV]
  unfold tailOf
  congr 1
  funext a
  obtain rfl : a = 0 := Subsingleton.elim _ _
  apply Fin.ext
  have hx : (x 0).val < 256 := (x 0).isLt
  show 3999744 + 1 * (x 0).val = (3999744 + (x 0).val) % 4000000
  rw [Nat.mod_eq_of_lt (by omega)]; omega

/-! ## Every word delivered is a tile number -/

omit [FloatOps F] in
theorem tiles_chunkOf {A : IVec S4000000 32} (h : ∀ k, (A k).toNat < 64) (w i : ℕ) : Tiles (chunkOf A w i) := fun _ => h _
omit [FloatOps F] in
theorem tiles_tailOf {A : IVec S4000000 32} (h : ∀ k, (A k).toNat < 64) : Tiles (tailOf A) := fun _ => h _

/-! ## The last 256 entries, consumed -/

/-- One indexed add of the last entries' pair of buffers: vector `n` takes the table from `tabN … n` to `tabN … (n + 1)`. -/
theorem scatter_tab256 (d : Dev nD) (L : grid0.Coords) {α : Type} (g₀ g₁ : IVec S256 32) (f : Vec F S65536 .f32)
    (n n' : ℕ) (hn : n' = n + 1)
    (p c a : IVec S16 32) (hp : p = vecAt (N := 256) (by decide) g₀ n) (hc : c = vecAt (N := 256) (by decide) g₁ n) (ha : a = addr p c)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} tabN (N := 256) (by decide) g₀ g₁ f n : sProp 𝕄)
      ⊢ iprop((((sH : Memref sig .scVector .vmem S65536 .f32).view.loc (V d (cT L) (jT L)) ↦{fullShare} tabN (N := 256) (by decide) g₀ g₁ f n')
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) :=
  scatter_tab d L g₀ g₁ f n n' hn p c a hp hc ha h hs k Q

omit [FloatOps F] in
/-- The sixteen entries from `16 · r` on are vector `r` of the buffer. -/
theorem unit_idx_vecAt256 (g : IVec S256 32) (r : ℕ) (hr : r < 16) (off : Fin S256.rank → ℕ)
    (hoff : off = ![16 * r]) (inb : ∀ a, off a + S16.size a ≤ S256.size a) :
    (fun y : S16.Idx => g ((Rect.unit (s := S256) off S16.size inb).toLoadRect.idx y)) = vecAt (N := 256) (by decide) g r := by
  subst hoff
  funext y
  unfold vecAt
  congr 1
  funext a
  obtain rfl : a = 0 := Subsingleton.elim _ _
  apply Fin.ext
  have hy : (y 0).val < 16 := (y 0).isLt
  show 16 * r + 1 * (y 0).val = (16 * r + (y 0).val) % 256
  rw [Nat.mod_eq_of_lt (by omega)]; omega

omit [FloatOps F] in
theorem load_PT (g : IVec S256 32) (r : ℕ) (hr : r < 16) (off : Fin S256.rank → ℕ) (hoff : off = ![16 * r])
    (inb : ∀ a, off a + S16.size a ≤ S256.size a) :
    (sPT : Memref sig .scVector .vmem S256 .i32).view.readAt (Elt F) (Rect.unit (s := S256) off S16.size inb).toLoadRect g
      = vecAt (N := 256) (by decide) g r := by
  funext y
  rw [View.readAt_apply]
  simp only [Memref.view_whole, View.read_whole]
  exact congrFun (unit_idx_vecAt256 g r hr off hoff inb) y

omit [FloatOps F] in
theorem load_CT (g : IVec S256 32) (r : ℕ) (hr : r < 16) (off : Fin S256.rank → ℕ) (hoff : off = ![16 * r])
    (inb : ∀ a, off a + S16.size a ≤ S256.size a) :
    (sCT : Memref sig .scVector .vmem S256 .i32).view.readAt (Elt F) (Rect.unit (s := S256) off S16.size inb).toLoadRect g
      = vecAt (N := 256) (by decide) g r := by
  funext y
  rw [View.readAt_apply]
  simp only [Memref.view_whole, View.read_whole]
  exact congrFun (unit_idx_vecAt256 g r hr off hoff inb) y

omit [FloatOps F] in
/-- In the spelling of the program: the load at the literal offset `16 · r`. -/
example (g : IVec S256 32) :
    (sPT : Memref sig .scVector .vmem S256 .i32).view.readAt (Elt F) (Rect.unit (s := S256) ![16] S16.size inb_S256_S16_16).toLoadRect g
      = vecAt (N := 256) (by decide) g 1 := load_PT (F := F) g 1 (by decide) _ rfl _

end Cert.Proof.HistIdeal

end
-- ==== Proof.HistLand2.lean ====
/-
  The row of sums read back, and which worker takes the last 256 entries.

  The tile's last copy writes its 4096 sums over row `w` of the sums' array; read back through the row's own view the
  row is what was written.  The block that consumes the last 256 entries is guarded by `2 · s + c = 31`, computed in
  32-bit words from the tile's coordinates: it runs on worker 31 alone.
-/
import proofs.«201955_g20547123544587_cont_8to1_184_16_alg».proof.Proof.HistLand
import proofs.«201955_g20547123544587_cont_8to1_184_16_alg».proof.Proof.HistPay

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- The guard of the last 256 entries' block holds on worker 31 alone. -/
theorem cond3_iff : ∀ L : grid0.Coords, k0_cond3 L = 1#1 ↔ wid L = 31 := by decide +kernel

omit [FloatOps F] in
/-- The row written whole reads back as what was written. -/
theorem row_landed (d : Dev nD) (L : grid0.Coords) (f0 : Buf (Elt F) (oLoc d)) (X : S4096.Idx → Elt F .f32) :
    (oRowK L).view.read (Elt F) ((oRowK L).view.writes (Elt F) f0 [⟨Rect.whole S4096, X⟩]) = X :=
  View.read_writes_whole (oRowK L).view f0 X

/-- The same when what was written is the 4096 sums of a table, read off the sums' scratch. -/
theorem row_landed' (d : Dev nD) (L : grid0.Coords) (f0 : Buf (Elt F) (oLoc d)) (fT : Vec F S65536 .f32) :
    (oRowK L).view.read (Elt F) ((oRowK L).view.writes (Elt F) f0
        [⟨Rect.whole S4096, ReadAs.same.apply (View.read (Elt F) (sO : Memref sig .scVector .vmem S4096 .f32).view (rowOfTab fT))⟩])
      = rowOfTab fT :=
  row_landed (F := F) d L f0 (rowOfTab fT)

end Cert.Proof.HistIdeal

end
-- ==== Proof.HistLoops.lean ====
/-
  The two plain counted loops of a tile's body: clearing the table, and adding up its sixteen lane copies.

  Clearing: trip `t` stores the float zero word over cells `[16 · t, 16 · t + 16)`; after `t` trips every cell below
  `16 · t` is zero, and `16 · 4096` is the whole table.
  Adding up: trip `t` reads cells `[16 · t, 16 · t + 16)` of each of the sixteen lane copies (the table itself is never
  written) and stores their sum over cells `[16 · t, 16 · t + 16)` of the sums' buffer; after `t` trips every cell below
  `16 · t` of that buffer holds the sum of its sixteen copies, and `16 · 256` is the whole buffer.
-/
import proofs.«201955_g20547123544587_cont_8to1_184_16_alg».proof.Proof.HistTab
import proofs.«201955_g20547123544587_cont_8to1_184_16_alg».proof.Proof.HistTile
import Idealize.ShloMosaic.Lib.WritesUnit

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-! ## Clearing the table -/

/-- The clearing loop runs 4096 trips. -/
theorem t1_trips : k0_t1_loop.trips = 4096 := by decide

/-- One more trip of the clearing loop: a table whose cells below `16 · t` are zero, after the float zero word is
    stored over cells `[16 · t, 16 · t + 16)`, has its cells below `16 · (t + 1)` zero. -/
theorem zero_step (k : Fin k0_t1_loop.trips) (g : Vec F S65536 .f32)
    (hg : ∀ j : S65536.Idx, (j 0).val < 16 * k.val → g j = Scalar.ofBits .f32 0x00000000#32)
    (j : S65536.Idx) (hj : (j 0).val < 16 * (k.val + 1)) :
    (sH : Memref sig .scVector .vmem S65536 .f32).view.writes (Elt F) g
        [⟨Rect.unit (k0_off2 k) S16.size (k0_off2_inb k), k0_pay55 (F := F)⟩] j = Scalar.ofBits .f32 0x00000000#32 := by
  refine (View.read_writes_cons_unit (sH : Memref sig .scVector .vmem S65536 .f32).view g (k0_off2_inb k)
    (k0_pay55 (F := F)) [] j (k0_off2_eq k)).trans ?_
  split
  · rfl
  · next hc =>
    have hlt : (j 0).val < 16 * k.val := by
      by_contra hge
      apply hc
      intro a
      have ha : a = 0 := Subsingleton.elim _ _
      subst ha
      constructor
      · show 16 * k.val ≤ (j 0).val
        omega
      · show (j 0).val < 16 * k.val + 16
        omega
    exact hg j hlt

/-- While the table is being cleared: it is held whole, every cell below `16 · t` already zero. -/
def invZero (t : Nat) (_ : PUnit) : sProp 𝕄 :=
  iprop(∃ g : Vec F S65536 .f32, ((sH : Memref sig .scVector .vmem S65536 .f32).view.loc (V d (cT L) (jT L)) ↦{fullShare} g)
    ∗ ⌜∀ j : S65536.Idx, (j 0).val < 16 * t → g j = Scalar.ofBits .f32 0x00000000#32⌝)

/-- The clearing loop leaves the table cleared, whatever it held. -/
theorem zero_loop (f : Vec F S65536 .f32) :
    ((sH : Memref sig .scVector .vmem S65536 .f32).view.loc (V d (cT L) (jT L)) ↦{fullShare} f : sProp 𝕄)
      ⊢ wp frame (wpE (defs₀ (F := F)) 𝒱₀ (V d (cT L) (jT L)) none) Set.univ
          (Scf.Loop.for k0_t1_loop k0_t1_ok ⟨⟩ (k0_t1_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => (sH.view.loc (V d (cT L) (jT L)) ↦{fullShare} zeroTab (F := F)) := by
  iintro HH
  sl_for (invZero (F := F) d L) $$ [HH]
  case region =>
    intro k _
    unfold invZero
    iintro ⟨%g, Hg, %hg⟩
    sl_exec
    sl_step
    iexists _
    isplitl [Hg]
    · iexact Hg
    · ipureintro
      exact zero_step k g hg
  isplitl [HH]
  · unfold invZero
    iexists _
    isplitl [HH]
    · iexact HH
    · ipureintro
      intro j hj
      omega
  · iintro %_ HI
    unfold invZero
    icases HI with ⟨%g, Hg, %hg⟩
    have hz : g = zeroTab (F := F) := by
      funext j
      refine hg j ?_
      have h1 : (j 0).val < 65536 := (j 0).isLt
      have ht : Scf.trips k0_t1_loop.lb k0_t1_loop.ub k0_t1_loop.st = 4096 := t1_trips
      rw [ht]
      omega
    rw [hz]
    iexact Hg

/-! ## Adding up the lane copies -/

/-- The adding-up loop runs 256 trips. -/
theorem t5_trips : k0_t5_loop.trips = 256 := by decide

/-- A load of sixteen cells of the table from equal offsets reads the same, however the offsets are spelt. -/
theorem table_read_congr {off off' : Fin 1 → ℕ} (h : off = off') (p : ∀ a, off a + S16.size a ≤ S65536.size a)
    (p' : ∀ a, off' a + S16.size a ≤ S65536.size a) (f : Vec F S65536 .f32) :
    View.readAt (Elt F) (sH : Memref sig .scVector .vmem S65536 .f32).view (Rect.unit (s := S65536) off S16.size p).toLoadRect f
      = View.readAt (Elt F) (sH : Memref sig .scVector .vmem S65536 .f32).view (Rect.unit (s := S65536) off' S16.size p').toLoadRect f := by
  subst h; rfl

/-- At trip `t` the load of sixteen cells from `4096 · r + 16 · t` reads cells `[16 · t, 16 · t + 16)` of lane copy
    `r`: the last cell read is `4096 · 15 + 16 · 255 + 15`, inside the table. -/
theorem lane_read (k : Fin k0_t5_loop.trips) (r : ℕ) (hr : r < 16) (f : Vec F S65536 .f32) :
    View.readAt (Elt F) (sH : Memref sig .scVector .vmem S65536 .f32).view
        (Rect.unit (s := S65536) (k0_off7 k (BitVec.ofNat 32 (4096 * r))) S16.size (k0_off7_inb k ⟨r, hr⟩)).toLoadRect f
      = laneVec f r k.val := by
  have p' := k0_off7_inb k ⟨r, hr⟩
  rw [k0_off7_eq k ⟨r, hr⟩] at p'
  refine (table_read_congr (k0_off7_eq k ⟨r, hr⟩) (k0_off7_inb k ⟨r, hr⟩) p' f).trans ?_
  funext x
  rw [View.readAt_apply]
  show f _ = f _
  congr 1
  funext a
  have ha : a = 0 := Fin.fin_one_eq_zero a
  subst ha
  apply Fin.ext
  have hk : k.val < 256 := lt_of_lt_of_le k.isLt k0_t5_abs.2.1
  have hx : (x 0).val < 16 := (x 0).isLt
  show 4096 * r + 16 * k.val + 1 * (x 0).val = (4096 * r + 16 * k.val + (x 0).val) % 65536
  omega

/-- One more trip of the adding-up loop: a sums' buffer right below `16 · t`, after the sum of the sixteen lane copies'
    cells `[16 · t, 16 · t + 16)` is stored over its cells `[16 · t, 16 · t + 16)`, is right below `16 · (t + 1)`. -/
theorem red_step (k : Fin k0_t5_loop.trips) (f : Vec F S65536 .f32) (g' : Vec F S4096 .f32)
    (hg : ∀ b : S4096.Idx, (b 0).val < 16 * k.val → g' b = rowOfTab f b)
    (b : S4096.Idx) (hb : (b 0).val < 16 * (k.val + 1)) :
    (sO : Memref sig .scVector .vmem S4096 .f32).view.writes (Elt F) g'
        [⟨Rect.unit (k0_off8 k) S16.size (k0_off8_inb k), sumVec f k.val⟩] b = rowOfTab f b := by
  refine (View.read_writes_cons_unit (sO : Memref sig .scVector .vmem S4096 .f32).view g' (k0_off8_inb k)
    (sumVec f k.val) [] b (k0_off8_eq k)).trans ?_
  split
  · next hc =>
    have h0 := hc 0
    have h1 : 16 * k.val ≤ (b 0).val := h0.1
    have h2 : (b 0).val < 16 * k.val + 16 := h0.2
    have hd : (b 0).val / 16 = k.val := by omega
    unfold rowOfTab
    rw [hd]
    congr 1
    funext a
    have ha : a = 0 := Subsingleton.elim _ _
    subst ha
    apply Fin.ext
    show (b 0).val - 16 * k.val = (b 0).val % 16
    omega
  · next hc =>
    have hlt : (b 0).val < 16 * k.val := by
      by_contra hge
      apply hc
      intro a
      have ha : a = 0 := Subsingleton.elim _ _
      subst ha
      constructor
      · show 16 * k.val ≤ (b 0).val
        omega
      · show (b 0).val < 16 * k.val + 16
        omega
    exact hg b hlt

/-- The same with the stored vector given as the sum of sixteen vectors, each known to be a lane copy's cells. -/
theorem red_step' (k : Fin k0_t5_loop.trips) (f : Vec F S65536 .f32) (g' : Vec F S4096 .f32)
    (hg : ∀ b : S4096.Idx, (b 0).val < 16 * k.val → g' b = rowOfTab f b)
    (v0 v1 v2 v3 v4 v5 v6 v7 v8 v9 v10 v11 v12 v13 v14 v15 : Vec F S16 .f32)
    (h0 : v0 = laneVec f 0 k.val) (h1 : v1 = laneVec f 1 k.val) (h2 : v2 = laneVec f 2 k.val) (h3 : v3 = laneVec f 3 k.val) (h4 : v4 = laneVec f 4 k.val) (h5 : v5 = laneVec f 5 k.val) (h6 : v6 = laneVec f 6 k.val) (h7 : v7 = laneVec f 7 k.val) (h8 : v8 = laneVec f 8 k.val) (h9 : v9 = laneVec f 9 k.val) (h10 : v10 = laneVec f 10 k.val) (h11 : v11 = laneVec f 11 k.val) (h12 : v12 = laneVec f 12 k.val) (h13 : v13 = laneVec f 13 k.val) (h14 : v14 = laneVec f 14 k.val) (h15 : v15 = laneVec f 15 k.val)
    (b : S4096.Idx) (hb : (b 0).val < 16 * (k.val + 1)) :
    (sO : Memref sig .scVector .vmem S4096 .f32).view.writes (Elt F) g'
        [⟨Rect.unit (k0_off8 k) S16.size (k0_off8_inb k), k0_pay64 v0 v1 v2 v3 v4 v5 v6 v7 v8 v9 v10 v11 v12 v13 v14 v15⟩] b = rowOfTab f b := by
  subst h0 h1 h2 h3 h4 h5 h6 h7 h8 h9 h10 h11 h12 h13 h14 h15
  exact red_step k f g' hg b hb

/-- While the lane copies are being added up: the table is held whole and unchanged, the sums' buffer is held whole,
    every cell below `16 · t` already the sum of its sixteen copies. -/
def invRed (f : Vec F S65536 .f32) (t : Nat) (_ : PUnit) : sProp 𝕄 :=
  iprop(((sH : Memref sig .scVector .vmem S65536 .f32).view.loc (V d (cT L) (jT L)) ↦{fullShare} f)
    ∗ ∃ g' : Vec F S4096 .f32, ((sO : Memref sig .scVector .vmem S4096 .f32).view.loc (V d (cT L) (jT L)) ↦{fullShare} g')
      ∗ ⌜∀ b : S4096.Idx, (b 0).val < 16 * t → g' b = rowOfTab f b⌝)

/-- The adding-up loop leaves the table as it was and the sums' buffer at the table's 4096 sums, whatever it held. -/
theorem reduce_loop (f : Vec F S65536 .f32) (g : Vec F S4096 .f32) :
    iprop(((sH : Memref sig .scVector .vmem S65536 .f32).view.loc (V d (cT L) (jT L)) ↦{fullShare} f)
        ∗ ((sO : Memref sig .scVector .vmem S4096 .f32).view.loc (V d (cT L) (jT L)) ↦{fullShare} g))
      ⊢ (wp frame (wpE (defs₀ (F := F)) 𝒱₀ (V d (cT L) (jT L)) none) Set.univ
          (Scf.Loop.for k0_t5_loop k0_t5_ok ⟨⟩ (k0_t5_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => iprop((sH.view.loc (V d (cT L) (jT L)) ↦{fullShare} f) ∗ (sO.view.loc (V d (cT L) (jT L)) ↦{fullShare} rowOfTab f)) : sProp 𝕄) := by
  iintro ⟨HH, HO⟩
  sl_for (invRed (F := F) d L f) $$ [HH HO]
  case region =>
    intro k _
    unfold invRed
    iintro ⟨HH, %g', HO, %hg⟩
    sl_exec
    sl_step
    isplitl [HH]
    · iexact HH
    iexists _
    isplitl [HO]
    · iexact HO
    · ipureintro
      intro b hb
      refine red_step' k f g' hg _ _ _ _ _ _ _ _ _ _ _ _ _ _ _ _ ?h0 ?h1 ?h2 ?h3 ?h4 ?h5 ?h6 ?h7 ?h8 ?h9 ?h10 ?h11 ?h12 ?h13 ?h14 ?h15 b hb
      case h0 => exact lane_read k 0 (by decide) f
      case h1 => exact lane_read k 1 (by decide) f
      case h2 => exact lane_read k 2 (by decide) f
      case h3 => exact lane_read k 3 (by decide) f
      case h4 => exact lane_read k 4 (by decide) f
      case h5 => exact lane_read k 5 (by decide) f
      case h6 => exact lane_read k 6 (by decide) f
      case h7 => exact lane_read k 7 (by decide) f
      case h8 => exact lane_read k 8 (by decide) f
      case h9 => exact lane_read k 9 (by decide) f
      case h10 => exact lane_read k 10 (by decide) f
      case h11 => exact lane_read k 11 (by decide) f
      case h12 => exact lane_read k 12 (by decide) f
      case h13 => exact lane_read k 13 (by decide) f
      case h14 => exact lane_read k 14 (by decide) f
      case h15 => exact lane_read k 15 (by decide) f
  isplitl [HH HO]
  · unfold invRed
    isplitl [HH]
    · iexact HH
    iexists _
    isplitl [HO]
    · iexact HO
    · ipureintro
      intro b hb
      omega
  · iintro %_ HI
    unfold invRed
    icases HI with ⟨HH, %g', HO, %hg⟩
    have hz : g' = rowOfTab f := by
      funext b
      refine hg b ?_
      have h1 : (b 0).val < 4096 := (b 0).isLt
      have ht : Scf.trips k0_t5_loop.lb k0_t5_loop.ub k0_t5_loop.st = 256 := t5_trips
      rw [ht]
      omega
    rw [hz]
    isplitl [HH]
    · iexact HH
    · iexact HO

end Tile

end Cert.Proof.HistIdeal

end
-- ==== Proof.HistBody.lean ====
/-
  One tile's task, run: from what the tile is handed to what it hands back.

  The tile is handed two read shares of each index array (one per chunk-buffer pair: two copies read an array at a time)
  and row `w` of the sums' array; it hands the same back, the row reading as the sums of its final table.  It clears its
  table, then for each of its twelve chunks waits for the chunk's two copies, adds the chunk's 651 vectors of transitions
  to the table and, while chunks remain, starts the copies of the chunk after next into the pair just freed; the last
  worker then does the same with the last 256 entries; at the end it adds the table's sixteen lane copies up and copies
  the 4096 sums out.  Every word it loads from a chunk buffer is a word of an index array, hence a tile number below 64,
  so every address it forms lies inside the table: the side conditions the body assumes before each indexed add hold.
-/
import proofs.«201955_g20547123544587_cont_8to1_184_16_alg».proof.Proof.HistPay
import proofs.«201955_g20547123544587_cont_8to1_184_16_alg».proof.Proof.HistLand2
import proofs.«201955_g20547123544587_cont_8to1_184_16_alg».proof.Proof.HistLoops

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

/-- The two conditions of a chunk-loop trip (is there a chunk `2t + 2`, a chunk `2t + 3`, among the twelve?) hold
    exactly on the first five trips. -/
theorem cond_iff : ∀ t : Fin k0_t2_loop.trips, (k0_cond1 t = 1#1 ↔ t.val < 5) ∧ (k0_cond2 t = 1#1 ↔ t.val < 5) := by decide

/-! ## What a copy leaves in a chunk buffer: what it read, whatever the buffer held -/

theorem landedEq_P0 (g : Buf (Elt F) ((sP0 : Memref sig .scVector .vmem S10416 .i32).view.loc (V d (cT L) (jT L)))) (X c : S10416.Idx → Elt F .i32) (hX : X = c) (R : sProp 𝕄) :
    iprop(((sP0 : Memref sig .scVector .vmem S10416 .i32).view.loc (V d (cT L) (jT L)) ↦{fullShare} View.write (Elt F) sP0.view g X Finset.univ) ∗ R)
      ⊢ iprop((∃ g', ((sP0 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

theorem landedEq_C0 (g : Buf (Elt F) ((sC0 : Memref sig .scVector .vmem S10416 .i32).view.loc (V d (cT L) (jT L)))) (X c : S10416.Idx → Elt F .i32) (hX : X = c) (R : sProp 𝕄) :
    iprop(((sC0 : Memref sig .scVector .vmem S10416 .i32).view.loc (V d (cT L) (jT L)) ↦{fullShare} View.write (Elt F) sC0.view g X Finset.univ) ∗ R)
      ⊢ iprop((∃ g', ((sC0 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

theorem landedEq_P1 (g : Buf (Elt F) ((sP1 : Memref sig .scVector .vmem S10416 .i32).view.loc (V d (cT L) (jT L)))) (X c : S10416.Idx → Elt F .i32) (hX : X = c) (R : sProp 𝕄) :
    iprop(((sP1 : Memref sig .scVector .vmem S10416 .i32).view.loc (V d (cT L) (jT L)) ↦{fullShare} View.write (Elt F) sP1.view g X Finset.univ) ∗ R)
      ⊢ iprop((∃ g', ((sP1 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

theorem landedEq_C1 (g : Buf (Elt F) ((sC1 : Memref sig .scVector .vmem S10416 .i32).view.loc (V d (cT L) (jT L)))) (X c : S10416.Idx → Elt F .i32) (hX : X = c) (R : sProp 𝕄) :
    iprop(((sC1 : Memref sig .scVector .vmem S10416 .i32).view.loc (V d (cT L) (jT L)) ↦{fullShare} View.write (Elt F) sC1.view g X Finset.univ) ∗ R)
      ⊢ iprop((∃ g', ((sC1 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

omit [FloatOps F] in
/-- A wait at index `none` recorded beside admissible waits leaves them admissible. -/
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- Two more chunks: the table after chunks `2t` and `2t + 1` is the table after `2 (t + 1)` chunks. -/
theorem chunksTab_two (A B : IVec S4000000 32) (w t : ℕ) :
    chunksTab (F := F) A B w (2 * (t + 1))
      = chunkTab (chunkOf A w (2 * t + 1)) (chunkOf B w (2 * t + 1)) (chunkTab (chunkOf A w (2 * t)) (chunkOf B w (2 * t)) (chunksTab A B w (2 * t))) := rfl

/-- Chunk-buffer pair 0 is being filled with chunk `i`: each of its two copies is in flight, to deliver its buffer at
    chunk `i` of its index array and to give back the slice of the array it reads; the rest of that read share is kept
    aside. -/
def slotFly0 (i : ℕ) : sProp 𝕄 :=
  iprop((∃ S, Transfers.Flight countersEmb (V d (cT L) (jT L)) (SemLoc.dma cc0_scratch8.sem) default 333312
          (iprop((∃ g, ((sP0 : Memref sig .scVector .vmem S10416 .i32).view.loc (V d (cT L) (jT L)) ↦{fullShare} g) ∗ ⌜g = chunkOf (m (pLoc d)) (wid L) i⌝)
            ∗ ((pV : Memref sig .scVector .hbm S4000000 .i32).view.loc (V d (cT L) (jT L)) ↦[S]{Transfers.shareTok fullShare 64 (tokIx L 0)} m (pLoc d))))
        ∗ ((pV : Memref sig .scVector .hbm S4000000 .i32).view.loc (V d (cT L) (jT L)) ↦[Finset.univ \ S]{Transfers.shareTok fullShare 64 (tokIx L 0)} m (pLoc d)))
    ∗ (∃ S, Transfers.Flight countersEmb (V d (cT L) (jT L)) (SemLoc.dma cc0_scratch9.sem) default 333312
          (iprop((∃ g, ((sC0 : Memref sig .scVector .vmem S10416 .i32).view.loc (V d (cT L) (jT L)) ↦{fullShare} g) ∗ ⌜g = chunkOf (m (cLoc d)) (wid L) i⌝)
            ∗ ((cV' : Memref sig .scVector .hbm S4000000 .i32).view.loc (V d (cT L) (jT L)) ↦[S]{Transfers.shareTok fullShare 64 (tokIx L 0)} m (cLoc d))))
        ∗ ((cV' : Memref sig .scVector .hbm S4000000 .i32).view.loc (V d (cT L) (jT L)) ↦[Finset.univ \ S]{Transfers.shareTok fullShare 64 (tokIx L 0)} m (cLoc d))))

/-- The same for pair 1. -/
def slotFly1 (i : ℕ) : sProp 𝕄 :=
  iprop((∃ S, Transfers.Flight countersEmb (V d (cT L) (jT L)) (SemLoc.dma cc0_scratch10.sem) default 333312
          (iprop((∃ g, ((sP1 : Memref sig .scVector .vmem S10416 .i32).view.loc (V d (cT L) (jT L)) ↦{fullShare} g) ∗ ⌜g = chunkOf (m (pLoc d)) (wid L) i⌝)
            ∗ ((pV : Memref sig .scVector .hbm S4000000 .i32).view.loc (V d (cT L) (jT L)) ↦[S]{Transfers.shareTok fullShare 64 (tokIx L 1)} m (pLoc d))))
        ∗ ((pV : Memref sig .scVector .hbm S4000000 .i32).view.loc (V d (cT L) (jT L)) ↦[Finset.univ \ S]{Transfers.shareTok fullShare 64 (tokIx L 1)} m (pLoc d)))
    ∗ (∃ S, Transfers.Flight countersEmb (V d (cT L) (jT L)) (SemLoc.dma cc0_scratch11.sem) default 333312
          (iprop((∃ g, ((sC1 : Memref sig .scVector .vmem S10416 .i32).view.loc (V d (cT L) (jT L)) ↦{fullShare} g) ∗ ⌜g = chunkOf (m (cLoc d)) (wid L) i⌝)
            ∗ ((cV' : Memref sig .scVector .hbm S4000000 .i32).view.loc (V d (cT L) (jT L)) ↦[S]{Transfers.shareTok fullShare 64 (tokIx L 1)} m (cLoc d))))
        ∗ ((cV' : Memref sig .scVector .hbm S4000000 .i32).view.loc (V d (cT L) (jT L)) ↦[Finset.univ \ S]{Transfers.shareTok fullShare 64 (tokIx L 1)} m (cLoc d))))

/-- A chunk-buffer pair at rest: both buffers whole, both semaphores at zero, both read shares whole. -/
def slotIdle0 : sProp 𝕄 :=
  iprop((∃ g, (sP0 : Memref sig .scVector .vmem S10416 .i32).view.loc (V d (cT L) (jT L)) ↦{fullShare} g)
    ∗ (∃ g, (sC0 : Memref sig .scVector .vmem S10416 .i32).view.loc (V d (cT L) (jT L)) ↦{fullShare} g)
    ∗ semVal ((V d (cT L) (jT L)), SemLoc.dma cc0_scratch8.sem) 0 ∗ semVal ((V d (cT L) (jT L)), SemLoc.dma cc0_scratch9.sem) 0
    ∗ pTok m d L 0 ∗ cTok m d L 0)
def slotIdle1 : sProp 𝕄 :=
  iprop((∃ g, (sP1 : Memref sig .scVector .vmem S10416 .i32).view.loc (V d (cT L) (jT L)) ↦{fullShare} g)
    ∗ (∃ g, (sC1 : Memref sig .scVector .vmem S10416 .i32).view.loc (V d (cT L) (jT L)) ↦{fullShare} g)
    ∗ semVal ((V d (cT L) (jT L)), SemLoc.dma cc0_scratch10.sem) 0 ∗ semVal ((V d (cT L) (jT L)), SemLoc.dma cc0_scratch11.sem) 0
    ∗ pTok m d L 1 ∗ cTok m d L 1)

/-- Before trip `t` of the chunk loop: the table holds the first `2t` chunks' counts; chunks `2t` and `2t + 1` are on
    their way (after the last trip nothing is); what the tile owes, with its waits recorded. -/
def invC (O : CellTallies nD τ sig (HIx 1)) (W : Waits sig (HIx 1)) (t : Nat) (_ : PUnit) : sProp 𝕄 :=
  iprop(Transfers.MayWaits (V d (cT L) (jT L)) (none : HIx 1) O
    ∗ ((sH : Memref sig .scVector .vmem S65536 .f32).view.loc (V d (cT L) (jT L)) ↦{fullShare} chunksTab (F := F) (m (pLoc d)) (m (cLoc d)) (wid L) (2 * t))
    ∗ (if t < 6 then iprop(slotFly0 m d L (2 * t) ∗ slotFly1 m d L (2 * t + 1)) else iprop(slotIdle0 m d L ∗ slotIdle1 m d L))
    ∗ ∃ W', ⌜∀ p ∈ W', p ∈ W ∨ p.2 = none⌝ ∗ owes (V d (cT L) (jT L)) O W')

/-- What the final copy leaves in the output row reads back as the sums it copied: the sums of the worker's final table. -/
theorem row_core (T : Vec F S65536 .f32) (hT : finalTab (F := F) (m (pLoc d)) (m (cLoc d)) (wid L) = T)
    (X : S4096.Idx → Elt F .f32) (hX : X = rowOfTab T) :
    RowHolds m d L ((oRowK L).view.writes (Elt F) (m (oLoc d)) [⟨Rect.whole S4096, X⟩]) := by
  subst hX
  subst hT
  unfold RowHolds
  exact row_landed (F := F) d L _ _

omit [FloatOps F] in
/-- A buffer of the last entries' pair after the copy that filled it holds what the copy read. -/
theorem landed_PT (fPT X : S256.Idx → Elt F .i32) :
    View.write (Elt F) (sPT : Memref sig .scVector .vmem S256 .i32).view fPT X Finset.univ = X :=
  View.write_whole_univ (cc0_scratch5 : Ref sig .scVector) fPT X
omit [FloatOps F] in
theorem landed_CT (fCT Y : S256.Idx → Elt F .i32) :
    View.write (Elt F) (sCT : Memref sig .scVector .vmem S256 .i32).view fCT Y Finset.univ = Y :=
  View.write_whole_univ (cc0_scratch6 : Ref sig .scVector) fCT Y

omit [FloatOps F] in
/-- The cells named by a pair of vectors loaded from the last entries' buffers, once the copies have filled them with
    tile numbers, lie inside the table. -/
theorem inB_landed (fPT fCT X Y : S256.Idx → Elt F .i32) (hX : Tiles X) (hY : Tiles Y) (offP offC : Fin S256.rank → ℕ)
    (inbP : ∀ a, offP a + S16.size a ≤ S256.size a) (inbC : ∀ a, offC a + S16.size a ≤ S256.size a) :
    InB (addr ((sPT : Memref sig .scVector .vmem S256 .i32).view.readAt (Elt F) (Rect.unit (s := S256) offP S16.size inbP).toLoadRect
          (View.write (Elt F) (sPT : Memref sig .scVector .vmem S256 .i32).view fPT X Finset.univ))
        ((sCT : Memref sig .scVector .vmem S256 .i32).view.readAt (Elt F) (Rect.unit (s := S256) offC S16.size inbC).toLoadRect
          (View.write (Elt F) (sCT : Memref sig .scVector .vmem S256 .i32).view fCT Y Finset.univ))) := by
  rw [landed_PT, landed_CT]
  exact inB_addr (fun y => hX _) (fun y => hY _)

/-- One indexed add of the last entries: vector `n` of the pair of buffers, loaded after the copies that filled them,
    takes the table from `tabN … n` to `tabN … (n + 1)`. -/
theorem scatter_tail {α : Type} (fPT fCT X Y : S256.Idx → Elt F .i32) (gP gC : IVec S256 32) (hX : X = gP) (hY : Y = gC)
    (f : Vec F S65536 .f32) (n n' : ℕ) (hn : n' = n + 1) (hn16 : n < 16)
    (offP offC : Fin S256.rank → ℕ) (hoffP : offP = ![16 * n]) (hoffC : offC = ![16 * n])
    (inbP : ∀ a, offP a + S16.size a ≤ S256.size a) (inbC : ∀ a, offC a + S16.size a ≤ S256.size a)
    (a : IVec S16 32)
    (ha : a = addr ((sPT : Memref sig .scVector .vmem S256 .i32).view.readAt (Elt F) (Rect.unit (s := S256) offP S16.size inbP).toLoadRect
          (View.write (Elt F) (sPT : Memref sig .scVector .vmem S256 .i32).view fPT X Finset.univ))
        ((sCT : Memref sig .scVector .vmem S256 .i32).view.readAt (Elt F) (Rect.unit (s := S256) offC S16.size inbC).toLoadRect
          (View.write (Elt F) (sCT : Memref sig .scVector .vmem S256 .i32).view fCT Y Finset.univ)))
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} tabN (N := 256) (by decide) gP gC f n : sProp 𝕄)
      ⊢ iprop((((sH : Memref sig .scVector .vmem S65536 .f32).view.loc (V d (cT L) (jT L)) ↦{fullShare} tabN (N := 256) (by decide) gP gC f n')
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  subst hX; subst hY
  refine scatter_tab256 d L X Y f n n' hn _ _ a ?_ ?_ ha h hs k Q
  · rw [landed_PT]; exact load_PT (F := F) X n hn16 offP hoffP inbP
  · rw [landed_CT]; exact load_CT (F := F) Y n hn16 offC hoffC inbC

/-- The tile's task, run. -/
theorem tile_body (hF : (K (F := F)).Facts)
    (hr : ∀ k, (m (pLoc d) k).toNat < 64 ∧ (m (cLoc d) k).toNat < 64)
    (O : CellTallies nD τ sig (HIx 1)) (W : Waits sig (HIx 1)) (hO : ∀ g, O g none = 0) :
    iprop(levAts (K (F := F)).L (K (F := F)).lev ∗ emp ∗ goRes m d L
        ∗ scopedBufs (V d (cT L) (jT L)) ∗ scopedSems0 (V d (cT L) (jT L)) ∗ owes (V d (cT L) (jT L)) O W)
      ⊢ wp frame (wpE (defs₀ (F := F)) 𝒱₀ (V d (cT L) (jT L)) none) Set.univ
          (cc0_hist_kernel L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2)
          fun _ => iprop(tdRes m (fun d L f => RowHolds m d L f) d L
            ∗ scopedBufs (V d (cT L) (jT L)) ∗ scopedSems0 (V d (cT L) (jT L))
            ∗ ∃ W', ⌜∀ p ∈ W', p ∈ W ∨ p.2 = none⌝ ∗ owes (V d (cT L) (jT L)) O W') := by
  unfold goRes tdRes
  sl_unfold [cc0_hist_kernel, cc0_hist_kernel_skel]
  rw [wp_bind]
  sl_unfold [k0_part15, k0_part15_skel]
  rw [(K (F := F)).scopedBufs_V hF d (cT L) (jT L), SparseCore.Cfg.scopedSems0_V (Val := Elt F) d (cT L) (jT L), ownSems0_V', ownBufs_V']
  iintro ⟨#Hlv, -, ⟨Hp0, Hp1, Hc0, Hc1, Ho⟩,
    ⟨⟨⟨%fH, HH⟩, ⟨%fP0, HP0⟩, ⟨%fC0, HC0⟩, ⟨%fP1, HP1⟩, ⟨%fC1, HC1⟩, ⟨%fPT, HPT⟩, ⟨%fCT, HCT⟩, ⟨%fO, HOb⟩⟩, Hbufs⟩,
    ⟨⟨Hs0, Hs1, Hs2, Hs3, Hs4, Hs5, Hs6⟩, Hsems⟩, HOw⟩
  ihave Hmw := ((K (F := F)).mayWaits_none (thr := (V d (cT L) (jT L))) hO) $$ Hlv
  sl_exec
  -- the table is cleared
  rw [wp_bind]
  iapply (wp_wand_r frame _ _)
  isplitl [HH]
  · iapply (zero_loop (F := F) d L fH)
    iexact HH
  iintro %_ HH
  sl_exec
  sl_for (invC (F := F) m d L O W) $$ [Hmw HH Hs0 Hp0 Hs1 Hc0 Hs2 Hp1 Hs3 Hc1 HOw]
  case region =>
    intro t _
    have ht : t.val < 6 := lt_of_lt_of_le t.isLt k0_t2_abs.2.1
    have hc := cond_iff t
    by_cases h5 : t.val < 5
    · have h1 : k0_cond1 t = 1#1 := hc.1.mpr h5
      have h2 : k0_cond2 t = 1#1 := hc.2.mpr h5
      unfold invC
      rw [if_pos ht]
      unfold slotFly0 slotFly1
      iintro ⟨#Hmw, HH, ⟨⟨⟨%SP0, HfP0, HrP0⟩, ⟨%SC0, HfC0, HrC0⟩⟩, ⟨⟨%SP1, HfP1, HrP1⟩, ⟨%SC1, HfC1, HrC1⟩⟩⟩, %W', %hW', HOw⟩
      sl_exec
      icases HfP0_dst with ⟨%gP0, HP0, %hgP0⟩
      icases HfC0_dst with ⟨%gC0, HC0, %hgC0⟩
      subst hgP0 hgC0
      rw [wp_bind]
      iapply (wp_wand_r frame _ _)
      isplitl [HP0 HC0 HH]
      · iapply (process0 (F := F) d L _ _ _ (tiles_chunkOf (fun k => (hr k).1) _ _) (tiles_chunkOf (fun k => (hr k).2) _ _))
        isplitl [HP0]; · iexact HP0
        isplitl [HC0]; · iexact HC0
        iexact HH
      iintro %_ ⟨HP0, HC0, HH⟩
      sl_exec
      icases HfP1_dst with ⟨%gP1, HP1, %hgP1⟩
      icases HfC1_dst with ⟨%gC1, HC1, %hgC1⟩
      subst hgP1 hgC1
      rw [wp_bind]
      iapply (wp_wand_r frame _ _)
      isplitl [HP1 HC1 HH]
      · iapply (process1 (F := F) d L _ _ _ (tiles_chunkOf (fun k => (hr k).1) _ _) (tiles_chunkOf (fun k => (hr k).2) _ _))
        isplitl [HP1]; · iexact HP1
        isplitl [HC1]; · iexact HC1
        iexact HH
      iintro %_ ⟨HP1, HC1, HH⟩
      sl_exec
      sl_step
      rw [if_pos (show t.val + 1 < 6 by omega), chunksTab_two]
      isplitr; · iexact Hmw
      isplitl [HH]; · iexact HH
      isplitl [HfP0 HrP0 HfC0 HrC0 HfP1 HrP1 HfC1 HrC1]
      · isplitl [HfP0 HrP0 HfC0 HrC0]
        · isplitl [HfP0 HrP0]
          · iexists _
            isplitl [HfP0]
            · iapply (Transfers.Flight_mono _ _ ?hlP0) $$ HfP0
              case hlP0 => exact landedEq_P0 d L _ _ _ (chunk_read_even (F := F) L t _ _) _
            · iexact HrP0
          · iexists _
            isplitl [HfC0]
            · iapply (Transfers.Flight_mono _ _ ?hlC0) $$ HfC0
              case hlC0 => exact landedEq_C0 d L _ _ _ (chunk_read_even_c (F := F) L t _ _) _
            · iexact HrC0
        · isplitl [HfP1 HrP1]
          · iexists _
            isplitl [HfP1]
            · iapply (Transfers.Flight_mono _ _ ?hlP1) $$ HfP1
              case hlP1 => exact landedEq_P1 d L _ _ _ (chunk_read_odd (F := F) L t _ _) _
            · iexact HrP1
          · iexists _
            isplitl [HfC1]
            · iapply (Transfers.Flight_mono _ _ ?hlC1) $$ HfC1
              case hlC1 => exact landedEq_C1 d L _ _ _ (chunk_read_odd_c (F := F) L t _ _) _
            · iexact HrC1
      iexists _; isplitr
      swap
      · iexact HOw
      · ipureintro; exact waits_ok (waits_ok (waits_ok (waits_ok hW' _) _) _) _
    · have h1 : ¬ k0_cond1 t = 1#1 := fun h => h5 (hc.1.mp h)
      have h2 : ¬ k0_cond2 t = 1#1 := fun h => h5 (hc.2.mp h)
      unfold invC
      rw [if_pos ht]
      unfold slotFly0 slotFly1
      iintro ⟨#Hmw, HH, ⟨⟨⟨%SP0, HfP0, HrP0⟩, ⟨%SC0, HfC0, HrC0⟩⟩, ⟨⟨%SP1, HfP1, HrP1⟩, ⟨%SC1, HfC1, HrC1⟩⟩⟩, %W', %hW', HOw⟩
      sl_exec
      icases HfP0_dst with ⟨%gP0, HP0, %hgP0⟩
      icases HfC0_dst with ⟨%gC0, HC0, %hgC0⟩
      subst hgP0 hgC0
      rw [wp_bind]
      iapply (wp_wand_r frame _ _)
      isplitl [HP0 HC0 HH]
      · iapply (process0 (F := F) d L _ _ _ (tiles_chunkOf (fun k => (hr k).1) _ _) (tiles_chunkOf (fun k => (hr k).2) _ _))
        isplitl [HP0]; · iexact HP0
        isplitl [HC0]; · iexact HC0
        iexact HH
      iintro %_ ⟨HP0, HC0, HH⟩
      sl_exec
      icases HfP1_dst with ⟨%gP1, HP1, %hgP1⟩
      icases HfC1_dst with ⟨%gC1, HC1, %hgC1⟩
      subst hgP1 hgC1
      rw [wp_bind]
      iapply (wp_wand_r frame _ _)
      isplitl [HP1 HC1 HH]
      · iapply (process1 (F := F) d L _ _ _ (tiles_chunkOf (fun k => (hr k).1) _ _) (tiles_chunkOf (fun k => (hr k).2) _ _))
        isplitl [HP1]; · iexact HP1
        isplitl [HC1]; · iexact HC1
        iexact HH
      iintro %_ ⟨HP1, HC1, HH⟩
      sl_exec
      sl_step
      rw [if_neg (show ¬ (t.val + 1 < 6) by omega), chunksTab_two]
      unfold slotIdle0 slotIdle1
      isplitr; · iexact Hmw
      isplitl [HH]; · iexact HH
      isplitl [HP0 HC0 HfP0 HfC0 HrP0 HrC0 HP1 HC1 HfP1 HfC1 HrP1 HrC1]
      · isplitl [HP0 HC0 HfP0 HfC0 HrP0 HrC0]
        · isplitl [HP0]; · iexists _; iexact HP0
          isplitl [HC0]; · iexists _; iexact HC0
          isplitl [HfP0]; · iexact HfP0
          isplitl [HfC0]; · iexact HfC0
          isplitl [HrP0]; · iexact HrP0
          iexact HrC0
        · isplitl [HP1]; · iexists _; iexact HP1
          isplitl [HC1]; · iexists _; iexact HC1
          isplitl [HfP1]; · iexact HfP1
          isplitl [HfC1]; · iexact HfC1
          isplitl [HrP1]; · iexact HrP1
          iexact HrC1
      iexists _; isplitr
      swap
      · iexact HOw
      · ipureintro; exact waits_ok (waits_ok (waits_ok (waits_ok hW' _) _) _) _
  · unfold invC
    rw [if_pos (show (0 : ℕ) < 6 by decide)]
    unfold slotFly0 slotFly1
    isplitr; · iexact Hmw
    isplitl [HH]; · iexact HH
    isplitl [Hs0 Hp0 Hs1 Hc0 Hs2 Hp1 Hs3 Hc1]
    · isplitl [Hs0 Hp0 Hs1 Hc0]
      · isplitl [Hs0 Hp0]
        · iexists _
          isplitl [Hs0]
          · iapply (Transfers.Flight_mono _ _ ?hlP0) $$ Hs0
            case hlP0 => exact landedEq_P0 d L _ _ _ (chunk_read_first0 (F := F) L _) _
          · iexact Hp0
        · iexists _
          isplitl [Hs1]
          · iapply (Transfers.Flight_mono _ _ ?hlC0) $$ Hs1
            case hlC0 => exact landedEq_C0 d L _ _ _ (chunk_read_first0_c (F := F) L _) _
          · iexact Hc0
      · isplitl [Hs2 Hp1]
        · iexists _
          isplitl [Hs2]
          · iapply (Transfers.Flight_mono _ _ ?hlP1) $$ Hs2
            case hlP1 => exact landedEq_P1 d L _ _ _ (chunk_read_first1 (F := F) L _) _
          · iexact Hp1
        · iexists _
          isplitl [Hs3]
          · iapply (Transfers.Flight_mono _ _ ?hlC1) $$ Hs3
            case hlC1 => exact landedEq_C1 d L _ _ _ (chunk_read_first1_c (F := F) L _) _
          · iexact Hc1
    iexists W; isplitr
    · ipureintro; exact fun p hp => .inl hp
    · iexact HOw
  iintro %_ HI
  unfold invC
  rw [if_neg (show ¬ (Scf.trips k0_t2_loop.lb k0_t2_loop.ub k0_t2_loop.st < 6) by decide),
    show 2 * Scf.trips k0_t2_loop.lb k0_t2_loop.ub k0_t2_loop.st = 12 by decide]
  unfold slotIdle0 slotIdle1
  icases HI with ⟨-, HH, ⟨⟨⟨%gP0, HP0⟩, ⟨%gC0, HC0⟩, Hs0, Hs1, Hp0, Hc0⟩, ⟨⟨%gP1, HP1⟩, ⟨%gC1, HC1⟩, Hs2, Hs3, Hp1, Hc1⟩⟩, %W', %hW', HOw⟩
  by_cases h3 : k0_cond3 L = 1#1
  · have hw : wid L = 31 := (cond3_iff L).mp h3
    have hTP : Tiles (tailOf (m (pLoc d))) := tiles_tailOf (fun k => (hr k).1)
    have hTC : Tiles (tailOf (m (cLoc d))) := tiles_tailOf (fun k => (hr k).2)
    -- the two copies of the last 256 entries, and the loads
    sl_exec
    have eP : tile_body.sl.dma0_8 (F := F) m d = tailOf (m (pLoc d)) := tail_read (F := F) _ _
    have eC : tile_body.sl.dma0_9 (F := F) m d = tailOf (m (cLoc d)) := tail_read_c (F := F) _ _
    have hX : Tiles (tile_body.sl.dma0_8 (F := F) m d) := eP ▸ hTP
    have hY : Tiles (tile_body.sl.dma0_9 (F := F) m d) := eC ▸ hTC
    sl_exec (disch := exact fun _ => inB_landed _ _ _ _ hX hY _ _ _ _)
    ihave HH := (Entails.of_eq (show ((sH : Memref sig .scVector .vmem S65536 .f32).view.loc (V d (cT L) (jT L)) ↦{fullShare}
          chunksTab (F := F) (m (pLoc d)) (m (cLoc d)) (wid L) 12 : sProp 𝕄)
        = ((sH : Memref sig .scVector .vmem S65536 .f32).view.loc (V d (cT L) (jT L)) ↦{fullShare}
          tabN (N := 256) (by decide) (tailOf (m (pLoc d))) (tailOf (m (cLoc d))) (chunksTab (F := F) (m (pLoc d)) (m (cLoc d)) (wid L) 12) 0) from rfl)) $$ HH
    -- vector 0 of the last entries
    iapply (scatter_tail d L _ _ _ _ _ _ eP eC (chunksTab (F := F) (m (pLoc d)) (m (cLoc d)) (wid L) 12) 0 1 (by omega) (by decide) _ _ rfl rfl _ _ _ rfl _ _ _ _) $$ HH
    iintro HH
    sl_exec (disch := exact fun _ => inB_landed _ _ _ _ hX hY _ _ _ _)
    -- vector 1 of the last entries
    iapply (scatter_tail d L _ _ _ _ _ _ eP eC (chunksTab (F := F) (m (pLoc d)) (m (cLoc d)) (wid L) 12) 1 2 (by omega) (by decide) _ _ rfl rfl _ _ _ rfl _ _ _ _) $$ HH
    iintro HH
    sl_exec (disch := exact fun _ => inB_landed _ _ _ _ hX hY _ _ _ _)
    -- vector 2 of the last entries
    iapply (scatter_tail d L _ _ _ _ _ _ eP eC (chunksTab (F := F) (m (pLoc d)) (m (cLoc d)) (wid L) 12) 2 3 (by omega) (by decide) _ _ rfl rfl _ _ _ rfl _ _ _ _) $$ HH
    iintro HH
    sl_exec (disch := exact fun _ => inB_landed _ _ _ _ hX hY _ _ _ _)
    -- vector 3 of the last entries
    iapply (scatter_tail d L _ _ _ _ _ _ eP eC (chunksTab (F := F) (m (pLoc d)) (m (cLoc d)) (wid L) 12) 3 4 (by omega) (by decide) _ _ rfl rfl _ _ _ rfl _ _ _ _) $$ HH
    iintro HH
    sl_exec (disch := exact fun _ => inB_landed _ _ _ _ hX hY _ _ _ _)
    -- vector 4 of the last entries
    iapply (scatter_tail d L _ _ _ _ _ _ eP eC (chunksTab (F := F) (m (pLoc d)) (m (cLoc d)) (wid L) 12) 4 5 (by omega) (by decide) _ _ rfl rfl _ _ _ rfl _ _ _ _) $$ HH
    iintro HH
    sl_exec (disch := exact fun _ => inB_landed _ _ _ _ hX hY _ _ _ _)
    -- vector 5 of the last entries
    iapply (scatter_tail d L _ _ _ _ _ _ eP eC (chunksTab (F := F) (m (pLoc d)) (m (cLoc d)) (wid L) 12) 5 6 (by omega) (by decide) _ _ rfl rfl _ _ _ rfl _ _ _ _) $$ HH
    iintro HH
    sl_exec (disch := exact fun _ => inB_landed _ _ _ _ hX hY _ _ _ _)
    -- vector 6 of the last entries
    iapply (scatter_tail d L _ _ _ _ _ _ eP eC (chunksTab (F := F) (m (pLoc d)) (m (cLoc d)) (wid L) 12) 6 7 (by omega) (by decide) _ _ rfl rfl _ _ _ rfl _ _ _ _) $$ HH
    iintro HH
    sl_exec (disch := exact fun _ => inB_landed _ _ _ _ hX hY _ _ _ _)
    -- vector 7 of the last entries
    iapply (scatter_tail d L _ _ _ _ _ _ eP eC (chunksTab (F := F) (m (pLoc d)) (m (cLoc d)) (wid L) 12) 7 8 (by omega) (by decide) _ _ rfl rfl _ _ _ rfl _ _ _ _) $$ HH
    iintro HH
    sl_exec (disch := exact fun _ => inB_landed _ _ _ _ hX hY _ _ _ _)
    -- vector 8 of the last entries
    iapply (scatter_tail d L _ _ _ _ _ _ eP eC (chunksTab (F := F) (m (pLoc d)) (m (cLoc d)) (wid L) 12) 8 9 (by omega) (by decide) _ _ rfl rfl _ _ _ rfl _ _ _ _) $$ HH
    iintro HH
    sl_exec (disch := exact fun _ => inB_landed _ _ _ _ hX hY _ _ _ _)
    -- vector 9 of the last entries
    iapply (scatter_tail d L _ _ _ _ _ _ eP eC (chunksTab (F := F) (m (pLoc d)) (m (cLoc d)) (wid L) 12) 9 10 (by omega) (by decide) _ _ rfl rfl _ _ _ rfl _ _ _ _) $$ HH
    iintro HH
    sl_exec (disch := exact fun _ => inB_landed _ _ _ _ hX hY _ _ _ _)
    -- vector 10 of the last entries
    iapply (scatter_tail d L _ _ _ _ _ _ eP eC (chunksTab (F := F) (m (pLoc d)) (m (cLoc d)) (wid L) 12) 10 11 (by omega) (by decide) _ _ rfl rfl _ _ _ rfl _ _ _ _) $$ HH
    iintro HH
    sl_exec (disch := exact fun _ => inB_landed _ _ _ _ hX hY _ _ _ _)
    -- vector 11 of the last entries
    iapply (scatter_tail d L _ _ _ _ _ _ eP eC (chunksTab (F := F) (m (pLoc d)) (m (cLoc d)) (wid L) 12) 11 12 (by omega) (by decide) _ _ rfl rfl _ _ _ rfl _ _ _ _) $$ HH
    iintro HH
    sl_exec (disch := exact fun _ => inB_landed _ _ _ _ hX hY _ _ _ _)
    -- vector 12 of the last entries
    iapply (scatter_tail d L _ _ _ _ _ _ eP eC (chunksTab (F := F) (m (pLoc d)) (m (cLoc d)) (wid L) 12) 12 13 (by omega) (by decide) _ _ rfl rfl _ _ _ rfl _ _ _ _) $$ HH
    iintro HH
    sl_exec (disch := exact fun _ => inB_landed _ _ _ _ hX hY _ _ _ _)
    -- vector 13 of the last entries
    iapply (scatter_tail d L _ _ _ _ _ _ eP eC (chunksTab (F := F) (m (pLoc d)) (m (cLoc d)) (wid L) 12) 13 14 (by omega) (by decide) _ _ rfl rfl _ _ _ rfl _ _ _ _) $$ HH
    iintro HH
    sl_exec (disch := exact fun _ => inB_landed _ _ _ _ hX hY _ _ _ _)
    -- vector 14 of the last entries
    iapply (scatter_tail d L _ _ _ _ _ _ eP eC (chunksTab (F := F) (m (pLoc d)) (m (cLoc d)) (wid L) 12) 14 15 (by omega) (by decide) _ _ rfl rfl _ _ _ rfl _ _ _ _) $$ HH
    iintro HH
    sl_exec (disch := exact fun _ => inB_landed _ _ _ _ hX hY _ _ _ _)
    -- vector 15 of the last entries
    iapply (scatter_tail d L _ _ _ _ _ _ eP eC (chunksTab (F := F) (m (pLoc d)) (m (cLoc d)) (wid L) 12) 15 16 (by omega) (by decide) _ _ rfl rfl _ _ _ rfl _ _ _ _) $$ HH
    iintro HH
    sl_exec (disch := exact fun _ => inB_landed _ _ _ _ hX hY _ _ _ _)
    -- the lane copies added up, the sums copied out
    rw [wp_bind]
    iapply (wp_wand_r frame _ _)
    isplitl [HH HOb]
    · iapply (reduce_loop (F := F) d L _ fO)
      isplitl [HH]; · iexact HH
      iexact HOb
    iintro %_ ⟨HH, HOb⟩
    sl_exec
    sl_step
    have hrow := row_core m d L _ (by unfold finalTab; rw [if_pos hw]) _ rfl
    isplitl [Hp0 Hp1 Hc0 Hc1 Ho]
    · isplitl [Hp0]; · iexact Hp0
      isplitl [Hp1]; · iexact Hp1
      isplitl [Hc0]; · iexact Hc0
      isplitl [Hc1]; · iexact Hc1
      iexists _
      isplitl [Ho]; · iexact Ho
      ipureintro
      exact hrow
    isplitl [HH HP0 HC0 HP1 HC1 HPT HCT HOb Hbufs]
    · isplitl [HH HP0 HC0 HP1 HC1 HPT HCT HOb]
      · isplitl [HH]; · iexists _; iexact HH
        isplitl [HP0]; · iexists _; iexact HP0
        isplitl [HC0]; · iexists _; iexact HC0
        isplitl [HP1]; · iexists _; iexact HP1
        isplitl [HC1]; · iexists _; iexact HC1
        isplitl [HPT]; · iexists _; iexact HPT
        isplitl [HCT]; · iexists _; iexact HCT
        iexists _; iexact HOb
      · iexact Hbufs
    isplitl [Hs0 Hs1 Hs2 Hs3 Hs4 Hs5 Hs6 Hsems]
    · isplitl [Hs0 Hs1 Hs2 Hs3 Hs4 Hs5 Hs6]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexact Hs6
      · iexact Hsems
    iexists _; isplitr
    swap
    · iexact HOw
    · ipureintro; exact waits_ok (waits_ok (waits_ok hW' _) _) _
  · have hw : wid L ≠ 31 := fun h => h3 ((cond3_iff L).mpr h)
    sl_exec
    rw [wp_bind]
    iapply (wp_wand_r frame _ _)
    isplitl [HH HOb]
    · iapply (reduce_loop (F := F) d L _ fO)
      isplitl [HH]; · iexact HH
      iexact HOb
    iintro %_ ⟨HH, HOb⟩
    sl_exec
    sl_step
    have hrow := row_core m d L _ (by unfold finalTab; rw [if_neg hw]) _ rfl
    isplitl [Hp0 Hp1 Hc0 Hc1 Ho]
    · isplitl [Hp0]; · iexact Hp0
      isplitl [Hp1]; · iexact Hp1
      isplitl [Hc0]; · iexact Hc0
      isplitl [Hc1]; · iexact Hc1
      iexists _
      isplitl [Ho]; · iexact Ho
      ipureintro
      exact hrow
    isplitl [HH HP0 HC0 HP1 HC1 HPT HCT HOb Hbufs]
    · isplitl [HH HP0 HC0 HP1 HC1 HPT HCT HOb]
      · isplitl [HH]; · iexists _; iexact HH
        isplitl [HP0]; · iexists _; iexact HP0
        isplitl [HC0]; · iexists _; iexact HC0
        isplitl [HP1]; · iexists _; iexact HP1
        isplitl [HC1]; · iexists _; iexact HC1
        isplitl [HPT]; · iexists _; iexact HPT
        isplitl [HCT]; · iexists _; iexact HCT
        iexists _; iexact HOb
      · iexact Hbufs
    isplitl [Hs0 Hs1 Hs2 Hs3 Hs4 Hs5 Hs6 Hsems]
    · isplitl [Hs0 Hs1 Hs2 Hs3 Hs4 Hs5 Hs6]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexact Hs6
      · iexact Hsems
    iexists _; isplitr
    swap
    · iexact HOw
    · ipureintro; exact waits_ok hW' _

end Tile

end Cert.Proof.HistIdeal

end
-- ==== Proof.HistObl.lean ====
/-
  The tile's task as the launch theorem's obligation: every tile of the one SparseCore call, at its own coordinates,
  runs the histogram body from what the call hands it to what it hands back.
-/
import proofs.«201955_g20547123544587_cont_8to1_184_16_alg».proof.Proof.HistBody

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

theorem defs₀_vector (c : Fin τ.nSC) (s : Fin τ.nSub) :
    defs₀ (F := F) (.scVector c s) 0 ()
      = SparseCore.onTile hcore0 hsub0 (fun c s => cc0_hist_kernel (coordsV c s)
          pV (Memref.isWhole_whole _) cV' (Memref.isWhole_whole _) oV (Memref.isWhole_whole _) sH (Memref.isWhole_whole _)
          sP0 (Memref.isWhole_whole _) sC0 (Memref.isWhole_whole _) sP1 (Memref.isWhole_whole _) sC1 (Memref.isWhole_whole _)
          sPT (Memref.isWhole_whole _) sCT (Memref.isWhole_whole _) sO (Memref.isWhole_whole _)
          cc0_scratch8 cc0_scratch9 cc0_scratch10 cc0_scratch11 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch theorem's obligation, the payloads those of `P` at the rows' statement `RowHolds`. -/
theorem tileObl (hF : (K (F := F)).Facts)
    (hr : ∀ (d : Dev nD) k, (m (pLoc d) k).toNat < 64 ∧ (m (cLoc d) k).toNat < 64) :
    (K (F := F)).TileObl (D (F := F)) 𝒱 (P m (fun d L f => RowHolds m d L f)) v₀ 0 := by
  intro d c i O W hO _ _
  -- this kernel owes nothing for a protocol of its own
  simp only [show (P m (fun d L f => RowHolds m d L f)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hr d) O W hO).trans (wp_mono frame _ _ fun _ => obl_post)

end Cert.Proof.HistIdeal

end
-- ==== Proof.HistLaunch.lean ====
/-
  The launch of the idealized program: from the proof of one tile's task to the run of all 35 threads.

  The TensorCore starts the two SparseCores and waits for them, reshapes the 32 rows of sums and its two other operands,
  runs the kernel that adds the rows to the table it was given and 4.0e6 to the total, and reshapes the two results.
  Before the SparseCore call each index array is cut into 64 read shares, two per tile, and the sums' array into its 32
  rows, one per tile; after it they are put back together.
-/
import proofs.«201955_g20547123544587_cont_8to1_184_16_alg».proof.Proof.HistPay
import proofs.«201955_g20547123544587_cont_8to1_184_16_alg».proof.Proof.Gen.KernelIdeal.Launch
import proofs.«201955_g20547123544587_cont_8to1_184_16_alg».proof.Proof.Gen.KernelIdeal.Points
import Idealize.ShloMosaic.Lib.Pipeline.Regions
import Idealize.ShloMosaic.Lib.ValueIdx

noncomputable section

namespace Cert.Proof.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The TensorCore's arrays as locations -/

abbrev a2Loc (d : Dev nD) : Loc nD τ sig := (SparseCore.T d).loc main_arg2
abbrev a3Loc (d : Dev nD) : Loc nD τ sig := (SparseCore.T d).loc main_arg3
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v40Loc (d : Dev nD) : Loc nD τ sig := (SparseCore.T d).loc main_v4_0
abbrev v41Loc (d : Dev nD) : Loc nD τ sig := (SparseCore.T d).loc main_v4_1
abbrev v5Loc (d : Dev nD) : Loc nD τ sig := (SparseCore.T d).loc main_v5
abbrev v6Loc (d : Dev nD) : Loc nD τ sig := (SparseCore.T d).loc main_v6

/-! ## The staging cells' rounds in the ghost state -/

/-- The staging cells' rounds: the middle factor of the ghost state. -/
abbrev EP : Emb UP (MT nD τ sig (HIx 1) (Elt F) ℕ UU ℕ) := (Emb.inl : Emb UP (UP × Counters)).trans embR

/-- No table is prefetched: the one admissible content. -/
abbrev adm : (p : Fin 1) → (pcfgs (F := F) p).Adm := fun p => (cfgs p).toPCfg_adm

/-! ## Dealing 64 shares and 32 rows to the 2 × 16 tiles -/

section Deal

variable {M : Type} [URA M]

/-- Share `2 · (2 i + c) + s`: tile `(c, i)`'s, for its buffer pair `s`. -/
def tk (c : Fin 2) (i : Fin 16) (s : Fin 2) : Fin 64 := ⟨2 * (2 * i.val + c.val) + s.val, by omega⟩
/-- Row `2 i + c`: tile `(c, i)`'s. -/
def rk (c : Fin 2) (i : Fin 16) : Fin 32 := ⟨2 * i.val + c.val, by omega⟩

theorem tk_inj : Function.Injective fun x : Fin 2 × Fin 16 × Fin 2 => tk x.1 x.2.1 x.2.2 := by
  rintro ⟨c, i, s⟩ ⟨c', i', s'⟩ h
  have h' : 2 * (2 * i.val + c.val) + s.val = 2 * (2 * i'.val + c'.val) + s'.val := congrArg Fin.val h
  have hs : s = s' := Fin.ext (by omega)
  have hc : c = c' := Fin.ext (by omega)
  have hi : i = i' := Fin.ext (by omega)
  subst hs hc hi; rfl

theorem tk_surj : Function.Surjective fun x : Fin 2 × Fin 16 × Fin 2 => tk x.1 x.2.1 x.2.2 := by
  intro k
  refine ⟨(⟨(k.val / 2) % 2, by omega⟩, ⟨k.val / 4, by omega⟩, ⟨k.val % 2, by omega⟩), Fin.ext ?_⟩
  show 2 * (2 * (k.val / 4) + (k.val / 2) % 2) + k.val % 2 = k.val
  omega

theorem rk_inj : Function.Injective fun x : Fin 2 × Fin 16 => rk x.1 x.2 := by
  rintro ⟨c, i⟩ ⟨c', i'⟩ h
  have h' : 2 * i.val + c.val = 2 * i'.val + c'.val := congrArg Fin.val h
  have hc : c = c' := Fin.ext (by omega)
  have hi : i = i' := Fin.ext (by omega)
  subst hc hi; rfl

theorem rk_surj : Function.Surjective fun x : Fin 2 × Fin 16 => rk x.1 x.2 := by
  intro k
  refine ⟨(⟨k.val % 2, by omega⟩, ⟨k.val / 2, by omega⟩), Fin.ext ?_⟩
  show 2 * (k.val / 2) + k.val % 2 = k.val
  omega

theorem bigSep_fin2 (Φ : Fin 2 → sProp M) : bigSep Finset.univ Φ = iprop(Φ 0 ∗ Φ 1) := by
  rw [show (Finset.univ : Finset (Fin 2)) = {0, 1} by decide, SparseCore.bigSep_insert' (by decide), bigSep_singleton]

/-- The 64 shares, two per tile. -/
theorem deal64 (Φ : Fin 64 → sProp M) :
    bigSep Finset.univ Φ = bigSep Finset.univ fun c : Fin 2 => bigSep Finset.univ fun i : Fin 16 => iprop(Φ (tk c i 0) ∗ Φ (tk c i 1)) := by
  rw [← Finset.image_univ_of_surjective tk_surj, SparseCore.bigSep_image_of_injOn (tk_inj.injOn) Φ,
    ← Finset.univ_product_univ, SparseCore.bigSep_product]
  refine bigSep_congr fun c _ => ?_
  rw [← Finset.univ_product_univ, SparseCore.bigSep_product]
  exact bigSep_congr fun i _ => bigSep_fin2 _

/-- The 32 rows, one per tile. -/
theorem deal32 (Φ : Fin 32 → sProp M) :
    bigSep Finset.univ Φ = bigSep Finset.univ fun c : Fin 2 => bigSep Finset.univ fun i : Fin 16 => Φ (rk c i) := by
  rw [← Finset.image_univ_of_surjective rk_surj, SparseCore.bigSep_image_of_injOn (rk_inj.injOn) Φ,
    ← Finset.univ_product_univ, SparseCore.bigSep_product]

end Deal

/-! ## The sums' array as its 32 rows; the payloads of the one call -/

section Rows

omit [FloatOps F] in
theorem hdiv32 : 32 ∣ S32x4096.size 0 := ⟨1, rfl⟩
abbrev rowR (w : Fin 32) : Rect S32x4096 := Rect.part (s := S32x4096) (a₀ := 0) hdiv32 w
abbrev rowSet (w : Fin 32) : Finset S32x4096.Idx := ((oV : Memref sig .scVector .hbm S32x4096 .f32).view.slice (rowR w)).set

omit [FloatOps F] in
theorem rowSet_eq (w : Fin 32) : rowSet w = (rowR w).set := by
  show ((View.whole (main_v0_scv : Ref sig .scVector)).slice (rowR w)).set = _
  rw [View.set_slice]; exact Finset.map_refl

/-- The rectangle a tile's copy of its sums addresses is row `2 s + c` of the array. -/
theorem oRect_eq (L : grid0.Coords) :
    Rect.unit (s := S32x4096) (k0_off9 L) S1x4096.size (k0_off9_inb L) = rowR ⟨wid L, wid_lt L⟩ := by
  unfold rowR Rect.part Rect.block
  congr 1 <;> funext a
  · rw [k0_off9_eq]
    match a with
    | 0 => simp [Shape.partIx, Shape.partSize, wid]
    | 1 => simp [Shape.partIx, Shape.partSize]
  · match a with
    | 0 => simp [Shape.partSize]
    | 1 => simp [Shape.partSize]

theorem set_oRowK (L : grid0.Coords) : (oRowK L).view.set = rowSet ⟨wid L, wid_lt L⟩ := by
  show (((oV : Memref sig .scVector .hbm S32x4096 .f32).view.slice (Rect.unit (s := S32x4096) (k0_off9 L) S1x4096.size (k0_off9_inb L))).reshape S4096 squeezes_S1x4096_S4096.numel_eq).set
    = ((oV : Memref sig .scVector .hbm S32x4096 .f32).view.slice (rowR ⟨wid L, wid_lt L⟩)).set
  rw [View.set_reshape]
  exact oRect_eq L ▸ rfl

/-- The elements of tile `(c, i)`'s row. -/
abbrev KS (x : Fin 2 × Fin 16) : Finset S32x4096.Idx := (oRowK (coordsV x.1 x.2)).view.set

theorem KS_eq (x : Fin 2 × Fin 16) : KS x = (rowR (rk x.1 x.2)).set := by
  unfold KS; rw [set_oRowK, rowSet_eq]; rfl

theorem KS_disjoint : ∀ x ∈ (Finset.univ : Finset (Fin 2 × Fin 16)), ∀ y ∈ (Finset.univ : Finset (Fin 2 × Fin 16)), x ≠ y → Disjoint (KS x) (KS y) :=
  fun x _ y _ h => by rw [KS_eq, KS_eq]; exact Rect.part_disjoint hdiv32 fun e => h (rk_inj e)

theorem KS_cover : (Finset.univ : Finset (Fin 2 × Fin 16)).biUnion KS = Finset.univ := by
  ext idx
  simp only [Finset.mem_biUnion, Finset.mem_univ, true_and, iff_true]
  obtain ⟨w, hw⟩ := Rect.exists_mem_part hdiv32 idx
  obtain ⟨x, rfl⟩ := rk_surj w
  exact ⟨x, by rw [KS_eq]; exact hw⟩

/-- The whole array is its 32 rows, dealt to the tiles. -/
theorem oPts_deal (d : Dev nD) (f : Buf (Elt F) (oLoc d)) :
    (oLoc d ↦{fullShare} f : sProp 𝕄) = bigSep Finset.univ fun c : Fin 2 => bigSep Finset.univ fun i : Fin 16 => oLoc d ↦[KS (c, i)]{fullShare} f := by
  rw [← SparseCore.bigSep_product Finset.univ Finset.univ (fun x : Fin 2 × Fin 16 => (oLoc d ↦[KS x]{fullShare} f : sProp 𝕄)), Finset.univ_product_univ,
    ← pointsTo_biUnion Finset.univ (ℓ := oLoc d) KS KS_disjoint, KS_cover]; try rfl

variable (m : (ℓ : Loc nD τ sig) → Buf (Elt F) ℓ)
variable (RowOK : (d : Dev nD) → grid0.Coords → Buf (Elt F) (oLoc d) → Prop)

/-- The rows back together: one array that has every tile's row, so of which every tile's `RowOK` holds if `RowOK`
    reads only the tile's own row. -/
theorem oRows_join (hRow : ∀ (d : Dev nD) (L : grid0.Coords) (f g : Buf (Elt F) (oLoc d)), (∀ i ∈ (oRowK L).view.set, g i = f i) → RowOK d L f → RowOK d L g)
    (d : Dev nD) :
    (bigSep Finset.univ fun c : Fin 2 => bigSep Finset.univ fun i : Fin 16 => iprop(∃ f, oRowPts d (coordsV c i) f ∗ ⌜RowOK d (coordsV c i) f⌝))
      ⊢ (iprop(∃ g : Buf (Elt F) (oLoc d), ⌜∀ L : grid0.Coords, RowOK d L g⌝ ∗ oLoc d ↦{fullShare} g) : sProp 𝕄) := by
  rw [← SparseCore.bigSep_product Finset.univ Finset.univ (fun x : Fin 2 × Fin 16 => (iprop(∃ f, oRowPts d (coordsV x.1 x.2) f ∗ ⌜RowOK d (coordsV x.1 x.2) f⌝) : sProp 𝕄)),
    Finset.univ_product_univ]
  refine (bigSep_exists_pi Finset.univ (fun (x : Fin 2 × Fin 16) (f : Buf (Elt F) (oLoc d)) => (iprop(oRowPts d (coordsV x.1 x.2) f ∗ ⌜RowOK d (coordsV x.1 x.2) f⌝) : sProp 𝕄))).trans ?_
  iintro ⟨%fs, H⟩
  have hswap : ∀ x ∈ (Finset.univ : Finset (Fin 2 × Fin 16)), iprop(oRowPts d (coordsV x.1 x.2) (fs x) ∗ ⌜RowOK d (coordsV x.1 x.2) (fs x)⌝)
      ⊢ (iprop(⌜RowOK d (coordsV x.1 x.2) (fs x)⌝ ∗ oLoc d ↦[KS x]{fullShare} fs x) : sProp 𝕄) := fun x _ => by
    iintro ⟨Hx, %hx⟩
    isplitr; · ipureintro; exact hx
    iexact Hx
  ihave H1 := (SparseCore.ent (bigSep_mono hswap)) $$ H
  ihave H2 := (bigSep_pure_sep Finset.univ (fun x : Fin 2 × Fin 16 => RowOK d (coordsV x.1 x.2) (fs x)) (fun x => (oLoc d ↦[KS x]{fullShare} fs x : sProp 𝕄))) $$ H1
  icases H2 with ⟨%hall, H3⟩
  ihave H' := (pointsTo_biUnion_join Finset.univ KS fs (fs (0, 0)) KS_disjoint) $$ H3
  icases H' with ⟨%g, %hg, Hg⟩
  rw [KS_cover]
  iexists g
  isplitr
  · ipureintro
    intro L
    have hL : L = coordsV (L 0) (L 1) := funext fun a => match a with | 0 => rfl | 1 => rfl
    rw [hL]
    exact hRow d _ _ g (fun i hi => hg (L 0, L 1) (Finset.mem_univ _) i hi) (hall (L 0, L 1) (Finset.mem_univ _))
  · iexact Hg

theorem P_st (d : Dev nD) (c : Fin ((K (F := F)).nCore 0)) :
    (P m RowOK).st 0 d c = bigSep Finset.univ fun i : Fin 16 => goRes m d (coordsV c i) := by unfold P; rfl
theorem P_dn (d : Dev nD) (c : Fin ((K (F := F)).nCore 0)) :
    (P m RowOK).dn 0 d c = bigSep Finset.univ fun i : Fin 16 => tdRes m RowOK d (coordsV c i) := by unfold P; rfl

omit [FloatOps F] in
theorem deal64' (Φ : Fin 64 → sProp 𝕄) :
    bigSep Finset.univ Φ = iprop((bigSep Finset.univ fun c : Fin 2 => bigSep Finset.univ fun i : Fin 16 => Φ (tk c i 0))
      ∗ bigSep Finset.univ fun c : Fin 2 => bigSep Finset.univ fun i : Fin 16 => Φ (tk c i 1)) := by
  rw [deal64]; simp only [bigSep_sep']

/-- What the call takes for the two SparseCores: the 64 read shares of each index array and the 32 rows; the rest of each
    index array stays with the TensorCore. -/
theorem st0_intro (d : Dev nD) :
    iprop((pLoc d ↦{fullShare} m (pLoc d)) ∗ (cLoc d ↦{fullShare} m (cLoc d)) ∗ (oLoc d ↦{fullShare} m (oLoc d)))
      ⊢ (iprop((bigSep Finset.univ fun c : Fin ((K (F := F)).nCore 0) => (P m RowOK).st 0 d c)
          ∗ (pLoc d ↦{Transfers.shareDrop fullShare 64} m (pLoc d)) ∗ (cLoc d ↦{Transfers.shareDrop fullShare 64} m (cLoc d))) : sProp 𝕄) := by
  rw [bigSep_congr fun c _ => P_st m RowOK d c]
  unfold goRes
  simp only [bigSep_sep']
  iintro ⟨Hp, Hc, Ho⟩
  ihave Hp' := (Transfers.pointsTo_toks_split (ℓ := pLoc d) (S := Finset.univ) (f := m (pLoc d)) fullShare 64) $$ Hp
  icases Hp' with ⟨Hpd, Hpt⟩
  ihave Hc' := (Transfers.pointsTo_toks_split (ℓ := cLoc d) (S := Finset.univ) (f := m (cLoc d)) fullShare 64) $$ Hc
  icases Hc' with ⟨Hcd, Hct⟩
  ihave Hpt' := (Entails.of_eq (deal64' (F := F) (fun k => (pLoc d ↦{Transfers.shareTok fullShare 64 k} m (pLoc d) : sProp 𝕄)))) $$ Hpt
  icases Hpt' with ⟨Hp0, Hp1⟩
  ihave Hct' := (Entails.of_eq (deal64' (F := F) (fun k => (cLoc d ↦{Transfers.shareTok fullShare 64 k} m (cLoc d) : sProp 𝕄)))) $$ Hct
  icases Hct' with ⟨Hc0, Hc1⟩
  ihave Ho' := (Entails.of_eq (oPts_deal (F := F) d (m (oLoc d)))) $$ Ho
  isplitl [Hp0 Hp1 Hc0 Hc1 Ho']
  · isplitl [Hp0]; · iexact Hp0
    isplitl [Hp1]; · iexact Hp1
    isplitl [Hc0]; · iexact Hc0
    isplitl [Hc1]; · iexact Hc1
    iexact Ho'
  isplitl [Hpd]; · iexact Hpd
  iexact Hcd

/-- What the call hands back, put together: the index arrays whole again, the sums' array at rows of which `RowOK` holds. -/
theorem dn0_elim (hRow : ∀ (d : Dev nD) (L : grid0.Coords) (f g : Buf (Elt F) (oLoc d)), (∀ i ∈ (oRowK L).view.set, g i = f i) → RowOK d L f → RowOK d L g)
    (d : Dev nD) :
    iprop((bigSep Finset.univ fun c : Fin ((K (F := F)).nCore 0) => (P m RowOK).dn 0 d c)
        ∗ (pLoc d ↦{Transfers.shareDrop fullShare 64} m (pLoc d)) ∗ (cLoc d ↦{Transfers.shareDrop fullShare 64} m (cLoc d)))
      ⊢ (iprop((pLoc d ↦{fullShare} m (pLoc d)) ∗ (cLoc d ↦{fullShare} m (cLoc d))
          ∗ ∃ g : Buf (Elt F) (oLoc d), ⌜∀ L : grid0.Coords, RowOK d L g⌝ ∗ oLoc d ↦{fullShare} g) : sProp 𝕄) := by
  rw [bigSep_congr fun c _ => P_dn m RowOK d c]
  unfold tdRes
  simp only [bigSep_sep']
  iintro ⟨⟨Hp0, Hp1, Hc0, Hc1, Ho⟩, Hpd, Hcd⟩
  isplitl [Hp0 Hp1 Hpd]
  · iapply (Transfers.pointsTo_toks_join (ℓ := pLoc d) (S := Finset.univ) (f := m (pLoc d)) fullShare 64)
    isplitl [Hpd]; · iexact Hpd
    iapply (Entails.of_eq (deal64' (F := F) (fun k => (pLoc d ↦{Transfers.shareTok fullShare 64 k} m (pLoc d) : sProp 𝕄))).symm)
    isplitl [Hp0]; · iexact Hp0
    iexact Hp1
  isplitl [Hc0 Hc1 Hcd]
  · iapply (Transfers.pointsTo_toks_join (ℓ := cLoc d) (S := Finset.univ) (f := m (cLoc d)) fullShare 64)
    isplitl [Hcd]; · iexact Hcd
    iapply (Entails.of_eq (deal64' (F := F) (fun k => (cLoc d ↦{Transfers.shareTok fullShare 64 k} m (cLoc d) : sProp 𝕄))).symm)
    isplitl [Hc0]; · iexact Hc0
    iexact Hc1
  iapply (oRows_join RowOK hRow d)
  iexact Ho

end Rows

/-! ## @main on the TensorCore -/

section Main

variable (m : (ℓ : Loc nD τ sig) → Buf (Elt F) ℓ) (ρ : Dev nD → PrngReg)
variable (RowOK : (d : Dev nD) → grid0.Coords → Buf (Elt F) (oLoc d) → Prop)

omit [FloatOps F] in
/-- The TensorCore's arrays, all unscoped, one by one. -/
theorem unscopedBufs_eq (d : Dev nD) (W : (b : Ref sig .tc) → Buf (Elt F) ((d.tc : Thread nD τ).loc b)) :
    (unscopedBufs d W : sProp 𝕄) = iprop((pLoc d ↦{fullShare} W main_arg0) ∗ (cLoc d ↦{fullShare} W main_arg1) ∗ (a2Loc d ↦{fullShare} W main_arg2)
      ∗ (a3Loc d ↦{fullShare} W main_arg3) ∗ (oLoc d ↦{fullShare} W main_v0) ∗ (v1Loc d ↦{fullShare} W main_v1) ∗ (v2Loc d ↦{fullShare} W main_v2)
      ∗ (v3Loc d ↦{fullShare} W main_v3) ∗ (v40Loc d ↦{fullShare} W main_v4_0) ∗ (v41Loc d ↦{fullShare} W main_v4_1)
      ∗ (v5Loc d ↦{fullShare} W main_v5) ∗ (v6Loc d ↦{fullShare} W main_v6)) := by
  unfold unscopedBufs
  exact bigSep_eq_bigSepL_of_eq [main_arg0, main_arg1, main_arg2, main_arg3, main_v0, main_v1, main_v2, main_v3, main_v4_0, main_v4_1, main_v5, main_v6]
    (by decide : (Finset.univ.filter fun b : Ref sig .tc => ¬ b.isScoped) = [main_arg0, main_arg1, main_arg2, main_arg3, main_v0, main_v1, main_v2, main_v3, main_v4_0, main_v4_1, main_v5, main_v6].toFinset)
    (by decide) _

include m in
/-- One reshape of @main: the source kept, the result at the source's elements in row-major order. -/
theorem wp_reshape_step (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y) (a : Buf (Elt F) ((SparseCore.T d).loc x)) (Φ : PUnit → sProp 𝕄) :
    iprop(boundary (SparseCore.T d) ∗ ((SparseCore.T d).loc x ↦{fullShare} a) ∗ (∃ f, (SparseCore.T d).loc y ↦{fullShare} f)
        ∗ ((boundary (SparseCore.T d) ∗ ((SparseCore.T d).loc x ↦{fullShare} a)
            ∗ ((SparseCore.T d).loc y ↦{fullShare} (fun i => he ▸ shapeCast y.ty.shape a hn i))) -∗ Φ ⟨⟩))
      ⊢ wp frame (wpE ((K (F := F)).defs (D (F := F))) 𝒱 (SparseCore.T d) none) Set.univ
          (hlo rfl (StableHlo.reshape x y he hn hx hy) (fun _ => .ret ⟨⟩)) Φ := by
  iintro ⟨Hb, Hx, ⟨%f, Hy⟩, Hk⟩
  have hne : (Proc.devRef .tc x : DevRef τ sig) ≠ Proc.devRef .tc y := StableHlo.devRef_ne_of_ne hxy
  let V : Valuation τ sig (Elt F) := Function.update (Function.update (fun b => m (d, b)) (Proc.devRef .tc x) a) (Proc.devRef .tc y) f
  have hVx : V (Proc.devRef .tc x) = a := (Function.update_of_ne hne _ _).trans (Function.update_self _ _ _)
  have hVy : V (Proc.devRef .tc y) = f := Function.update_self _ _ _
  have hheld : ∀ W : Valuation τ sig (Elt F), (held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := fun W => by
    unfold held; rw [SparseCore.bigSep_insert' (by simpa using hne), bigSep_singleton]
  have hres : (held (SparseCore.T d) {Proc.devRef .tc x, Proc.devRef .tc y} ((StableHlo.reshape x y he hn hx hy : HloOp τ sig (Elt F)).result V) : sProp 𝕄)
      = iprop(((SparseCore.T d).loc x ↦{fullShare} a) ∗ (SparseCore.T d).loc y ↦{fullShare} (fun i => he ▸ shapeCast y.ty.shape a hn i)) := by
    rw [hheld, StableHlo.reshape_result_ne x y he hn hx hy V hxy, StableHlo.reshape_result x y he hn hx hy V, hVx]
  iapply (wp_hlo_within 𝒱 (SparseCore.T d) none Set.univ (op := StableHlo.reshape x y he hn hx hy)
    (S := {Proc.devRef .tc x, Proc.devRef .tc y}) (Finset.Subset.refl _) (V := V)) $$ [Hb Hx Hy]
  · isplitl [Hb]; · iexact Hb
    rw [hheld, hVx, hVy]
    isplitl [Hx]; · iexact Hx
    iexact Hy
  iintro ⟨Hb, Hheld⟩
  ihave Hh := (Entails.of_eq hres) $$ Hheld
  icases Hh with ⟨Hx, Hy⟩
  rw [wp_ret]; imodintro
  iapply Hk
  isplitl [Hb]; · iexact Hb
  isplitl [Hx]; · iexact Hx
  iexact Hy

end Main

/-! ## The TensorCore kernel: the 32 rows added to the table, 4.0e6 to the total -/

section Region

open Idealize.ShloMosaic.TcCoe
open Idealize.ShloMosaic.Pipeline (Dat Cfg Window BodyObligation cellOf)

variable (m : (ℓ : Loc nD τ sig) → Buf (Elt F) ℓ)
-- the 32 rows of sums on each device, as the SparseCores left them
variable (v0f : (c : Dev nD) → Buf (Elt F) (oLoc c))

/-- The kernel's three operands as @main's reshapes leave them, and its two results. -/
def x1 (c : Dev nD) : Buf (Elt F) (v1Loc c) := shapeCast S32x32x128 (v0f c) shapeCasts_S32x4096_S32x32x128
def x2 (c : Dev nD) : Buf (Elt F) (v2Loc c) := shapeCast S32x128 (m (a2Loc c)) shapeCasts_S64x64_S32x128
def x3 (c : Dev nD) : Buf (Elt F) (v3Loc c) := shapeCast S1 (m (a3Loc c)) shapeCasts_S_S1
def y0 (c : Dev nD) : Buf (Elt F) (v40Loc c) := k1_pay1 (F := F) (x2 m c) (x1 v0f c)
def y1 (c : Dev nD) : Buf (Elt F) (v41Loc c) := fun _ => k1_pay2 (F := F) (x3 m c (ValueIdx.ix1 0))

abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f
abbrev ptT (c : Dev nD) (b : Ref sig .tc) (f : Buf (Elt F) ((Memref.whole b).view.loc (c : Thread nD τ))) : sProp 𝕄 := ptM c (Memref.whole b) f

omit [FloatOps F] in
theorem hz1 : (![0] : Fin 1 → Nat) = fun _ => 0 := funext fun a => by fin_cases a <;> rfl
omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- The rectangles the body's loads and stores go through: each buffer whole. -/
abbrev r1 : Rect S1 := Rect.unit (s := S1) ![0] S1.size inb_S1_S1_0
abbrev r2 : Rect S32x128 := Rect.unit (s := S32x128) ![0, 0] S32x128.size inb_S32x128_S32x128_0_0
abbrev r3 : Rect S32x32x128 := Rect.unit (s := S32x32x128) ![0, 0, 0] S32x32x128.size inb_S32x32x128_S32x32x128_0_0_0

omit [FloatOps F] in
theorem read_s0 (f : (cc1_stg0_0 : Ref sig .tc).ty.Contents (Elt F)) :
    (Memref.whole cc1_stg0_0 : Memref sig .tc .vmem S32x32x128 .f32).view.readAt (Elt F) r3.toLoadRect f = f :=
  Memref.readAt_unit_zero (Elt F) cc1_stg0_0 hz3 _ f
omit [FloatOps F] in
theorem read_s1 (f : (cc1_stg1_0 : Ref sig .tc).ty.Contents (Elt F)) :
    (Memref.whole cc1_stg1_0 : Memref sig .tc .vmem S32x128 .f32).view.readAt (Elt F) r2.toLoadRect f = f :=
  Memref.readAt_unit_zero (Elt F) cc1_stg1_0 hz2 _ f
omit [FloatOps F] in
theorem read_s2 (f : (cc1_stg2_0 : Ref sig .tc).ty.Contents (Elt F)) :
    (Memref.whole cc1_stg2_0 : Memref sig .tc .smem S1 .f32).view.readAt (Elt F) r1.toLoadRect f = f :=
  Memref.readAt_unit_zero (Elt F) cc1_stg2_0 hz1 _ f
omit [FloatOps F] in
/-- A one-element shape has one index. -/
theorem idxS1_eq (i j : S1.Idx) : i = j := funext fun a => by
  fin_cases a
  refine Fin.ext ?_
  have h1 : (i 0).val < 1 := (i 0).isLt
  have h2 : (j 0).val < 1 := (j 0).isLt
  show (i 0).val = (j 0).val
  omega
omit [FloatOps F] in
theorem write_s3 (f w : (cc1_stg3_0 : Ref sig .tc).ty.Contents (Elt F)) :
    ((Memref.whole cc1_stg3_0 : Memref sig .tc .vmem S32x128 .f32).access r2 : View sig .tc _ _ _).write (Elt F) f w Finset.univ = w :=
  Memref.write_access_unit_zero_univ (Elt F) cc1_stg3_0 hz2 _ f w
omit [FloatOps F] in
theorem write_s4 (f w : (cc1_stg4_0 : Ref sig .tc).ty.Contents (Elt F)) :
    ((Memref.whole cc1_stg4_0 : Memref sig .tc .smem S1 .f32).access r1 : View sig .tc _ _ _).write (Elt F) f w Finset.univ = w :=
  Memref.write_access_unit_zero_univ (Elt F) cc1_stg4_0 hz1 _ f w

/-- The kernel's body on its five staging buffers held whole: the three inputs kept, the two outputs at the sums. -/
theorem kernelRun (c : Dev nD) (f0 : Buf (Elt F) ((Memref.whole cc1_stg0_0).view.loc (c : Thread nD τ))) (f1 : Buf (Elt F) ((Memref.whole cc1_stg1_0).view.loc (c : Thread nD τ)))
    (f2 : Buf (Elt F) ((Memref.whole cc1_stg2_0).view.loc (c : Thread nD τ))) (f3 : Buf (Elt F) ((Memref.whole cc1_stg3_0).view.loc (c : Thread nD τ)))
    (f4 : Buf (Elt F) ((Memref.whole cc1_stg4_0).view.loc (c : Thread nD τ))) (Q : PUnit → sProp 𝕄) :
    iprop(ptT c cc1_stg0_0 f0 ∗ ptT c cc1_stg1_0 f1 ∗ ptT c cc1_stg2_0 f2 ∗ ptT c cc1_stg3_0 f3 ∗ ptT c cc1_stg4_0 f4
      ∗ (iprop(ptT c cc1_stg0_0 f0 ∗ ptT c cc1_stg1_0 f1 ∗ ptT c cc1_stg2_0 f2 ∗ (∃ g3, ⌜g3 = k1_pay1 (F := F) f1 f0⌝ ∗ ptT c cc1_stg3_0 g3)
            ∗ (∃ g4, ⌜g4 = fun _ => k1_pay2 (F := F) (f2 (ValueIdx.ix1 0))⌝ ∗ ptT c cc1_stg4_0 g4)) -∗ Q ⟨⟩))
    ⊢ wp frame (wpE (defs₀ (F := F)) Variants.none c none) Set.univ
        (cc1__tc_body (Memref.whole cc1_stg0_0) (Memref.isWhole_whole _) (Memref.whole cc1_stg1_0) (Memref.isWhole_whole _)
          (Memref.whole cc1_stg2_0) (Memref.isWhole_whole _) (Memref.whole cc1_stg3_0) (Memref.isWhole_whole _)
          (Memref.whole cc1_stg4_0) (Memref.isWhole_whole _)) Q := by
  iintro ⟨H0, H1, H2, H3, H4, Hk⟩
  simp only [cc1__tc_body_eq_skeleton]; unfold cc1__tc_body_skel
  sl_exec
  sl_step
  iapply Hk
  isplitl [H0]; · iexact H0
  isplitl [H1]; · iexact H1
  isplitl [H2]; · iexact H2
  isplitl [H3]
  · iexists _; isplitr; swap; (· iexact H3)
    ipureintro
    rw [View.writes_singleton, read_s1, read_s0]
    exact write_s3 _ _
  · iexists _; isplitr; swap; (· iexact H4)
    ipureintro
    sl_unfold_run_names
    rw [View.writes_singleton, read_s2]
    refine (write_s4 _ _).trans ?_
    funext _
    exact congrArg (fun i => k1_pay2 (F := F) (f2 i)) (idxS1_eq _ _)

/-- The proof data of the kernel on device `c`: the operands as @main's reshapes leave them, the results' buffers as
    launched; after the body the inputs' staging buffers as fetched, the outputs' at the sums; nothing owed, and the
    recorded waits no higher than the SparseCore call's. -/
def dats (_ : Fin 1) (c : Dev nD) : Dat τ (Elt F) (HIx 1) ℕ UU ℕ cfg1 c where
  A w := match w with
    | 0 => x1 v0f c
    | 1 => x2 m c
    | 2 => x3 m c
    | 3 => m (v40Loc c)
    | 4 => m (v41Loc c)
    | ⟨_ + 5, h⟩ => absurd h (Nat.not_lt.2 (Nat.le_add_left _ _))
  after w _ := match w with
    | 0 => x1 v0f c
    | 1 => x2 m c
    | 2 => x3 m c
    | 3 => y0 m v0f c
    | 4 => y1 m c
    | ⟨_ + 5, h⟩ => absurd h (Nat.not_lt.2 (Nat.le_add_left _ _))
  Φ _ := iprop(emp)
  q _ := fullShare
  owed _ := 0
  recorded _ := {p | (K (F := F)).lev ((c : Thread nD τ), p.1) p.2 ≤ 8}

theorem before_0 (c : Dev nD) (d) : (dats m v0f 0 c).before 0 t1_0 d = x1 v0f c := by
  unfold Dat.before; rw [if_pos (by decide)]
  refine (show (dats m v0f 0 c).fetched 0 t1_0 d = (dats m v0f 0 c).blockOf 0 t1_0 from (dats m v0f 0 c).cut_fetched 0 t1_0 d).trans ?_
  exact Memref.read_access_unit_zero (Elt F) main_v1 (funext fun a => Nat.zero_mul _) _ (x1 v0f c)
theorem before_1 (c : Dev nD) (d) : (dats m v0f 0 c).before 1 t1_0 d = x2 m c := by
  unfold Dat.before; rw [if_pos (by decide)]
  refine (show (dats m v0f 0 c).fetched 1 t1_0 d = (dats m v0f 0 c).blockOf 1 t1_0 from (dats m v0f 0 c).cut_fetched 1 t1_0 d).trans ?_
  exact Memref.read_access_unit_zero (Elt F) main_v2 (funext fun a => Nat.zero_mul _) _ (x2 m c)
theorem before_2 (c : Dev nD) (d) : (dats m v0f 0 c).before 2 t1_0 d = x3 m c := by
  unfold Dat.before; rw [if_pos (by decide)]
  refine (show (dats m v0f 0 c).fetched 2 t1_0 d = (dats m v0f 0 c).blockOf 2 t1_0 from (dats m v0f 0 c).cut_fetched 2 t1_0 d).trans ?_
  exact Memref.read_access_unit_zero (Elt F) main_v3 (funext fun a => Nat.zero_mul _) _ (x3 m c)

theorem body_obligation (c : Dev nD) : BodyObligation (dats m v0f 0 c) (defs₀ (F := F)) 𝒱₀ (none : HIx 1) Set.univ := fun t => by
  obtain rfl := fin_N1 t
  rw [bigSep_W1, bigSep_W1]
  simp only [owns_whole_eq]
  rw [show (dats m v0f 0 c).Φ t1_0.castSucc = iprop(emp) from rfl, show (dats m v0f 0 c).Φ t1_0.succ = iprop(emp) from rfl]
  unfold Dat.owesAt Pipeline.owesWithin
  rw [show (dats m v0f 0 c).owed t1_0.castSucc = 0 from rfl, show (dats m v0f 0 c).owed t1_0.succ = 0 from rfl]
  iintro ⟨-, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_0] at hf0
  rw [before_1] at hf1
  rw [before_2] at hf2
  subst hf0 hf1 hf2
  iapply (kernelRun c (x1 v0f c) (x2 m c) (x3 m c) f3 f4)
  isplitl [H0]; · iexact H0
  isplitl [H1]; · iexact H1
  isplitl [H2]; · iexact H2
  isplitl [H3]; · iexact H3
  isplitl [H4]; · iexact H4
  iintro ⟨H0, H1, H2, ⟨%g3, %hg3, H3⟩, ⟨%g4, %hg4, H4⟩⟩
  subst hg3 hg4
  isplitr; · iempintro
  isplitl [HO]
  · iexists W; isplitr; · ipureintro; exact hW
    iexact HO
  isplitl [H0]
  · iexists _; isplitr; swap; (· iexact H0); ipureintro; dsimp only [dats]
  isplitl [H1]
  · iexists _; isplitr; swap; (· iexact H1); ipureintro; dsimp only [dats]
  isplitl [H2]
  · iexists _; isplitr; swap; (· iexact H2); ipureintro; dsimp only [dats]
  isplitl [H3]
  · iexists _; isplitr; swap; (· iexact H3); ipureintro; dsimp only [dats]; rfl
  · iexists _; isplitr; swap; (· iexact H4); ipureintro; dsimp only [dats]; rfl

/-- What the TensorCore owes and has recorded, around the kernel: nothing, and no wait higher than the SparseCore call's. -/
def owesT (c : Dev nD) : sProp 𝕄 :=
  iprop(∃ W, ⌜(K (F := F)).WBelow (c : Thread nD τ) W 8⌝ ∗ owes (c : Thread nD τ) (0 : CellTallies nD τ sig (HIx 1)) W)

/-- The kernel's five arrays before it and after it. -/
def preT (c : Dev nD) : sProp 𝕄 :=
  iprop((v1Loc c ↦{fullShare} x1 v0f c) ∗ (v2Loc c ↦{fullShare} x2 m c) ∗ (v3Loc c ↦{fullShare} x3 m c)
    ∗ (v40Loc c ↦{fullShare} m (v40Loc c)) ∗ (v41Loc c ↦{fullShare} m (v41Loc c)) ∗ owesT (F := F) c)
def postT (c : Dev nD) : sProp 𝕄 :=
  iprop((v1Loc c ↦{fullShare} (dats m v0f 0 c).arrAt 0 cfg1.N) ∗ (v2Loc c ↦{fullShare} (dats m v0f 0 c).arrAt 1 cfg1.N) ∗ (v3Loc c ↦{fullShare} (dats m v0f 0 c).arrAt 2 cfg1.N)
    ∗ (v40Loc c ↦{fullShare} (dats m v0f 0 c).arrAt 3 cfg1.N) ∗ (v41Loc c ↦{fullShare} (dats m v0f 0 c).arrAt 4 cfg1.N) ∗ owesT (F := F) c)

theorem arrays_eq (c : Dev nD) (G : (w : Fin cfg1.W) → Buf (Elt F) ((cfg1.win w).arr.view.loc (c : Thread nD τ))) :
    ((dats m v0f 0 c).arrays G : sProp 𝕄) = iprop((v1Loc c ↦{fullShare} G 0) ∗ (v2Loc c ↦{fullShare} G 1) ∗ (v3Loc c ↦{fullShare} G 2)
      ∗ (v40Loc c ↦{fullShare} G 3) ∗ (v41Loc c ↦{fullShare} G 4)) := by
  unfold Dat.arrays; rw [bigSep_W1]
  rw [(dats m v0f 0 c).share_full (fun _ => rfl) 0, (dats m v0f 0 c).share_full (fun _ => rfl) 1, (dats m v0f 0 c).share_full (fun _ => rfl) 2,
    (dats m v0f 0 c).share_full (fun _ => rfl) 3, (dats m v0f 0 c).share_full (fun _ => rfl) 4]
  show iprop((v1Loc c ↦[(View.whole (main_v1 : Ref sig .tc)).set]{fullShare} G 0) ∗ (v2Loc c ↦[(View.whole (main_v2 : Ref sig .tc)).set]{fullShare} G 1)
      ∗ (v3Loc c ↦[(View.whole (main_v3 : Ref sig .tc)).set]{fullShare} G 2) ∗ (v40Loc c ↦[(View.whole (main_v4_0 : Ref sig .tc)).set]{fullShare} G 3)
      ∗ (v41Loc c ↦[(View.whole (main_v4_1 : Ref sig .tc)).set]{fullShare} G 4)) = _
  rw [View.set_whole, View.set_whole, View.set_whole, View.set_whole, View.set_whole]

set_option backward.isDefEq.respectTransparency.types false in
/-- The kernel's region: the layout the launch decides, no semaphore of its own, the body obligation; entered from the
    five arrays and left with them, the results at what the pipeline writes back. -/
def reg : Pipeline.RegionSeg (pcfgs (F := F)) adm (dats m v0f) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m v0f c).loose
  hwaits := Pipeline.hwaits_of_owed_zero _ _ _ _ (K (F := F)).L (K (F := F)).lev 0 fun _ _ => rfl
  pre c := preT m v0f c
  post c := postT m v0f c
  X _ := iprop(emp)
  Y _ := iprop(emp)
  Z _ := iprop(emp)
  hentry c := by
    rw [arrays_eq]; unfold preT owesT
    iintro ⟨⟨H1, H2, H3, H40, H41, %W, %hW, HO⟩, -, -⟩
    imodintro
    isplitl [H1 H2 H3 H40 H41]
    · isplitl [H1]; · iexact H1
      isplitl [H2]; · iexact H2
      isplitl [H3]; · iexact H3
      isplitl [H40]; · iexact H40
      iexact H41
    isplitr; · unfold Pipeline.prefHeld; rw [show (Finset.univ : Finset (Fin 0)) = ∅ from rfl, BI.bigSep_empty]; iempintro
    isplitl [HO]
    · unfold Dat.owesAt Pipeline.owesWithin
      iexists W; isplitr; · ipureintro; exact fun p hp => Or.inl (hW p (Finset.mem_coe.mp hp))
      iexact HO
    isplitr <;> iempintro
  hin c := by
    rw [show (dats m v0f 0 c).Φ 0 = iprop(emp) from rfl]
    iintro -; iempintro
  hout c := by
    rw [Pipeline.ownSems0_none, scopedRest1_eq, show (dats m v0f 0 c).Φ (Fin.last cfg1.N) = iprop(emp) from rfl]
    iintro -
    isplitr; · iempintro
    isplitr <;> iempintro
  hexit c := by
    rw [arrays_eq]; unfold postT owesT Dat.owesAt Pipeline.owesWithin
    iintro ⟨⟨H1, H2, H3, H40, H41⟩, ⟨%W, %hW, HO⟩, -, -⟩
    imodintro
    isplitl [H1]; · iexact H1
    isplitl [H2]; · iexact H2
    isplitl [H3]; · iexact H3
    isplitl [H40]; · iexact H40
    isplitl [H41]; · iexact H41
    iexists W; isplitr
    · ipureintro
      intro p hp
      rcases hW (Finset.mem_coe.mpr hp) with h | ⟨w, s, rfl⟩
      · exact h
      · exact Nat.zero_le _
    iexact HO

omit [FloatOps F] in
/-- The call of the pipeline's entry, carried to the SparseCore program's labels. -/
theorem lift_call : (SparseCore.liftProg (Q := 1) (Prog.lift (TpuEff.customCall (Pipeline.entry 0) ()) : Prog (TpuEff nD τ sig (Elt F) (ΛP (F := F)) .tc) PUnit))
    = Prog.lift (TpuEff.customCall (SparseCore.inner (Pipeline.entry 0)) ()) := rfl

/-- The kernel's call, as @main makes it: from the five arrays, the region boundary, the staging cells' ghost state and
    nothing owed, to the five arrays at what the pipeline writes back. -/
theorem tc_call_D [∀ e, Nonempty (Elt F e)] (d : Dev nD) (Φ : PUnit → sProp 𝕄) :
    iprop(levAts (K (F := F)).L (K (F := F)).lev ∗ boundary (SparseCore.T d) ∗ preT m v0f d
        ∗ Pipeline.cellsGhost cfgs (EP (F := F)) 0 d ∗ Pipeline.toksInit cfgs (EP (F := F)) 0 d
        ∗ ((boundary (SparseCore.T d) ∗ postT m v0f d) -∗ Φ ⟨⟩))
      ⊢ wp frame (wpE (D (F := F)) 𝒱 (SparseCore.T d) none) Set.univ
          (Prog.lift (TpuEff.customCall (Pipeline.entry 0) ()) : Prog (TpuEff nD τ sig (Elt F) (ΛP (F := F)) (SparseCore.T d).2) PUnit) Φ := by
  iintro ⟨#Hla, Hb, Hpre, Hg, Ht, Hk⟩
  iapply (Pipeline.RegionSeg.wp (pcfgs (F := F)) adm (dats m v0f) (none : HIx 1) cellOf_inj (EP (F := F)) defs₀ 𝒱₀ (K (F := F)).L (K (F := F)).lev
    (reg m v0f) d none (fun _ h => nomatch h) (fun r => .ret r) Φ)
  isplitl [Hk]
  · iintro ⟨Hb, Hpost⟩
    ihave Hpost' := (Entails.of_eq (show (reg m v0f).post d = postT m v0f d from rfl)) $$ Hpost
    rw [wp_ret]; imodintro
    iapply Hk
    isplitl [Hb]; · iexact Hb
    iexact Hpost'
  isplitl [Hb]; · iexact Hb
  isplitl [Hpre]; · iapply (Entails.of_eq (show preT m v0f d = (reg m v0f).pre d from rfl)); iexact Hpre
  isplitr; · iexact Hla
  isplitl [Hg]; · iexact Hg
  iexact Ht

theorem arrAt_0 (c : Dev nD) : (dats m v0f 0 c).arrAt 0 cfg1.N = x1 v0f c := (dats m v0f 0 c).arrAt_in 0 rfl _
theorem arrAt_1 (c : Dev nD) : (dats m v0f 0 c).arrAt 1 cfg1.N = x2 m c := (dats m v0f 0 c).arrAt_in 1 rfl _
theorem arrAt_2 (c : Dev nD) : (dats m v0f 0 c).arrAt 2 cfg1.N = x3 m c := (dats m v0f 0 c).arrAt_in 2 rfl _
theorem arrAt_3 (c : Dev nD) : (dats m v0f 0 c).arrAt 3 cfg1.N = y0 m v0f c := by
  show (dats m v0f 0 c).arrAt 3 (t1_0.val + 1) = _
  rw [Dat.arrAt_succ, if_pos (flush1_3 _)]
  exact Memref.write_access_unit_zero_univ (Elt F) main_v4_0 (funext fun a => Nat.zero_mul _) _ _ (y0 m v0f c)
theorem arrAt_4 (c : Dev nD) : (dats m v0f 0 c).arrAt 4 cfg1.N = y1 m c := by
  show (dats m v0f 0 c).arrAt 4 (t1_0.val + 1) = _
  rw [Dat.arrAt_succ, if_pos (flush1_4 _)]
  exact Memref.write_access_unit_zero_univ (Elt F) main_v4_1 (funext fun a => Nat.zero_mul _) _ _ (y1 m c)

theorem postT_eq (c : Dev nD) : postT m v0f c = iprop((v1Loc c ↦{fullShare} x1 v0f c) ∗ (v2Loc c ↦{fullShare} x2 m c) ∗ (v3Loc c ↦{fullShare} x3 m c)
    ∗ (v40Loc c ↦{fullShare} y0 m v0f c) ∗ (v41Loc c ↦{fullShare} y1 m c) ∗ owesT (F := F) c) := by
  unfold postT; rw [arrAt_0, arrAt_1, arrAt_2, arrAt_3, arrAt_4]

/-- The same under the SparseCore program's body table. -/
theorem tc_call [∀ e, Nonempty (Elt F e)] (d : Dev nD) (Φ : PUnit → sProp 𝕄) :
    iprop(levAts (K (F := F)).L (K (F := F)).lev ∗ boundary (SparseCore.T d) ∗ preT m v0f d
        ∗ Pipeline.cellsGhost cfgs (EP (F := F)) 0 d ∗ Pipeline.toksInit cfgs (EP (F := F)) 0 d
        ∗ ((boundary (SparseCore.T d) ∗ postT m v0f d) -∗ Φ ⟨⟩))
      ⊢ wp frame (wpE ((K (F := F)).defs (D (F := F))) 𝒱 (SparseCore.T d) none) Set.univ
          (Prog.lift (.customCall (SparseCore.inner (Pipeline.entry 0)) ())) Φ := by
  have hlift := (K (F := F)).wp_liftProg (D (F := F)) 𝒱 (SparseCore.T d) Set.univ none
    (Prog.lift (TpuEff.customCall (Pipeline.entry 0) ()) : Prog (TpuEff nD τ sig (Elt F) (ΛP (F := F)) (SparseCore.T d).2) PUnit) Φ
  rw [lift_call] at hlift
  exact (tc_call_D m v0f d Φ).trans hlift

end Region

variable (m : (ℓ : Loc nD τ sig) → Buf (Elt F) ℓ) (ρ : Dev nD → PrngReg)
variable (RowOK : (d : Dev nD) → grid0.Coords → Buf (Elt F) (oLoc d) → Prop)

/-! ## The results, as the reshapes write them -/

/-- The table the program returns, from the 32 rows of sums `v0`: the rows, regrouped as 32 × 32 × 128, added up and
    added to the table given, regrouped as 32 × 128; the sum regrouped as 64 × 64. -/
def res5 (d : Dev nD) (v0 : Buf (Elt F) (oLoc d)) : Buf (Elt F) (v5Loc d) :=
  shapeCast S64x64 (k1_pay1 (F := F) (shapeCast S32x128 (m (a2Loc d)) shapeCasts_S64x64_S32x128) (shapeCast S32x32x128 v0 shapeCasts_S32x4096_S32x32x128))
    shapeCasts_S32x128_S64x64
/-- The total the program returns: the total given plus 4.0e6. -/
def res6 (d : Dev nD) : Buf (Elt F) (v6Loc d) :=
  shapeCast S_ (fun _ : S1.Idx => k1_pay2 (F := F) (shapeCast S1 (m (a3Loc d)) shapeCasts_S_S1 (ValueIdx.ix1 0))) shapeCasts_S1_S_

/-! ## What @main starts from and ends with -/

/-- The launch deals each TensorCore the staging cells' ghost state and the duty tokens of the pipeline's transfers. -/
def G (d : Dev nD) : sProp 𝕄 :=
  iprop((bigSep Finset.univ fun p : Fin 1 => Pipeline.cellsGhost (cfgs) (EP (F := F)) p d)
    ∗ bigSep Finset.univ fun p : Fin 1 => Pipeline.toksInit (cfgs) (EP (F := F)) p d)

/-- What @main leaves the claim: the arguments as they were, the results at the values named, for rows of sums of which
    `RowOK` holds. -/
def FIN (d : Dev nD) : sProp 𝕄 :=
  iprop(∃ v0 : Buf (Elt F) (oLoc d), ⌜∀ L : grid0.Coords, RowOK d L v0⌝
    ∗ (v5Loc d ↦{fullShare} res5 m d v0) ∗ (v6Loc d ↦{fullShare} res6 m d)
    ∗ (pLoc d ↦{fullShare} m (pLoc d)) ∗ (cLoc d ↦{fullShare} m (cLoc d))
    ∗ (a2Loc d ↦{fullShare} m (a2Loc d)) ∗ (a3Loc d ↦{fullShare} m (a3Loc d)))

def fq (d : Dev nD) (s' : Phys nD τ sig (Elt F)) : Prop :=
  ∃ v0 : Buf (Elt F) (oLoc d), (∀ L : grid0.Coords, RowOK d L v0)
    ∧ s'.mem.mem (v5Loc d) = res5 m d v0 ∧ s'.mem.mem (v6Loc d) = res6 m d
    ∧ s'.mem.mem (pLoc d) = m (pLoc d) ∧ s'.mem.mem (cLoc d) = m (cLoc d)
    ∧ s'.mem.mem (a2Loc d) = m (a2Loc d) ∧ s'.mem.mem (a3Loc d) = m (a3Loc d)

def QC : PUnit × MemSt nD τ sig (Elt F) → Prop := fun r => ∀ c : Dev nD,
  ∃ v0 : Buf (Elt F) (oLoc c), (∀ L : grid0.Coords, RowOK c L v0)
    ∧ r.2.mem (v5Loc c) = res5 m c v0 ∧ r.2.mem (v6Loc c) = res6 m c
    ∧ r.2.mem (pLoc c) = m (pLoc c) ∧ r.2.mem (cLoc c) = m (cLoc c)
    ∧ r.2.mem (a2Loc c) = m (a2Loc c) ∧ r.2.mem (a3Loc c) = m (a3Loc c)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m RowOK).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

omit [FloatOps F] in
/-- After the one SparseCore call the TensorCore owes nothing: its `owes`, taken out of its handshake state and put back. -/
theorem tcSt_open (d : Dev nD) :
    ((K (F := F)).tcSt EH d ((0 : Fin 1).val + 1) : sProp 𝕄) ⊢ iprop(owesT (F := F) d ∗ (owesT (F := F) d -∗ (K (F := F)).tcSt EH d 1)) := by
  show ((K (F := F)).tcSt EH d 1 : sProp 𝕄) ⊢ _
  unfold SparseCore.Cfg.tcSt owesT
  rw [(K (F := F)).Otc_end d le_rfl]
  iintro ⟨HO, Hrest⟩
  isplitl [HO]; · iexact HO
  iintro HO
  isplitl [HO]; · iexact HO
  iexact Hrest

theorem G_eq (d : Dev nD) : (G (F := F) d : sProp 𝕄) = iprop(Pipeline.cellsGhost cfgs (EP (F := F)) 0 d ∗ Pipeline.toksInit cfgs (EP (F := F)) 0 d) := by
  unfold G; rw [bigSep_univ_of_subsingleton (0 : Fin 1), bigSep_univ_of_subsingleton (0 : Fin 1)]

theorem hmain [∀ e, Nonempty (Elt F e)] (hRow : ∀ (d : Dev nD) (L : grid0.Coords) (f g : Buf (Elt F) (oLoc d)), (∀ i ∈ (oRowK L).view.set, g i = f i) → RowOK d L f → RowOK d L g)
    (κ : GSem nD τ sig → ℕ) (d : Dev nD) :
    iprop((K (F := F)).ctx EH (P m RowOK) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m RowOK d) := by
  unfold SparseCore.Cfg.tcRes
  rw [unscopedBufs_eq]
  simp only [main, wp_bind, wp_pure]
  iintro ⟨#Hctx, Hst, ⟨Hb, ⟨Hp, Hc, H2, H3, Ho, Hv1, Hv2, Hv3, Hv40, Hv41, Hv5, Hv6⟩, -, -⟩, HG⟩
  ihave Hs := (st0_intro m RowOK d) $$ [Hp Hc Ho]
  · isplitl [Hp]; · iexact Hp
    isplitl [Hc]; · iexact Hc
    iexact Ho
  icases Hs with ⟨Hst0, Hpd, Hcd⟩
  iapply ((K (F := F)).wp_run (D (F := F)) 𝒱 (EH := EH) (P := P m RowOK) κ d 0)
  isplitr; · iexact Hctx
  isplitl [Hst]; · iexact Hst
  isplitl [Hst0]; · iexact Hst0
  iintro ⟨Hst, Hdn⟩
  ihave Hd := (dn0_elim m RowOK hRow d) $$ [Hdn Hpd Hcd]
  · isplitl [Hdn]; · iexact Hdn
    isplitl [Hpd]; · iexact Hpd
    iexact Hcd
  icases Hd with ⟨Hp, Hc, %v0, %hv0, Ho⟩
  obtain ⟨v0f, hv⟩ : ∃ v0f : (c : Dev nD) → Buf (Elt F) (oLoc c), v0f d = v0 :=
    ⟨Function.update (fun c => m (oLoc c)) d v0, Function.update_self _ _ _⟩
  subst hv
  -- the three reshapes before the kernel
  iapply (wp_reshape_step m d main_v0 main_v1 rfl shapeCasts_S32x4096_S32x32x128 _ _ (by decide) (v0f d) _)
  isplitl [Hb]; · iexact Hb
  isplitl [Ho]; · iexact Ho
  isplitl [Hv1]; · iexists _; iexact Hv1
  iintro ⟨Hb, Ho, Hv1⟩
  iapply (wp_reshape_step m d main_arg2 main_v2 rfl shapeCasts_S64x64_S32x128 _ _ (by decide) (m (a2Loc d)) _)
  isplitl [Hb]; · iexact Hb
  isplitl [H2]; · iexact H2
  isplitl [Hv2]; · iexists _; iexact Hv2
  iintro ⟨Hb, H2, Hv2⟩
  iapply (wp_reshape_step m d main_arg3 main_v3 rfl shapeCasts_S_S1 _ _ (by decide) (m (a3Loc d)) _)
  isplitl [Hb]; · iexact Hb
  isplitl [H3]; · iexact H3
  isplitl [Hv3]; · iexists _; iexact Hv3
  iintro ⟨Hb, H3, Hv3⟩
  -- the kernel
  ihave Hst2 := (tcSt_open (F := F) d) $$ Hst
  icases Hst2 with ⟨HO, Hclose⟩
  ihave HG2 := (Entails.of_eq (G_eq (F := F) d)) $$ HG
  icases HG2 with ⟨Hg, Ht⟩
  iapply (tc_call m v0f d _)
  isplitr; · iapply ((K (F := F)).ctx_levAts κ); iexact Hctx
  isplitl [Hb]; · iexact Hb
  isplitl [Hv1 Hv2 Hv3 Hv40 Hv41 HO]
  · unfold preT
    isplitl [Hv1]; · iexact Hv1
    isplitl [Hv2]; · iexact Hv2
    isplitl [Hv3]; · iexact Hv3
    isplitl [Hv40]; · iexact Hv40
    isplitl [Hv41]; · iexact Hv41
    iexact HO
  isplitl [Hg]; · iexact Hg
  isplitl [Ht]; · iexact Ht
  iintro ⟨Hb, Hpost⟩
  ihave Hpost2 := (Entails.of_eq (postT_eq m v0f d)) $$ Hpost
  icases Hpost2 with ⟨Hv1, Hv2, Hv3, Hv40, Hv41, HO⟩
  -- the two reshapes after it
  iapply (wp_reshape_step m d main_v4_0 main_v5 rfl shapeCasts_S32x128_S64x64 _ _ (by decide) (y0 m v0f d) _)
  isplitl [Hb]; · iexact Hb
  isplitl [Hv40]; · iexact Hv40
  isplitl [Hv5]; · iexists _; iexact Hv5
  iintro ⟨Hb, Hv40, Hv5⟩
  iapply (wp_reshape_step m d main_v4_1 main_v6 rfl shapeCasts_S1_S_ _ _ (by decide) (y1 m d) _)
  isplitl [Hb]; · iexact Hb
  isplitl [Hv41]; · iexact Hv41
  isplitl [Hv6]; · iexists _; iexact Hv6
  iintro ⟨Hb, Hv41, Hv6⟩
  imodintro
  isplitl [HO Hclose]
  · iapply Hclose; iexact HO
  unfold FIN
  iexists (v0f d)
  isplitr; · ipureintro; exact hv0
  isplitl [Hv5]; · iexact Hv5
  isplitl [Hv6]; · iexact Hv6
  isplitl [Hp]; · iexact Hp
  isplitl [Hc]; · iexact Hc
  isplitl [H2]; · iexact H2
  iexact H3

theorem hfin (d : Dev nD) (s' : Phys nD τ sig (Elt F)) : iprop(FIN m RowOK d ∗ SI s') ⊢ (⌜fq m RowOK d s'⌝ : sProp 𝕄) := by
  unfold FIN
  iintro ⟨⟨%v0, %hv, H5, H6, Hp, Hc, H2, H3⟩, HSI⟩
  ihave H := (persistent_entails_right (SI_pointsTo_agree (st := s') (ℓ := v5Loc d) (I := Finset.univ) (q := fullShare) (f := res5 m d v0))) $$ [HSI H5]
  · isplitl [HSI] <;> iassumption
  icases H with ⟨%h5, HSI, -⟩
  ihave H := (persistent_entails_right (SI_pointsTo_agree (st := s') (ℓ := v6Loc d) (I := Finset.univ) (q := fullShare) (f := res6 m d))) $$ [HSI H6]
  · isplitl [HSI] <;> iassumption
  icases H with ⟨%h6, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨v0, hv, funext fun i => h5 i (Finset.mem_univ i), funext fun i => h6 i (Finset.mem_univ i), funext fun i => hp i (Finset.mem_univ i),
    funext fun i => hc i (Finset.mem_univ i), funext fun i => h2 i (Finset.mem_univ i), funext fun i => h3 i (Finset.mem_univ i)⟩

/-! ## The program's run -/

theorem run_main [∀ e, Nonempty (Elt F e)]
    (hRow : ∀ (d : Dev nD) (L : grid0.Coords) (f g : Buf (Elt F) (oLoc d)), (∀ i ∈ (oRowK L).view.set, g i = f i) → RowOK d L f → RowOK d L g)
    (htile : (K (F := F)).TileObl (D (F := F)) 𝒱 (P m RowOK) v₀ 0) :
    θ_run (Cert.KernelIdeal.defs (F := F)) (Cert.KernelIdeal.threads (F := F)) ⟨m, fun _ => 0, ρ⟩ (QC m RowOK) :=
  SparseCore.Cfg.θ_run_sc (K := K (F := F)) (D := D (F := F)) (𝒱 := 𝒱) (EH := EH) (P := P m RowOK) facts v₀
    (fun q hq => match q with | 0 => nomatch hq)
    (fun q _ => match q with | 0 => htile)
    (fun q _ => match q with | 0 => SparseCore.Cfg.VecSplit.of_plain (vecSplit m RowOK))
    m ρ main (G (F := F)) (FIN m RowOK) (u₀ (F := F)) (sep_elim_left.trans (hu₀ m RowOK)) (hmain m ρ RowOK hRow) (fq m RowOK) (hfin m RowOK) (QC m RowOK) (fun _ h => h)

end Cert.Proof.HistIdeal

end
-- ==== Proof.HistBSetup.lean ====
/-
  The kernel's program as the SparseCore launch theorem sees it, and the names the tile's proof is written over.

  The program has one SparseCore call: on each of the two SparseCores every one of the sixteen vector subcores runs the
  histogram body once.  Worker `w = 2 · s + c` (subcore `s` of SparseCore `c`) counts the transitions of entries
  `[124992 · w, 124992 · (w + 1))`, the last worker also those of the 256 entries that remain, into a table of sixteen
  lane copies of the 64 × 64 cells, adds the copies up and writes the 4096 sums to row `w` of a 32 × 4096 array.  The
  TensorCore then adds the 32 rows to the table it was given.

  A tile only ever waits for copies it issued itself, each on a semaphore of its own, one copy in flight per semaphore:
  no thread signals another, so the kernel needs no schedule of its own beyond the launch's handshakes; the ghost state is
  the handshakes' rounds beside the counters of the local transfers.
-/
import proofs.«201955_g20547123544587_cont_8to1_184_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«201955_g20547123544587_cont_8to1_184_16_alg».proof.Proof.Gen.Kernel
import proofs.«201955_g20547123544587_cont_8to1_184_16_alg».proof.Proof.Gen.Kernel.Skeleton

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore call's staging rounds, the local transfers' counters -/

abbrev UH : Type := URounds (GSem nD τ sig) ℕ
/-- The rounds of the TensorCore call's staging cells. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays and a tile's scratch -/

variable (m : (ℓ : Loc nD τ sig) → Buf (Elt F) ℓ) (ρ : Dev nD → PrngReg)

/-- The two index arrays (the arguments) and the 32 × 4096 array of the workers' sums, as locations of device `d`. -/
abbrev pLoc (d : Dev nD) : Loc nD τ sig := (SparseCore.T d).loc main_arg0
abbrev cLoc (d : Dev nD) : Loc nD τ sig := (SparseCore.T d).loc main_arg1
abbrev oLoc (d : Dev nD) : Loc nD τ sig := (SparseCore.T d).loc main_v0

abbrev pV : Memref sig .scVector .hbm S4000000 .i32 := Memref.whole main_arg0_scv
abbrev cV' : Memref sig .scVector .hbm S4000000 .i32 := Memref.whole main_arg1_scv
abbrev oV : Memref sig .scVector .hbm S32x4096 .f32 := Memref.whole main_v0_scv
/-- A tile's scratch: the sixteen lane copies of the table, the two pairs of chunk buffers, the pair for the last 256
    entries, and the 4096 sums. -/
abbrev sH : Memref sig .scVector .vmem S65536 .f32 := Memref.whole cc0_scratch0
abbrev sP0 : Memref sig .scVector .vmem S10416 .i32 := Memref.whole cc0_scratch1
abbrev sC0 : Memref sig .scVector .vmem S10416 .i32 := Memref.whole cc0_scratch2
abbrev sP1 : Memref sig .scVector .vmem S10416 .i32 := Memref.whole cc0_scratch3
abbrev sC1 : Memref sig .scVector .vmem S10416 .i32 := Memref.whole cc0_scratch4
abbrev sPT : Memref sig .scVector .vmem S256 .i32 := Memref.whole cc0_scratch5
abbrev sCT : Memref sig .scVector .vmem S256 .i32 := Memref.whole cc0_scratch6
abbrev sO : Memref sig .scVector .vmem S4096 .f32 := Memref.whole cc0_scratch7

section Tile

variable (d : Dev nD) (L : grid0.Coords)

/-- The tile at grid coordinates `L`: SparseCore `L 0`, vector subcore `L 1`. -/
abbrev cT (L : grid0.Coords) : Fin τ.nSC := (L 0).castLE hcore0
abbrev jT (L : grid0.Coords) : Fin τ.nSub := (L 1).castLE hsub0

/-- The tile's worker number `2 · s + c`: the row of the sums' array it writes, and (times 124992) where its entries start. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

end Tile

end Cert.Proof.HistBits

end
-- ==== Proof.HistBTile.lean ====
/-
  One tile's task: what it owns, what it is handed, and what it hands back.

  A tile owns eight scratch buffers (the sixteen lane copies of the table, two pairs of chunk buffers, the pair of
  buffers for the last 256 entries, the 4096 sums) and seven transfer semaphores (one per chunk buffer, two for the last
  entries' copies, one for the copy of the sums to the output row), each of which it finds at zero.
-/
import proofs.«201955_g20547123544587_cont_8to1_184_16_alg».proof.Proof.HistBSetup

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's seven semaphores and eight buffers, by number -/

/-- The tile's transfer semaphores, in the order the body names them: the four chunk buffers', the two of the last
    entries' copies, the output copy's. -/
def dsem : Fin 7 → DmaSem sig
  | 0 => cc0_scratch8.sem | 1 => cc0_scratch9.sem | 2 => cc0_scratch10.sem | 3 => cc0_scratch11.sem
  | 4 => cc0_scoped0.sem | 5 => cc0_scoped1.sem | 6 => cc0_scoped2.sem

theorem dsem_injective : Function.Injective dsem := by decide
theorem dsem_scoped : ∀ k : Fin 7, (SemLoc.dma (dsem k) : SemLoc sig).isScoped .scVector = true := by decide

/-- The tile's scratch buffers, in the order the body names them. -/
def dbuf : Fin 8 → Ref sig .scVector
  | 0 => cc0_scratch0 | 1 => cc0_scratch1 | 2 => cc0_scratch2 | 3 => cc0_scratch3
  | 4 => cc0_scratch4 | 5 => cc0_scratch5 | 6 => cc0_scratch6 | 7 => cc0_scratch7

theorem dbuf_injective : Function.Injective dbuf := by decide

section Tile

variable (d : Dev nD) (L : grid0.Coords)

/-- Semaphore `k` of the tile at `L`, as a cell of the machine. -/
abbrev cell (k : Fin 7) : GSem nD τ sig := (V d (cT L) (jT L), .dma (dsem k))

theorem cell_injective : Function.Injective (cell d L) := fun a b e =>
  dsem_injective (SemLoc.dma.inj (Prod.mk.inj e).2)

/-- The seven cells are among the tile's own. -/
theorem cells_sub : (Finset.univ.image (cell d L)) ⊆ ownCells (V d (cT L) (jT L)) := by
  intro g hg
  obtain ⟨k, -, rfl⟩ := Finset.mem_image.mp hg
  exact mem_ownCells.mpr ⟨rfl, dsem_scoped k⟩

theorem bigSep_fin7 (Ψ : Fin 7 → sProp 𝕄) :
    bigSep (Finset.univ : Finset (Fin 7)) Ψ = iprop(Ψ 0 ∗ Ψ 1 ∗ Ψ 2 ∗ Ψ 3 ∗ Ψ 4 ∗ Ψ 5 ∗ Ψ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bigSep_fin8 (Ψ : Fin 8 → sProp 𝕄) :
    bigSep (Finset.univ : Finset (Fin 8)) Ψ = iprop(Ψ 0 ∗ Ψ 1 ∗ Ψ 2 ∗ Ψ 3 ∗ Ψ 4 ∗ Ψ 5 ∗ Ψ 6 ∗ Ψ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The tile's semaphores at zero: its seven transfer semaphores, each at zero, and the rest. -/
theorem ownSems0_V :
    (ownSems0 (V d (cT L) (jT L)) : sProp 𝕄)
      = iprop((semVal (cell d L 0) 0 ∗ semVal (cell d L 1) 0 ∗ semVal (cell d L 2) 0 ∗ semVal (cell d L 3) 0
            ∗ semVal (cell d L 4) 0 ∗ semVal (cell d L 5) 0 ∗ semVal (cell d L 6) 0)
          ∗ bigSep (ownCells (V d (cT L) (jT L)) \ Finset.univ.image (cell d L)) fun g => semVal g 0) := by
  unfold SparseCore.Cfg.ownSems0
  rw [SparseCore.bigSep_sdiff_split' (cells_sub d L),
    SparseCore.bigSep_image_of_injOn (fun a _ b _ e => cell_injective d L e), bigSep_fin7]

/-- The same, each semaphore under the name the body gives it. -/
theorem ownSems0_V' :
    (ownSems0 (V d (cT L) (jT L)) : sProp 𝕄)
      = iprop((semVal ((V d (cT L) (jT L)), SemLoc.dma cc0_scratch8.sem) 0 ∗ semVal ((V d (cT L) (jT L)), SemLoc.dma cc0_scratch9.sem) 0
            ∗ semVal ((V d (cT L) (jT L)), SemLoc.dma cc0_scratch10.sem) 0 ∗ semVal ((V d (cT L) (jT L)), SemLoc.dma cc0_scratch11.sem) 0
            ∗ semVal ((V d (cT L) (jT L)), SemLoc.dma cc0_scoped0.sem) 0 ∗ semVal ((V d (cT L) (jT L)), SemLoc.dma cc0_scoped1.sem) 0
            ∗ semVal ((V d (cT L) (jT L)), SemLoc.dma cc0_scoped2.sem) 0)
          ∗ bigSep (ownCells (V d (cT L) (jT L)) \ Finset.univ.image (cell d L)) fun g => semVal g 0) :=
  ownSems0_V d L

/-- Buffer `k` of the tile at `L`, as a buffer of the device. -/
abbrev bref (k : Fin 8) : DevRef τ sig := (Proc.scVector (cT L) (jT L)).devRef (dbuf k)

theorem bref_injective : Function.Injective (bref L) := fun a b e =>
  dbuf_injective (Proc.devRef_injective _ e)

theorem brefs_sub : (Finset.univ.image (bref L)) ⊆ ownRefs (τ := τ) (sig := sig) (.scVector (cT L) (jT L)) := by
  intro b hb
  obtain ⟨k, -, rfl⟩ := Finset.mem_image.mp hb
  refine SparseCore.Cfg.mem_ownRefs_of_owner ?_
  fin_cases k <;> rfl

/-- The tile's buffers: its eight scratch buffers, each whole at some contents, and the rest. -/
theorem ownBufs_V :
    (ownBufs (V d (cT L) (jT L)) : sProp 𝕄)
      = iprop(((∃ f, (V d (cT L) (jT L)).loc cc0_scratch0 ↦{fullShare} f) ∗ (∃ f, (V d (cT L) (jT L)).loc cc0_scratch1 ↦{fullShare} f)
            ∗ (∃ f, (V d (cT L) (jT L)).loc cc0_scratch2 ↦{fullShare} f) ∗ (∃ f, (V d (cT L) (jT L)).loc cc0_scratch3 ↦{fullShare} f)
            ∗ (∃ f, (V d (cT L) (jT L)).loc cc0_scratch4 ↦{fullShare} f) ∗ (∃ f, (V d (cT L) (jT L)).loc cc0_scratch5 ↦{fullShare} f)
            ∗ (∃ f, (V d (cT L) (jT L)).loc cc0_scratch6 ↦{fullShare} f) ∗ (∃ f, (V d (cT L) (jT L)).loc cc0_scratch7 ↦{fullShare} f))
          ∗ bigSep (ownRefs (τ := τ) (.scVector (cT L) (jT L)) \ Finset.univ.image (bref L))
              fun b => iprop(∃ f, ((d, b) : Loc nD τ sig) ↦{fullShare} f)) := by
  unfold SparseCore.Cfg.ownBufs
  rw [SparseCore.bigSep_sdiff_split' (brefs_sub L),
    SparseCore.bigSep_image_of_injOn (fun a _ b _ e => bref_injective L e), bigSep_fin8]
  rfl

/-- The same, each buffer through the memref the body addresses it by. -/
theorem ownBufs_V' :
    (ownBufs (V d (cT L) (jT L)) : sProp 𝕄)
      = iprop(((∃ f, (sH : Memref sig .scVector .vmem S65536 .f32).view.loc (V d (cT L) (jT L)) ↦{fullShare} f)
            ∗ (∃ f, (sP0 : Memref sig .scVector .vmem S10416 .i32).view.loc (V d (cT L) (jT L)) ↦{fullShare} f)
            ∗ (∃ f, (sC0 : Memref sig .scVector .vmem S10416 .i32).view.loc (V d (cT L) (jT L)) ↦{fullShare} f)
            ∗ (∃ f, (sP1 : Memref sig .scVector .vmem S10416 .i32).view.loc (V d (cT L) (jT L)) ↦{fullShare} f)
            ∗ (∃ f, (sC1 : Memref sig .scVector .vmem S10416 .i32).view.loc (V d (cT L) (jT L)) ↦{fullShare} f)
            ∗ (∃ f, (sPT : Memref sig .scVector .vmem S256 .i32).view.loc (V d (cT L) (jT L)) ↦{fullShare} f)
            ∗ (∃ f, (sCT : Memref sig .scVector .vmem S256 .i32).view.loc (V d (cT L) (jT L)) ↦{fullShare} f)
            ∗ (∃ f, (sO : Memref sig .scVector .vmem S4096 .f32).view.loc (V d (cT L) (jT L)) ↦{fullShare} f))
          ∗ bigSep (ownRefs (τ := τ) (.scVector (cT L) (jT L)) \ Finset.univ.image (bref L))
              fun b => iprop(∃ f, ((d, b) : Loc nD τ sig) ↦{fullShare} f)) :=
  ownBufs_V d L

end Tile

end Cert.Proof.HistBits

end
-- ==== Proof.HistBTab.lean ====
/-
  The table of lane copies, step by step.

  The body forms, for sixteen transitions `(p, c)` at a time (one per lane), the sixteen cells `64 · p + c + 4096 · lane`
  (`addr p c`: lane `r`'s cell lies in lane copy `r` of the 4096 cells, so the sixteen are pairwise distinct) and adds one
  unit to each (`stepTab`).  A buffer of `N` tile numbers is consumed sixteen at a time, in order (`vecAt g n` is entries
  `[16 · n, 16 · n + 16)`), a pair of buffers `(g₀, g₁)` side by side: `tabN g₀ g₁ f n` is the table `f` after the first `n`
  vectors of the pair.  A chunk is 651 vectors (10416 entries), the last entries' pair 16 vectors (256 entries).
  All of it at any float instance: nothing here adds floats, it only says in which order the body does.
-/
import proofs.«201955_g20547123544587_cont_8to1_184_16_alg».proof.Proof.HistBSetup
import Idealize.ShloMosaic.Lib.ValueIdx

noncomputable section

namespace Cert.Proof.HistBits

open Cert.Kernel Cert.Kernel.Gen
open Idealize.ShloMosaic

variable {F : FTy → Type} [FloatOps F]

/-- The cells sixteen transitions hit, lane by lane: `64 · p + c + 4096 · lane`. -/
def addr (p c : IVec S16 32) : IVec S16 32 := addi (addi (muli p (broadcast S16 64#32)) c) k0_pay53

/-- Every one of the sixteen cells lies inside the 65536 cells of the lane copies. -/
def InB (a : IVec S16 32) : Prop :=
  ∀ (x : Fin 1) (y : S16.Idx), ((![a] : Fin 1 → IVec S16 32) x y).toNat < S65536.size x

open Classical in
/-- One step: one unit added at each of the sixteen cells of `(p, c)` (nothing, were a cell outside the table: it never is). -/
def stepTab (f : Vec F S65536 .f32) (p c : IVec S16 32) : Vec F S65536 .f32 :=
  if h : InB (addr p c) then storeIdx f ![addr p c] (k0_pay54 (F := F)) (fun _ => 1#1) true h else f

/-- Entries `[16 · n, 16 · n + 16)` of a buffer of `N` tile numbers, as a vector of sixteen. -/
def vecAt {N : ℕ} (hN : 0 < N) (g : IVec ⟨1, ![N]⟩ 32) (n : ℕ) : IVec S16 32 :=
  fun y => g (ValueIdx.ix1 ⟨(16 * n + (y 0).val) % N, Nat.mod_lt _ hN⟩)

/-- The table after the first `n` vectors of the pair of buffers `(g₀, g₁)`. -/
def tabN {N : ℕ} (hN : 0 < N) (g₀ g₁ : IVec ⟨1, ![N]⟩ 32) (f : Vec F S65536 .f32) : ℕ → Vec F S65536 .f32
  | 0 => f
  | n + 1 => stepTab (tabN hN g₀ g₁ f n) (vecAt hN g₀ n) (vecAt hN g₁ n)

/-- The table after a whole chunk (651 vectors of sixteen entries). -/
abbrev chunkTab (g₀ g₁ : IVec S10416 32) (f : Vec F S65536 .f32) : Vec F S65536 .f32 :=
  tabN (N := 10416) (by decide) g₀ g₁ f 651

/-- The table after the last 256 entries (16 vectors). -/
abbrev tailTab (g₀ g₁ : IVec S256 32) (f : Vec F S65536 .f32) : Vec F S65536 .f32 :=
  tabN (N := 256) (by decide) g₀ g₁ f 16

/-! ## A worker's whole run -/

/-- The cleared table: every cell the float zero. -/
def zeroTab : Vec F S65536 .f32 := fun _ => Scalar.ofBits .f32 0x00000000#32

/-- Chunk `i` (of twelve) of worker `w`'s part of an index array: entries `[124992 · w + 10416 · i, … + 10416)`. -/
def chunkOf (A : IVec S4000000 32) (w i : ℕ) : IVec S10416 32 :=
  fun j => A (ValueIdx.ix1 ⟨(124992 * w + 10416 * i + (j 0).val) % 4000000, Nat.mod_lt _ (by decide)⟩)

/-- The last 256 entries of an index array. -/
def tailOf (A : IVec S4000000 32) : IVec S256 32 :=
  fun j => A (ValueIdx.ix1 ⟨(3999744 + (j 0).val) % 4000000, Nat.mod_lt _ (by decide)⟩)

/-- Worker `w`'s table after its first `n` chunks, from the cleared table. -/
def chunksTab (A B : IVec S4000000 32) (w : ℕ) : ℕ → Vec F S65536 .f32
  | 0 => zeroTab
  | n + 1 => chunkTab (chunkOf A w n) (chunkOf B w n) (chunksTab A B w n)

/-- Worker `w`'s table when it is done counting: twelve chunks, and for the last worker the last 256 entries. -/
def finalTab (A B : IVec S4000000 32) (w : ℕ) : Vec F S65536 .f32 :=
  if w = 31 then tailTab (tailOf A) (tailOf B) (chunksTab (F := F) A B w 12) else chunksTab A B w 12

/-- Cells `[16 · t, 16 · t + 16)` of lane copy `r` of a table. -/
def laneVec (f : Vec F S65536 .f32) (r t : ℕ) : Vec F S16 .f32 :=
  fun y => f (ValueIdx.ix1 ⟨(4096 * r + 16 * t + (y 0).val) % 65536, Nat.mod_lt _ (by decide)⟩)

/-- The sixteen lane copies of cells `[16 · t, 16 · t + 16)` added up, pairwise as the body adds them. -/
def sumVec (f : Vec F S65536 .f32) (t : ℕ) : FVec F S16 .f32 :=
  k0_pay64 (laneVec f 0 t) (laneVec f 1 t) (laneVec f 2 t) (laneVec f 3 t) (laneVec f 4 t) (laneVec f 5 t) (laneVec f 6 t) (laneVec f 7 t) (laneVec f 8 t) (laneVec f 9 t) (laneVec f 10 t) (laneVec f 11 t) (laneVec f 12 t) (laneVec f 13 t) (laneVec f 14 t) (laneVec f 15 t)

/-- The 4096 sums of a table's sixteen lane copies. -/
def rowOfTab (f : Vec F S65536 .f32) : Vec F S4096 .f32 :=
  fun b => sumVec f ((b 0).val / 16) (ValueIdx.ix1 ⟨(b 0).val % 16, Nat.mod_lt _ (by decide)⟩)

/-- Every word of a buffer is a tile number. -/
def Tiles {s : Shape} (g : IVec s 32) : Prop := ∀ j, (g j).toNat < 64

end Cert.Proof.HistBits

end
-- ==== Proof.HistBPay.lean ====
/-
  What the SparseCore call hands each SparseCore and each tile, and what comes back.

  Each of the 32 tiles is handed two read shares of each index array (one per chunk-buffer pair: two of its copies read an
  array at a time; the 64 shares of an array are the 64 read tokens the array's full ownership splits into) and row `w` of
  the sums' array; it hands the same back, the row at contents `f` of which `RowOK` holds (what the worker's sums are:
  nothing for a frame, the worker's counts for the value).  A SparseCore is handed its sixteen tiles' shares together,
  so dealing them to the tiles and collecting them is the identity.
-/
import proofs.«201955_g20547123544587_cont_8to1_184_16_alg».proof.Proof.HistBTile
import proofs.«201955_g20547123544587_cont_8to1_184_16_alg».proof.Proof.HistBTab

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
-- what a tile's row of sums holds when the tile is done
variable (RowOK : (d : Dev nD) → grid0.Coords → Buf (Elt F) (oLoc d) → Prop)

section Tile

variable (d : Dev nD) (L : grid0.Coords)

/-- Read share number `2 · w + slot` of the 64 an index array is cut into: worker `w`'s, for its chunk-buffer pair `slot`. -/
def tokIx (slot : Fin 2) : Fin 64 := ⟨2 * wid L + slot.val, by have := wid_lt L; have := slot.isLt; omega⟩

/-- The tile's read share of the first index array for buffer pair `slot`, and of the second. -/
abbrev pTok (slot : Fin 2) : sProp 𝕄 :=
  (pV : Memref sig .scVector .hbm S4000000 .i32).view.loc (V d (cT L) (jT L)) ↦{Transfers.shareTok fullShare 64 (tokIx L slot)} m (pLoc d)
abbrev cTok (slot : Fin 2) : sProp 𝕄 :=
  (cV' : Memref sig .scVector .hbm S4000000 .i32).view.loc (V d (cT L) (jT L)) ↦{Transfers.shareTok fullShare 64 (tokIx L slot)} m (cLoc d)

/-- Row `w` of the sums' array, as the body addresses it when it copies its 4096 sums out. -/
abbrev oRowK : Memref sig .scVector .hbm S4096 .f32 :=
  ((oV : Memref sig .scVector .hbm S32x4096 .f32).slice (Rect.unit (s := S32x4096) (k0_off9 L) S1x4096.size (k0_off9_inb L)) (fun _ => rfl)).squeeze S4096 squeezes_S1x4096_S4096

abbrev oRowPts (f : Buf (Elt F) (oLoc d)) : sProp 𝕄 :=
  (oRowK L).view.loc (V d (cT L) (jT L)) ↦[(oRowK L).view.set]{fullShare} f

variable [FloatOps F] in
/-- Row `w` of the sums' array reads as the sums of worker `w`'s final table. -/
def RowHolds (f : Buf (Elt F) (oLoc d)) : Prop :=
  (oRowK L).view.read (Elt F) f = rowOfTab (finalTab (F := F) (m (pLoc d)) (m (cLoc d)) (wid L))

/-- What the tile at `L` is handed, and what it hands back. -/
def goRes : sProp 𝕄 :=
  iprop(pTok m d L 0 ∗ pTok m d L 1 ∗ cTok m d L 0 ∗ cTok m d L 1 ∗ oRowPts d L (m (oLoc d)))
def tdRes : sProp 𝕄 :=
  iprop(pTok m d L 0 ∗ pTok m d L 1 ∗ cTok m d L 0 ∗ cTok m d L 1 ∗ ∃ f, oRowPts d L f ∗ ⌜RowOK d L f⌝)

end Tile

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The one call's payloads: a SparseCore's is its sixteen tiles' together. -/
def P : (K (F := F)).Pay (nD := nD) (Val := Elt F) (Name := ℕ) (U := UU) where
  st := fun q d c => match q with
    | 0 => bigSep Finset.univ fun i : Fin ((K (F := F)).nSub 0) => goRes m d (coordsV c i)
  dn := fun q d c => match q with
    | 0 => bigSep Finset.univ fun i : Fin ((K (F := F)).nSub 0) => tdRes m RowOK d (coordsV c i)
  go := fun q d c i => match q with | 0 => goRes m d (coordsV c i)
  td := fun q d c i => match q with | 0 => tdRes m RowOK d (coordsV c i)
  x := fun _ _ => iprop(emp)

instance P_storable : (P (F := F) m RowOK).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

/-- Dealing a SparseCore's payload to its tiles, and collecting theirs: the identity. -/
theorem vecSplit : (K (F := F)).VecSplit' (P m RowOK) 0 := by
  intro d c
  show (bigSep Finset.univ fun i : Fin ((K (F := F)).nSub 0) => goRes m d (coordsV c i)) ⊢ |={Set.univ}=> iprop(
      (bigSep Finset.univ fun i : Fin ((K (F := F)).nSub 0) => goRes m d (coordsV c i))
      ∗ ((bigSep Finset.univ fun i : Fin ((K (F := F)).nSub 0) => tdRes m RowOK d (coordsV c i))
          -∗ (bigSep Finset.univ fun i : Fin ((K (F := F)).nSub 0) => tdRes m RowOK d (coordsV c i))))
  iintro H; imodintro
  isplitl [H]; · iexact H
  iintro H; iexact H

end Cert.Proof.HistBits

end
-- ==== Proof.HistBProc.lean ====
/-
  A chunk's two buffers, consumed: the inner loop that walks a pair of chunk buffers sixteen entries at a time.

  A trip loads 21 vectors of sixteen entries from each buffer of the pair, at offsets 336 · b + 16 · r (r < 21), and for
  each r adds one unit at the sixteen cells 64 · p + c + 4096 · lane of the pair (p, c) of vectors.  Every entry is a tile
  number below 64, so the cells lie inside the table with no wrap-around of 32-bit words, and the side condition the
  body assumes before each indexed add holds.  After trip b the table is the one after the first 21 · (b + 1) vectors;
  31 trips consume the 651 vectors of the chunk.
-/
import proofs.«201955_g20547123544587_cont_8to1_184_16_alg».proof.Proof.HistBTab
import proofs.«201955_g20547123544587_cont_8to1_184_16_alg».proof.Proof.HistBTile

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The cells lie inside the table -/

omit [FloatOps F] in
/-- Lane `r`'s offset into the lane copies: `4096 · r`. -/
theorem pay53_toNat (y : S16.Idx) : ((k0_pay53 : IVec S16 32) y).toNat = 4096 * (y 0).val := by
  have hy : (y 0).val < 16 := (y 0).isLt
  show (BitVec.ofNat 32 (0 * 16 + (y 0).val) * 4096#32).toNat = _
  rw [BitVec.toNat_mul, BitVec.toNat_ofNat]
  simp only [zero_mul, zero_add]
  rw [Nat.mod_eq_of_lt (by omega : (y 0).val < 2 ^ 32)]
  show ((y 0).val * 4096) % 2 ^ 32 = _
  rw [Nat.mod_eq_of_lt (by omega)]; omega

omit [FloatOps F] in
/-- The cell of lane `y`: `64 · p + c + 4096 · lane`, with no wrap-around when `p, c < 64`. -/
theorem addr_toNat {p c : IVec S16 32} (hp : ∀ y, (p y).toNat < 64) (hc : ∀ y, (c y).toNat < 64) (y : S16.Idx) :
    (addr p c y).toNat = 64 * (p y).toNat + (c y).toNat + 4096 * (y 0).val := by
  have hy : (y 0).val < 16 := (y 0).isLt
  have h1 := hp y; have h2 := hc y
  show ((p y * 64#32 + c y) + (k0_pay53 : IVec S16 32) y).toNat = _
  rw [BitVec.toNat_add, BitVec.toNat_add, BitVec.toNat_mul, pay53_toNat]
  show (((p y).toNat * 64 % 2 ^ 32 + (c y).toNat) % 2 ^ 32 + 4096 * (y 0).val) % 2 ^ 32 = _
  rw [Nat.mod_eq_of_lt (by omega : (p y).toNat * 64 < 2 ^ 32), Nat.mod_eq_of_lt (by omega : (p y).toNat * 64 + (c y).toNat < 2 ^ 32),
    Nat.mod_eq_of_lt (by omega)]
  omega

omit [FloatOps F] in
/-- Sixteen pairs of tile numbers name sixteen cells of the table. -/
theorem inB_addr {p c : IVec S16 32} (hp : ∀ y, (p y).toNat < 64) (hc : ∀ y, (c y).toNat < 64) : InB (addr p c) := by
  intro x y
  obtain rfl : x = 0 := Subsingleton.elim _ _
  have hy : (y 0).val < 16 := (y 0).isLt
  have h1 := hp y; have h2 := hc y
  show (addr p c y).toNat < 65536
  rw [addr_toNat hp hc]; omega

/-! ## One indexed add -/

omit [FloatOps F] in
/-- The table held through its whole-rectangle access is the table held whole. -/
theorem pts_sH_whole (d : Dev nD) (L : grid0.Coords) (ft : Buf (Elt F) ((V d (cT L) (jT L)).loc cc0_scratch0)) :
    (((sH : Memref sig .scVector .vmem S65536 .f32).access (.whole S65536)).loc (V d (cT L) (jT L))
        ↦[((sH : Memref sig .scVector .vmem S65536 .f32).access (.whole S65536)).set]{fullShare} ft : sProp 𝕄)
      = ((sH : Memref sig .scVector .vmem S65536 .f32).view.loc (V d (cT L) (jT L)) ↦{fullShare} ft) := by
  rw [show ((sH : Memref sig .scVector .vmem S65536 .f32).access (.whole S65536)).set = Finset.univ from
    Memref.set_access_whole (cc0_scratch0 : Ref sig .scVector)] <;> rfl

omit [FloatOps F] in
/-- Through the whole-rectangle access the table reads as it is, and an unmasked write replaces it. -/
theorem sH_write_read (ft w : Vec F S65536 .f32) :
    ((sH : Memref sig .scVector .vmem S65536 .f32).access (.whole S65536)).write (Elt F) ft w Finset.univ = w :=
  Memref.write_access_whole_univ (Elt F) (cc0_scratch0 : Ref sig .scVector) ft w
omit [FloatOps F] in
theorem sH_read (ft : Vec F S65536 .f32) :
    ((sH : Memref sig .scVector .vmem S65536 .f32).access (.whole S65536)).read (Elt F) ft = ft :=
  Memref.read_access_whole (Elt F) (cc0_scratch0 : Ref sig .scVector) ft

/-- One indexed add at the head of a program: the table goes from `ft` to its scatter. -/
theorem scatter_step (d : Dev nD) (L : grid0.Coords) {α : Type} (ft : Vec F S65536 .f32) (a : IVec S16 32)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} ft : sProp 𝕄)
      ⊢ iprop((((sH : Memref sig .scVector .vmem S65536 .f32).view.loc (V d (cT L) (jT L)) ↦{fullShare}
              storeIdx ft ![a] (k0_pay54 (F := F)) (fun _ => 1#1) true h)
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  iintro H Hk
  ihave H' := (Entails.of_eq (pts_sH_whole (F := F) d L _).symm) $$ H
  iapply (SparseCore.wp_vectorStoreIdx 𝒱₀ (V d (cT L) (jT L)) none Set.univ (base := (sH : Memref sig .scVector .vmem S65536 .f32))) $$ H'
  iintro H
  rw [sH_write_read, sH_read]
  ihave H2 := (Entails.of_eq (pts_sH_whole (F := F) d L _)) $$ H
  iapply Hk
  iexact H2

/-- One step of the table is one indexed add at its sixteen cells. -/
theorem stepTab_eq (ft : Vec F S65536 .f32) (p c : IVec S16 32) (h : InB (addr p c)) :
    stepTab ft p c = storeIdx ft ![addr p c] (k0_pay54 (F := F)) (fun _ => 1#1) true h := by
  unfold stepTab
  exact dif_pos h

/-- One indexed add at the cells of a pair `(p, c)`, at the head of a program: the table goes from `ft` to `stepTab ft p c`. -/
theorem scatter_stepTab (d : Dev nD) (L : grid0.Coords) {α : Type} (ft : Vec F S65536 .f32) (p c a : IVec S16 32) (ha : a = addr p c)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} ft : sProp 𝕄)
      ⊢ iprop((((sH : Memref sig .scVector .vmem S65536 .f32).view.loc (V d (cT L) (jT L)) ↦{fullShare} stepTab ft p c)
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  subst ha
  rw [stepTab_eq ft p c h]
  exact scatter_step d L _ _ h hs k Q

/-- The same over the table's steps: vector `n` of a pair of buffers takes the table from `tabN … n` to `tabN … (n + 1)`. -/
theorem scatter_tab (d : Dev nD) (L : grid0.Coords) {α : Type} {N : ℕ} {hN : 0 < N} (g₀ g₁ : IVec ⟨1, ![N]⟩ 32) (f : Vec F S65536 .f32)
    (n n' : ℕ) (hn : n' = n + 1)
    (p c a : IVec S16 32) (hp : p = vecAt hN g₀ n) (hc : c = vecAt hN g₁ n) (ha : a = addr p c)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} tabN hN g₀ g₁ f n : sProp 𝕄)
      ⊢ iprop((((sH : Memref sig .scVector .vmem S65536 .f32).view.loc (V d (cT L) (jT L)) ↦{fullShare} tabN hN g₀ g₁ f n')
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  subst hp; subst hc; subst hn
  exact scatter_stepTab d L (tabN hN g₀ g₁ f n) _ _ a ha h hs k Q

/-! ## What a load reads -/

omit [FloatOps F] in
/-- The sixteen entries a trip's load `r` reads are vector `21 · b + r` of the buffer. -/
theorem unit_idx_vecAt (g : IVec S10416 32) (b r : ℕ) (hb : b < 31) (hr : r < 21) (off : Fin S10416.rank → ℕ)
    (hoff : off = ![336 * b + 16 * r]) (inb : ∀ a, off a + S16.size a ≤ S10416.size a) :
    (fun y : S16.Idx => g ((Rect.unit (s := S10416) off S16.size inb).toLoadRect.idx y))
      = vecAt (N := 10416) (by decide) g (21 * b + r) := by
  subst hoff
  funext y
  unfold vecAt
  congr 1
  funext a
  obtain rfl : a = 0 := Subsingleton.elim _ _
  apply Fin.ext
  have hy : (y 0).val < 16 := (y 0).isLt
  show 336 * b + 16 * r + 1 * (y 0).val = (16 * (21 * b + r) + (y 0).val) % 10416
  rw [Nat.mod_eq_of_lt (by omega)]; omega

omit [FloatOps F] in
theorem load_P0 (g : IVec S10416 32) (k : Fin k0_t3_loop.trips) (r : Fin 21) (c : BitVec 32) (hc : c = BitVec.ofNat 32 (16 * r.val))
    (inb : ∀ a, k0_off3 k c a + S16.size a ≤ S10416.size a) (n : ℕ) (hn : n = 21 * k.val + r.val) :
    (sP0 : Memref sig .scVector .vmem S10416 .i32).view.readAt (Elt F) (Rect.unit (s := S10416) (k0_off3 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off3_eq k r) inb) y

omit [FloatOps F] in
theorem load_C0 (g : IVec S10416 32) (k : Fin k0_t3_loop.trips) (r : Fin 21) (c : BitVec 32) (hc : c = BitVec.ofNat 32 (16 * r.val))
    (inb : ∀ a, k0_off3 k c a + S16.size a ≤ S10416.size a) (n : ℕ) (hn : n = 21 * k.val + r.val) :
    (sC0 : Memref sig .scVector .vmem S10416 .i32).view.readAt (Elt F) (Rect.unit (s := S10416) (k0_off3 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off3_eq k r) inb) y

omit [FloatOps F] in
theorem load_P1 (g : IVec S10416 32) (k : Fin k0_t4_loop.trips) (r : Fin 21) (c : BitVec 32) (hc : c = BitVec.ofNat 32 (16 * r.val))
    (inb : ∀ a, k0_off5 k c a + S16.size a ≤ S10416.size a) (n : ℕ) (hn : n = 21 * k.val + r.val) :
    (sP1 : Memref sig .scVector .vmem S10416 .i32).view.readAt (Elt F) (Rect.unit (s := S10416) (k0_off5 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off5_eq k r) inb) y

omit [FloatOps F] in
theorem load_C1 (g : IVec S10416 32) (k : Fin k0_t4_loop.trips) (r : Fin 21) (c : BitVec 32) (hc : c = BitVec.ofNat 32 (16 * r.val))
    (inb : ∀ a, k0_off5 k c a + S16.size a ≤ S10416.size a) (n : ℕ) (hn : n = 21 * k.val + r.val) :
    (sC1 : Memref sig .scVector .vmem S10416 .i32).view.readAt (Elt F) (Rect.unit (s := S10416) (k0_off5 k c) S16.size inb).toLoadRect g
      = vecAt (N := 10416) (by decide) g n := by
  subst hc; subst hn
  funext y
  rw [View.readAt_apply]
  simp only [Memref.view_whole, View.read_whole]
  exact congrFun (unit_idx_vecAt g k.val r.val k.isLt r.isLt _ (k0_off5_eq k r) inb) y

/-! ## The loop over the first pair of chunk buffers -/

/-- Between trips: the two buffers as they were, the table after the first `21 · b` vectors. -/
def inv_process0 (d : Dev nD) (L : grid0.Coords) (g₀ g₁ : IVec S10416 32) (f : Vec F S65536 .f32) (b : Nat) (_ : PUnit) : sProp 𝕄 :=
  iprop(((sP0 : Memref sig .scVector .vmem S10416 .i32).view.loc (V d (cT L) (jT L)) ↦{fullShare} g₀)
    ∗ ((sC0 : Memref sig .scVector .vmem S10416 .i32).view.loc (V d (cT L) (jT L)) ↦{fullShare} g₁)
    ∗ ((sH : Memref sig .scVector .vmem S65536 .f32).view.loc (V d (cT L) (jT L)) ↦{fullShare} tabN (N := 10416) (by decide) g₀ g₁ f (21 * b)))

/-- The loop over a pair of chunk buffers leaves the buffers as they were and the table after the chunk's 651 vectors. -/
theorem process0 (d : Dev nD) (L : grid0.Coords) (g₀ g₁ : IVec S10416 32) (f : Vec F S65536 .f32) (h₀ : Tiles g₀) (h₁ : Tiles g₁) :
    iprop(((sP0 : Memref sig .scVector .vmem S10416 .i32).view.loc (V d (cT L) (jT L)) ↦{fullShare} g₀)
        ∗ ((sC0 : Memref sig .scVector .vmem S10416 .i32).view.loc (V d (cT L) (jT L)) ↦{fullShare} g₁)
        ∗ ((sH : Memref sig .scVector .vmem S65536 .f32).view.loc (V d (cT L) (jT L)) ↦{fullShare} f))
      ⊢ wp (M := 𝕄) frame (wpE (defs₀ (F := F)) 𝒱₀ (V d (cT L) (jT L)) none) Set.univ
          (Scf.Loop.for k0_t3_loop k0_t3_ok ⟨⟩ (k0_t3_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => iprop((sP0.view.loc (V d (cT L) (jT L)) ↦{fullShare} g₀) ∗ (sC0.view.loc (V d (cT L) (jT L)) ↦{fullShare} g₁)
            ∗ (sH.view.loc (V d (cT L) (jT L)) ↦{fullShare} chunkTab g₀ g₁ f)) := by
  iintro ⟨HP, HC, HH⟩
  sl_for (inv_process0 (F := F) d L g₀ g₁ f) $$ [HP HC HH]
  case region =>
    intro k _
    unfold inv_process0
    iintro ⟨HP, HC, HH⟩
    -- the 42 loads, and the first cell check
    sl_exec (disch := exact inB_addr (fun y => h₀ _) (fun y => h₁ _))
    -- vector 0 of the trip
    have hp0 : process0.sl.r (F := F) g₀ k = vecAt (N := 10416) (by decide) g₀ (21 * k.val) :=
      load_P0 (F := F) g₀ k ⟨0, by decide⟩ _ rfl _ _ rfl
    have hc0 : process0.sl.r_21 (F := F) g₁ k = vecAt (N := 10416) (by decide) g₁ (21 * k.val) :=
      load_C0 (F := F) g₁ k ⟨0, by decide⟩ _ rfl _ _ rfl
    iapply (scatter_tab d L g₀ g₁ f (21 * k.val) (21 * k.val + 1) (by omega) _ _ _ hp0 hc0 rfl _ _ _ _) $$ HH
    iintro HH
    sl_exec (disch := exact inB_addr (fun y => h₀ _) (fun y => h₁ _))
    -- vector 1 of the trip
    have hp1 : process0.sl.r_1 (F := F) g₀ k = vecAt (N := 10416) (by decide) g₀ (21 * k.val + 1) :=
      load_P0 (F := F) g₀ k ⟨1, by decide⟩ _ rfl _ _ rfl
    have hc1 : process0.sl.r_22 (F := F) g₁ k = vecAt (N := 10416) (by decide) g₁ (21 * k.val + 1) :=
      load_C0 (F := F) g₁ k ⟨1, by decide⟩ _ rfl _ _ rfl
    iapply (scatter_tab d L g₀ g₁ f (21 * k.val + 1) (21 * k.val + 2) (by omega) _ _ _ hp1 hc1 rfl _ _ _ _) $$ HH
    iintro HH
    sl_exec (disch := exact inB_addr (fun y => h₀ _) (fun y => h₁ _))
    -- vector 2 of the trip
    have hp2 : process0.sl.r_2 (F := F) g₀ k = vecAt (N := 10416) (by decide) g₀ (21 * k.val + 2) :=
      load_P0 (F := F) g₀ k ⟨2, by decide⟩ _ rfl _ _ rfl
    have hc2 : process0.sl.r_23 (F := F) g₁ k = vecAt (N := 10416) (by decide) g₁ (21 * k.val + 2) :=
      load_C0 (F := F) g₁ k ⟨2, by decide⟩ _ rfl _ _ rfl
    iapply (scatter_tab d L g₀ g₁ f (21 * k.val + 2) (21 * k.val + 3) (by omega) _ _ _ hp2 hc2 rfl _ _ _ _) $$ HH
    iintro HH
    sl_exec (disch := exact inB_addr (fun y => h₀ _) (fun y => h₁ _))
    -- vector 3 of the trip
    have hp3 : process0.sl.r_3 (F := F) g₀ k = vecAt (N := 10416) (by decide) g₀ (21 * k.val + 3) :=
      load_P0 (F := F) g₀ k ⟨3, by decide⟩ _ rfl _ _ rfl
    have hc3 : process0.sl.r_24 (F := F) g₁ k = vecAt (N := 10416) (by decide) g₁ (21 * k.val + 3) :=
      load_C0 (F := F) g₁ k ⟨3, by decide⟩ _ rfl _ _ rfl
    iapply (scatter_tab d L g₀ g₁ f (21 * k.val + 3) (21 * k.val + 4) (by omega) _ _ _ hp3 hc3 rfl _ _ _ _) $$ HH
    iintro HH
    sl_exec (disch := exact inB_addr (fun y => h₀ _) (fun y => h₁ _))
    -- vector 4 of the trip
    have hp4 : process0.sl.r_4 (F := F) g₀ k = vecAt (N := 10416) (by decide) g₀ (21 * k.val + 4) :=
      load_P0 (F := F) g₀ k ⟨4, by decide⟩ _ rfl _ _ rfl
    have hc4 : process0.sl.r_25 (F := F) g₁ k = vecAt (N := 10416) (by decide) g₁ (21 * k.val + 4) :=
      load_C0 (F := F) g₁ k ⟨4, by decide⟩ _ rfl _ _ rfl
    iapply (scatter_tab d L g₀ g₁ f (21 * k.val + 4) (21 * k.val + 5) (by omega) _ _ _ hp4 hc4 rfl _ _ _ _) $$ HH
    iintro HH
    sl_exec (disch := exact inB_addr (fun y => h₀ _) (fun y => h₁ _))
    -- vector 5 of the trip
    have hp5 : process0.sl.r_5 (F := F) g₀ k = vecAt (N := 10416) (by decide) g₀ (21 * k.val + 5) :=
      load_P0 (F := F) g₀ k ⟨5, by decide⟩ _ rfl _ _ rfl
    have hc5 : process0.sl.r_26 (F := F) g₁ k = vecAt (N := 10416) (by decide) g₁ (21 * k.val + 5) :=
      load_C0 (F := F) g₁ k ⟨5, by decide⟩ _ rfl _ _ rfl
    iapply (scatter_tab d L g₀ g₁ f (21 * k.val + 5) (21 * k.val + 6) (by omega) _ _ _ hp5 hc5 rfl _ _ _ _) $$ HH
    iintro HH
    sl_exec (disch := exact inB_addr (fun y => h₀ _) (fun y => h₁ _))
    -- vector 6 of the trip
    have hp6 : process0.sl.r_6 (F := F) g₀ k = vecAt (N := 10416) (by decide) g₀ (21 * k.val + 6) :=
      load_P0 (F := F) g₀ k ⟨6, by decide⟩ _ rfl _ _ rfl
    have hc6 : process0.sl.r_27 (F := F) g₁ k = vecAt (N := 10416) (by decide) g₁ (21 * k.val + 6) :=
      load_C0 (F := F) g₁ k ⟨6, by decide⟩ _ rfl _ _ rfl
    iapply (scatter_tab d L g₀ g₁ f (21 * k.val + 6) (21 * k.val + 7) (by omega) _ _ _ hp6 hc6 rfl _ _ _ _) $$ HH
    iintro HH
    sl_exec (disch := exact inB_addr (fun y => h₀ _) (fun y => h₁ _))
    -- vector 7 of the trip
    have hp7 : process0.sl.r_7 (F := F) g₀ k = vecAt (N := 10416) (by decide) g₀ (21 * k.val + 7) :=
      load_P0 (F := F) g₀ k ⟨7, by decide⟩ _ rfl _ _ rfl
    have hc7 : process0.sl.r_28 (F := F) g₁ k = vecAt (N := 10416) (by decide) g₁ (21 * k.val + 7) :=
      load_C0 (F := F) g₁ k ⟨7, by decide⟩ _ rfl _ _ rfl
    iapply (scatter_tab d L g₀ g₁ f (21 * k.val + 7) (21 * k.val + 8) (by omega) _ _ _ hp7 hc7 rfl _ _ _ _) $$ HH
    iintro HH
    sl_exec (disch := exact inB_addr (fun y => h₀ _) (fun y => h₁ _))
    -- vector 8 of the trip
    have hp8 : process0.sl.r_8 (F := F) g₀ k = vecAt (N := 10416) (by decide) g₀ (21 * k.val + 8) :=
      load_P0 (F := F) g₀ k ⟨8, by decide⟩ _ rfl _ _ rfl
    have hc8 : process0.sl.r_29 (F := F) g₁ k = vecAt (N := 10416) (by decide) g₁ (21 * k.val + 8) :=
      load_C0 (F := F) g₁ k ⟨8, by decide⟩ _ rfl _ _ rfl
    iapply (scatter_tab d L g₀ g₁ f (21 * k.val + 8) (21 * k.val + 9) (by omega) _ _ _ hp8 hc8 rfl _ _ _ _) $$ HH
    iintro HH
    sl_exec (disch := exact inB_addr (fun y => h₀ _) (fun y => h₁ _))
    -- vector 9 of the trip
    have hp9 : process0.sl.r_9 (F := F) g₀ k = vecAt (N := 10416) (by decide) g₀ (21 * k.val + 9) :=
      load_P0 (F := F) g₀ k ⟨9, by decide⟩ _ rfl _ _ rfl
    have hc9 : process0.sl.r_30 (F := F) g₁ k = vecAt (N := 10416) (by decide) g₁ (21 * k.val + 9) :=
      load_C0 (F := F) g₁ k ⟨9, by decide⟩ _ rfl _ _ rfl
    iapply (scatter_tab d L g₀ g₁ f (21 * k.val + 9) (21 * k.val + 10) (by omega) _ _ _ hp9 hc9 rfl _ _ _ _) $$ HH
    iintro HH
    sl_exec (disch := exact inB_addr (fun y => h₀ _) (fun y => h₁ _))
    -- vector 10 of the trip
    have hp10 : process0.sl.r_10 (F := F) g₀ k = vecAt (N := 10416) (by decide) g₀ (21 * k.val + 10) :=
      load_P0 (F := F) g₀ k ⟨10, by decide⟩ _ rfl _ _ rfl
    have hc10 : process0.sl.r_31 (F := F) g₁ k = vecAt (N := 10416) (by decide) g₁ (21 * k.val + 10) :=
      load_C0 (F := F) g₁ k ⟨10, by decide⟩ _ rfl _ _ rfl
    iapply (scatter_tab d L g₀ g₁ f (21 * k.val + 10) (21 * k.val + 11) (by omega) _ _ _ hp10 hc10 rfl _ _ _ _) $$ HH
    iintro HH
    sl_exec (disch := exact inB_addr (fun y => h₀ _) (fun y => h₁ _))
    -- vector 11 of the trip
    have hp11 : process0.sl.r_11 (F := F) g₀ k = vecAt (N := 10416) (by decide) g₀ (21 * k.val + 11) :=
      load_P0 (F := F) g₀ k ⟨11, by decide⟩ _ rfl _ _ rfl
    have hc11 : process0.sl.r_32 (F := F) g₁ k = vecAt (N := 10416) (by decide) g₁ (21 * k.val + 11) :=
      load_C0 (F := F) g₁ k ⟨11, by decide⟩ _ rfl _ _ rfl
    iapply (scatter_tab d L g₀ g₁ f (21 * k.val + 11) (21 * k.val + 12) (by omega) _ _ _ hp11 hc11 rfl _ _ _ _) $$ HH
    iintro HH
    sl_exec (disch := exact inB_addr (fun y => h₀ _) (fun y => h₁ _))
    -- vector 12 of the trip
    have hp12 : process0.sl.r_12 (F := F) g₀ k = vecAt (N := 10416) (by decide) g₀ (21 * k.val + 12) :=
      load_P0 (F := F) g₀ k ⟨12, by decide⟩ _ rfl _ _ rfl
    have hc12 : process0.sl.r_33 (F := F) g₁ k = vecAt (N := 10416) (by decide) g₁ (21 * k.val + 12) :=
      load_C0 (F := F) g₁ k ⟨12, by decide⟩ _ rfl _ _ rfl
    iapply (scatter_tab d L g₀ g₁ f (21 * k.val + 12) (21 * k.val + 13) (by omega) _ _ _ hp12 hc12 rfl _ _ _ _) $$ HH
    iintro HH
    sl_exec (disch := exact inB_addr (fun y => h₀ _) (fun y => h₁ _))
    -- vector 13 of the trip
    have hp13 : process0.sl.r_13 (F := F) g₀ k = vecAt (N := 10416) (by decide) g₀ (21 * k.val + 13) :=
      load_P0 (F := F) g₀ k ⟨13, by decide⟩ _ rfl _ _ rfl
    have hc13 : process0.sl.r_34 (F := F) g₁ k = vecAt (N := 10416) (by decide) g₁ (21 * k.val + 13) :=
      load_C0 (F := F) g₁ k ⟨13, by decide⟩ _ rfl _ _ rfl
    iapply (scatter_tab d L g₀ g₁ f (21 * k.val + 13) (21 * k.val + 14) (by omega) _ _ _ hp13 hc13 rfl _ _ _ _) $$ HH
    iintro HH
    sl_exec (disch := exact inB_addr (fun y => h₀ _) (fun y => h₁ _))
    -- vector 14 of the trip
    have hp14 : process0.sl.r_14 (F := F) g₀ k = vecAt (N := 10416) (by decide) g₀ (21 * k.val + 14) :=
      load_P0 (F := F) g₀ k ⟨14, by decide⟩ _ rfl _ _ rfl
    have hc14 : process0.sl.r_35 (F := F) g₁ k = vecAt (N := 10416) (by decide) g₁ (21 * k.val + 14) :=
      load_C0 (F := F) g₁ k ⟨14, by decide⟩ _ rfl _ _ rfl
    iapply (scatter_tab d L g₀ g₁ f (21 * k.val + 14) (21 * k.val + 15) (by omega) _ _ _ hp14 hc14 rfl _ _ _ _) $$ HH
    iintro HH
    sl_exec (disch := exact inB_addr (fun y => h₀ _) (fun y => h₁ _))
    -- vector 15 of the trip
    have hp15 : process0.sl.r_15 (F := F) g₀ k = vecAt (N := 10416) (by decide) g₀ (21 * k.val + 15) :=
      load_P0 (F := F) g₀ k ⟨15, by decide⟩ _ rfl _ _ rfl
    have hc15 : process0.sl.r_36 (F := F) g₁ k = vecAt (N := 10416) (by decide) g₁ (21 * k.val + 15) :=
      load_C0 (F := F) g₁ k ⟨15, by decide⟩ _ rfl _ _ rfl
    iapply (scatter_tab d L g₀ g₁ f (21 * k.val + 15) (21 * k.val + 16) (by omega) _ _ _ hp15 hc15 rfl _ _ _ _) $$ HH
    iintro HH
    sl_exec (disch := exact inB_addr (fun y => h₀ _) (fun y => h₁ _))
    -- vector 16 of the trip
    have hp16 : process0.sl.r_16 (F := F) g₀ k = vecAt (N := 10416) (by decide) g₀ (21 * k.val + 16) :=
      load_P0 (F := F) g₀ k ⟨16, by decide⟩ _ rfl _ _ rfl
    have hc16 : process0.sl.r_37 (F := F) g₁ k = vecAt (N := 10416) (by decide) g₁ (21 * k.val + 16) :=
      load_C0 (F := F) g₁ k ⟨16, by decide⟩ _ rfl _ _ rfl
    iapply (scatter_tab d L g₀ g₁ f (21 * k.val + 16) (21 * k.val + 17) (by omega) _ _ _ hp16 hc16 rfl _ _ _ _) $$ HH
    iintro HH
    sl_exec (disch := exact inB_addr (fun y => h₀ _) (fun y => h₁ _))
    -- vector 17 of the trip
    have hp17 : process0.sl.r_17 (F := F) g₀ k = vecAt (N := 10416) (by decide) g₀ (21 * k.val + 17) :=
      load_P0 (F := F) g₀ k ⟨17, by decide⟩ _ rfl _ _ rfl
    have hc17 : process0.sl.r_38 (F := F) g₁ k = vecAt (N := 10416) (by decide) g₁ (21 * k.val + 17) :=
      load_C0 (F := F) g₁ k ⟨17, by decide⟩ _ rfl _ _ rfl
    iapply (scatter_tab d L g₀ g₁ f (21 * k.val + 17) (21 * k.val + 18) (by omega) _ _ _ hp17 hc17 rfl _ _ _ _) $$ HH
    iintro HH
    sl_exec (disch := exact inB_addr (fun y => h₀ _) (fun y => h₁ _))
    -- vector 18 of the trip
    have hp18 : process0.sl.r_18 (F := F) g₀ k = vecAt (N := 10416) (by decide) g₀ (21 * k.val + 18) :=
      load_P0 (F := F) g₀ k ⟨18, by decide⟩ _ rfl _ _ rfl
    have hc18 : process0.sl.r_39 (F := F) g₁ k = vecAt (N := 10416) (by decide) g₁ (21 * k.val + 18) :=
      load_C0 (F := F) g₁ k ⟨18, by decide⟩ _ rfl _ _ rfl
    iapply (scatter_tab d L g₀ g₁ f (21 * k.val + 18) (21 * k.val + 19) (by omega) _ _ _ hp18 hc18 rfl _ _ _ _) $$ HH
    iintro HH
    sl_exec (disch := exact inB_addr (fun y => h₀ _) (fun y => h₁ _))
    -- vector 19 of the trip
    have hp19 : process0.sl.r_19 (F := F) g₀ k = vecAt (N := 10416) (by decide) g₀ (21 * k.val + 19) :=
      load_P0 (F := F) g₀ k ⟨19, by decide⟩ _ rfl _ _ rfl
    have hc19 : process0.sl.r_40 (F := F) g₁ k = vecAt (N := 10416) (by decide) g₁ (21 * k.val + 19) :=
      load_C0 (F := F) g₁ k ⟨19, by decide⟩ _ rfl _ _ rfl
    iapply (scatter_tab d L g₀ g₁ f (21 * k.val + 19) (21 * k.val + 20) (by omega) _ _ _ hp19 hc19 rfl _ _ _ _) $$ HH
    iintro HH
    sl_exec (disch := exact inB_addr (fun y => h₀ _) (fun y => h₁ _))
    -- vector 20 of the trip
    have hp20 : process0.sl.r_20 (F := F) g₀ k = vecAt (N := 10416) (by decide) g₀ (21 * k.val + 20) :=
      load_P0 (F := F) g₀ k ⟨20, by decide⟩ _ rfl _ _ rfl
    have hc20 : process0.sl.r_41 (F := F) g₁ k = vecAt (N := 10416) (by decide) g₁ (21 * k.val + 20) :=
      load_C0 (F := F) g₁ k ⟨20, by decide⟩ _ rfl _ _ rfl
    iapply (scatter_tab d L g₀ g₁ f (21 * k.val + 20) (21 * (k.val + 1)) (by omega) _ _ _ hp20 hc20 rfl _ _ _ _) $$ HH
    iintro HH
    sl_exec (disch := exact inB_addr (fun y => h₀ _) (fun y => h₁ _))
    sl_step
    isplitl [HP]; · iexact HP
    isplitl [HC]; · iexact HC
    iexact HH
  · isplitl [HP HC HH]
    · unfold inv_process0
      isplitl [HP]; · iexact HP
      isplitl [HC]; · iexact HC
      iexact HH
    · iintro %_ HI
      unfold inv_process0
      iexact HI

/-! ## The loop over the second pair of chunk buffers -/

/-- Between trips: the two buffers as they were, the table after the first `21 · b` vectors. -/
def inv_process1 (d : Dev nD) (L : grid0.Coords) (g₀ g₁ : IVec S10416 32) (f : Vec F S65536 .f32) (b : Nat) (_ : PUnit) : sProp 𝕄 :=
  iprop(((sP1 : Memref sig .scVector .vmem S10416 .i32).view.loc (V d (cT L) (jT L)) ↦{fullShare} g₀)
    ∗ ((sC1 : Memref sig .scVector .vmem S10416 .i32).view.loc (V d (cT L) (jT L)) ↦{fullShare} g₁)
    ∗ ((sH : Memref sig .scVector .vmem S65536 .f32).view.loc (V d (cT L) (jT L)) ↦{fullShare} tabN (N := 10416) (by decide) g₀ g₁ f (21 * b)))

/-- The loop over a pair of chunk buffers leaves the buffers as they were and the table after the chunk's 651 vectors. -/
theorem process1 (d : Dev nD) (L : grid0.Coords) (g₀ g₁ : IVec S10416 32) (f : Vec F S65536 .f32) (h₀ : Tiles g₀) (h₁ : Tiles g₁) :
    iprop(((sP1 : Memref sig .scVector .vmem S10416 .i32).view.loc (V d (cT L) (jT L)) ↦{fullShare} g₀)
        ∗ ((sC1 : Memref sig .scVector .vmem S10416 .i32).view.loc (V d (cT L) (jT L)) ↦{fullShare} g₁)
        ∗ ((sH : Memref sig .scVector .vmem S65536 .f32).view.loc (V d (cT L) (jT L)) ↦{fullShare} f))
      ⊢ wp (M := 𝕄) frame (wpE (defs₀ (F := F)) 𝒱₀ (V d (cT L) (jT L)) none) Set.univ
          (Scf.Loop.for k0_t4_loop k0_t4_ok ⟨⟩ (k0_t4_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => iprop((sP1.view.loc (V d (cT L) (jT L)) ↦{fullShare} g₀) ∗ (sC1.view.loc (V d (cT L) (jT L)) ↦{fullShare} g₁)
            ∗ (sH.view.loc (V d (cT L) (jT L)) ↦{fullShare} chunkTab g₀ g₁ f)) := by
  iintro ⟨HP, HC, HH⟩
  sl_for (inv_process1 (F := F) d L g₀ g₁ f) $$ [HP HC HH]
  case region =>
    intro k _
    unfold inv_process1
    iintro ⟨HP, HC, HH⟩
    -- the 42 loads, and the first cell check
    sl_exec (disch := exact inB_addr (fun y => h₀ _) (fun y => h₁ _))
    -- vector 0 of the trip
    have hp0 : process1.sl.r (F := F) g₀ k = vecAt (N := 10416) (by decide) g₀ (21 * k.val) :=
      load_P1 (F := F) g₀ k ⟨0, by decide⟩ _ rfl _ _ rfl
    have hc0 : process1.sl.r_21 (F := F) g₁ k = vecAt (N := 10416) (by decide) g₁ (21 * k.val) :=
      load_C1 (F := F) g₁ k ⟨0, by decide⟩ _ rfl _ _ rfl
    iapply (scatter_tab d L g₀ g₁ f (21 * k.val) (21 * k.val + 1) (by omega) _ _ _ hp0 hc0 rfl _ _ _ _) $$ HH
    iintro HH
    sl_exec (disch := exact inB_addr (fun y => h₀ _) (fun y => h₁ _))
    -- vector 1 of the trip
    have hp1 : process1.sl.r_1 (F := F) g₀ k = vecAt (N := 10416) (by decide) g₀ (21 * k.val + 1) :=
      load_P1 (F := F) g₀ k ⟨1, by decide⟩ _ rfl _ _ rfl
    have hc1 : process1.sl.r_22 (F := F) g₁ k = vecAt (N := 10416) (by decide) g₁ (21 * k.val + 1) :=
      load_C1 (F := F) g₁ k ⟨1, by decide⟩ _ rfl _ _ rfl
    iapply (scatter_tab d L g₀ g₁ f (21 * k.val + 1) (21 * k.val + 2) (by omega) _ _ _ hp1 hc1 rfl _ _ _ _) $$ HH
    iintro HH
    sl_exec (disch := exact inB_addr (fun y => h₀ _) (fun y => h₁ _))
    -- vector 2 of the trip
    have hp2 : process1.sl.r_2 (F := F) g₀ k = vecAt (N := 10416) (by decide) g₀ (21 * k.val + 2) :=
      load_P1 (F := F) g₀ k ⟨2, by decide⟩ _ rfl _ _ rfl
    have hc2 : process1.sl.r_23 (F := F) g₁ k = vecAt (N := 10416) (by decide) g₁ (21 * k.val + 2) :=
      load_C1 (F := F) g₁ k ⟨2, by decide⟩ _ rfl _ _ rfl
    iapply (scatter_tab d L g₀ g₁ f (21 * k.val + 2) (21 * k.val + 3) (by omega) _ _ _ hp2 hc2 rfl _ _ _ _) $$ HH
    iintro HH
    sl_exec (disch := exact inB_addr (fun y => h₀ _) (fun y => h₁ _))
    -- vector 3 of the trip
    have hp3 : process1.sl.r_3 (F := F) g₀ k = vecAt (N := 10416) (by decide) g₀ (21 * k.val + 3) :=
      load_P1 (F := F) g₀ k ⟨3, by decide⟩ _ rfl _ _ rfl
    have hc3 : process1.sl.r_24 (F := F) g₁ k = vecAt (N := 10416) (by decide) g₁ (21 * k.val + 3) :=
      load_C1 (F := F) g₁ k ⟨3, by decide⟩ _ rfl _ _ rfl
    iapply (scatter_tab d L g₀ g₁ f (21 * k.val + 3) (21 * k.val + 4) (by omega) _ _ _ hp3 hc3 rfl _ _ _ _) $$ HH
    iintro HH
    sl_exec (disch := exact inB_addr (fun y => h₀ _) (fun y => h₁ _))
    -- vector 4 of the trip
    have hp4 : process1.sl.r_4 (F := F) g₀ k = vecAt (N := 10416) (by decide) g₀ (21 * k.val + 4) :=
      load_P1 (F := F) g₀ k ⟨4, by decide⟩ _ rfl _ _ rfl
    have hc4 : process1.sl.r_25 (F := F) g₁ k = vecAt (N := 10416) (by decide) g₁ (21 * k.val + 4) :=
      load_C1 (F := F) g₁ k ⟨4, by decide⟩ _ rfl _ _ rfl
    iapply (scatter_tab d L g₀ g₁ f (21 * k.val + 4) (21 * k.val + 5) (by omega) _ _ _ hp4 hc4 rfl _ _ _ _) $$ HH
    iintro HH
    sl_exec (disch := exact inB_addr (fun y => h₀ _) (fun y => h₁ _))
    -- vector 5 of the trip
    have hp5 : process1.sl.r_5 (F := F) g₀ k = vecAt (N := 10416) (by decide) g₀ (21 * k.val + 5) :=
      load_P1 (F := F) g₀ k ⟨5, by decide⟩ _ rfl _ _ rfl
    have hc5 : process1.sl.r_26 (F := F) g₁ k = vecAt (N := 10416) (by decide) g₁ (21 * k.val + 5) :=
      load_C1 (F := F) g₁ k ⟨5, by decide⟩ _ rfl _ _ rfl
    iapply (scatter_tab d L g₀ g₁ f (21 * k.val + 5) (21 * k.val + 6) (by omega) _ _ _ hp5 hc5 rfl _ _ _ _) $$ HH
    iintro HH
    sl_exec (disch := exact inB_addr (fun y => h₀ _) (fun y => h₁ _))
    -- vector 6 of the trip
    have hp6 : process1.sl.r_6 (F := F) g₀ k = vecAt (N := 10416) (by decide) g₀ (21 * k.val + 6) :=
      load_P1 (F := F) g₀ k ⟨6, by decide⟩ _ rfl _ _ rfl
    have hc6 : process1.sl.r_27 (F := F) g₁ k = vecAt (N := 10416) (by decide) g₁ (21 * k.val + 6) :=
      load_C1 (F := F) g₁ k ⟨6, by decide⟩ _ rfl _ _ rfl
    iapply (scatter_tab d L g₀ g₁ f (21 * k.val + 6) (21 * k.val + 7) (by omega) _ _ _ hp6 hc6 rfl _ _ _ _) $$ HH
    iintro HH
    sl_exec (disch := exact inB_addr (fun y => h₀ _) (fun y => h₁ _))
    -- vector 7 of the trip
    have hp7 : process1.sl.r_7 (F := F) g₀ k = vecAt (N := 10416) (by decide) g₀ (21 * k.val + 7) :=
      load_P1 (F := F) g₀ k ⟨7, by decide⟩ _ rfl _ _ rfl
    have hc7 : process1.sl.r_28 (F := F) g₁ k = vecAt (N := 10416) (by decide) g₁ (21 * k.val + 7) :=
      load_C1 (F := F) g₁ k ⟨7, by decide⟩ _ rfl _ _ rfl
    iapply (scatter_tab d L g₀ g₁ f (21 * k.val + 7) (21 * k.val + 8) (by omega) _ _ _ hp7 hc7 rfl _ _ _ _) $$ HH
    iintro HH
    sl_exec (disch := exact inB_addr (fun y => h₀ _) (fun y => h₁ _))
    -- vector 8 of the trip
    have hp8 : process1.sl.r_8 (F := F) g₀ k = vecAt (N := 10416) (by decide) g₀ (21 * k.val + 8) :=
      load_P1 (F := F) g₀ k ⟨8, by decide⟩ _ rfl _ _ rfl
    have hc8 : process1.sl.r_29 (F := F) g₁ k = vecAt (N := 10416) (by decide) g₁ (21 * k.val + 8) :=
      load_C1 (F := F) g₁ k ⟨8, by decide⟩ _ rfl _ _ rfl
    iapply (scatter_tab d L g₀ g₁ f (21 * k.val + 8) (21 * k.val + 9) (by omega) _ _ _ hp8 hc8 rfl _ _ _ _) $$ HH
    iintro HH
    sl_exec (disch := exact inB_addr (fun y => h₀ _) (fun y => h₁ _))
    -- vector 9 of the trip
    have hp9 : process1.sl.r_9 (F := F) g₀ k = vecAt (N := 10416) (by decide) g₀ (21 * k.val + 9) :=
      load_P1 (F := F) g₀ k ⟨9, by decide⟩ _ rfl _ _ rfl
    have hc9 : process1.sl.r_30 (F := F) g₁ k = vecAt (N := 10416) (by decide) g₁ (21 * k.val + 9) :=
      load_C1 (F := F) g₁ k ⟨9, by decide⟩ _ rfl _ _ rfl
    iapply (scatter_tab d L g₀ g₁ f (21 * k.val + 9) (21 * k.val + 10) (by omega) _ _ _ hp9 hc9 rfl _ _ _ _) $$ HH
    iintro HH
    sl_exec (disch := exact inB_addr (fun y => h₀ _) (fun y => h₁ _))
    -- vector 10 of the trip
    have hp10 : process1.sl.r_10 (F := F) g₀ k = vecAt (N := 10416) (by decide) g₀ (21 * k.val + 10) :=
      load_P1 (F := F) g₀ k ⟨10, by decide⟩ _ rfl _ _ rfl
    have hc10 : process1.sl.r_31 (F := F) g₁ k = vecAt (N := 10416) (by decide) g₁ (21 * k.val + 10) :=
      load_C1 (F := F) g₁ k ⟨10, by decide⟩ _ rfl _ _ rfl
    iapply (scatter_tab d L g₀ g₁ f (21 * k.val + 10) (21 * k.val + 11) (by omega) _ _ _ hp10 hc10 rfl _ _ _ _) $$ HH
    iintro HH
    sl_exec (disch := exact inB_addr (fun y => h₀ _) (fun y => h₁ _))
    -- vector 11 of the trip
    have hp11 : process1.sl.r_11 (F := F) g₀ k = vecAt (N := 10416) (by decide) g₀ (21 * k.val + 11) :=
      load_P1 (F := F) g₀ k ⟨11, by decide⟩ _ rfl _ _ rfl
    have hc11 : process1.sl.r_32 (F := F) g₁ k = vecAt (N := 10416) (by decide) g₁ (21 * k.val + 11) :=
      load_C1 (F := F) g₁ k ⟨11, by decide⟩ _ rfl _ _ rfl
    iapply (scatter_tab d L g₀ g₁ f (21 * k.val + 11) (21 * k.val + 12) (by omega) _ _ _ hp11 hc11 rfl _ _ _ _) $$ HH
    iintro HH
    sl_exec (disch := exact inB_addr (fun y => h₀ _) (fun y => h₁ _))
    -- vector 12 of the trip
    have hp12 : process1.sl.r_12 (F := F) g₀ k = vecAt (N := 10416) (by decide) g₀ (21 * k.val + 12) :=
      load_P1 (F := F) g₀ k ⟨12, by decide⟩ _ rfl _ _ rfl
    have hc12 : process1.sl.r_33 (F := F) g₁ k = vecAt (N := 10416) (by decide) g₁ (21 * k.val + 12) :=
      load_C1 (F := F) g₁ k ⟨12, by decide⟩ _ rfl _ _ rfl
    iapply (scatter_tab d L g₀ g₁ f (21 * k.val + 12) (21 * k.val + 13) (by omega) _ _ _ hp12 hc12 rfl _ _ _ _) $$ HH
    iintro HH
    sl_exec (disch := exact inB_addr (fun y => h₀ _) (fun y => h₁ _))
    -- vector 13 of the trip
    have hp13 : process1.sl.r_13 (F := F) g₀ k = vecAt (N := 10416) (by decide) g₀ (21 * k.val + 13) :=
      load_P1 (F := F) g₀ k ⟨13, by decide⟩ _ rfl _ _ rfl
    have hc13 : process1.sl.r_34 (F := F) g₁ k = vecAt (N := 10416) (by decide) g₁ (21 * k.val + 13) :=
      load_C1 (F := F) g₁ k ⟨13, by decide⟩ _ rfl _ _ rfl
    iapply (scatter_tab d L g₀ g₁ f (21 * k.val + 13) (21 * k.val + 14) (by omega) _ _ _ hp13 hc13 rfl _ _ _ _) $$ HH
    iintro HH
    sl_exec (disch := exact inB_addr (fun y => h₀ _) (fun y => h₁ _))
    -- vector 14 of the trip
    have hp14 : process1.sl.r_14 (F := F) g₀ k = vecAt (N := 10416) (by decide) g₀ (21 * k.val + 14) :=
      load_P1 (F := F) g₀ k ⟨14, by decide⟩ _ rfl _ _ rfl
    have hc14 : process1.sl.r_35 (F := F) g₁ k = vecAt (N := 10416) (by decide) g₁ (21 * k.val + 14) :=
      load_C1 (F := F) g₁ k ⟨14, by decide⟩ _ rfl _ _ rfl
    iapply (scatter_tab d L g₀ g₁ f (21 * k.val + 14) (21 * k.val + 15) (by omega) _ _ _ hp14 hc14 rfl _ _ _ _) $$ HH
    iintro HH
    sl_exec (disch := exact inB_addr (fun y => h₀ _) (fun y => h₁ _))
    -- vector 15 of the trip
    have hp15 : process1.sl.r_15 (F := F) g₀ k = vecAt (N := 10416) (by decide) g₀ (21 * k.val + 15) :=
      load_P1 (F := F) g₀ k ⟨15, by decide⟩ _ rfl _ _ rfl
    have hc15 : process1.sl.r_36 (F := F) g₁ k = vecAt (N := 10416) (by decide) g₁ (21 * k.val + 15) :=
      load_C1 (F := F) g₁ k ⟨15, by decide⟩ _ rfl _ _ rfl
    iapply (scatter_tab d L g₀ g₁ f (21 * k.val + 15) (21 * k.val + 16) (by omega) _ _ _ hp15 hc15 rfl _ _ _ _) $$ HH
    iintro HH
    sl_exec (disch := exact inB_addr (fun y => h₀ _) (fun y => h₁ _))
    -- vector 16 of the trip
    have hp16 : process1.sl.r_16 (F := F) g₀ k = vecAt (N := 10416) (by decide) g₀ (21 * k.val + 16) :=
      load_P1 (F := F) g₀ k ⟨16, by decide⟩ _ rfl _ _ rfl
    have hc16 : process1.sl.r_37 (F := F) g₁ k = vecAt (N := 10416) (by decide) g₁ (21 * k.val + 16) :=
      load_C1 (F := F) g₁ k ⟨16, by decide⟩ _ rfl _ _ rfl
    iapply (scatter_tab d L g₀ g₁ f (21 * k.val + 16) (21 * k.val + 17) (by omega) _ _ _ hp16 hc16 rfl _ _ _ _) $$ HH
    iintro HH
    sl_exec (disch := exact inB_addr (fun y => h₀ _) (fun y => h₁ _))
    -- vector 17 of the trip
    have hp17 : process1.sl.r_17 (F := F) g₀ k = vecAt (N := 10416) (by decide) g₀ (21 * k.val + 17) :=
      load_P1 (F := F) g₀ k ⟨17, by decide⟩ _ rfl _ _ rfl
    have hc17 : process1.sl.r_38 (F := F) g₁ k = vecAt (N := 10416) (by decide) g₁ (21 * k.val + 17) :=
      load_C1 (F := F) g₁ k ⟨17, by decide⟩ _ rfl _ _ rfl
    iapply (scatter_tab d L g₀ g₁ f (21 * k.val + 17) (21 * k.val + 18) (by omega) _ _ _ hp17 hc17 rfl _ _ _ _) $$ HH
    iintro HH
    sl_exec (disch := exact inB_addr (fun y => h₀ _) (fun y => h₁ _))
    -- vector 18 of the trip
    have hp18 : process1.sl.r_18 (F := F) g₀ k = vecAt (N := 10416) (by decide) g₀ (21 * k.val + 18) :=
      load_P1 (F := F) g₀ k ⟨18, by decide⟩ _ rfl _ _ rfl
    have hc18 : process1.sl.r_39 (F := F) g₁ k = vecAt (N := 10416) (by decide) g₁ (21 * k.val + 18) :=
      load_C1 (F := F) g₁ k ⟨18, by decide⟩ _ rfl _ _ rfl
    iapply (scatter_tab d L g₀ g₁ f (21 * k.val + 18) (21 * k.val + 19) (by omega) _ _ _ hp18 hc18 rfl _ _ _ _) $$ HH
    iintro HH
    sl_exec (disch := exact inB_addr (fun y => h₀ _) (fun y => h₁ _))
    -- vector 19 of the trip
    have hp19 : process1.sl.r_19 (F := F) g₀ k = vecAt (N := 10416) (by decide) g₀ (21 * k.val + 19) :=
      load_P1 (F := F) g₀ k ⟨19, by decide⟩ _ rfl _ _ rfl
    have hc19 : process1.sl.r_40 (F := F) g₁ k = vecAt (N := 10416) (by decide) g₁ (21 * k.val + 19) :=
      load_C1 (F := F) g₁ k ⟨19, by decide⟩ _ rfl _ _ rfl
    iapply (scatter_tab d L g₀ g₁ f (21 * k.val + 19) (21 * k.val + 20) (by omega) _ _ _ hp19 hc19 rfl _ _ _ _) $$ HH
    iintro HH
    sl_exec (disch := exact inB_addr (fun y => h₀ _) (fun y => h₁ _))
    -- vector 20 of the trip
    have hp20 : process1.sl.r_20 (F := F) g₀ k = vecAt (N := 10416) (by decide) g₀ (21 * k.val + 20) :=
      load_P1 (F := F) g₀ k ⟨20, by decide⟩ _ rfl _ _ rfl
    have hc20 : process1.sl.r_41 (F := F) g₁ k = vecAt (N := 10416) (by decide) g₁ (21 * k.val + 20) :=
      load_C1 (F := F) g₁ k ⟨20, by decide⟩ _ rfl _ _ rfl
    iapply (scatter_tab d L g₀ g₁ f (21 * k.val + 20) (21 * (k.val + 1)) (by omega) _ _ _ hp20 hc20 rfl _ _ _ _) $$ HH
    iintro HH
    sl_exec (disch := exact inB_addr (fun y => h₀ _) (fun y => h₁ _))
    sl_step
    isplitl [HP]; · iexact HP
    isplitl [HC]; · iexact HC
    iexact HH
  · isplitl [HP HC HH]
    · unfold inv_process1
      isplitl [HP]; · iexact HP
      isplitl [HC]; · iexact HC
      iexact HH
    · iintro %_ HI
      unfold inv_process1
      iexact HI

end Cert.Proof.HistBits

end
-- ==== Proof.HistBLand.lean ====
/-
  What the copies deliver, and the last 256 entries.

  A tile's copies read its part of an index array chunk by chunk: worker `w`'s chunk `i` is the 10416 entries from
  `124992 · w + 10416 · i` on, and the offsets the body computes for its copies — the first two chunks before the loop, chunks
  `2 · t + 2` and `2 · t + 3` in trip `t` — are these, with `w = 2 · s + c` for subcore `s` of SparseCore `c`.  The last worker
  also reads the 256 entries from 3999744 on.  No offset runs past the 4000000 entries, so reading modulo the length is
  reading.  The last 256 entries are consumed like a chunk, sixteen vectors at the literal offsets `0, 16, …, 240`.
-/
import proofs.«201955_g20547123544587_cont_8to1_184_16_alg».proof.Proof.HistBProc

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a copy's source reads -/

omit [FloatOps F] in
/-- A slice of the array reads the array under the slice's coordinates. -/
theorem read_slice_pV (r : Rect S4000000) (hr : ∀ a, r.stride a = 1) (A : IVec S4000000 32) (x : r.shape.Idx) :
    View.read (Elt F) ((pV : Memref sig .scVector .hbm S4000000 .i32).slice r hr).view A x = A (r.toLoadRect.idx x) := by
  rfl

omit [FloatOps F] in
/-- A slice of the array reads the array under the slice's coordinates. -/
theorem read_slice_cV (r : Rect S4000000) (hr : ∀ a, r.stride a = 1) (A : IVec S4000000 32) (x : r.shape.Idx) :
    View.read (Elt F) ((cV' : Memref sig .scVector .hbm S4000000 .i32).slice r hr).view A x = A (r.toLoadRect.idx x) := by
  rfl

omit [FloatOps F] in
/-- The 10416 entries from `249984 · s + 124992 · c + 10416 · i` on are chunk `i` of worker `2 · s + c`. -/
theorem unit_idx_chunkOf (A : IVec S4000000 32) (L : grid0.Coords) (i : ℕ) (off : Fin S4000000.rank → ℕ) (st : ℕ)
    (hoff : off = ![st]) (hst : st = 249984 * (L 1).val + 124992 * (L 0).val + 10416 * i)
    (inb : ∀ a, off a + S10416.size a ≤ S4000000.size a) :
    (fun x : S10416.Idx => A ((Rect.unit (s := S4000000) off S10416.size inb).toLoadRect.idx x)) = chunkOf A (wid L) i := by
  subst hoff
  have hin : st + 10416 ≤ 4000000 := inb 0
  subst hst
  funext x
  unfold chunkOf
  congr 1
  funext a
  obtain rfl : a = 0 := Subsingleton.elim _ _
  apply Fin.ext
  have hx : (x 0).val < 10416 := (x 0).isLt
  have h0 : (L 0).val < 2 := (L 0).isLt
  have h1 : (L 1).val < 16 := (L 1).isLt
  show 249984 * (L 1).val + 124992 * (L 0).val + 10416 * i + 1 * (x 0).val = (124992 * wid L + 10416 * i + (x 0).val) % 4000000
  unfold wid
  rw [Nat.mod_eq_of_lt (by omega)]; omega

omit [FloatOps F] in
/-- The first two chunks, copied before the loop. -/
theorem chunk_read_first (L : grid0.Coords) (r : Fin 2) (c : BitVec 32) (hc : c = BitVec.ofNat 32 (10416 * r.val))
    (inb : ∀ a, k0_off1 L c a + S10416.size a ≤ S4000000.size a) (A : IVec S4000000 32) :
    View.read (Elt F) ((pV : Memref sig .scVector .hbm S4000000 .i32).slice (Rect.unit (s := S4000000) (k0_off1 L c) S10416.size inb) (fun _ => rfl)).view A
      = chunkOf A (wid L) r.val := by
  subst hc
  funext x
  rw [read_slice_pV]
  exact congrFun (unit_idx_chunkOf A L r.val _ _ (k0_off1_eq L r) (by omega) inb) x

omit [FloatOps F] in
theorem chunk_read_first0 (L : grid0.Coords) (A : IVec S4000000 32) :
    View.read (Elt F) ((pV : Memref sig .scVector .hbm S4000000 .i32).slice (Rect.unit (s := S4000000) (k0_off1 L 0#32) S10416.size (k0_off1_inb L 0)) (fun _ => rfl)).view A
      = chunkOf A (wid L) 0 := chunk_read_first (F := F) L 0 _ rfl _ A

omit [FloatOps F] in
theorem chunk_read_first1 (L : grid0.Coords) (A : IVec S4000000 32) :
    View.read (Elt F) ((pV : Memref sig .scVector .hbm S4000000 .i32).slice (Rect.unit (s := S4000000) (k0_off1 L 10416#32) S10416.size (k0_off1_inb L 1)) (fun _ => rfl)).view A
      = chunkOf A (wid L) 1 := chunk_read_first (F := F) L 1 _ rfl _ A

omit [FloatOps F] in
/-- Trip `t`'s copy into the first pair of buffers: chunk `2 · t + 2`. -/
theorem chunk_read_even (L : grid0.Coords) (t : Fin k0_t2_loop.trips)
    (inb : ∀ a, k0_off4 L t a + S10416.size a ≤ S4000000.size a) (A : IVec S4000000 32) :
    View.read (Elt F) ((pV : Memref sig .scVector .hbm S4000000 .i32).slice (Rect.unit (s := S4000000) (k0_off4 L t) S10416.size inb) (fun _ => rfl)).view A
      = chunkOf A (wid L) (2 * t.val + 2) := by
  funext x
  rw [read_slice_pV]
  exact congrFun (unit_idx_chunkOf A L (2 * t.val + 2) _ _ (k0_off4_eq L t) (by omega) inb) x

omit [FloatOps F] in
/-- Trip `t`'s copy into the second pair of buffers: chunk `2 · t + 3`. -/
theorem chunk_read_odd (L : grid0.Coords) (t : Fin k0_t2_loop.trips)
    (inb : ∀ a, k0_off6 L t a + S10416.size a ≤ S4000000.size a) (A : IVec S4000000 32) :
    View.read (Elt F) ((pV : Memref sig .scVector .hbm S4000000 .i32).slice (Rect.unit (s := S4000000) (k0_off6 L t) S10416.size inb) (fun _ => rfl)).view A
      = chunkOf A (wid L) (2 * t.val + 3) := by
  funext x
  rw [read_slice_pV]
  exact congrFun (unit_idx_chunkOf A L (2 * t.val + 3) _ _ (k0_off6_eq L t) (by omega) inb) x

omit [FloatOps F] in
/-- The last 256 entries. -/
theorem tail_read (inb : ∀ a, (![3999744] : Fin 1 → ℕ) a + S256.size a ≤ S4000000.size a) (A : IVec S4000000 32) :
    View.read (Elt F) ((pV : Memref sig .scVector .hbm S4000000 .i32).slice (Rect.unit (s := S4000000) ![3999744] S256.size inb) (fun _ => rfl)).view A
      = tailOf A := by
  funext x
  rw [read_slice_pV]
  unfold tailOf
  congr 1
  funext a
  obtain rfl : a = 0 := Subsingleton.elim _ _
  apply Fin.ext
  have hx : (x 0).val < 256 := (x 0).isLt
  show 3999744 + 1 * (x 0).val = (3999744 + (x 0).val) % 4000000
  rw [Nat.mod_eq_of_lt (by omega)]; omega

omit [FloatOps F] in
/-- The first two chunks, copied before the loop. -/
theorem chunk_read_first_c (L : grid0.Coords) (r : Fin 2) (c : BitVec 32) (hc : c = BitVec.ofNat 32 (10416 * r.val))
    (inb : ∀ a, k0_off1 L c a + S10416.size a ≤ S4000000.size a) (A : IVec S4000000 32) :
    View.read (Elt F) ((cV' : Memref sig .scVector .hbm S4000000 .i32).slice (Rect.unit (s := S4000000) (k0_off1 L c) S10416.size inb) (fun _ => rfl)).view A
      = chunkOf A (wid L) r.val := by
  subst hc
  funext x
  rw [read_slice_cV]
  exact congrFun (unit_idx_chunkOf A L r.val _ _ (k0_off1_eq L r) (by omega) inb) x

omit [FloatOps F] in
theorem chunk_read_first0_c (L : grid0.Coords) (A : IVec S4000000 32) :
    View.read (Elt F) ((cV' : Memref sig .scVector .hbm S4000000 .i32).slice (Rect.unit (s := S4000000) (k0_off1 L 0#32) S10416.size (k0_off1_inb L 0)) (fun _ => rfl)).view A
      = chunkOf A (wid L) 0 := chunk_read_first_c (F := F) L 0 _ rfl _ A

omit [FloatOps F] in
theorem chunk_read_first1_c (L : grid0.Coords) (A : IVec S4000000 32) :
    View.read (Elt F) ((cV' : Memref sig .scVector .hbm S4000000 .i32).slice (Rect.unit (s := S4000000) (k0_off1 L 10416#32) S10416.size (k0_off1_inb L 1)) (fun _ => rfl)).view A
      = chunkOf A (wid L) 1 := chunk_read_first_c (F := F) L 1 _ rfl _ A

omit [FloatOps F] in
/-- Trip `t`'s copy into the first pair of buffers: chunk `2 · t + 2`. -/
theorem chunk_read_even_c (L : grid0.Coords) (t : Fin k0_t2_loop.trips)
    (inb : ∀ a, k0_off4 L t a + S10416.size a ≤ S4000000.size a) (A : IVec S4000000 32) :
    View.read (Elt F) ((cV' : Memref sig .scVector .hbm S4000000 .i32).slice (Rect.unit (s := S4000000) (k0_off4 L t) S10416.size inb) (fun _ => rfl)).view A
      = chunkOf A (wid L) (2 * t.val + 2) := by
  funext x
  rw [read_slice_cV]
  exact congrFun (unit_idx_chunkOf A L (2 * t.val + 2) _ _ (k0_off4_eq L t) (by omega) inb) x

omit [FloatOps F] in
/-- Trip `t`'s copy into the second pair of buffers: chunk `2 · t + 3`. -/
theorem chunk_read_odd_c (L : grid0.Coords) (t : Fin k0_t2_loop.trips)
    (inb : ∀ a, k0_off6 L t a + S10416.size a ≤ S4000000.size a) (A : IVec S4000000 32) :
    View.read (Elt F) ((cV' : Memref sig .scVector .hbm S4000000 .i32).slice (Rect.unit (s := S4000000) (k0_off6 L t) S10416.size inb) (fun _ => rfl)).view A
      = chunkOf A (wid L) (2 * t.val + 3) := by
  funext x
  rw [read_slice_cV]
  exact congrFun (unit_idx_chunkOf A L (2 * t.val + 3) _ _ (k0_off6_eq L t) (by omega) inb) x

omit [FloatOps F] in
/-- The last 256 entries. -/
theorem tail_read_c (inb : ∀ a, (![3999744] : Fin 1 → ℕ) a + S256.size a ≤ S4000000.size a) (A : IVec S4000000 32) :
    View.read (Elt F) ((cV' : Memref sig .scVector .hbm S4000000 .i32).slice (Rect.unit (s := S4000000) ![3999744] S256.size inb) (fun _ => rfl)).view A
      = tailOf A := by
  funext x
  rw [read_slice_cV]
  unfold tailOf
  congr 1
  funext a
  obtain rfl : a = 0 := Subsingleton.elim _ _
  apply Fin.ext
  have hx : (x 0).val < 256 := (x 0).isLt
  show 3999744 + 1 * (x 0).val = (3999744 + (x 0).val) % 4000000
  rw [Nat.mod_eq_of_lt (by omega)]; omega

/-! ## Every word delivered is a tile number -/

omit [FloatOps F] in
theorem tiles_chunkOf {A : IVec S4000000 32} (h : ∀ k, (A k).toNat < 64) (w i : ℕ) : Tiles (chunkOf A w i) := fun _ => h _
omit [FloatOps F] in
theorem tiles_tailOf {A : IVec S4000000 32} (h : ∀ k, (A k).toNat < 64) : Tiles (tailOf A) := fun _ => h _

/-! ## The last 256 entries, consumed -/

/-- One indexed add of the last entries' pair of buffers: vector `n` takes the table from `tabN … n` to `tabN … (n + 1)`. -/
theorem scatter_tab256 (d : Dev nD) (L : grid0.Coords) {α : Type} (g₀ g₁ : IVec S256 32) (f : Vec F S65536 .f32)
    (n n' : ℕ) (hn : n' = n + 1)
    (p c a : IVec S16 32) (hp : p = vecAt (N := 256) (by decide) g₀ n) (hc : c = vecAt (N := 256) (by decide) g₁ n) (ha : a = addr p c)
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} tabN (N := 256) (by decide) g₀ g₁ f n : sProp 𝕄)
      ⊢ iprop((((sH : Memref sig .scVector .vmem S65536 .f32).view.loc (V d (cT L) (jT L)) ↦{fullShare} tabN (N := 256) (by decide) g₀ g₁ f n')
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) :=
  scatter_tab d L g₀ g₁ f n n' hn p c a hp hc ha h hs k Q

omit [FloatOps F] in
/-- The sixteen entries from `16 · r` on are vector `r` of the buffer. -/
theorem unit_idx_vecAt256 (g : IVec S256 32) (r : ℕ) (hr : r < 16) (off : Fin S256.rank → ℕ)
    (hoff : off = ![16 * r]) (inb : ∀ a, off a + S16.size a ≤ S256.size a) :
    (fun y : S16.Idx => g ((Rect.unit (s := S256) off S16.size inb).toLoadRect.idx y)) = vecAt (N := 256) (by decide) g r := by
  subst hoff
  funext y
  unfold vecAt
  congr 1
  funext a
  obtain rfl : a = 0 := Subsingleton.elim _ _
  apply Fin.ext
  have hy : (y 0).val < 16 := (y 0).isLt
  show 16 * r + 1 * (y 0).val = (16 * r + (y 0).val) % 256
  rw [Nat.mod_eq_of_lt (by omega)]; omega

omit [FloatOps F] in
theorem load_PT (g : IVec S256 32) (r : ℕ) (hr : r < 16) (off : Fin S256.rank → ℕ) (hoff : off = ![16 * r])
    (inb : ∀ a, off a + S16.size a ≤ S256.size a) :
    (sPT : Memref sig .scVector .vmem S256 .i32).view.readAt (Elt F) (Rect.unit (s := S256) off S16.size inb).toLoadRect g
      = vecAt (N := 256) (by decide) g r := by
  funext y
  rw [View.readAt_apply]
  simp only [Memref.view_whole, View.read_whole]
  exact congrFun (unit_idx_vecAt256 g r hr off hoff inb) y

omit [FloatOps F] in
theorem load_CT (g : IVec S256 32) (r : ℕ) (hr : r < 16) (off : Fin S256.rank → ℕ) (hoff : off = ![16 * r])
    (inb : ∀ a, off a + S16.size a ≤ S256.size a) :
    (sCT : Memref sig .scVector .vmem S256 .i32).view.readAt (Elt F) (Rect.unit (s := S256) off S16.size inb).toLoadRect g
      = vecAt (N := 256) (by decide) g r := by
  funext y
  rw [View.readAt_apply]
  simp only [Memref.view_whole, View.read_whole]
  exact congrFun (unit_idx_vecAt256 g r hr off hoff inb) y

omit [FloatOps F] in
/-- In the spelling of the program: the load at the literal offset `16 · r`. -/
example (g : IVec S256 32) :
    (sPT : Memref sig .scVector .vmem S256 .i32).view.readAt (Elt F) (Rect.unit (s := S256) ![16] S16.size inb_S256_S16_16).toLoadRect g
      = vecAt (N := 256) (by decide) g 1 := load_PT (F := F) g 1 (by decide) _ rfl _

end Cert.Proof.HistBits

end
-- ==== Proof.HistBLand2.lean ====
/-
  The row of sums read back, and which worker takes the last 256 entries.

  The tile's last copy writes its 4096 sums over row `w` of the sums' array; read back through the row's own view the
  row is what was written.  The block that consumes the last 256 entries is guarded by `2 · s + c = 31`, computed in
  32-bit words from the tile's coordinates: it runs on worker 31 alone.
-/
import proofs.«201955_g20547123544587_cont_8to1_184_16_alg».proof.Proof.HistBLand
import proofs.«201955_g20547123544587_cont_8to1_184_16_alg».proof.Proof.HistBPay

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- The guard of the last 256 entries' block holds on worker 31 alone. -/
theorem cond3_iff : ∀ L : grid0.Coords, k0_cond3 L = 1#1 ↔ wid L = 31 := by decide +kernel

omit [FloatOps F] in
/-- The row written whole reads back as what was written. -/
theorem row_landed (d : Dev nD) (L : grid0.Coords) (f0 : Buf (Elt F) (oLoc d)) (X : S4096.Idx → Elt F .f32) :
    (oRowK L).view.read (Elt F) ((oRowK L).view.writes (Elt F) f0 [⟨Rect.whole S4096, X⟩]) = X :=
  View.read_writes_whole (oRowK L).view f0 X

/-- The same when what was written is the 4096 sums of a table, read off the sums' scratch. -/
theorem row_landed' (d : Dev nD) (L : grid0.Coords) (f0 : Buf (Elt F) (oLoc d)) (fT : Vec F S65536 .f32) :
    (oRowK L).view.read (Elt F) ((oRowK L).view.writes (Elt F) f0
        [⟨Rect.whole S4096, ReadAs.same.apply (View.read (Elt F) (sO : Memref sig .scVector .vmem S4096 .f32).view (rowOfTab fT))⟩])
      = rowOfTab fT :=
  row_landed (F := F) d L f0 (rowOfTab fT)

end Cert.Proof.HistBits

end
-- ==== Proof.HistBLoops.lean ====
/-
  The two plain counted loops of a tile's body: clearing the table, and adding up its sixteen lane copies.

  Clearing: trip `t` stores the float zero word over cells `[16 · t, 16 · t + 16)`; after `t` trips every cell below
  `16 · t` is zero, and `16 · 4096` is the whole table.
  Adding up: trip `t` reads cells `[16 · t, 16 · t + 16)` of each of the sixteen lane copies (the table itself is never
  written) and stores their sum over cells `[16 · t, 16 · t + 16)` of the sums' buffer; after `t` trips every cell below
  `16 · t` of that buffer holds the sum of its sixteen copies, and `16 · 256` is the whole buffer.
-/
import proofs.«201955_g20547123544587_cont_8to1_184_16_alg».proof.Proof.HistBTab
import proofs.«201955_g20547123544587_cont_8to1_184_16_alg».proof.Proof.HistBTile
import Idealize.ShloMosaic.Lib.WritesUnit

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-! ## Clearing the table -/

/-- The clearing loop runs 4096 trips. -/
theorem t1_trips : k0_t1_loop.trips = 4096 := by decide

/-- One more trip of the clearing loop: a table whose cells below `16 · t` are zero, after the float zero word is
    stored over cells `[16 · t, 16 · t + 16)`, has its cells below `16 · (t + 1)` zero. -/
theorem zero_step (k : Fin k0_t1_loop.trips) (g : Vec F S65536 .f32)
    (hg : ∀ j : S65536.Idx, (j 0).val < 16 * k.val → g j = Scalar.ofBits .f32 0x00000000#32)
    (j : S65536.Idx) (hj : (j 0).val < 16 * (k.val + 1)) :
    (sH : Memref sig .scVector .vmem S65536 .f32).view.writes (Elt F) g
        [⟨Rect.unit (k0_off2 k) S16.size (k0_off2_inb k), k0_pay55 (F := F)⟩] j = Scalar.ofBits .f32 0x00000000#32 := by
  refine (View.read_writes_cons_unit (sH : Memref sig .scVector .vmem S65536 .f32).view g (k0_off2_inb k)
    (k0_pay55 (F := F)) [] j (k0_off2_eq k)).trans ?_
  split
  · rfl
  · next hc =>
    have hlt : (j 0).val < 16 * k.val := by
      by_contra hge
      apply hc
      intro a
      have ha : a = 0 := Subsingleton.elim _ _
      subst ha
      constructor
      · show 16 * k.val ≤ (j 0).val
        omega
      · show (j 0).val < 16 * k.val + 16
        omega
    exact hg j hlt

/-- While the table is being cleared: it is held whole, every cell below `16 · t` already zero. -/
def invZero (t : Nat) (_ : PUnit) : sProp 𝕄 :=
  iprop(∃ g : Vec F S65536 .f32, ((sH : Memref sig .scVector .vmem S65536 .f32).view.loc (V d (cT L) (jT L)) ↦{fullShare} g)
    ∗ ⌜∀ j : S65536.Idx, (j 0).val < 16 * t → g j = Scalar.ofBits .f32 0x00000000#32⌝)

/-- The clearing loop leaves the table cleared, whatever it held. -/
theorem zero_loop (f : Vec F S65536 .f32) :
    ((sH : Memref sig .scVector .vmem S65536 .f32).view.loc (V d (cT L) (jT L)) ↦{fullShare} f : sProp 𝕄)
      ⊢ wp frame (wpE (defs₀ (F := F)) 𝒱₀ (V d (cT L) (jT L)) none) Set.univ
          (Scf.Loop.for k0_t1_loop k0_t1_ok ⟨⟩ (k0_t1_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => (sH.view.loc (V d (cT L) (jT L)) ↦{fullShare} zeroTab (F := F)) := by
  iintro HH
  sl_for (invZero (F := F) d L) $$ [HH]
  case region =>
    intro k _
    unfold invZero
    iintro ⟨%g, Hg, %hg⟩
    sl_exec
    sl_step
    iexists _
    isplitl [Hg]
    · iexact Hg
    · ipureintro
      exact zero_step k g hg
  isplitl [HH]
  · unfold invZero
    iexists _
    isplitl [HH]
    · iexact HH
    · ipureintro
      intro j hj
      omega
  · iintro %_ HI
    unfold invZero
    icases HI with ⟨%g, Hg, %hg⟩
    have hz : g = zeroTab (F := F) := by
      funext j
      refine hg j ?_
      have h1 : (j 0).val < 65536 := (j 0).isLt
      have ht : Scf.trips k0_t1_loop.lb k0_t1_loop.ub k0_t1_loop.st = 4096 := t1_trips
      rw [ht]
      omega
    rw [hz]
    iexact Hg

/-! ## Adding up the lane copies -/

/-- The adding-up loop runs 256 trips. -/
theorem t5_trips : k0_t5_loop.trips = 256 := by decide

/-- A load of sixteen cells of the table from equal offsets reads the same, however the offsets are spelt. -/
theorem table_read_congr {off off' : Fin 1 → ℕ} (h : off = off') (p : ∀ a, off a + S16.size a ≤ S65536.size a)
    (p' : ∀ a, off' a + S16.size a ≤ S65536.size a) (f : Vec F S65536 .f32) :
    View.readAt (Elt F) (sH : Memref sig .scVector .vmem S65536 .f32).view (Rect.unit (s := S65536) off S16.size p).toLoadRect f
      = View.readAt (Elt F) (sH : Memref sig .scVector .vmem S65536 .f32).view (Rect.unit (s := S65536) off' S16.size p').toLoadRect f := by
  subst h; rfl

/-- At trip `t` the load of sixteen cells from `4096 · r + 16 · t` reads cells `[16 · t, 16 · t + 16)` of lane copy
    `r`: the last cell read is `4096 · 15 + 16 · 255 + 15`, inside the table. -/
theorem lane_read (k : Fin k0_t5_loop.trips) (r : ℕ) (hr : r < 16) (f : Vec F S65536 .f32) :
    View.readAt (Elt F) (sH : Memref sig .scVector .vmem S65536 .f32).view
        (Rect.unit (s := S65536) (k0_off7 k (BitVec.ofNat 32 (4096 * r))) S16.size (k0_off7_inb k ⟨r, hr⟩)).toLoadRect f
      = laneVec f r k.val := by
  have p' := k0_off7_inb k ⟨r, hr⟩
  rw [k0_off7_eq k ⟨r, hr⟩] at p'
  refine (table_read_congr (k0_off7_eq k ⟨r, hr⟩) (k0_off7_inb k ⟨r, hr⟩) p' f).trans ?_
  funext x
  rw [View.readAt_apply]
  show f _ = f _
  congr 1
  funext a
  have ha : a = 0 := Fin.fin_one_eq_zero a
  subst ha
  apply Fin.ext
  have hk : k.val < 256 := lt_of_lt_of_le k.isLt k0_t5_abs.2.1
  have hx : (x 0).val < 16 := (x 0).isLt
  show 4096 * r + 16 * k.val + 1 * (x 0).val = (4096 * r + 16 * k.val + (x 0).val) % 65536
  omega

/-- One more trip of the adding-up loop: a sums' buffer right below `16 · t`, after the sum of the sixteen lane copies'
    cells `[16 · t, 16 · t + 16)` is stored over its cells `[16 · t, 16 · t + 16)`, is right below `16 · (t + 1)`. -/
theorem red_step (k : Fin k0_t5_loop.trips) (f : Vec F S65536 .f32) (g' : Vec F S4096 .f32)
    (hg : ∀ b : S4096.Idx, (b 0).val < 16 * k.val → g' b = rowOfTab f b)
    (b : S4096.Idx) (hb : (b 0).val < 16 * (k.val + 1)) :
    (sO : Memref sig .scVector .vmem S4096 .f32).view.writes (Elt F) g'
        [⟨Rect.unit (k0_off8 k) S16.size (k0_off8_inb k), sumVec f k.val⟩] b = rowOfTab f b := by
  refine (View.read_writes_cons_unit (sO : Memref sig .scVector .vmem S4096 .f32).view g' (k0_off8_inb k)
    (sumVec f k.val) [] b (k0_off8_eq k)).trans ?_
  split
  · next hc =>
    have h0 := hc 0
    have h1 : 16 * k.val ≤ (b 0).val := h0.1
    have h2 : (b 0).val < 16 * k.val + 16 := h0.2
    have hd : (b 0).val / 16 = k.val := by omega
    unfold rowOfTab
    rw [hd]
    congr 1
    funext a
    have ha : a = 0 := Subsingleton.elim _ _
    subst ha
    apply Fin.ext
    show (b 0).val - 16 * k.val = (b 0).val % 16
    omega
  · next hc =>
    have hlt : (b 0).val < 16 * k.val := by
      by_contra hge
      apply hc
      intro a
      have ha : a = 0 := Subsingleton.elim _ _
      subst ha
      constructor
      · show 16 * k.val ≤ (b 0).val
        omega
      · show (b 0).val < 16 * k.val + 16
        omega
    exact hg b hlt

/-- The same with the stored vector given as the sum of sixteen vectors, each known to be a lane copy's cells. -/
theorem red_step' (k : Fin k0_t5_loop.trips) (f : Vec F S65536 .f32) (g' : Vec F S4096 .f32)
    (hg : ∀ b : S4096.Idx, (b 0).val < 16 * k.val → g' b = rowOfTab f b)
    (v0 v1 v2 v3 v4 v5 v6 v7 v8 v9 v10 v11 v12 v13 v14 v15 : Vec F S16 .f32)
    (h0 : v0 = laneVec f 0 k.val) (h1 : v1 = laneVec f 1 k.val) (h2 : v2 = laneVec f 2 k.val) (h3 : v3 = laneVec f 3 k.val) (h4 : v4 = laneVec f 4 k.val) (h5 : v5 = laneVec f 5 k.val) (h6 : v6 = laneVec f 6 k.val) (h7 : v7 = laneVec f 7 k.val) (h8 : v8 = laneVec f 8 k.val) (h9 : v9 = laneVec f 9 k.val) (h10 : v10 = laneVec f 10 k.val) (h11 : v11 = laneVec f 11 k.val) (h12 : v12 = laneVec f 12 k.val) (h13 : v13 = laneVec f 13 k.val) (h14 : v14 = laneVec f 14 k.val) (h15 : v15 = laneVec f 15 k.val)
    (b : S4096.Idx) (hb : (b 0).val < 16 * (k.val + 1)) :
    (sO : Memref sig .scVector .vmem S4096 .f32).view.writes (Elt F) g'
        [⟨Rect.unit (k0_off8 k) S16.size (k0_off8_inb k), k0_pay64 v0 v1 v2 v3 v4 v5 v6 v7 v8 v9 v10 v11 v12 v13 v14 v15⟩] b = rowOfTab f b := by
  subst h0 h1 h2 h3 h4 h5 h6 h7 h8 h9 h10 h11 h12 h13 h14 h15
  exact red_step k f g' hg b hb

/-- While the lane copies are being added up: the table is held whole and unchanged, the sums' buffer is held whole,
    every cell below `16 · t` already the sum of its sixteen copies. -/
def invRed (f : Vec F S65536 .f32) (t : Nat) (_ : PUnit) : sProp 𝕄 :=
  iprop(((sH : Memref sig .scVector .vmem S65536 .f32).view.loc (V d (cT L) (jT L)) ↦{fullShare} f)
    ∗ ∃ g' : Vec F S4096 .f32, ((sO : Memref sig .scVector .vmem S4096 .f32).view.loc (V d (cT L) (jT L)) ↦{fullShare} g')
      ∗ ⌜∀ b : S4096.Idx, (b 0).val < 16 * t → g' b = rowOfTab f b⌝)

/-- The adding-up loop leaves the table as it was and the sums' buffer at the table's 4096 sums, whatever it held. -/
theorem reduce_loop (f : Vec F S65536 .f32) (g : Vec F S4096 .f32) :
    iprop(((sH : Memref sig .scVector .vmem S65536 .f32).view.loc (V d (cT L) (jT L)) ↦{fullShare} f)
        ∗ ((sO : Memref sig .scVector .vmem S4096 .f32).view.loc (V d (cT L) (jT L)) ↦{fullShare} g))
      ⊢ (wp frame (wpE (defs₀ (F := F)) 𝒱₀ (V d (cT L) (jT L)) none) Set.univ
          (Scf.Loop.for k0_t5_loop k0_t5_ok ⟨⟩ (k0_t5_body L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2))
          fun _ => iprop((sH.view.loc (V d (cT L) (jT L)) ↦{fullShare} f) ∗ (sO.view.loc (V d (cT L) (jT L)) ↦{fullShare} rowOfTab f)) : sProp 𝕄) := by
  iintro ⟨HH, HO⟩
  sl_for (invRed (F := F) d L f) $$ [HH HO]
  case region =>
    intro k _
    unfold invRed
    iintro ⟨HH, %g', HO, %hg⟩
    sl_exec
    sl_step
    isplitl [HH]
    · iexact HH
    iexists _
    isplitl [HO]
    · iexact HO
    · ipureintro
      intro b hb
      refine red_step' k f g' hg _ _ _ _ _ _ _ _ _ _ _ _ _ _ _ _ ?h0 ?h1 ?h2 ?h3 ?h4 ?h5 ?h6 ?h7 ?h8 ?h9 ?h10 ?h11 ?h12 ?h13 ?h14 ?h15 b hb
      case h0 => exact lane_read k 0 (by decide) f
      case h1 => exact lane_read k 1 (by decide) f
      case h2 => exact lane_read k 2 (by decide) f
      case h3 => exact lane_read k 3 (by decide) f
      case h4 => exact lane_read k 4 (by decide) f
      case h5 => exact lane_read k 5 (by decide) f
      case h6 => exact lane_read k 6 (by decide) f
      case h7 => exact lane_read k 7 (by decide) f
      case h8 => exact lane_read k 8 (by decide) f
      case h9 => exact lane_read k 9 (by decide) f
      case h10 => exact lane_read k 10 (by decide) f
      case h11 => exact lane_read k 11 (by decide) f
      case h12 => exact lane_read k 12 (by decide) f
      case h13 => exact lane_read k 13 (by decide) f
      case h14 => exact lane_read k 14 (by decide) f
      case h15 => exact lane_read k 15 (by decide) f
  isplitl [HH HO]
  · unfold invRed
    isplitl [HH]
    · iexact HH
    iexists _
    isplitl [HO]
    · iexact HO
    · ipureintro
      intro b hb
      omega
  · iintro %_ HI
    unfold invRed
    icases HI with ⟨HH, %g', HO, %hg⟩
    have hz : g' = rowOfTab f := by
      funext b
      refine hg b ?_
      have h1 : (b 0).val < 4096 := (b 0).isLt
      have ht : Scf.trips k0_t5_loop.lb k0_t5_loop.ub k0_t5_loop.st = 256 := t5_trips
      rw [ht]
      omega
    rw [hz]
    isplitl [HH]
    · iexact HH
    · iexact HO

end Tile

end Cert.Proof.HistBits

end
-- ==== Proof.HistBBody.lean ====
/-
  One tile's task, run: from what the tile is handed to what it hands back.

  The tile is handed two read shares of each index array (one per chunk-buffer pair: two copies read an array at a time)
  and row `w` of the sums' array; it hands the same back, the row reading as the sums of its final table.  It clears its
  table, then for each of its twelve chunks waits for the chunk's two copies, adds the chunk's 651 vectors of transitions
  to the table and, while chunks remain, starts the copies of the chunk after next into the pair just freed; the last
  worker then does the same with the last 256 entries; at the end it adds the table's sixteen lane copies up and copies
  the 4096 sums out.  Every word it loads from a chunk buffer is a word of an index array, hence a tile number below 64,
  so every address it forms lies inside the table: the side conditions the body assumes before each indexed add hold.
-/
import proofs.«201955_g20547123544587_cont_8to1_184_16_alg».proof.Proof.HistBPay
import proofs.«201955_g20547123544587_cont_8to1_184_16_alg».proof.Proof.HistBLand2
import proofs.«201955_g20547123544587_cont_8to1_184_16_alg».proof.Proof.HistBLoops

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

/-- The two conditions of a chunk-loop trip (is there a chunk `2t + 2`, a chunk `2t + 3`, among the twelve?) hold
    exactly on the first five trips. -/
theorem cond_iff : ∀ t : Fin k0_t2_loop.trips, (k0_cond1 t = 1#1 ↔ t.val < 5) ∧ (k0_cond2 t = 1#1 ↔ t.val < 5) := by decide

/-! ## What a copy leaves in a chunk buffer: what it read, whatever the buffer held -/

theorem landedEq_P0 (g : Buf (Elt F) ((sP0 : Memref sig .scVector .vmem S10416 .i32).view.loc (V d (cT L) (jT L)))) (X c : S10416.Idx → Elt F .i32) (hX : X = c) (R : sProp 𝕄) :
    iprop(((sP0 : Memref sig .scVector .vmem S10416 .i32).view.loc (V d (cT L) (jT L)) ↦{fullShare} View.write (Elt F) sP0.view g X Finset.univ) ∗ R)
      ⊢ iprop((∃ g', ((sP0 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

theorem landedEq_C0 (g : Buf (Elt F) ((sC0 : Memref sig .scVector .vmem S10416 .i32).view.loc (V d (cT L) (jT L)))) (X c : S10416.Idx → Elt F .i32) (hX : X = c) (R : sProp 𝕄) :
    iprop(((sC0 : Memref sig .scVector .vmem S10416 .i32).view.loc (V d (cT L) (jT L)) ↦{fullShare} View.write (Elt F) sC0.view g X Finset.univ) ∗ R)
      ⊢ iprop((∃ g', ((sC0 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

theorem landedEq_P1 (g : Buf (Elt F) ((sP1 : Memref sig .scVector .vmem S10416 .i32).view.loc (V d (cT L) (jT L)))) (X c : S10416.Idx → Elt F .i32) (hX : X = c) (R : sProp 𝕄) :
    iprop(((sP1 : Memref sig .scVector .vmem S10416 .i32).view.loc (V d (cT L) (jT L)) ↦{fullShare} View.write (Elt F) sP1.view g X Finset.univ) ∗ R)
      ⊢ iprop((∃ g', ((sP1 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

theorem landedEq_C1 (g : Buf (Elt F) ((sC1 : Memref sig .scVector .vmem S10416 .i32).view.loc (V d (cT L) (jT L)))) (X c : S10416.Idx → Elt F .i32) (hX : X = c) (R : sProp 𝕄) :
    iprop(((sC1 : Memref sig .scVector .vmem S10416 .i32).view.loc (V d (cT L) (jT L)) ↦{fullShare} View.write (Elt F) sC1.view g X Finset.univ) ∗ R)
      ⊢ iprop((∃ g', ((sC1 : Memref sig .scVector .vmem S10416 .i32).view.loc (V d (cT L) (jT L)) ↦{fullShare} g') ∗ ⌜g' = c⌝) ∗ R) := by
  subst hX
  iintro ⟨H, HR⟩
  isplitl [H]
  · iexists _
    isplitl [H]; · iexact H
    ipureintro
    exact View.write_whole_univ _ _ _
  · iexact HR

omit [FloatOps F] in
/-- A wait at index `none` recorded beside admissible waits leaves them admissible. -/
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- Two more chunks: the table after chunks `2t` and `2t + 1` is the table after `2 (t + 1)` chunks. -/
theorem chunksTab_two (A B : IVec S4000000 32) (w t : ℕ) :
    chunksTab (F := F) A B w (2 * (t + 1))
      = chunkTab (chunkOf A w (2 * t + 1)) (chunkOf B w (2 * t + 1)) (chunkTab (chunkOf A w (2 * t)) (chunkOf B w (2 * t)) (chunksTab A B w (2 * t))) := rfl

/-- Chunk-buffer pair 0 is being filled with chunk `i`: each of its two copies is in flight, to deliver its buffer at
    chunk `i` of its index array and to give back the slice of the array it reads; the rest of that read share is kept
    aside. -/
def slotFly0 (i : ℕ) : sProp 𝕄 :=
  iprop((∃ S, Transfers.Flight countersEmb (V d (cT L) (jT L)) (SemLoc.dma cc0_scratch8.sem) default 333312
          (iprop((∃ g, ((sP0 : Memref sig .scVector .vmem S10416 .i32).view.loc (V d (cT L) (jT L)) ↦{fullShare} g) ∗ ⌜g = chunkOf (m (pLoc d)) (wid L) i⌝)
            ∗ ((pV : Memref sig .scVector .hbm S4000000 .i32).view.loc (V d (cT L) (jT L)) ↦[S]{Transfers.shareTok fullShare 64 (tokIx L 0)} m (pLoc d))))
        ∗ ((pV : Memref sig .scVector .hbm S4000000 .i32).view.loc (V d (cT L) (jT L)) ↦[Finset.univ \ S]{Transfers.shareTok fullShare 64 (tokIx L 0)} m (pLoc d)))
    ∗ (∃ S, Transfers.Flight countersEmb (V d (cT L) (jT L)) (SemLoc.dma cc0_scratch9.sem) default 333312
          (iprop((∃ g, ((sC0 : Memref sig .scVector .vmem S10416 .i32).view.loc (V d (cT L) (jT L)) ↦{fullShare} g) ∗ ⌜g = chunkOf (m (cLoc d)) (wid L) i⌝)
            ∗ ((cV' : Memref sig .scVector .hbm S4000000 .i32).view.loc (V d (cT L) (jT L)) ↦[S]{Transfers.shareTok fullShare 64 (tokIx L 0)} m (cLoc d))))
        ∗ ((cV' : Memref sig .scVector .hbm S4000000 .i32).view.loc (V d (cT L) (jT L)) ↦[Finset.univ \ S]{Transfers.shareTok fullShare 64 (tokIx L 0)} m (cLoc d))))

/-- The same for pair 1. -/
def slotFly1 (i : ℕ) : sProp 𝕄 :=
  iprop((∃ S, Transfers.Flight countersEmb (V d (cT L) (jT L)) (SemLoc.dma cc0_scratch10.sem) default 333312
          (iprop((∃ g, ((sP1 : Memref sig .scVector .vmem S10416 .i32).view.loc (V d (cT L) (jT L)) ↦{fullShare} g) ∗ ⌜g = chunkOf (m (pLoc d)) (wid L) i⌝)
            ∗ ((pV : Memref sig .scVector .hbm S4000000 .i32).view.loc (V d (cT L) (jT L)) ↦[S]{Transfers.shareTok fullShare 64 (tokIx L 1)} m (pLoc d))))
        ∗ ((pV : Memref sig .scVector .hbm S4000000 .i32).view.loc (V d (cT L) (jT L)) ↦[Finset.univ \ S]{Transfers.shareTok fullShare 64 (tokIx L 1)} m (pLoc d)))
    ∗ (∃ S, Transfers.Flight countersEmb (V d (cT L) (jT L)) (SemLoc.dma cc0_scratch11.sem) default 333312
          (iprop((∃ g, ((sC1 : Memref sig .scVector .vmem S10416 .i32).view.loc (V d (cT L) (jT L)) ↦{fullShare} g) ∗ ⌜g = chunkOf (m (cLoc d)) (wid L) i⌝)
            ∗ ((cV' : Memref sig .scVector .hbm S4000000 .i32).view.loc (V d (cT L) (jT L)) ↦[S]{Transfers.shareTok fullShare 64 (tokIx L 1)} m (cLoc d))))
        ∗ ((cV' : Memref sig .scVector .hbm S4000000 .i32).view.loc (V d (cT L) (jT L)) ↦[Finset.univ \ S]{Transfers.shareTok fullShare 64 (tokIx L 1)} m (cLoc d))))

/-- A chunk-buffer pair at rest: both buffers whole, both semaphores at zero, both read shares whole. -/
def slotIdle0 : sProp 𝕄 :=
  iprop((∃ g, (sP0 : Memref sig .scVector .vmem S10416 .i32).view.loc (V d (cT L) (jT L)) ↦{fullShare} g)
    ∗ (∃ g, (sC0 : Memref sig .scVector .vmem S10416 .i32).view.loc (V d (cT L) (jT L)) ↦{fullShare} g)
    ∗ semVal ((V d (cT L) (jT L)), SemLoc.dma cc0_scratch8.sem) 0 ∗ semVal ((V d (cT L) (jT L)), SemLoc.dma cc0_scratch9.sem) 0
    ∗ pTok m d L 0 ∗ cTok m d L 0)
def slotIdle1 : sProp 𝕄 :=
  iprop((∃ g, (sP1 : Memref sig .scVector .vmem S10416 .i32).view.loc (V d (cT L) (jT L)) ↦{fullShare} g)
    ∗ (∃ g, (sC1 : Memref sig .scVector .vmem S10416 .i32).view.loc (V d (cT L) (jT L)) ↦{fullShare} g)
    ∗ semVal ((V d (cT L) (jT L)), SemLoc.dma cc0_scratch10.sem) 0 ∗ semVal ((V d (cT L) (jT L)), SemLoc.dma cc0_scratch11.sem) 0
    ∗ pTok m d L 1 ∗ cTok m d L 1)

/-- Before trip `t` of the chunk loop: the table holds the first `2t` chunks' counts; chunks `2t` and `2t + 1` are on
    their way (after the last trip nothing is); what the tile owes, with its waits recorded. -/
def invC (O : CellTallies nD τ sig (HIx 1)) (W : Waits sig (HIx 1)) (t : Nat) (_ : PUnit) : sProp 𝕄 :=
  iprop(Transfers.MayWaits (V d (cT L) (jT L)) (none : HIx 1) O
    ∗ ((sH : Memref sig .scVector .vmem S65536 .f32).view.loc (V d (cT L) (jT L)) ↦{fullShare} chunksTab (F := F) (m (pLoc d)) (m (cLoc d)) (wid L) (2 * t))
    ∗ (if t < 6 then iprop(slotFly0 m d L (2 * t) ∗ slotFly1 m d L (2 * t + 1)) else iprop(slotIdle0 m d L ∗ slotIdle1 m d L))
    ∗ ∃ W', ⌜∀ p ∈ W', p ∈ W ∨ p.2 = none⌝ ∗ owes (V d (cT L) (jT L)) O W')

/-- What the final copy leaves in the output row reads back as the sums it copied: the sums of the worker's final table. -/
theorem row_core (T : Vec F S65536 .f32) (hT : finalTab (F := F) (m (pLoc d)) (m (cLoc d)) (wid L) = T)
    (X : S4096.Idx → Elt F .f32) (hX : X = rowOfTab T) :
    RowHolds m d L ((oRowK L).view.writes (Elt F) (m (oLoc d)) [⟨Rect.whole S4096, X⟩]) := by
  subst hX
  subst hT
  unfold RowHolds
  exact row_landed (F := F) d L _ _

omit [FloatOps F] in
/-- A buffer of the last entries' pair after the copy that filled it holds what the copy read. -/
theorem landed_PT (fPT X : S256.Idx → Elt F .i32) :
    View.write (Elt F) (sPT : Memref sig .scVector .vmem S256 .i32).view fPT X Finset.univ = X :=
  View.write_whole_univ (cc0_scratch5 : Ref sig .scVector) fPT X
omit [FloatOps F] in
theorem landed_CT (fCT Y : S256.Idx → Elt F .i32) :
    View.write (Elt F) (sCT : Memref sig .scVector .vmem S256 .i32).view fCT Y Finset.univ = Y :=
  View.write_whole_univ (cc0_scratch6 : Ref sig .scVector) fCT Y

omit [FloatOps F] in
/-- The cells named by a pair of vectors loaded from the last entries' buffers, once the copies have filled them with
    tile numbers, lie inside the table. -/
theorem inB_landed (fPT fCT X Y : S256.Idx → Elt F .i32) (hX : Tiles X) (hY : Tiles Y) (offP offC : Fin S256.rank → ℕ)
    (inbP : ∀ a, offP a + S16.size a ≤ S256.size a) (inbC : ∀ a, offC a + S16.size a ≤ S256.size a) :
    InB (addr ((sPT : Memref sig .scVector .vmem S256 .i32).view.readAt (Elt F) (Rect.unit (s := S256) offP S16.size inbP).toLoadRect
          (View.write (Elt F) (sPT : Memref sig .scVector .vmem S256 .i32).view fPT X Finset.univ))
        ((sCT : Memref sig .scVector .vmem S256 .i32).view.readAt (Elt F) (Rect.unit (s := S256) offC S16.size inbC).toLoadRect
          (View.write (Elt F) (sCT : Memref sig .scVector .vmem S256 .i32).view fCT Y Finset.univ))) := by
  rw [landed_PT, landed_CT]
  exact inB_addr (fun y => hX _) (fun y => hY _)

/-- One indexed add of the last entries: vector `n` of the pair of buffers, loaded after the copies that filled them,
    takes the table from `tabN … n` to `tabN … (n + 1)`. -/
theorem scatter_tail {α : Type} (fPT fCT X Y : S256.Idx → Elt F .i32) (gP gC : IVec S256 32) (hX : X = gP) (hY : Y = gC)
    (f : Vec F S65536 .f32) (n n' : ℕ) (hn : n' = n + 1) (hn16 : n < 16)
    (offP offC : Fin S256.rank → ℕ) (hoffP : offP = ![16 * n]) (hoffC : offC = ![16 * n])
    (inbP : ∀ a, offP a + S16.size a ≤ S256.size a) (inbC : ∀ a, offC a + S16.size a ≤ S256.size a)
    (a : IVec S16 32)
    (ha : a = addr ((sPT : Memref sig .scVector .vmem S256 .i32).view.readAt (Elt F) (Rect.unit (s := S256) offP S16.size inbP).toLoadRect
          (View.write (Elt F) (sPT : Memref sig .scVector .vmem S256 .i32).view fPT X Finset.univ))
        ((sCT : Memref sig .scVector .vmem S256 .i32).view.readAt (Elt F) (Rect.unit (s := S256) offC S16.size inbC).toLoadRect
          (View.write (Elt F) (sCT : Memref sig .scVector .vmem S256 .i32).view fCT Y Finset.univ)))
    (h : ∀ (x : Fin 1) (y : S16.Idx), ((![a] : Fin 1 → IVec S16 32) x y).toNat < S65536.size x)
    (hs : ((sH : Memref sig .scVector .vmem S65536 .f32).access (.whole S65536)).Stores Finset.univ)
    (k : PUnit → Prog (TpuEff nD τ sig (Elt F) Λ₀ (.scVector (cT L) (jT L))) α) (Q : α → sProp 𝕄) :
    ((sH : Memref sig .scVector .vmem S65536 .f32).view.loc (V d (cT L) (jT L)) ↦{fullShare} tabN (N := 256) (by decide) gP gC f n : sProp 𝕄)
      ⊢ iprop((((sH : Memref sig .scVector .vmem S65536 .f32).view.loc (V d (cT L) (jT L)) ↦{fullShare} tabN (N := 256) (by decide) gP gC f n')
            -∗ wp frame (wpE (defs₀ (F := F)) 𝒱₀ (V d (cT L) (jT L)) none) Set.univ (k ⟨⟩) Q)
        -∗ wp frame (wpE (defs₀ (F := F)) 𝒱₀ (V d (cT L) (jT L)) none) Set.univ
            (SparseCore.vectorStoreIdx sH ![a] (k0_pay54 (F := F)) (fun _ => 1#1) true h hs >>= k) Q) := by
  subst hX; subst hY
  refine scatter_tab256 d L X Y f n n' hn _ _ a ?_ ?_ ha h hs k Q
  · rw [landed_PT]; exact load_PT (F := F) X n hn16 offP hoffP inbP
  · rw [landed_CT]; exact load_CT (F := F) Y n hn16 offC hoffC inbC

/-- The tile's task, run. -/
theorem tile_body (hF : (K (F := F)).Facts)
    (hr : ∀ k, (m (pLoc d) k).toNat < 64 ∧ (m (cLoc d) k).toNat < 64)
    (O : CellTallies nD τ sig (HIx 1)) (W : Waits sig (HIx 1)) (hO : ∀ g, O g none = 0) :
    iprop(levAts (K (F := F)).L (K (F := F)).lev ∗ emp ∗ goRes m d L
        ∗ scopedBufs (V d (cT L) (jT L)) ∗ scopedSems0 (V d (cT L) (jT L)) ∗ owes (V d (cT L) (jT L)) O W)
      ⊢ wp frame (wpE (defs₀ (F := F)) 𝒱₀ (V d (cT L) (jT L)) none) Set.univ
          (cc0_hist_kernel L pV (Memref.isWhole_whole _) cV' (Memref.isWhole_whole _) oV (Memref.isWhole_whole _) sH (Memref.isWhole_whole _) sP0 (Memref.isWhole_whole _) sC0 (Memref.isWhole_whole _) sP1 (Memref.isWhole_whole _) sC1 (Memref.isWhole_whole _) sPT (Memref.isWhole_whole _) sCT (Memref.isWhole_whole _) sO (Memref.isWhole_whole _) cc0_scratch8 cc0_scratch9 cc0_scratch10 cc0_scratch11 cc0_scoped0 cc0_scoped1 cc0_scoped2)
          fun _ => iprop(tdRes m (fun d L f => RowHolds m d L f) d L
            ∗ scopedBufs (V d (cT L) (jT L)) ∗ scopedSems0 (V d (cT L) (jT L))
            ∗ ∃ W', ⌜∀ p ∈ W', p ∈ W ∨ p.2 = none⌝ ∗ owes (V d (cT L) (jT L)) O W') := by
  unfold goRes tdRes
  sl_unfold [cc0_hist_kernel, cc0_hist_kernel_skel]
  rw [wp_bind]
  sl_unfold [k0_part15, k0_part15_skel]
  rw [(K (F := F)).scopedBufs_V hF d (cT L) (jT L), SparseCore.Cfg.scopedSems0_V (Val := Elt F) d (cT L) (jT L), ownSems0_V', ownBufs_V']
  iintro ⟨#Hlv, -, ⟨Hp0, Hp1, Hc0, Hc1, Ho⟩,
    ⟨⟨⟨%fH, HH⟩, ⟨%fP0, HP0⟩, ⟨%fC0, HC0⟩, ⟨%fP1, HP1⟩, ⟨%fC1, HC1⟩, ⟨%fPT, HPT⟩, ⟨%fCT, HCT⟩, ⟨%fO, HOb⟩⟩, Hbufs⟩,
    ⟨⟨Hs0, Hs1, Hs2, Hs3, Hs4, Hs5, Hs6⟩, Hsems⟩, HOw⟩
  ihave Hmw := ((K (F := F)).mayWaits_none (thr := (V d (cT L) (jT L))) hO) $$ Hlv
  sl_exec
  -- the table is cleared
  rw [wp_bind]
  iapply (wp_wand_r frame _ _)
  isplitl [HH]
  · iapply (zero_loop (F := F) d L fH)
    iexact HH
  iintro %_ HH
  sl_exec
  sl_for (invC (F := F) m d L O W) $$ [Hmw HH Hs0 Hp0 Hs1 Hc0 Hs2 Hp1 Hs3 Hc1 HOw]
  case region =>
    intro t _
    have ht : t.val < 6 := lt_of_lt_of_le t.isLt k0_t2_abs.2.1
    have hc := cond_iff t
    by_cases h5 : t.val < 5
    · have h1 : k0_cond1 t = 1#1 := hc.1.mpr h5
      have h2 : k0_cond2 t = 1#1 := hc.2.mpr h5
      unfold invC
      rw [if_pos ht]
      unfold slotFly0 slotFly1
      iintro ⟨#Hmw, HH, ⟨⟨⟨%SP0, HfP0, HrP0⟩, ⟨%SC0, HfC0, HrC0⟩⟩, ⟨⟨%SP1, HfP1, HrP1⟩, ⟨%SC1, HfC1, HrC1⟩⟩⟩, %W', %hW', HOw⟩
      sl_exec
      icases HfP0_dst with ⟨%gP0, HP0, %hgP0⟩
      icases HfC0_dst with ⟨%gC0, HC0, %hgC0⟩
      subst hgP0 hgC0
      rw [wp_bind]
      iapply (wp_wand_r frame _ _)
      isplitl [HP0 HC0 HH]
      · iapply (process0 (F := F) d L _ _ _ (tiles_chunkOf (fun k => (hr k).1) _ _) (tiles_chunkOf (fun k => (hr k).2) _ _))
        isplitl [HP0]; · iexact HP0
        isplitl [HC0]; · iexact HC0
        iexact HH
      iintro %_ ⟨HP0, HC0, HH⟩
      sl_exec
      icases HfP1_dst with ⟨%gP1, HP1, %hgP1⟩
      icases HfC1_dst with ⟨%gC1, HC1, %hgC1⟩
      subst hgP1 hgC1
      rw [wp_bind]
      iapply (wp_wand_r frame _ _)
      isplitl [HP1 HC1 HH]
      · iapply (process1 (F := F) d L _ _ _ (tiles_chunkOf (fun k => (hr k).1) _ _) (tiles_chunkOf (fun k => (hr k).2) _ _))
        isplitl [HP1]; · iexact HP1
        isplitl [HC1]; · iexact HC1
        iexact HH
      iintro %_ ⟨HP1, HC1, HH⟩
      sl_exec
      sl_step
      rw [if_pos (show t.val + 1 < 6 by omega), chunksTab_two]
      isplitr; · iexact Hmw
      isplitl [HH]; · iexact HH
      isplitl [HfP0 HrP0 HfC0 HrC0 HfP1 HrP1 HfC1 HrC1]
      · isplitl [HfP0 HrP0 HfC0 HrC0]
        · isplitl [HfP0 HrP0]
          · iexists _
            isplitl [HfP0]
            · iapply (Transfers.Flight_mono _ _ ?hlP0) $$ HfP0
              case hlP0 => exact landedEq_P0 d L _ _ _ (chunk_read_even (F := F) L t _ _) _
            · iexact HrP0
          · iexists _
            isplitl [HfC0]
            · iapply (Transfers.Flight_mono _ _ ?hlC0) $$ HfC0
              case hlC0 => exact landedEq_C0 d L _ _ _ (chunk_read_even_c (F := F) L t _ _) _
            · iexact HrC0
        · isplitl [HfP1 HrP1]
          · iexists _
            isplitl [HfP1]
            · iapply (Transfers.Flight_mono _ _ ?hlP1) $$ HfP1
              case hlP1 => exact landedEq_P1 d L _ _ _ (chunk_read_odd (F := F) L t _ _) _
            · iexact HrP1
          · iexists _
            isplitl [HfC1]
            · iapply (Transfers.Flight_mono _ _ ?hlC1) $$ HfC1
              case hlC1 => exact landedEq_C1 d L _ _ _ (chunk_read_odd_c (F := F) L t _ _) _
            · iexact HrC1
      iexists _; isplitr
      swap
      · iexact HOw
      · ipureintro; exact waits_ok (waits_ok (waits_ok (waits_ok hW' _) _) _) _
    · have h1 : ¬ k0_cond1 t = 1#1 := fun h => h5 (hc.1.mp h)
      have h2 : ¬ k0_cond2 t = 1#1 := fun h => h5 (hc.2.mp h)
      unfold invC
      rw [if_pos ht]
      unfold slotFly0 slotFly1
      iintro ⟨#Hmw, HH, ⟨⟨⟨%SP0, HfP0, HrP0⟩, ⟨%SC0, HfC0, HrC0⟩⟩, ⟨⟨%SP1, HfP1, HrP1⟩, ⟨%SC1, HfC1, HrC1⟩⟩⟩, %W', %hW', HOw⟩
      sl_exec
      icases HfP0_dst with ⟨%gP0, HP0, %hgP0⟩
      icases HfC0_dst with ⟨%gC0, HC0, %hgC0⟩
      subst hgP0 hgC0
      rw [wp_bind]
      iapply (wp_wand_r frame _ _)
      isplitl [HP0 HC0 HH]
      · iapply (process0 (F := F) d L _ _ _ (tiles_chunkOf (fun k => (hr k).1) _ _) (tiles_chunkOf (fun k => (hr k).2) _ _))
        isplitl [HP0]; · iexact HP0
        isplitl [HC0]; · iexact HC0
        iexact HH
      iintro %_ ⟨HP0, HC0, HH⟩
      sl_exec
      icases HfP1_dst with ⟨%gP1, HP1, %hgP1⟩
      icases HfC1_dst with ⟨%gC1, HC1, %hgC1⟩
      subst hgP1 hgC1
      rw [wp_bind]
      iapply (wp_wand_r frame _ _)
      isplitl [HP1 HC1 HH]
      · iapply (process1 (F := F) d L _ _ _ (tiles_chunkOf (fun k => (hr k).1) _ _) (tiles_chunkOf (fun k => (hr k).2) _ _))
        isplitl [HP1]; · iexact HP1
        isplitl [HC1]; · iexact HC1
        iexact HH
      iintro %_ ⟨HP1, HC1, HH⟩
      sl_exec
      sl_step
      rw [if_neg (show ¬ (t.val + 1 < 6) by omega), chunksTab_two]
      unfold slotIdle0 slotIdle1
      isplitr; · iexact Hmw
      isplitl [HH]; · iexact HH
      isplitl [HP0 HC0 HfP0 HfC0 HrP0 HrC0 HP1 HC1 HfP1 HfC1 HrP1 HrC1]
      · isplitl [HP0 HC0 HfP0 HfC0 HrP0 HrC0]
        · isplitl [HP0]; · iexists _; iexact HP0
          isplitl [HC0]; · iexists _; iexact HC0
          isplitl [HfP0]; · iexact HfP0
          isplitl [HfC0]; · iexact HfC0
          isplitl [HrP0]; · iexact HrP0
          iexact HrC0
        · isplitl [HP1]; · iexists _; iexact HP1
          isplitl [HC1]; · iexists _; iexact HC1
          isplitl [HfP1]; · iexact HfP1
          isplitl [HfC1]; · iexact HfC1
          isplitl [HrP1]; · iexact HrP1
          iexact HrC1
      iexists _; isplitr
      swap
      · iexact HOw
      · ipureintro; exact waits_ok (waits_ok (waits_ok (waits_ok hW' _) _) _) _
  · unfold invC
    rw [if_pos (show (0 : ℕ) < 6 by decide)]
    unfold slotFly0 slotFly1
    isplitr; · iexact Hmw
    isplitl [HH]; · iexact HH
    isplitl [Hs0 Hp0 Hs1 Hc0 Hs2 Hp1 Hs3 Hc1]
    · isplitl [Hs0 Hp0 Hs1 Hc0]
      · isplitl [Hs0 Hp0]
        · iexists _
          isplitl [Hs0]
          · iapply (Transfers.Flight_mono _ _ ?hlP0) $$ Hs0
            case hlP0 => exact landedEq_P0 d L _ _ _ (chunk_read_first0 (F := F) L _) _
          · iexact Hp0
        · iexists _
          isplitl [Hs1]
          · iapply (Transfers.Flight_mono _ _ ?hlC0) $$ Hs1
            case hlC0 => exact landedEq_C0 d L _ _ _ (chunk_read_first0_c (F := F) L _) _
          · iexact Hc0
      · isplitl [Hs2 Hp1]
        · iexists _
          isplitl [Hs2]
          · iapply (Transfers.Flight_mono _ _ ?hlP1) $$ Hs2
            case hlP1 => exact landedEq_P1 d L _ _ _ (chunk_read_first1 (F := F) L _) _
          · iexact Hp1
        · iexists _
          isplitl [Hs3]
          · iapply (Transfers.Flight_mono _ _ ?hlC1) $$ Hs3
            case hlC1 => exact landedEq_C1 d L _ _ _ (chunk_read_first1_c (F := F) L _) _
          · iexact Hc1
    iexists W; isplitr
    · ipureintro; exact fun p hp => .inl hp
    · iexact HOw
  iintro %_ HI
  unfold invC
  rw [if_neg (show ¬ (Scf.trips k0_t2_loop.lb k0_t2_loop.ub k0_t2_loop.st < 6) by decide),
    show 2 * Scf.trips k0_t2_loop.lb k0_t2_loop.ub k0_t2_loop.st = 12 by decide]
  unfold slotIdle0 slotIdle1
  icases HI with ⟨-, HH, ⟨⟨⟨%gP0, HP0⟩, ⟨%gC0, HC0⟩, Hs0, Hs1, Hp0, Hc0⟩, ⟨⟨%gP1, HP1⟩, ⟨%gC1, HC1⟩, Hs2, Hs3, Hp1, Hc1⟩⟩, %W', %hW', HOw⟩
  by_cases h3 : k0_cond3 L = 1#1
  · have hw : wid L = 31 := (cond3_iff L).mp h3
    have hTP : Tiles (tailOf (m (pLoc d))) := tiles_tailOf (fun k => (hr k).1)
    have hTC : Tiles (tailOf (m (cLoc d))) := tiles_tailOf (fun k => (hr k).2)
    -- the two copies of the last 256 entries, and the loads
    sl_exec
    have eP : tile_body.sl.dma0_8 (F := F) m d = tailOf (m (pLoc d)) := tail_read (F := F) _ _
    have eC : tile_body.sl.dma0_9 (F := F) m d = tailOf (m (cLoc d)) := tail_read_c (F := F) _ _
    have hX : Tiles (tile_body.sl.dma0_8 (F := F) m d) := eP ▸ hTP
    have hY : Tiles (tile_body.sl.dma0_9 (F := F) m d) := eC ▸ hTC
    sl_exec (disch := exact fun _ => inB_landed _ _ _ _ hX hY _ _ _ _)
    ihave HH := (Entails.of_eq (show ((sH : Memref sig .scVector .vmem S65536 .f32).view.loc (V d (cT L) (jT L)) ↦{fullShare}
          chunksTab (F := F) (m (pLoc d)) (m (cLoc d)) (wid L) 12 : sProp 𝕄)
        = ((sH : Memref sig .scVector .vmem S65536 .f32).view.loc (V d (cT L) (jT L)) ↦{fullShare}
          tabN (N := 256) (by decide) (tailOf (m (pLoc d))) (tailOf (m (cLoc d))) (chunksTab (F := F) (m (pLoc d)) (m (cLoc d)) (wid L) 12) 0) from rfl)) $$ HH
    -- vector 0 of the last entries
    iapply (scatter_tail d L _ _ _ _ _ _ eP eC (chunksTab (F := F) (m (pLoc d)) (m (cLoc d)) (wid L) 12) 0 1 (by omega) (by decide) _ _ rfl rfl _ _ _ rfl _ _ _ _) $$ HH
    iintro HH
    sl_exec (disch := exact fun _ => inB_landed _ _ _ _ hX hY _ _ _ _)
    -- vector 1 of the last entries
    iapply (scatter_tail d L _ _ _ _ _ _ eP eC (chunksTab (F := F) (m (pLoc d)) (m (cLoc d)) (wid L) 12) 1 2 (by omega) (by decide) _ _ rfl rfl _ _ _ rfl _ _ _ _) $$ HH
    iintro HH
    sl_exec (disch := exact fun _ => inB_landed _ _ _ _ hX hY _ _ _ _)
    -- vector 2 of the last entries
    iapply (scatter_tail d L _ _ _ _ _ _ eP eC (chunksTab (F := F) (m (pLoc d)) (m (cLoc d)) (wid L) 12) 2 3 (by omega) (by decide) _ _ rfl rfl _ _ _ rfl _ _ _ _) $$ HH
    iintro HH
    sl_exec (disch := exact fun _ => inB_landed _ _ _ _ hX hY _ _ _ _)
    -- vector 3 of the last entries
    iapply (scatter_tail d L _ _ _ _ _ _ eP eC (chunksTab (F := F) (m (pLoc d)) (m (cLoc d)) (wid L) 12) 3 4 (by omega) (by decide) _ _ rfl rfl _ _ _ rfl _ _ _ _) $$ HH
    iintro HH
    sl_exec (disch := exact fun _ => inB_landed _ _ _ _ hX hY _ _ _ _)
    -- vector 4 of the last entries
    iapply (scatter_tail d L _ _ _ _ _ _ eP eC (chunksTab (F := F) (m (pLoc d)) (m (cLoc d)) (wid L) 12) 4 5 (by omega) (by decide) _ _ rfl rfl _ _ _ rfl _ _ _ _) $$ HH
    iintro HH
    sl_exec (disch := exact fun _ => inB_landed _ _ _ _ hX hY _ _ _ _)
    -- vector 5 of the last entries
    iapply (scatter_tail d L _ _ _ _ _ _ eP eC (chunksTab (F := F) (m (pLoc d)) (m (cLoc d)) (wid L) 12) 5 6 (by omega) (by decide) _ _ rfl rfl _ _ _ rfl _ _ _ _) $$ HH
    iintro HH
    sl_exec (disch := exact fun _ => inB_landed _ _ _ _ hX hY _ _ _ _)
    -- vector 6 of the last entries
    iapply (scatter_tail d L _ _ _ _ _ _ eP eC (chunksTab (F := F) (m (pLoc d)) (m (cLoc d)) (wid L) 12) 6 7 (by omega) (by decide) _ _ rfl rfl _ _ _ rfl _ _ _ _) $$ HH
    iintro HH
    sl_exec (disch := exact fun _ => inB_landed _ _ _ _ hX hY _ _ _ _)
    -- vector 7 of the last entries
    iapply (scatter_tail d L _ _ _ _ _ _ eP eC (chunksTab (F := F) (m (pLoc d)) (m (cLoc d)) (wid L) 12) 7 8 (by omega) (by decide) _ _ rfl rfl _ _ _ rfl _ _ _ _) $$ HH
    iintro HH
    sl_exec (disch := exact fun _ => inB_landed _ _ _ _ hX hY _ _ _ _)
    -- vector 8 of the last entries
    iapply (scatter_tail d L _ _ _ _ _ _ eP eC (chunksTab (F := F) (m (pLoc d)) (m (cLoc d)) (wid L) 12) 8 9 (by omega) (by decide) _ _ rfl rfl _ _ _ rfl _ _ _ _) $$ HH
    iintro HH
    sl_exec (disch := exact fun _ => inB_landed _ _ _ _ hX hY _ _ _ _)
    -- vector 9 of the last entries
    iapply (scatter_tail d L _ _ _ _ _ _ eP eC (chunksTab (F := F) (m (pLoc d)) (m (cLoc d)) (wid L) 12) 9 10 (by omega) (by decide) _ _ rfl rfl _ _ _ rfl _ _ _ _) $$ HH
    iintro HH
    sl_exec (disch := exact fun _ => inB_landed _ _ _ _ hX hY _ _ _ _)
    -- vector 10 of the last entries
    iapply (scatter_tail d L _ _ _ _ _ _ eP eC (chunksTab (F := F) (m (pLoc d)) (m (cLoc d)) (wid L) 12) 10 11 (by omega) (by decide) _ _ rfl rfl _ _ _ rfl _ _ _ _) $$ HH
    iintro HH
    sl_exec (disch := exact fun _ => inB_landed _ _ _ _ hX hY _ _ _ _)
    -- vector 11 of the last entries
    iapply (scatter_tail d L _ _ _ _ _ _ eP eC (chunksTab (F := F) (m (pLoc d)) (m (cLoc d)) (wid L) 12) 11 12 (by omega) (by decide) _ _ rfl rfl _ _ _ rfl _ _ _ _) $$ HH
    iintro HH
    sl_exec (disch := exact fun _ => inB_landed _ _ _ _ hX hY _ _ _ _)
    -- vector 12 of the last entries
    iapply (scatter_tail d L _ _ _ _ _ _ eP eC (chunksTab (F := F) (m (pLoc d)) (m (cLoc d)) (wid L) 12) 12 13 (by omega) (by decide) _ _ rfl rfl _ _ _ rfl _ _ _ _) $$ HH
    iintro HH
    sl_exec (disch := exact fun _ => inB_landed _ _ _ _ hX hY _ _ _ _)
    -- vector 13 of the last entries
    iapply (scatter_tail d L _ _ _ _ _ _ eP eC (chunksTab (F := F) (m (pLoc d)) (m (cLoc d)) (wid L) 12) 13 14 (by omega) (by decide) _ _ rfl rfl _ _ _ rfl _ _ _ _) $$ HH
    iintro HH
    sl_exec (disch := exact fun _ => inB_landed _ _ _ _ hX hY _ _ _ _)
    -- vector 14 of the last entries
    iapply (scatter_tail d L _ _ _ _ _ _ eP eC (chunksTab (F := F) (m (pLoc d)) (m (cLoc d)) (wid L) 12) 14 15 (by omega) (by decide) _ _ rfl rfl _ _ _ rfl _ _ _ _) $$ HH
    iintro HH
    sl_exec (disch := exact fun _ => inB_landed _ _ _ _ hX hY _ _ _ _)
    -- vector 15 of the last entries
    iapply (scatter_tail d L _ _ _ _ _ _ eP eC (chunksTab (F := F) (m (pLoc d)) (m (cLoc d)) (wid L) 12) 15 16 (by omega) (by decide) _ _ rfl rfl _ _ _ rfl _ _ _ _) $$ HH
    iintro HH
    sl_exec (disch := exact fun _ => inB_landed _ _ _ _ hX hY _ _ _ _)
    -- the lane copies added up, the sums copied out
    rw [wp_bind]
    iapply (wp_wand_r frame _ _)
    isplitl [HH HOb]
    · iapply (reduce_loop (F := F) d L _ fO)
      isplitl [HH]; · iexact HH
      iexact HOb
    iintro %_ ⟨HH, HOb⟩
    sl_exec
    sl_step
    have hrow := row_core m d L _ (by unfold finalTab; rw [if_pos hw]) _ rfl
    isplitl [Hp0 Hp1 Hc0 Hc1 Ho]
    · isplitl [Hp0]; · iexact Hp0
      isplitl [Hp1]; · iexact Hp1
      isplitl [Hc0]; · iexact Hc0
      isplitl [Hc1]; · iexact Hc1
      iexists _
      isplitl [Ho]; · iexact Ho
      ipureintro
      exact hrow
    isplitl [HH HP0 HC0 HP1 HC1 HPT HCT HOb Hbufs]
    · isplitl [HH HP0 HC0 HP1 HC1 HPT HCT HOb]
      · isplitl [HH]; · iexists _; iexact HH
        isplitl [HP0]; · iexists _; iexact HP0
        isplitl [HC0]; · iexists _; iexact HC0
        isplitl [HP1]; · iexists _; iexact HP1
        isplitl [HC1]; · iexists _; iexact HC1
        isplitl [HPT]; · iexists _; iexact HPT
        isplitl [HCT]; · iexists _; iexact HCT
        iexists _; iexact HOb
      · iexact Hbufs
    isplitl [Hs0 Hs1 Hs2 Hs3 Hs4 Hs5 Hs6 Hsems]
    · isplitl [Hs0 Hs1 Hs2 Hs3 Hs4 Hs5 Hs6]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexact Hs6
      · iexact Hsems
    iexists _; isplitr
    swap
    · iexact HOw
    · ipureintro; exact waits_ok (waits_ok (waits_ok hW' _) _) _
  · have hw : wid L ≠ 31 := fun h => h3 ((cond3_iff L).mpr h)
    sl_exec
    rw [wp_bind]
    iapply (wp_wand_r frame _ _)
    isplitl [HH HOb]
    · iapply (reduce_loop (F := F) d L _ fO)
      isplitl [HH]; · iexact HH
      iexact HOb
    iintro %_ ⟨HH, HOb⟩
    sl_exec
    sl_step
    have hrow := row_core m d L _ (by unfold finalTab; rw [if_neg hw]) _ rfl
    isplitl [Hp0 Hp1 Hc0 Hc1 Ho]
    · isplitl [Hp0]; · iexact Hp0
      isplitl [Hp1]; · iexact Hp1
      isplitl [Hc0]; · iexact Hc0
      isplitl [Hc1]; · iexact Hc1
      iexists _
      isplitl [Ho]; · iexact Ho
      ipureintro
      exact hrow
    isplitl [HH HP0 HC0 HP1 HC1 HPT HCT HOb Hbufs]
    · isplitl [HH HP0 HC0 HP1 HC1 HPT HCT HOb]
      · isplitl [HH]; · iexists _; iexact HH
        isplitl [HP0]; · iexists _; iexact HP0
        isplitl [HC0]; · iexists _; iexact HC0
        isplitl [HP1]; · iexists _; iexact HP1
        isplitl [HC1]; · iexists _; iexact HC1
        isplitl [HPT]; · iexists _; iexact HPT
        isplitl [HCT]; · iexists _; iexact HCT
        iexists _; iexact HOb
      · iexact Hbufs
    isplitl [Hs0 Hs1 Hs2 Hs3 Hs4 Hs5 Hs6 Hsems]
    · isplitl [Hs0 Hs1 Hs2 Hs3 Hs4 Hs5 Hs6]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexact Hs6
      · iexact Hsems
    iexists _; isplitr
    swap
    · iexact HOw
    · ipureintro; exact waits_ok hW' _

end Tile

end Cert.Proof.HistBits

end
-- ==== Proof.HistBObl.lean ====
/-
  The tile's task as the launch theorem's obligation: every tile of the one SparseCore call, at its own coordinates,
  runs the histogram body from what the call hands it to what it hands back.
-/
import proofs.«201955_g20547123544587_cont_8to1_184_16_alg».proof.Proof.HistBBody

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

theorem defs₀_vector (c : Fin τ.nSC) (s : Fin τ.nSub) :
    defs₀ (F := F) (.scVector c s) 0 ()
      = SparseCore.onTile hcore0 hsub0 (fun c s => cc0_hist_kernel (coordsV c s)
          pV (Memref.isWhole_whole _) cV' (Memref.isWhole_whole _) oV (Memref.isWhole_whole _) sH (Memref.isWhole_whole _)
          sP0 (Memref.isWhole_whole _) sC0 (Memref.isWhole_whole _) sP1 (Memref.isWhole_whole _) sC1 (Memref.isWhole_whole _)
          sPT (Memref.isWhole_whole _) sCT (Memref.isWhole_whole _) sO (Memref.isWhole_whole _)
          cc0_scratch8 cc0_scratch9 cc0_scratch10 cc0_scratch11 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch theorem's obligation, the payloads those of `P` at the rows' statement `RowHolds`. -/
theorem tileObl (hF : (K (F := F)).Facts)
    (hr : ∀ (d : Dev nD) k, (m (pLoc d) k).toNat < 64 ∧ (m (cLoc d) k).toNat < 64) :
    (K (F := F)).TileObl (D (F := F)) 𝒱 (P m (fun d L f => RowHolds m d L f)) v₀ 0 := by
  intro d c i O W hO _ _
  -- this kernel owes nothing for a protocol of its own
  simp only [show (P m (fun d L f => RowHolds m d L f)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hr d) O W hO).trans (wp_mono frame _ _ fun _ => obl_post)

end Cert.Proof.HistBits

end
-- ==== Proof.HistBLaunch.lean ====
/-
  The launch of the idealized program: from the proof of one tile's task to the run of all 35 threads.

  The TensorCore starts the two SparseCores and waits for them, reshapes the 32 rows of sums and its two other operands,
  runs the kernel that adds the rows to the table it was given and 4.0e6 to the total, and reshapes the two results.
  Before the SparseCore call each index array is cut into 64 read shares, two per tile, and the sums' array into its 32
  rows, one per tile; after it they are put back together.
-/
import proofs.«201955_g20547123544587_cont_8to1_184_16_alg».proof.Proof.HistBPay
import proofs.«201955_g20547123544587_cont_8to1_184_16_alg».proof.Proof.Gen.Kernel.Launch
import proofs.«201955_g20547123544587_cont_8to1_184_16_alg».proof.Proof.Gen.Kernel.Points
import Idealize.ShloMosaic.Lib.Pipeline.Regions
import Idealize.ShloMosaic.Lib.ValueIdx

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The TensorCore's arrays as locations -/

abbrev a2Loc (d : Dev nD) : Loc nD τ sig := (SparseCore.T d).loc main_arg2
abbrev a3Loc (d : Dev nD) : Loc nD τ sig := (SparseCore.T d).loc main_arg3
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v40Loc (d : Dev nD) : Loc nD τ sig := (SparseCore.T d).loc main_v4_0
abbrev v41Loc (d : Dev nD) : Loc nD τ sig := (SparseCore.T d).loc main_v4_1
abbrev v5Loc (d : Dev nD) : Loc nD τ sig := (SparseCore.T d).loc main_v5
abbrev v6Loc (d : Dev nD) : Loc nD τ sig := (SparseCore.T d).loc main_v6

/-! ## The staging cells' rounds in the ghost state -/

/-- The staging cells' rounds: the middle factor of the ghost state. -/
abbrev EP : Emb UP (MT nD τ sig (HIx 1) (Elt F) ℕ UU ℕ) := (Emb.inl : Emb UP (UP × Counters)).trans embR

/-- No table is prefetched: the one admissible content. -/
abbrev adm : (p : Fin 1) → (pcfgs (F := F) p).Adm := fun p => (cfgs p).toPCfg_adm

/-! ## Dealing 64 shares and 32 rows to the 2 × 16 tiles -/

section Deal

variable {M : Type} [URA M]

/-- Share `2 · (2 i + c) + s`: tile `(c, i)`'s, for its buffer pair `s`. -/
def tk (c : Fin 2) (i : Fin 16) (s : Fin 2) : Fin 64 := ⟨2 * (2 * i.val + c.val) + s.val, by omega⟩
/-- Row `2 i + c`: tile `(c, i)`'s. -/
def rk (c : Fin 2) (i : Fin 16) : Fin 32 := ⟨2 * i.val + c.val, by omega⟩

theorem tk_inj : Function.Injective fun x : Fin 2 × Fin 16 × Fin 2 => tk x.1 x.2.1 x.2.2 := by
  rintro ⟨c, i, s⟩ ⟨c', i', s'⟩ h
  have h' : 2 * (2 * i.val + c.val) + s.val = 2 * (2 * i'.val + c'.val) + s'.val := congrArg Fin.val h
  have hs : s = s' := Fin.ext (by omega)
  have hc : c = c' := Fin.ext (by omega)
  have hi : i = i' := Fin.ext (by omega)
  subst hs hc hi; rfl

theorem tk_surj : Function.Surjective fun x : Fin 2 × Fin 16 × Fin 2 => tk x.1 x.2.1 x.2.2 := by
  intro k
  refine ⟨(⟨(k.val / 2) % 2, by omega⟩, ⟨k.val / 4, by omega⟩, ⟨k.val % 2, by omega⟩), Fin.ext ?_⟩
  show 2 * (2 * (k.val / 4) + (k.val / 2) % 2) + k.val % 2 = k.val
  omega

theorem rk_inj : Function.Injective fun x : Fin 2 × Fin 16 => rk x.1 x.2 := by
  rintro ⟨c, i⟩ ⟨c', i'⟩ h
  have h' : 2 * i.val + c.val = 2 * i'.val + c'.val := congrArg Fin.val h
  have hc : c = c' := Fin.ext (by omega)
  have hi : i = i' := Fin.ext (by omega)
  subst hc hi; rfl

theorem rk_surj : Function.Surjective fun x : Fin 2 × Fin 16 => rk x.1 x.2 := by
  intro k
  refine ⟨(⟨k.val % 2, by omega⟩, ⟨k.val / 2, by omega⟩), Fin.ext ?_⟩
  show 2 * (k.val / 2) + k.val % 2 = k.val
  omega

theorem bigSep_fin2 (Φ : Fin 2 → sProp M) : bigSep Finset.univ Φ = iprop(Φ 0 ∗ Φ 1) := by
  rw [show (Finset.univ : Finset (Fin 2)) = {0, 1} by decide, SparseCore.bigSep_insert' (by decide), bigSep_singleton]

/-- The 64 shares, two per tile. -/
theorem deal64 (Φ : Fin 64 → sProp M) :
    bigSep Finset.univ Φ = bigSep Finset.univ fun c : Fin 2 => bigSep Finset.univ fun i : Fin 16 => iprop(Φ (tk c i 0) ∗ Φ (tk c i 1)) := by
  rw [← Finset.image_univ_of_surjective tk_surj, SparseCore.bigSep_image_of_injOn (tk_inj.injOn) Φ,
    ← Finset.univ_product_univ, SparseCore.bigSep_product]
  refine bigSep_congr fun c _ => ?_
  rw [← Finset.univ_product_univ, SparseCore.bigSep_product]
  exact bigSep_congr fun i _ => bigSep_fin2 _

/-- The 32 rows, one per tile. -/
theorem deal32 (Φ : Fin 32 → sProp M) :
    bigSep Finset.univ Φ = bigSep Finset.univ fun c : Fin 2 => bigSep Finset.univ fun i : Fin 16 => Φ (rk c i) := by
  rw [← Finset.image_univ_of_surjective rk_surj, SparseCore.bigSep_image_of_injOn (rk_inj.injOn) Φ,
    ← Finset.univ_product_univ, SparseCore.bigSep_product]

end Deal

/-! ## The sums' array as its 32 rows; the payloads of the one call -/

section Rows

omit [FloatOps F] in
theorem hdiv32 : 32 ∣ S32x4096.size 0 := ⟨1, rfl⟩
abbrev rowR (w : Fin 32) : Rect S32x4096 := Rect.part (s := S32x4096) (a₀ := 0) hdiv32 w
abbrev rowSet (w : Fin 32) : Finset S32x4096.Idx := ((oV : Memref sig .scVector .hbm S32x4096 .f32).view.slice (rowR w)).set

omit [FloatOps F] in
theorem rowSet_eq (w : Fin 32) : rowSet w = (rowR w).set := by
  show ((View.whole (main_v0_scv : Ref sig .scVector)).slice (rowR w)).set = _
  rw [View.set_slice]; exact Finset.map_refl

/-- The rectangle a tile's copy of its sums addresses is row `2 s + c` of the array. -/
theorem oRect_eq (L : grid0.Coords) :
    Rect.unit (s := S32x4096) (k0_off9 L) S1x4096.size (k0_off9_inb L) = rowR ⟨wid L, wid_lt L⟩ := by
  unfold rowR Rect.part Rect.block
  congr 1 <;> funext a
  · rw [k0_off9_eq]
    match a with
    | 0 => simp [Shape.partIx, Shape.partSize, wid]
    | 1 => simp [Shape.partIx, Shape.partSize]
  · match a with
    | 0 => simp [Shape.partSize]
    | 1 => simp [Shape.partSize]

theorem set_oRowK (L : grid0.Coords) : (oRowK L).view.set = rowSet ⟨wid L, wid_lt L⟩ := by
  show (((oV : Memref sig .scVector .hbm S32x4096 .f32).view.slice (Rect.unit (s := S32x4096) (k0_off9 L) S1x4096.size (k0_off9_inb L))).reshape S4096 squeezes_S1x4096_S4096.numel_eq).set
    = ((oV : Memref sig .scVector .hbm S32x4096 .f32).view.slice (rowR ⟨wid L, wid_lt L⟩)).set
  rw [View.set_reshape]
  exact oRect_eq L ▸ rfl

/-- The elements of tile `(c, i)`'s row. -/
abbrev KS (x : Fin 2 × Fin 16) : Finset S32x4096.Idx := (oRowK (coordsV x.1 x.2)).view.set

theorem KS_eq (x : Fin 2 × Fin 16) : KS x = (rowR (rk x.1 x.2)).set := by
  unfold KS; rw [set_oRowK, rowSet_eq]; rfl

theorem KS_disjoint : ∀ x ∈ (Finset.univ : Finset (Fin 2 × Fin 16)), ∀ y ∈ (Finset.univ : Finset (Fin 2 × Fin 16)), x ≠ y → Disjoint (KS x) (KS y) :=
  fun x _ y _ h => by rw [KS_eq, KS_eq]; exact Rect.part_disjoint hdiv32 fun e => h (rk_inj e)

theorem KS_cover : (Finset.univ : Finset (Fin 2 × Fin 16)).biUnion KS = Finset.univ := by
  ext idx
  simp only [Finset.mem_biUnion, Finset.mem_univ, true_and, iff_true]
  obtain ⟨w, hw⟩ := Rect.exists_mem_part hdiv32 idx
  obtain ⟨x, rfl⟩ := rk_surj w
  exact ⟨x, by rw [KS_eq]; exact hw⟩

/-- The whole array is its 32 rows, dealt to the tiles. -/
theorem oPts_deal (d : Dev nD) (f : Buf (Elt F) (oLoc d)) :
    (oLoc d ↦{fullShare} f : sProp 𝕄) = bigSep Finset.univ fun c : Fin 2 => bigSep Finset.univ fun i : Fin 16 => oLoc d ↦[KS (c, i)]{fullShare} f := by
  rw [← SparseCore.bigSep_product Finset.univ Finset.univ (fun x : Fin 2 × Fin 16 => (oLoc d ↦[KS x]{fullShare} f : sProp 𝕄)), Finset.univ_product_univ,
    ← pointsTo_biUnion Finset.univ (ℓ := oLoc d) KS KS_disjoint, KS_cover]; try rfl

variable (m : (ℓ : Loc nD τ sig) → Buf (Elt F) ℓ)
variable (RowOK : (d : Dev nD) → grid0.Coords → Buf (Elt F) (oLoc d) → Prop)

/-- The rows back together: one array that has every tile's row, so of which every tile's `RowOK` holds if `RowOK`
    reads only the tile's own row. -/
theorem oRows_join (hRow : ∀ (d : Dev nD) (L : grid0.Coords) (f g : Buf (Elt F) (oLoc d)), (∀ i ∈ (oRowK L).view.set, g i = f i) → RowOK d L f → RowOK d L g)
    (d : Dev nD) :
    (bigSep Finset.univ fun c : Fin 2 => bigSep Finset.univ fun i : Fin 16 => iprop(∃ f, oRowPts d (coordsV c i) f ∗ ⌜RowOK d (coordsV c i) f⌝))
      ⊢ (iprop(∃ g : Buf (Elt F) (oLoc d), ⌜∀ L : grid0.Coords, RowOK d L g⌝ ∗ oLoc d ↦{fullShare} g) : sProp 𝕄) := by
  rw [← SparseCore.bigSep_product Finset.univ Finset.univ (fun x : Fin 2 × Fin 16 => (iprop(∃ f, oRowPts d (coordsV x.1 x.2) f ∗ ⌜RowOK d (coordsV x.1 x.2) f⌝) : sProp 𝕄)),
    Finset.univ_product_univ]
  refine (bigSep_exists_pi Finset.univ (fun (x : Fin 2 × Fin 16) (f : Buf (Elt F) (oLoc d)) => (iprop(oRowPts d (coordsV x.1 x.2) f ∗ ⌜RowOK d (coordsV x.1 x.2) f⌝) : sProp 𝕄))).trans ?_
  iintro ⟨%fs, H⟩
  have hswap : ∀ x ∈ (Finset.univ : Finset (Fin 2 × Fin 16)), iprop(oRowPts d (coordsV x.1 x.2) (fs x) ∗ ⌜RowOK d (coordsV x.1 x.2) (fs x)⌝)
      ⊢ (iprop(⌜RowOK d (coordsV x.1 x.2) (fs x)⌝ ∗ oLoc d ↦[KS x]{fullShare} fs x) : sProp 𝕄) := fun x _ => by
    iintro ⟨Hx, %hx⟩
    isplitr; · ipureintro; exact hx
    iexact Hx
  ihave H1 := (SparseCore.ent (bigSep_mono hswap)) $$ H
  ihave H2 := (bigSep_pure_sep Finset.univ (fun x : Fin 2 × Fin 16 => RowOK d (coordsV x.1 x.2) (fs x)) (fun x => (oLoc d ↦[KS x]{fullShare} fs x : sProp 𝕄))) $$ H1
  icases H2 with ⟨%hall, H3⟩
  ihave H' := (pointsTo_biUnion_join Finset.univ KS fs (fs (0, 0)) KS_disjoint) $$ H3
  icases H' with ⟨%g, %hg, Hg⟩
  rw [KS_cover]
  iexists g
  isplitr
  · ipureintro
    intro L
    have hL : L = coordsV (L 0) (L 1) := funext fun a => match a with | 0 => rfl | 1 => rfl
    rw [hL]
    exact hRow d _ _ g (fun i hi => hg (L 0, L 1) (Finset.mem_univ _) i hi) (hall (L 0, L 1) (Finset.mem_univ _))
  · iexact Hg

theorem P_st (d : Dev nD) (c : Fin ((K (F := F)).nCore 0)) :
    (P m RowOK).st 0 d c = bigSep Finset.univ fun i : Fin 16 => goRes m d (coordsV c i) := by unfold P; rfl
theorem P_dn (d : Dev nD) (c : Fin ((K (F := F)).nCore 0)) :
    (P m RowOK).dn 0 d c = bigSep Finset.univ fun i : Fin 16 => tdRes m RowOK d (coordsV c i) := by unfold P; rfl

omit [FloatOps F] in
theorem deal64' (Φ : Fin 64 → sProp 𝕄) :
    bigSep Finset.univ Φ = iprop((bigSep Finset.univ fun c : Fin 2 => bigSep Finset.univ fun i : Fin 16 => Φ (tk c i 0))
      ∗ bigSep Finset.univ fun c : Fin 2 => bigSep Finset.univ fun i : Fin 16 => Φ (tk c i 1)) := by
  rw [deal64]; simp only [bigSep_sep']

/-- What the call takes for the two SparseCores: the 64 read shares of each index array and the 32 rows; the rest of each
    index array stays with the TensorCore. -/
theorem st0_intro (d : Dev nD) :
    iprop((pLoc d ↦{fullShare} m (pLoc d)) ∗ (cLoc d ↦{fullShare} m (cLoc d)) ∗ (oLoc d ↦{fullShare} m (oLoc d)))
      ⊢ (iprop((bigSep Finset.univ fun c : Fin ((K (F := F)).nCore 0) => (P m RowOK).st 0 d c)
          ∗ (pLoc d ↦{Transfers.shareDrop fullShare 64} m (pLoc d)) ∗ (cLoc d ↦{Transfers.shareDrop fullShare 64} m (cLoc d))) : sProp 𝕄) := by
  rw [bigSep_congr fun c _ => P_st m RowOK d c]
  unfold goRes
  simp only [bigSep_sep']
  iintro ⟨Hp, Hc, Ho⟩
  ihave Hp' := (Transfers.pointsTo_toks_split (ℓ := pLoc d) (S := Finset.univ) (f := m (pLoc d)) fullShare 64) $$ Hp
  icases Hp' with ⟨Hpd, Hpt⟩
  ihave Hc' := (Transfers.pointsTo_toks_split (ℓ := cLoc d) (S := Finset.univ) (f := m (cLoc d)) fullShare 64) $$ Hc
  icases Hc' with ⟨Hcd, Hct⟩
  ihave Hpt' := (Entails.of_eq (deal64' (F := F) (fun k => (pLoc d ↦{Transfers.shareTok fullShare 64 k} m (pLoc d) : sProp 𝕄)))) $$ Hpt
  icases Hpt' with ⟨Hp0, Hp1⟩
  ihave Hct' := (Entails.of_eq (deal64' (F := F) (fun k => (cLoc d ↦{Transfers.shareTok fullShare 64 k} m (cLoc d) : sProp 𝕄)))) $$ Hct
  icases Hct' with ⟨Hc0, Hc1⟩
  ihave Ho' := (Entails.of_eq (oPts_deal (F := F) d (m (oLoc d)))) $$ Ho
  isplitl [Hp0 Hp1 Hc0 Hc1 Ho']
  · isplitl [Hp0]; · iexact Hp0
    isplitl [Hp1]; · iexact Hp1
    isplitl [Hc0]; · iexact Hc0
    isplitl [Hc1]; · iexact Hc1
    iexact Ho'
  isplitl [Hpd]; · iexact Hpd
  iexact Hcd

/-- What the call hands back, put together: the index arrays whole again, the sums' array at rows of which `RowOK` holds. -/
theorem dn0_elim (hRow : ∀ (d : Dev nD) (L : grid0.Coords) (f g : Buf (Elt F) (oLoc d)), (∀ i ∈ (oRowK L).view.set, g i = f i) → RowOK d L f → RowOK d L g)
    (d : Dev nD) :
    iprop((bigSep Finset.univ fun c : Fin ((K (F := F)).nCore 0) => (P m RowOK).dn 0 d c)
        ∗ (pLoc d ↦{Transfers.shareDrop fullShare 64} m (pLoc d)) ∗ (cLoc d ↦{Transfers.shareDrop fullShare 64} m (cLoc d)))
      ⊢ (iprop((pLoc d ↦{fullShare} m (pLoc d)) ∗ (cLoc d ↦{fullShare} m (cLoc d))
          ∗ ∃ g : Buf (Elt F) (oLoc d), ⌜∀ L : grid0.Coords, RowOK d L g⌝ ∗ oLoc d ↦{fullShare} g) : sProp 𝕄) := by
  rw [bigSep_congr fun c _ => P_dn m RowOK d c]
  unfold tdRes
  simp only [bigSep_sep']
  iintro ⟨⟨Hp0, Hp1, Hc0, Hc1, Ho⟩, Hpd, Hcd⟩
  isplitl [Hp0 Hp1 Hpd]
  · iapply (Transfers.pointsTo_toks_join (ℓ := pLoc d) (S := Finset.univ) (f := m (pLoc d)) fullShare 64)
    isplitl [Hpd]; · iexact Hpd
    iapply (Entails.of_eq (deal64' (F := F) (fun k => (pLoc d ↦{Transfers.shareTok fullShare 64 k} m (pLoc d) : sProp 𝕄))).symm)
    isplitl [Hp0]; · iexact Hp0
    iexact Hp1
  isplitl [Hc0 Hc1 Hcd]
  · iapply (Transfers.pointsTo_toks_join (ℓ := cLoc d) (S := Finset.univ) (f := m (cLoc d)) fullShare 64)
    isplitl [Hcd]; · iexact Hcd
    iapply (Entails.of_eq (deal64' (F := F) (fun k => (cLoc d ↦{Transfers.shareTok fullShare 64 k} m (cLoc d) : sProp 𝕄))).symm)
    isplitl [Hc0]; · iexact Hc0
    iexact Hc1
  iapply (oRows_join RowOK hRow d)
  iexact Ho

end Rows

/-! ## @main on the TensorCore -/

section Main

variable (m : (ℓ : Loc nD τ sig) → Buf (Elt F) ℓ) (ρ : Dev nD → PrngReg)
variable (RowOK : (d : Dev nD) → grid0.Coords → Buf (Elt F) (oLoc d) → Prop)

omit [FloatOps F] in
/-- The TensorCore's arrays, all unscoped, one by one. -/
theorem unscopedBufs_eq (d : Dev nD) (W : (b : Ref sig .tc) → Buf (Elt F) ((d.tc : Thread nD τ).loc b)) :
    (unscopedBufs d W : sProp 𝕄) = iprop((pLoc d ↦{fullShare} W main_arg0) ∗ (cLoc d ↦{fullShare} W main_arg1) ∗ (a2Loc d ↦{fullShare} W main_arg2)
      ∗ (a3Loc d ↦{fullShare} W main_arg3) ∗ (oLoc d ↦{fullShare} W main_v0) ∗ (v1Loc d ↦{fullShare} W main_v1) ∗ (v2Loc d ↦{fullShare} W main_v2)
      ∗ (v3Loc d ↦{fullShare} W main_v3) ∗ (v40Loc d ↦{fullShare} W main_v4_0) ∗ (v41Loc d ↦{fullShare} W main_v4_1)
      ∗ (v5Loc d ↦{fullShare} W main_v5) ∗ (v6Loc d ↦{fullShare} W main_v6)) := by
  unfold unscopedBufs
  exact bigSep_eq_bigSepL_of_eq [main_arg0, main_arg1, main_arg2, main_arg3, main_v0, main_v1, main_v2, main_v3, main_v4_0, main_v4_1, main_v5, main_v6]
    (by decide : (Finset.univ.filter fun b : Ref sig .tc => ¬ b.isScoped) = [main_arg0, main_arg1, main_arg2, main_arg3, main_v0, main_v1, main_v2, main_v3, main_v4_0, main_v4_1, main_v5, main_v6].toFinset)
    (by decide) _

include m in
/-- One reshape of @main: the source kept, the result at the source's elements in row-major order. -/
theorem wp_reshape_step (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y) (a : Buf (Elt F) ((SparseCore.T d).loc x)) (Φ : PUnit → sProp 𝕄) :
    iprop(boundary (SparseCore.T d) ∗ ((SparseCore.T d).loc x ↦{fullShare} a) ∗ (∃ f, (SparseCore.T d).loc y ↦{fullShare} f)
        ∗ ((boundary (SparseCore.T d) ∗ ((SparseCore.T d).loc x ↦{fullShare} a)
            ∗ ((SparseCore.T d).loc y ↦{fullShare} (fun i => he ▸ shapeCast y.ty.shape a hn i))) -∗ Φ ⟨⟩))
      ⊢ wp frame (wpE ((K (F := F)).defs (D (F := F))) 𝒱 (SparseCore.T d) none) Set.univ
          (hlo rfl (StableHlo.reshape x y he hn hx hy) (fun _ => .ret ⟨⟩)) Φ := by
  iintro ⟨Hb, Hx, ⟨%f, Hy⟩, Hk⟩
  have hne : (Proc.devRef .tc x : DevRef τ sig) ≠ Proc.devRef .tc y := StableHlo.devRef_ne_of_ne hxy
  let V : Valuation τ sig (Elt F) := Function.update (Function.update (fun b => m (d, b)) (Proc.devRef .tc x) a) (Proc.devRef .tc y) f
  have hVx : V (Proc.devRef .tc x) = a := (Function.update_of_ne hne _ _).trans (Function.update_self _ _ _)
  have hVy : V (Proc.devRef .tc y) = f := Function.update_self _ _ _
  have hheld : ∀ W : Valuation τ sig (Elt F), (held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := fun W => by
    unfold held; rw [SparseCore.bigSep_insert' (by simpa using hne), bigSep_singleton]
  have hres : (held (SparseCore.T d) {Proc.devRef .tc x, Proc.devRef .tc y} ((StableHlo.reshape x y he hn hx hy : HloOp τ sig (Elt F)).result V) : sProp 𝕄)
      = iprop(((SparseCore.T d).loc x ↦{fullShare} a) ∗ (SparseCore.T d).loc y ↦{fullShare} (fun i => he ▸ shapeCast y.ty.shape a hn i)) := by
    rw [hheld, StableHlo.reshape_result_ne x y he hn hx hy V hxy, StableHlo.reshape_result x y he hn hx hy V, hVx]
  iapply (wp_hlo_within 𝒱 (SparseCore.T d) none Set.univ (op := StableHlo.reshape x y he hn hx hy)
    (S := {Proc.devRef .tc x, Proc.devRef .tc y}) (Finset.Subset.refl _) (V := V)) $$ [Hb Hx Hy]
  · isplitl [Hb]; · iexact Hb
    rw [hheld, hVx, hVy]
    isplitl [Hx]; · iexact Hx
    iexact Hy
  iintro ⟨Hb, Hheld⟩
  ihave Hh := (Entails.of_eq hres) $$ Hheld
  icases Hh with ⟨Hx, Hy⟩
  rw [wp_ret]; imodintro
  iapply Hk
  isplitl [Hb]; · iexact Hb
  isplitl [Hx]; · iexact Hx
  iexact Hy

end Main

/-! ## The TensorCore kernel: the 32 rows added to the table, 4.0e6 to the total -/

section Region

open Idealize.ShloMosaic.TcCoe
open Idealize.ShloMosaic.Pipeline (Dat Cfg Window BodyObligation cellOf)

variable (m : (ℓ : Loc nD τ sig) → Buf (Elt F) ℓ)
-- the 32 rows of sums on each device, as the SparseCores left them
variable (v0f : (c : Dev nD) → Buf (Elt F) (oLoc c))

/-- The kernel's three operands as @main's reshapes leave them, and its two results. -/
def x1 (c : Dev nD) : Buf (Elt F) (v1Loc c) := shapeCast S32x32x128 (v0f c) shapeCasts_S32x4096_S32x32x128
def x2 (c : Dev nD) : Buf (Elt F) (v2Loc c) := shapeCast S32x128 (m (a2Loc c)) shapeCasts_S64x64_S32x128
def x3 (c : Dev nD) : Buf (Elt F) (v3Loc c) := shapeCast S1 (m (a3Loc c)) shapeCasts_S_S1
def y0 (c : Dev nD) : Buf (Elt F) (v40Loc c) := k1_pay1 (F := F) (x2 m c) (x1 v0f c)
def y1 (c : Dev nD) : Buf (Elt F) (v41Loc c) := fun _ => k1_pay2 (F := F) (x3 m c (ValueIdx.ix1 0))

abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f
abbrev ptT (c : Dev nD) (b : Ref sig .tc) (f : Buf (Elt F) ((Memref.whole b).view.loc (c : Thread nD τ))) : sProp 𝕄 := ptM c (Memref.whole b) f

omit [FloatOps F] in
theorem hz1 : (![0] : Fin 1 → Nat) = fun _ => 0 := funext fun a => by fin_cases a <;> rfl
omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- The rectangles the body's loads and stores go through: each buffer whole. -/
abbrev r1 : Rect S1 := Rect.unit (s := S1) ![0] S1.size inb_S1_S1_0
abbrev r2 : Rect S32x128 := Rect.unit (s := S32x128) ![0, 0] S32x128.size inb_S32x128_S32x128_0_0
abbrev r3 : Rect S32x32x128 := Rect.unit (s := S32x32x128) ![0, 0, 0] S32x32x128.size inb_S32x32x128_S32x32x128_0_0_0

omit [FloatOps F] in
theorem read_s0 (f : (cc1_stg0_0 : Ref sig .tc).ty.Contents (Elt F)) :
    (Memref.whole cc1_stg0_0 : Memref sig .tc .vmem S32x32x128 .f32).view.readAt (Elt F) r3.toLoadRect f = f :=
  Memref.readAt_unit_zero (Elt F) cc1_stg0_0 hz3 _ f
omit [FloatOps F] in
theorem read_s1 (f : (cc1_stg1_0 : Ref sig .tc).ty.Contents (Elt F)) :
    (Memref.whole cc1_stg1_0 : Memref sig .tc .vmem S32x128 .f32).view.readAt (Elt F) r2.toLoadRect f = f :=
  Memref.readAt_unit_zero (Elt F) cc1_stg1_0 hz2 _ f
omit [FloatOps F] in
theorem read_s2 (f : (cc1_stg2_0 : Ref sig .tc).ty.Contents (Elt F)) :
    (Memref.whole cc1_stg2_0 : Memref sig .tc .smem S1 .f32).view.readAt (Elt F) r1.toLoadRect f = f :=
  Memref.readAt_unit_zero (Elt F) cc1_stg2_0 hz1 _ f
omit [FloatOps F] in
/-- A one-element shape has one index. -/
theorem idxS1_eq (i j : S1.Idx) : i = j := funext fun a => by
  fin_cases a
  refine Fin.ext ?_
  have h1 : (i 0).val < 1 := (i 0).isLt
  have h2 : (j 0).val < 1 := (j 0).isLt
  show (i 0).val = (j 0).val
  omega
omit [FloatOps F] in
theorem write_s3 (f w : (cc1_stg3_0 : Ref sig .tc).ty.Contents (Elt F)) :
    ((Memref.whole cc1_stg3_0 : Memref sig .tc .vmem S32x128 .f32).access r2 : View sig .tc _ _ _).write (Elt F) f w Finset.univ = w :=
  Memref.write_access_unit_zero_univ (Elt F) cc1_stg3_0 hz2 _ f w
omit [FloatOps F] in
theorem write_s4 (f w : (cc1_stg4_0 : Ref sig .tc).ty.Contents (Elt F)) :
    ((Memref.whole cc1_stg4_0 : Memref sig .tc .smem S1 .f32).access r1 : View sig .tc _ _ _).write (Elt F) f w Finset.univ = w :=
  Memref.write_access_unit_zero_univ (Elt F) cc1_stg4_0 hz1 _ f w

/-- The kernel's body on its five staging buffers held whole: the three inputs kept, the two outputs at the sums. -/
theorem kernelRun (c : Dev nD) (f0 : Buf (Elt F) ((Memref.whole cc1_stg0_0).view.loc (c : Thread nD τ))) (f1 : Buf (Elt F) ((Memref.whole cc1_stg1_0).view.loc (c : Thread nD τ)))
    (f2 : Buf (Elt F) ((Memref.whole cc1_stg2_0).view.loc (c : Thread nD τ))) (f3 : Buf (Elt F) ((Memref.whole cc1_stg3_0).view.loc (c : Thread nD τ)))
    (f4 : Buf (Elt F) ((Memref.whole cc1_stg4_0).view.loc (c : Thread nD τ))) (Q : PUnit → sProp 𝕄) :
    iprop(ptT c cc1_stg0_0 f0 ∗ ptT c cc1_stg1_0 f1 ∗ ptT c cc1_stg2_0 f2 ∗ ptT c cc1_stg3_0 f3 ∗ ptT c cc1_stg4_0 f4
      ∗ (iprop(ptT c cc1_stg0_0 f0 ∗ ptT c cc1_stg1_0 f1 ∗ ptT c cc1_stg2_0 f2 ∗ (∃ g3, ⌜g3 = k1_pay1 (F := F) f1 f0⌝ ∗ ptT c cc1_stg3_0 g3)
            ∗ (∃ g4, ⌜g4 = fun _ => k1_pay2 (F := F) (f2 (ValueIdx.ix1 0))⌝ ∗ ptT c cc1_stg4_0 g4)) -∗ Q ⟨⟩))
    ⊢ wp frame (wpE (defs₀ (F := F)) Variants.none c none) Set.univ
        (cc1__tc_body (Memref.whole cc1_stg0_0) (Memref.isWhole_whole _) (Memref.whole cc1_stg1_0) (Memref.isWhole_whole _)
          (Memref.whole cc1_stg2_0) (Memref.isWhole_whole _) (Memref.whole cc1_stg3_0) (Memref.isWhole_whole _)
          (Memref.whole cc1_stg4_0) (Memref.isWhole_whole _)) Q := by
  iintro ⟨H0, H1, H2, H3, H4, Hk⟩
  simp only [cc1__tc_body_eq_skeleton]; unfold cc1__tc_body_skel
  sl_exec
  sl_step
  iapply Hk
  isplitl [H0]; · iexact H0
  isplitl [H1]; · iexact H1
  isplitl [H2]; · iexact H2
  isplitl [H3]
  · iexists _; isplitr; swap; (· iexact H3)
    ipureintro
    rw [View.writes_singleton, read_s1, read_s0]
    exact write_s3 _ _
  · iexists _; isplitr; swap; (· iexact H4)
    ipureintro
    sl_unfold_run_names
    rw [View.writes_singleton, read_s2]
    refine (write_s4 _ _).trans ?_
    funext _
    exact congrArg (fun i => k1_pay2 (F := F) (f2 i)) (idxS1_eq _ _)

/-- The proof data of the kernel on device `c`: the operands as @main's reshapes leave them, the results' buffers as
    launched; after the body the inputs' staging buffers as fetched, the outputs' at the sums; nothing owed, and the
    recorded waits no higher than the SparseCore call's. -/
def dats (_ : Fin 1) (c : Dev nD) : Dat τ (Elt F) (HIx 1) ℕ UU ℕ cfg1 c where
  A w := match w with
    | 0 => x1 v0f c
    | 1 => x2 m c
    | 2 => x3 m c
    | 3 => m (v40Loc c)
    | 4 => m (v41Loc c)
    | ⟨_ + 5, h⟩ => absurd h (Nat.not_lt.2 (Nat.le_add_left _ _))
  after w _ := match w with
    | 0 => x1 v0f c
    | 1 => x2 m c
    | 2 => x3 m c
    | 3 => y0 m v0f c
    | 4 => y1 m c
    | ⟨_ + 5, h⟩ => absurd h (Nat.not_lt.2 (Nat.le_add_left _ _))
  Φ _ := iprop(emp)
  q _ := fullShare
  owed _ := 0
  recorded _ := {p | (K (F := F)).lev ((c : Thread nD τ), p.1) p.2 ≤ 8}

theorem before_0 (c : Dev nD) (d) : (dats m v0f 0 c).before 0 t1_0 d = x1 v0f c := by
  unfold Dat.before; rw [if_pos (by decide)]
  refine (show (dats m v0f 0 c).fetched 0 t1_0 d = (dats m v0f 0 c).blockOf 0 t1_0 from (dats m v0f 0 c).cut_fetched 0 t1_0 d).trans ?_
  exact Memref.read_access_unit_zero (Elt F) main_v1 (funext fun a => Nat.zero_mul _) _ (x1 v0f c)
theorem before_1 (c : Dev nD) (d) : (dats m v0f 0 c).before 1 t1_0 d = x2 m c := by
  unfold Dat.before; rw [if_pos (by decide)]
  refine (show (dats m v0f 0 c).fetched 1 t1_0 d = (dats m v0f 0 c).blockOf 1 t1_0 from (dats m v0f 0 c).cut_fetched 1 t1_0 d).trans ?_
  exact Memref.read_access_unit_zero (Elt F) main_v2 (funext fun a => Nat.zero_mul _) _ (x2 m c)
theorem before_2 (c : Dev nD) (d) : (dats m v0f 0 c).before 2 t1_0 d = x3 m c := by
  unfold Dat.before; rw [if_pos (by decide)]
  refine (show (dats m v0f 0 c).fetched 2 t1_0 d = (dats m v0f 0 c).blockOf 2 t1_0 from (dats m v0f 0 c).cut_fetched 2 t1_0 d).trans ?_
  exact Memref.read_access_unit_zero (Elt F) main_v3 (funext fun a => Nat.zero_mul _) _ (x3 m c)

theorem body_obligation (c : Dev nD) : BodyObligation (dats m v0f 0 c) (defs₀ (F := F)) 𝒱₀ (none : HIx 1) Set.univ := fun t => by
  obtain rfl := fin_N1 t
  rw [bigSep_W1, bigSep_W1]
  simp only [owns_whole_eq]
  rw [show (dats m v0f 0 c).Φ t1_0.castSucc = iprop(emp) from rfl, show (dats m v0f 0 c).Φ t1_0.succ = iprop(emp) from rfl]
  unfold Dat.owesAt Pipeline.owesWithin
  rw [show (dats m v0f 0 c).owed t1_0.castSucc = 0 from rfl, show (dats m v0f 0 c).owed t1_0.succ = 0 from rfl]
  iintro ⟨-, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_0] at hf0
  rw [before_1] at hf1
  rw [before_2] at hf2
  subst hf0 hf1 hf2
  iapply (kernelRun c (x1 v0f c) (x2 m c) (x3 m c) f3 f4)
  isplitl [H0]; · iexact H0
  isplitl [H1]; · iexact H1
  isplitl [H2]; · iexact H2
  isplitl [H3]; · iexact H3
  isplitl [H4]; · iexact H4
  iintro ⟨H0, H1, H2, ⟨%g3, %hg3, H3⟩, ⟨%g4, %hg4, H4⟩⟩
  subst hg3 hg4
  isplitr; · iempintro
  isplitl [HO]
  · iexists W; isplitr; · ipureintro; exact hW
    iexact HO
  isplitl [H0]
  · iexists _; isplitr; swap; (· iexact H0); ipureintro; dsimp only [dats]
  isplitl [H1]
  · iexists _; isplitr; swap; (· iexact H1); ipureintro; dsimp only [dats]
  isplitl [H2]
  · iexists _; isplitr; swap; (· iexact H2); ipureintro; dsimp only [dats]
  isplitl [H3]
  · iexists _; isplitr; swap; (· iexact H3); ipureintro; dsimp only [dats]; rfl
  · iexists _; isplitr; swap; (· iexact H4); ipureintro; dsimp only [dats]; rfl

/-- What the TensorCore owes and has recorded, around the kernel: nothing, and no wait higher than the SparseCore call's. -/
def owesT (c : Dev nD) : sProp 𝕄 :=
  iprop(∃ W, ⌜(K (F := F)).WBelow (c : Thread nD τ) W 8⌝ ∗ owes (c : Thread nD τ) (0 : CellTallies nD τ sig (HIx 1)) W)

/-- The kernel's five arrays before it and after it. -/
def preT (c : Dev nD) : sProp 𝕄 :=
  iprop((v1Loc c ↦{fullShare} x1 v0f c) ∗ (v2Loc c ↦{fullShare} x2 m c) ∗ (v3Loc c ↦{fullShare} x3 m c)
    ∗ (v40Loc c ↦{fullShare} m (v40Loc c)) ∗ (v41Loc c ↦{fullShare} m (v41Loc c)) ∗ owesT (F := F) c)
def postT (c : Dev nD) : sProp 𝕄 :=
  iprop((v1Loc c ↦{fullShare} (dats m v0f 0 c).arrAt 0 cfg1.N) ∗ (v2Loc c ↦{fullShare} (dats m v0f 0 c).arrAt 1 cfg1.N) ∗ (v3Loc c ↦{fullShare} (dats m v0f 0 c).arrAt 2 cfg1.N)
    ∗ (v40Loc c ↦{fullShare} (dats m v0f 0 c).arrAt 3 cfg1.N) ∗ (v41Loc c ↦{fullShare} (dats m v0f 0 c).arrAt 4 cfg1.N) ∗ owesT (F := F) c)

theorem arrays_eq (c : Dev nD) (G : (w : Fin cfg1.W) → Buf (Elt F) ((cfg1.win w).arr.view.loc (c : Thread nD τ))) :
    ((dats m v0f 0 c).arrays G : sProp 𝕄) = iprop((v1Loc c ↦{fullShare} G 0) ∗ (v2Loc c ↦{fullShare} G 1) ∗ (v3Loc c ↦{fullShare} G 2)
      ∗ (v40Loc c ↦{fullShare} G 3) ∗ (v41Loc c ↦{fullShare} G 4)) := by
  unfold Dat.arrays; rw [bigSep_W1]
  rw [(dats m v0f 0 c).share_full (fun _ => rfl) 0, (dats m v0f 0 c).share_full (fun _ => rfl) 1, (dats m v0f 0 c).share_full (fun _ => rfl) 2,
    (dats m v0f 0 c).share_full (fun _ => rfl) 3, (dats m v0f 0 c).share_full (fun _ => rfl) 4]
  show iprop((v1Loc c ↦[(View.whole (main_v1 : Ref sig .tc)).set]{fullShare} G 0) ∗ (v2Loc c ↦[(View.whole (main_v2 : Ref sig .tc)).set]{fullShare} G 1)
      ∗ (v3Loc c ↦[(View.whole (main_v3 : Ref sig .tc)).set]{fullShare} G 2) ∗ (v40Loc c ↦[(View.whole (main_v4_0 : Ref sig .tc)).set]{fullShare} G 3)
      ∗ (v41Loc c ↦[(View.whole (main_v4_1 : Ref sig .tc)).set]{fullShare} G 4)) = _
  rw [View.set_whole, View.set_whole, View.set_whole, View.set_whole, View.set_whole]

set_option backward.isDefEq.respectTransparency.types false in
/-- The kernel's region: the layout the launch decides, no semaphore of its own, the body obligation; entered from the
    five arrays and left with them, the results at what the pipeline writes back. -/
def reg : Pipeline.RegionSeg (pcfgs (F := F)) adm (dats m v0f) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m v0f c).loose
  hwaits := Pipeline.hwaits_of_owed_zero _ _ _ _ (K (F := F)).L (K (F := F)).lev 0 fun _ _ => rfl
  pre c := preT m v0f c
  post c := postT m v0f c
  X _ := iprop(emp)
  Y _ := iprop(emp)
  Z _ := iprop(emp)
  hentry c := by
    rw [arrays_eq]; unfold preT owesT
    iintro ⟨⟨H1, H2, H3, H40, H41, %W, %hW, HO⟩, -, -⟩
    imodintro
    isplitl [H1 H2 H3 H40 H41]
    · isplitl [H1]; · iexact H1
      isplitl [H2]; · iexact H2
      isplitl [H3]; · iexact H3
      isplitl [H40]; · iexact H40
      iexact H41
    isplitr; · unfold Pipeline.prefHeld; rw [show (Finset.univ : Finset (Fin 0)) = ∅ from rfl, BI.bigSep_empty]; iempintro
    isplitl [HO]
    · unfold Dat.owesAt Pipeline.owesWithin
      iexists W; isplitr; · ipureintro; exact fun p hp => Or.inl (hW p (Finset.mem_coe.mp hp))
      iexact HO
    isplitr <;> iempintro
  hin c := by
    rw [show (dats m v0f 0 c).Φ 0 = iprop(emp) from rfl]
    iintro -; iempintro
  hout c := by
    rw [Pipeline.ownSems0_none, scopedRest1_eq, show (dats m v0f 0 c).Φ (Fin.last cfg1.N) = iprop(emp) from rfl]
    iintro -
    isplitr; · iempintro
    isplitr <;> iempintro
  hexit c := by
    rw [arrays_eq]; unfold postT owesT Dat.owesAt Pipeline.owesWithin
    iintro ⟨⟨H1, H2, H3, H40, H41⟩, ⟨%W, %hW, HO⟩, -, -⟩
    imodintro
    isplitl [H1]; · iexact H1
    isplitl [H2]; · iexact H2
    isplitl [H3]; · iexact H3
    isplitl [H40]; · iexact H40
    isplitl [H41]; · iexact H41
    iexists W; isplitr
    · ipureintro
      intro p hp
      rcases hW (Finset.mem_coe.mpr hp) with h | ⟨w, s, rfl⟩
      · exact h
      · exact Nat.zero_le _
    iexact HO

omit [FloatOps F] in
/-- The call of the pipeline's entry, carried to the SparseCore program's labels. -/
theorem lift_call : (SparseCore.liftProg (Q := 1) (Prog.lift (TpuEff.customCall (Pipeline.entry 0) ()) : Prog (TpuEff nD τ sig (Elt F) (ΛP (F := F)) .tc) PUnit))
    = Prog.lift (TpuEff.customCall (SparseCore.inner (Pipeline.entry 0)) ()) := rfl

/-- The kernel's call, as @main makes it: from the five arrays, the region boundary, the staging cells' ghost state and
    nothing owed, to the five arrays at what the pipeline writes back. -/
theorem tc_call_D [∀ e, Nonempty (Elt F e)] (d : Dev nD) (Φ : PUnit → sProp 𝕄) :
    iprop(levAts (K (F := F)).L (K (F := F)).lev ∗ boundary (SparseCore.T d) ∗ preT m v0f d
        ∗ Pipeline.cellsGhost cfgs (EP (F := F)) 0 d ∗ Pipeline.toksInit cfgs (EP (F := F)) 0 d
        ∗ ((boundary (SparseCore.T d) ∗ postT m v0f d) -∗ Φ ⟨⟩))
      ⊢ wp frame (wpE (D (F := F)) 𝒱 (SparseCore.T d) none) Set.univ
          (Prog.lift (TpuEff.customCall (Pipeline.entry 0) ()) : Prog (TpuEff nD τ sig (Elt F) (ΛP (F := F)) (SparseCore.T d).2) PUnit) Φ := by
  iintro ⟨#Hla, Hb, Hpre, Hg, Ht, Hk⟩
  iapply (Pipeline.RegionSeg.wp (pcfgs (F := F)) adm (dats m v0f) (none : HIx 1) cellOf_inj (EP (F := F)) defs₀ 𝒱₀ (K (F := F)).L (K (F := F)).lev
    (reg m v0f) d none (fun _ h => nomatch h) (fun r => .ret r) Φ)
  isplitl [Hk]
  · iintro ⟨Hb, Hpost⟩
    ihave Hpost' := (Entails.of_eq (show (reg m v0f).post d = postT m v0f d from rfl)) $$ Hpost
    rw [wp_ret]; imodintro
    iapply Hk
    isplitl [Hb]; · iexact Hb
    iexact Hpost'
  isplitl [Hb]; · iexact Hb
  isplitl [Hpre]; · iapply (Entails.of_eq (show preT m v0f d = (reg m v0f).pre d from rfl)); iexact Hpre
  isplitr; · iexact Hla
  isplitl [Hg]; · iexact Hg
  iexact Ht

theorem arrAt_0 (c : Dev nD) : (dats m v0f 0 c).arrAt 0 cfg1.N = x1 v0f c := (dats m v0f 0 c).arrAt_in 0 rfl _
theorem arrAt_1 (c : Dev nD) : (dats m v0f 0 c).arrAt 1 cfg1.N = x2 m c := (dats m v0f 0 c).arrAt_in 1 rfl _
theorem arrAt_2 (c : Dev nD) : (dats m v0f 0 c).arrAt 2 cfg1.N = x3 m c := (dats m v0f 0 c).arrAt_in 2 rfl _
theorem arrAt_3 (c : Dev nD) : (dats m v0f 0 c).arrAt 3 cfg1.N = y0 m v0f c := by
  show (dats m v0f 0 c).arrAt 3 (t1_0.val + 1) = _
  rw [Dat.arrAt_succ, if_pos (flush1_3 _)]
  exact Memref.write_access_unit_zero_univ (Elt F) main_v4_0 (funext fun a => Nat.zero_mul _) _ _ (y0 m v0f c)
theorem arrAt_4 (c : Dev nD) : (dats m v0f 0 c).arrAt 4 cfg1.N = y1 m c := by
  show (dats m v0f 0 c).arrAt 4 (t1_0.val + 1) = _
  rw [Dat.arrAt_succ, if_pos (flush1_4 _)]
  exact Memref.write_access_unit_zero_univ (Elt F) main_v4_1 (funext fun a => Nat.zero_mul _) _ _ (y1 m c)

theorem postT_eq (c : Dev nD) : postT m v0f c = iprop((v1Loc c ↦{fullShare} x1 v0f c) ∗ (v2Loc c ↦{fullShare} x2 m c) ∗ (v3Loc c ↦{fullShare} x3 m c)
    ∗ (v40Loc c ↦{fullShare} y0 m v0f c) ∗ (v41Loc c ↦{fullShare} y1 m c) ∗ owesT (F := F) c) := by
  unfold postT; rw [arrAt_0, arrAt_1, arrAt_2, arrAt_3, arrAt_4]

/-- The same under the SparseCore program's body table. -/
theorem tc_call [∀ e, Nonempty (Elt F e)] (d : Dev nD) (Φ : PUnit → sProp 𝕄) :
    iprop(levAts (K (F := F)).L (K (F := F)).lev ∗ boundary (SparseCore.T d) ∗ preT m v0f d
        ∗ Pipeline.cellsGhost cfgs (EP (F := F)) 0 d ∗ Pipeline.toksInit cfgs (EP (F := F)) 0 d
        ∗ ((boundary (SparseCore.T d) ∗ postT m v0f d) -∗ Φ ⟨⟩))
      ⊢ wp frame (wpE ((K (F := F)).defs (D (F := F))) 𝒱 (SparseCore.T d) none) Set.univ
          (Prog.lift (.customCall (SparseCore.inner (Pipeline.entry 0)) ())) Φ := by
  have hlift := (K (F := F)).wp_liftProg (D (F := F)) 𝒱 (SparseCore.T d) Set.univ none
    (Prog.lift (TpuEff.customCall (Pipeline.entry 0) ()) : Prog (TpuEff nD τ sig (Elt F) (ΛP (F := F)) (SparseCore.T d).2) PUnit) Φ
  rw [lift_call] at hlift
  exact (tc_call_D m v0f d Φ).trans hlift

end Region

variable (m : (ℓ : Loc nD τ sig) → Buf (Elt F) ℓ) (ρ : Dev nD → PrngReg)
variable (RowOK : (d : Dev nD) → grid0.Coords → Buf (Elt F) (oLoc d) → Prop)

/-! ## The results, as the reshapes write them -/

/-- The table the program returns, from the 32 rows of sums `v0`: the rows, regrouped as 32 × 32 × 128, added up and
    added to the table given, regrouped as 32 × 128; the sum regrouped as 64 × 64. -/
def res5 (d : Dev nD) (v0 : Buf (Elt F) (oLoc d)) : Buf (Elt F) (v5Loc d) :=
  shapeCast S64x64 (k1_pay1 (F := F) (shapeCast S32x128 (m (a2Loc d)) shapeCasts_S64x64_S32x128) (shapeCast S32x32x128 v0 shapeCasts_S32x4096_S32x32x128))
    shapeCasts_S32x128_S64x64
/-- The total the program returns: the total given plus 4.0e6. -/
def res6 (d : Dev nD) : Buf (Elt F) (v6Loc d) :=
  shapeCast S_ (fun _ : S1.Idx => k1_pay2 (F := F) (shapeCast S1 (m (a3Loc d)) shapeCasts_S_S1 (ValueIdx.ix1 0))) shapeCasts_S1_S_

/-! ## What @main starts from and ends with -/

/-- The launch deals each TensorCore the staging cells' ghost state and the duty tokens of the pipeline's transfers. -/
def G (d : Dev nD) : sProp 𝕄 :=
  iprop((bigSep Finset.univ fun p : Fin 1 => Pipeline.cellsGhost (cfgs) (EP (F := F)) p d)
    ∗ bigSep Finset.univ fun p : Fin 1 => Pipeline.toksInit (cfgs) (EP (F := F)) p d)

/-- What @main leaves the claim: the arguments as they were, the results at the values named, for rows of sums of which
    `RowOK` holds. -/
def FIN (d : Dev nD) : sProp 𝕄 :=
  iprop(∃ v0 : Buf (Elt F) (oLoc d), ⌜∀ L : grid0.Coords, RowOK d L v0⌝
    ∗ (v5Loc d ↦{fullShare} res5 m d v0) ∗ (v6Loc d ↦{fullShare} res6 m d)
    ∗ (pLoc d ↦{fullShare} m (pLoc d)) ∗ (cLoc d ↦{fullShare} m (cLoc d))
    ∗ (a2Loc d ↦{fullShare} m (a2Loc d)) ∗ (a3Loc d ↦{fullShare} m (a3Loc d)))

def fq (d : Dev nD) (s' : Phys nD τ sig (Elt F)) : Prop :=
  ∃ v0 : Buf (Elt F) (oLoc d), (∀ L : grid0.Coords, RowOK d L v0)
    ∧ s'.mem.mem (v5Loc d) = res5 m d v0 ∧ s'.mem.mem (v6Loc d) = res6 m d
    ∧ s'.mem.mem (pLoc d) = m (pLoc d) ∧ s'.mem.mem (cLoc d) = m (cLoc d)
    ∧ s'.mem.mem (a2Loc d) = m (a2Loc d) ∧ s'.mem.mem (a3Loc d) = m (a3Loc d)

def QC : PUnit × MemSt nD τ sig (Elt F) → Prop := fun r => ∀ c : Dev nD,
  ∃ v0 : Buf (Elt F) (oLoc c), (∀ L : grid0.Coords, RowOK c L v0)
    ∧ r.2.mem (v5Loc c) = res5 m c v0 ∧ r.2.mem (v6Loc c) = res6 m c
    ∧ r.2.mem (pLoc c) = m (pLoc c) ∧ r.2.mem (cLoc c) = m (cLoc c)
    ∧ r.2.mem (a2Loc c) = m (a2Loc c) ∧ r.2.mem (a3Loc c) = m (a3Loc c)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m RowOK).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

omit [FloatOps F] in
/-- After the one SparseCore call the TensorCore owes nothing: its `owes`, taken out of its handshake state and put back. -/
theorem tcSt_open (d : Dev nD) :
    ((K (F := F)).tcSt EH d ((0 : Fin 1).val + 1) : sProp 𝕄) ⊢ iprop(owesT (F := F) d ∗ (owesT (F := F) d -∗ (K (F := F)).tcSt EH d 1)) := by
  show ((K (F := F)).tcSt EH d 1 : sProp 𝕄) ⊢ _
  unfold SparseCore.Cfg.tcSt owesT
  rw [(K (F := F)).Otc_end d le_rfl]
  iintro ⟨HO, Hrest⟩
  isplitl [HO]; · iexact HO
  iintro HO
  isplitl [HO]; · iexact HO
  iexact Hrest

theorem G_eq (d : Dev nD) : (G (F := F) d : sProp 𝕄) = iprop(Pipeline.cellsGhost cfgs (EP (F := F)) 0 d ∗ Pipeline.toksInit cfgs (EP (F := F)) 0 d) := by
  unfold G; rw [bigSep_univ_of_subsingleton (0 : Fin 1), bigSep_univ_of_subsingleton (0 : Fin 1)]

theorem hmain [∀ e, Nonempty (Elt F e)] (hRow : ∀ (d : Dev nD) (L : grid0.Coords) (f g : Buf (Elt F) (oLoc d)), (∀ i ∈ (oRowK L).view.set, g i = f i) → RowOK d L f → RowOK d L g)
    (κ : GSem nD τ sig → ℕ) (d : Dev nD) :
    iprop((K (F := F)).ctx EH (P m RowOK) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m RowOK d) := by
  unfold SparseCore.Cfg.tcRes
  rw [unscopedBufs_eq]
  simp only [main, wp_bind, wp_pure]
  iintro ⟨#Hctx, Hst, ⟨Hb, ⟨Hp, Hc, H2, H3, Ho, Hv1, Hv2, Hv3, Hv40, Hv41, Hv5, Hv6⟩, -, -⟩, HG⟩
  ihave Hs := (st0_intro m RowOK d) $$ [Hp Hc Ho]
  · isplitl [Hp]; · iexact Hp
    isplitl [Hc]; · iexact Hc
    iexact Ho
  icases Hs with ⟨Hst0, Hpd, Hcd⟩
  iapply ((K (F := F)).wp_run (D (F := F)) 𝒱 (EH := EH) (P := P m RowOK) κ d 0)
  isplitr; · iexact Hctx
  isplitl [Hst]; · iexact Hst
  isplitl [Hst0]; · iexact Hst0
  iintro ⟨Hst, Hdn⟩
  ihave Hd := (dn0_elim m RowOK hRow d) $$ [Hdn Hpd Hcd]
  · isplitl [Hdn]; · iexact Hdn
    isplitl [Hpd]; · iexact Hpd
    iexact Hcd
  icases Hd with ⟨Hp, Hc, %v0, %hv0, Ho⟩
  obtain ⟨v0f, hv⟩ : ∃ v0f : (c : Dev nD) → Buf (Elt F) (oLoc c), v0f d = v0 :=
    ⟨Function.update (fun c => m (oLoc c)) d v0, Function.update_self _ _ _⟩
  subst hv
  -- the three reshapes before the kernel
  iapply (wp_reshape_step m d main_v0 main_v1 rfl shapeCasts_S32x4096_S32x32x128 _ _ (by decide) (v0f d) _)
  isplitl [Hb]; · iexact Hb
  isplitl [Ho]; · iexact Ho
  isplitl [Hv1]; · iexists _; iexact Hv1
  iintro ⟨Hb, Ho, Hv1⟩
  iapply (wp_reshape_step m d main_arg2 main_v2 rfl shapeCasts_S64x64_S32x128 _ _ (by decide) (m (a2Loc d)) _)
  isplitl [Hb]; · iexact Hb
  isplitl [H2]; · iexact H2
  isplitl [Hv2]; · iexists _; iexact Hv2
  iintro ⟨Hb, H2, Hv2⟩
  iapply (wp_reshape_step m d main_arg3 main_v3 rfl shapeCasts_S_S1 _ _ (by decide) (m (a3Loc d)) _)
  isplitl [Hb]; · iexact Hb
  isplitl [H3]; · iexact H3
  isplitl [Hv3]; · iexists _; iexact Hv3
  iintro ⟨Hb, H3, Hv3⟩
  -- the kernel
  ihave Hst2 := (tcSt_open (F := F) d) $$ Hst
  icases Hst2 with ⟨HO, Hclose⟩
  ihave HG2 := (Entails.of_eq (G_eq (F := F) d)) $$ HG
  icases HG2 with ⟨Hg, Ht⟩
  iapply (tc_call m v0f d _)
  isplitr; · iapply ((K (F := F)).ctx_levAts κ); iexact Hctx
  isplitl [Hb]; · iexact Hb
  isplitl [Hv1 Hv2 Hv3 Hv40 Hv41 HO]
  · unfold preT
    isplitl [Hv1]; · iexact Hv1
    isplitl [Hv2]; · iexact Hv2
    isplitl [Hv3]; · iexact Hv3
    isplitl [Hv40]; · iexact Hv40
    isplitl [Hv41]; · iexact Hv41
    iexact HO
  isplitl [Hg]; · iexact Hg
  isplitl [Ht]; · iexact Ht
  iintro ⟨Hb, Hpost⟩
  ihave Hpost2 := (Entails.of_eq (postT_eq m v0f d)) $$ Hpost
  icases Hpost2 with ⟨Hv1, Hv2, Hv3, Hv40, Hv41, HO⟩
  -- the two reshapes after it
  iapply (wp_reshape_step m d main_v4_0 main_v5 rfl shapeCasts_S32x128_S64x64 _ _ (by decide) (y0 m v0f d) _)
  isplitl [Hb]; · iexact Hb
  isplitl [Hv40]; · iexact Hv40
  isplitl [Hv5]; · iexists _; iexact Hv5
  iintro ⟨Hb, Hv40, Hv5⟩
  iapply (wp_reshape_step m d main_v4_1 main_v6 rfl shapeCasts_S1_S_ _ _ (by decide) (y1 m d) _)
  isplitl [Hb]; · iexact Hb
  isplitl [Hv41]; · iexact Hv41
  isplitl [Hv6]; · iexists _; iexact Hv6
  iintro ⟨Hb, Hv41, Hv6⟩
  imodintro
  isplitl [HO Hclose]
  · iapply Hclose; iexact HO
  unfold FIN
  iexists (v0f d)
  isplitr; · ipureintro; exact hv0
  isplitl [Hv5]; · iexact Hv5
  isplitl [Hv6]; · iexact Hv6
  isplitl [Hp]; · iexact Hp
  isplitl [Hc]; · iexact Hc
  isplitl [H2]; · iexact H2
  iexact H3

theorem hfin (d : Dev nD) (s' : Phys nD τ sig (Elt F)) : iprop(FIN m RowOK d ∗ SI s') ⊢ (⌜fq m RowOK d s'⌝ : sProp 𝕄) := by
  unfold FIN
  iintro ⟨⟨%v0, %hv, H5, H6, Hp, Hc, H2, H3⟩, HSI⟩
  ihave H := (persistent_entails_right (SI_pointsTo_agree (st := s') (ℓ := v5Loc d) (I := Finset.univ) (q := fullShare) (f := res5 m d v0))) $$ [HSI H5]
  · isplitl [HSI] <;> iassumption
  icases H with ⟨%h5, HSI, -⟩
  ihave H := (persistent_entails_right (SI_pointsTo_agree (st := s') (ℓ := v6Loc d) (I := Finset.univ) (q := fullShare) (f := res6 m d))) $$ [HSI H6]
  · isplitl [HSI] <;> iassumption
  icases H with ⟨%h6, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨v0, hv, funext fun i => h5 i (Finset.mem_univ i), funext fun i => h6 i (Finset.mem_univ i), funext fun i => hp i (Finset.mem_univ i),
    funext fun i => hc i (Finset.mem_univ i), funext fun i => h2 i (Finset.mem_univ i), funext fun i => h3 i (Finset.mem_univ i)⟩

/-! ## The program's run -/

theorem run_main [∀ e, Nonempty (Elt F e)]
    (hRow : ∀ (d : Dev nD) (L : grid0.Coords) (f g : Buf (Elt F) (oLoc d)), (∀ i ∈ (oRowK L).view.set, g i = f i) → RowOK d L f → RowOK d L g)
    (htile : (K (F := F)).TileObl (D (F := F)) 𝒱 (P m RowOK) v₀ 0) :
    θ_run (Cert.Kernel.defs (F := F)) (Cert.Kernel.threads (F := F)) ⟨m, fun _ => 0, ρ⟩ (QC m RowOK) :=
  SparseCore.Cfg.θ_run_sc (K := K (F := F)) (D := D (F := F)) (𝒱 := 𝒱) (EH := EH) (P := P m RowOK) facts v₀
    (fun q hq => match q with | 0 => nomatch hq)
    (fun q _ => match q with | 0 => htile)
    (fun q _ => match q with | 0 => SparseCore.Cfg.VecSplit.of_plain (vecSplit m RowOK))
    m ρ main (G (F := F)) (FIN m RowOK) (u₀ (F := F)) (sep_elim_left.trans (hu₀ m RowOK)) (hmain m ρ RowOK hRow) (fq m RowOK) (hfin m RowOK) (QC m RowOK) (fun _ h => h)

end Cert.Proof.HistBits

end
-- ==== Proof.HistBLocal.lean ====
/-
  What a tile's row of sums reads depends only on the array's elements in that row: two contents of the sums' array that
  agree on the row read the same through the row's view, so if one reads as the sums of the tile's final table, so does
  the other.  At any float instance.
-/
import proofs.«201955_g20547123544587_cont_8to1_184_16_alg».proof.Proof.HistBPay

noncomputable section

namespace Cert.Proof.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a row reads depends only on the array's elements in that row. -/
theorem rowHolds_local (m : (ℓ : Loc nD τ sig) → Buf (Elt F) ℓ) (d : Dev nD) (L : grid0.Coords)
    (f g : Buf (Elt F) (oLoc d)) (hfg : ∀ i ∈ (oRowK L).view.set, g i = f i) :
    RowHolds m d L f → RowHolds m d L g := by
  intro h
  unfold RowHolds at h ⊢
  rw [View.read_congr hfg]
  exact h

end Cert.Proof.HistBits

end
-- ==== Proof.lean ====
/-
  A histogram of tile transitions, two ways.

  The inputs are two arrays `prev`, `curr` of 4 000 000 tile numbers (each in `[0, 64)`: the precondition), a 64 × 64 table of
  counts and a running total.  The reference adds one to cell `(prev k, curr k)` for every entry `k` (one scatter-add) and
  4 000 000 to the total.  The kernel shares the entries among 32 workers (the vector subcores of the two SparseCores): worker
  `w` streams entries `[124992 · w, 124992 · (w + 1))` through two pairs of chunk buffers, the last worker also the 256
  entries that remain, and counts sixteen transitions at a time into sixteen lane copies of the 4096 cells, so that the
  sixteen cells of one indexed add are distinct; it adds the lane copies up and writes its 4096 sums to row `w` of a
  32 × 4096 array; the TensorCore then adds the 32 rows to the table and 4 000 000 to the total.

  At the ideal instance both sides are the table plus, cell by cell, a sum of units: the reference's over the entries that
  hit the cell, the kernel's the same sum grouped by worker and by lane (every entry has exactly one worker,
  `min (k / 124992) 31`, and one lane, `k % 16`): one sum regrouped fibre by fibre, commutativity and associativity of
  addition on the extended reals and nothing else; no finiteness of the table is used.  The ranges are what every frame
  needs: each address `64 · p + c + 4096 · lane` lies inside a worker's table because `p, c < 64`.

  The kernel's run is the SparseCore launch theorem applied to the tile's task (a tile only waits for copies it issued
  itself, one in flight per semaphore: no schedule of its own) and to @main on the TensorCore (the call, three reshapes,
  the TensorCore kernel as one region, two reshapes); the word-level kernel's frame is the same proof at the other
  float instance; the reference's run is read off its operations.
-/
import proofs.«201955_g20547123544587_cont_8to1_184_16_alg».proof.Defs
import proofs.«201955_g20547123544587_cont_8to1_184_16_alg».proof.Proof.Gen.Kernel
import proofs.«201955_g20547123544587_cont_8to1_184_16_alg».proof.Proof.Gen.Kernel.Skeleton
import proofs.«201955_g20547123544587_cont_8to1_184_16_alg».proof.Proof.Gen.Kernel.Launch
import proofs.«201955_g20547123544587_cont_8to1_184_16_alg».proof.Proof.Gen.Kernel.Points
import proofs.«201955_g20547123544587_cont_8to1_184_16_alg».proof.Proof.Gen.KernelIdeal
import proofs.«201955_g20547123544587_cont_8to1_184_16_alg».proof.Proof.Gen.KernelIdeal.Skeleton
import proofs.«201955_g20547123544587_cont_8to1_184_16_alg».proof.Proof.Gen.KernelIdeal.Launch
import proofs.«201955_g20547123544587_cont_8to1_184_16_alg».proof.Proof.Gen.KernelIdeal.Points
import proofs.«201955_g20547123544587_cont_8to1_184_16_alg».proof.Proof.Gen.ReferenceIdeal
import proofs.«201955_g20547123544587_cont_8to1_184_16_alg».proof.Proof.Gen.Pre_input_domain
import proofs.«201955_g20547123544587_cont_8to1_184_16_alg».proof.Proof.Gen.ReferenceIdeal.Run
import proofs.«201955_g20547123544587_cont_8to1_184_16_alg».proof.Proof.Gen.ReferenceIdeal.Read
import proofs.«201955_g20547123544587_cont_8to1_184_16_alg».proof.Proof.RefValue
import proofs.«201955_g20547123544587_cont_8to1_184_16_alg».proof.Proof.HistClaims
import proofs.«201955_g20547123544587_cont_8to1_184_16_alg».proof.Proof.HistBClaims
import proofs.«201955_g20547123544587_cont_8to1_184_16_alg».proof.Proof.HistObl
import proofs.«201955_g20547123544587_cont_8to1_184_16_alg».proof.Proof.HistLaunch
import proofs.«201955_g20547123544587_cont_8to1_184_16_alg».proof.Proof.HistLocal
import proofs.«201955_g20547123544587_cont_8to1_184_16_alg».proof.Proof.HistBObl
import proofs.«201955_g20547123544587_cont_8to1_184_16_alg».proof.Proof.HistBLaunch
import proofs.«201955_g20547123544587_cont_8to1_184_16_alg».proof.Proof.HistBLocal
import Idealize.ShloMosaic.Adequacy
import Idealize.ShloMosaic.Init

noncomputable section

namespace Cert.Proof

open Idealize.ShloMosaic Idealize.SL.Sem

/-- The idealized kernel's run, every result named: the launch at the tile's task, the rows at the workers' sums. -/
theorem runIdeal : Cert.Proof.HistClaims.HRun := fun m ρ hr =>
  Cert.Proof.HistIdeal.run_main (F := Ideal) m ρ (fun d L f => Cert.Proof.HistIdeal.RowHolds m d L f)
    (fun d L f g hfg => Cert.Proof.HistIdeal.rowHolds_local m d L f g hfg)
    (Cert.Proof.HistIdeal.tileObl m Cert.Proof.HistIdeal.facts hr)

/-- The word-level kernel's run, the same proof at the other instance, its values dropped. -/
theorem runBits : Cert.Proof.HistBClaims.HRunB := fun m ρ hr =>
  (θ_run (Cert.Kernel.defs (F := Bits)) _ _).mono
    (fun _ h c => by
      obtain ⟨_, -, -, -, h0, h1, h2, h3⟩ := h c
      exact ⟨h0, h1, h2, h3⟩)
    (Cert.Proof.HistBits.run_main (F := Bits) m ρ (fun d L f => Cert.Proof.HistBits.RowHolds m d L f)
      (fun d L f g hfg => Cert.Proof.HistBits.rowHolds_local m d L f g hfg)
      (Cert.Proof.HistBits.tileObl m Cert.Proof.HistBits.facts hr))

theorem claim : Cert.Claim := ⟨Cert.Kernel.Gen.facts, Cert.KernelIdeal.Gen.facts, Cert.ReferenceIdeal.Gen.facts, Cert.Pre_input_domain.Gen.facts,
  Cert.Proof.HistBClaims.frame runBits,
  Cert.Proof.HistClaims.frame runIdeal,
  Cert.ReferenceIdeal.RefValue.frame,
  trivial,
  Cert.Proof.HistClaims.algebraic runIdeal⟩

end Cert.Proof

end
